-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v216)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v216) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v259) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S128x128 : Shape := ⟨2, ![128, 128]⟩
abbrev S128 : Shape := ⟨1, ![128]⟩
abbrev S128x8 : Shape := ⟨2, ![128, 8]⟩
abbrev S8 : Shape := ⟨1, ![8]⟩
abbrev S5 : Shape := ⟨1, ![5]⟩
abbrev S500000 : Shape := ⟨1, ![500000]⟩
abbrev S32768 : Shape := ⟨1, ![32768]⟩
abbrev S4x524288 : Shape := ⟨2, ![4, 524288]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S5 : S_.BroadcastsInDim S5 (![] : Fin 0 → Fin S5.rank)
  reducesTo_S5_S_d0 : S5.ReducesTo [0] S_
  bcast_S_S500000 : S_.BroadcastsInDim S500000 (![] : Fin 0 → Fin S500000.rank)
  reducesTo_S500000_S_d0 : S500000.ReducesTo [0] S_

variable [Facts]

def fn_part2 {F : FTy → Type} [FloatOps F] (main_arg7 : FVec F S5 .f32) (main_arg8 : FVec F S500000 .f32) (main_v33 : IVec S_ 1) : IVec S_ 1 :=
  let main_v34 : FVec F S5 .f32 := Host.absf main_arg7
  let main_cst_12 : FVec F S_ .f32 := constant S_ .f32 0x7F800000#32
  let main_v35 : FVec F S5 .f32 := broadcastInDim S5 ![] bcast_S_S5 main_cst_12
  let main_v36 : IVec S5 1 := cmpf .olt main_v34 main_v35
  let main_c_13 : IVec S_ 1 := constantI S_ 1 1#1
  let main_v37 : IVec S_ 1 := (fun x v => Host.reduce IntOp.andi x v reducesTo_S5_S_d0 h_S_) main_v36 main_c_13
  let main_v38 : IVec S_ 1 := andi main_v33 main_v37
  let main_v39 : FVec F S500000 .f32 := Host.absf main_arg8
  let main_cst_14 : FVec F S_ .f32 := constant S_ .f32 0x7F800000#32
  let main_v40 : FVec F S500000 .f32 := broadcastInDim S500000 ![] bcast_S_S500000 main_cst_14
  let main_v41 : IVec S500000 1 := cmpf .olt main_v39 main_v40
  let main_c_15 : IVec S_ 1 := constantI S_ 1 1#1
  let main_v42 : IVec S_ 1 := (fun x v => Host.reduce IntOp.andi x v reducesTo_S500000_S_d0 h_S_) main_v41 main_c_15
  let main_v43 : IVec S_ 1 := andi main_v38 main_v42
  main_v43

def fn_part1 {F : FTy → Type} [FloatOps F] (main_arg4 : FVec F S128 .f32) (main_arg5 : FVec F S128x8 .f32) (main_arg6 : FVec F S8 .f32) (main_arg7 : FVec F S5 .f32) (main_arg8 : FVec F S500000 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x8 .f32 := Host.absf main_arg5
  let main_cst_8 : FVec F S_ .f32 := constant S_ .f32 0x7F800000#32
  let main_v25 : FVec F S128x8 .f32 := broadcastInDim S128x8 ![] bcast_S_S128x8 main_cst_8
  let main_v26 : IVec S128x8 1 := cmpf .olt main_v24 main_v25
  let main_c_9 : IVec S_ 1 := constantI S_ 1 1#1
  let main_v27 : IVec S_ 1 := (fun x v => Host.reduce IntOp.andi x v reducesTo_S128x8_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_v33

def fn {F : FTy → Type} [FloatOps F] (main_arg0 : FVec F S500000x128 .f32) (main_arg1 : FVec F S128x128 .f32) (main_arg2 : FVec F S128 .f32) (main_arg3 : FVec F S128x128 .f32) (main_arg4 : FVec F S128 .f32) (main_arg5 : FVec F S128x8 .f32) (main_arg6 : FVec F S8 .f32) (main_arg7 : FVec F S5 .f32) (main_arg8 : FVec F S500000 .f32) (main_arg9 : IVec S32768 32) (main_arg10 : IVec S4x524288 32) (main_arg11 : IVec S4x524288 32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S500000x128 : Shape := ⟨2, ![500000, 128]⟩
abbrev S128x128 : Shape := ⟨2, ![128, 128]⟩
abbrev S128 : Shape := ⟨1, ![128]⟩
abbrev S128x8 : Shape := ⟨2, ![128, 8]⟩
abbrev S8 : Shape := ⟨1, ![8]⟩
abbrev S5 : Shape := ⟨1, ![5]⟩
abbrev S500000 : Shape := ⟨1, ![500000]⟩
abbrev S32768 : Shape := ⟨1, ![32768]⟩
abbrev S4x524288 : Shape := ⟨2, ![4, 524288]⟩
abbrev S_ : Shape := ⟨0, ![]⟩
abbrev S32768x1 : Shape := ⟨2, ![32768, 1]⟩
abbrev S1x128 : Shape := ⟨2, ![1, 128]⟩
abbrev S32768x128 : Shape := ⟨2, ![32768, 128]⟩
abbrev S1 : Shape := ⟨1, ![1]⟩
abbrev S4096x128 : Shape := ⟨2, ![4096, 128]⟩
abbrev S4096x1 : Shape := ⟨2, ![4096, 1]⟩
abbrev S1x524288 : Shape := ⟨2, ![1, 524288]⟩
abbrev S524288 : Shape := ⟨1, ![524288]⟩
abbrev S524288x1 : Shape := ⟨2, ![524288, 1]⟩
abbrev S524288x128 : Shape := ⟨2, ![524288, 128]⟩
abbrev S1x8 : Shape := ⟨2, ![1, 8]⟩
abbrev S32768x8 : Shape := ⟨2, ![32768, 8]⟩
abbrev S8192x128 : Shape := ⟨2, ![8192, 128]⟩
abbrev S8192x8 : Shape := ⟨2, ![8192, 8]⟩
abbrev S8192 : Shape := ⟨1, ![8192]⟩
abbrev S8192x1 : Shape := ⟨2, ![8192, 1]⟩

abbrev nBuf : Space → Nat
  | .hbm => 275
  | .vmem => 56
  | .smem => 0
  | _ => 0

abbrev hbmTy0_0 (i : Nat) : BufTy := match i % 128 with
  | 0 => ⟨S500000x128, .f32⟩
  | 1 => ⟨S128x128, .f32⟩
  | 2 => ⟨S128, .f32⟩
  | 3 => ⟨S128x128, .f32⟩
  | 4 => ⟨S128, .f32⟩
  | 5 => ⟨S128x8, .f32⟩
  | 6 => ⟨S8, .f32⟩
  | 7 => ⟨S5, .f32⟩
  | 8 => ⟨S500000, .f32⟩
  | 9 => ⟨S32768, .i32⟩
  | 10 => ⟨S4x524288, .i32⟩
  | 11 => ⟨S4x524288, .i32⟩
  | 12 => ⟨S_, .f32⟩
  | 13 => ⟨S500000, .f32⟩
  | 14 => ⟨S500000, .f32⟩
  | 15 => ⟨S_, .i32⟩
  | 16 => ⟨S32768, .i32⟩
  | 17 => ⟨S32768, .i1⟩
  | 18 => ⟨S_, .i32⟩
  | 19 => ⟨S32768, .i32⟩
  | 20 => ⟨S32768, .i32⟩
  | 21 => ⟨S32768, .i32⟩
  | 22 => ⟨S32768x1, .i32⟩
  | 23 => ⟨S32768, .f32⟩
  | 24 => ⟨S_, .f32⟩
  | 25 => ⟨S_, .f32⟩
  | 26 => ⟨S500000x128, .bf16⟩
  | 27 => ⟨S128x128, .bf16⟩
  | 28 => ⟨S128x128, .bf16⟩
  | 29 => ⟨S1x128, .f32⟩
  | 30 => ⟨S1x128, .f32⟩
  | 31 => ⟨S_, .i32⟩
  | 32 => ⟨S32768, .i32⟩
  | 33 => ⟨S32768, .i1⟩
  | 34 => ⟨S_, .i32⟩
  | 35 => ⟨S32768, .i32⟩
  | 36 => ⟨S32768, .i32⟩
  | 37 => ⟨S32768, .i32⟩
  | 38 => ⟨S32768x1, .i32⟩
  | 39 => ⟨S32768x128, .bf16⟩
  | 40 => ⟨S1, .f32⟩
  | 41 => ⟨S_, .f32⟩
  | 42 => ⟨S32768x1, .f32⟩
  | 43 => ⟨S32768x128, .bf16⟩
  | 44 => ⟨S32768x128, .f32⟩
  | 45 => ⟨S1x524288, .i32⟩
  | 46 => ⟨S524288, .i32⟩
  | 47 => ⟨S1x524288, .i32⟩
  | 48 => ⟨S524288, .i32⟩
  | 49 => ⟨S_, .i32⟩
  | 50 => ⟨S524288, .i32⟩
  | 51 => ⟨S524288, .i1⟩
  | 52 => ⟨S_, .i32⟩
  | 53 => ⟨S524288, .i32⟩
  | 54 => ⟨S524288, .i32⟩
  | 55 => ⟨S524288, .i32⟩
  | 56 => ⟨S524288x1, .i32⟩
  | 57 => ⟨S524288x128, .bf16⟩
  | 58 => ⟨S_, .i32⟩
  | 59 => ⟨S524288, .i32⟩
  | 60 => ⟨S524288, .i1⟩
  | 61 => ⟨S_, .i32⟩
  | 62 => ⟨S524288, .i32⟩
  | 63 => ⟨S524288, .i32⟩
  | 64 => ⟨S524288, .i32⟩
  | 65 => ⟨S524288x1, .i32⟩
  | 66 => ⟨S524288, .i32⟩
  | 67 => ⟨S_, .i32⟩
  | 68 => ⟨S524288, .i32⟩
  | 69 => ⟨S524288, .i1⟩
  | 70 => ⟨S_, .i32⟩
  | 71 => ⟨S524288, .i32⟩
  | 72 => ⟨S524288, .i32⟩
  | 73 => ⟨S524288, .i32⟩
  | 74 => ⟨S524288x1, .i32⟩
  | 75 => ⟨S524288, .f32⟩
  | 76 => ⟨S_, .i32⟩
  | 77 => ⟨S524288, .i32⟩
  | 78 => ⟨S524288, .i1⟩
  | 79 => ⟨S_, .i32⟩
  | 80 => ⟨S524288, .i32⟩
  | 81 => ⟨S524288, .i32⟩
  | 82 => ⟨S524288, .i32⟩
  | 83 => ⟨S524288x1, .i32⟩
  | 84 => ⟨S524288, .f32⟩
  | 85 => ⟨S524288, .f32⟩
  | 86 => ⟨S_, .f32⟩
  | 87 => ⟨S_, .f32⟩
  | 88 => ⟨S524288, .f32⟩
  | 89 => ⟨S524288, .f32⟩
  | 90 => ⟨S1, .f32⟩
  | 91 => ⟨S_, .f32⟩
  | 92 => ⟨S524288, .f32⟩
  | 93 => ⟨S524288, .f32⟩
  | 94 => ⟨S524288x1, .f32⟩
  | 95 => ⟨S524288x128, .bf16⟩
  | 96 => ⟨S524288x128, .f32⟩
  | 97 => ⟨S_, .f32⟩
  | 98 => ⟨S32768x128, .f32⟩
  | 99 => ⟨S524288x1, .i32⟩
  | 100 => ⟨S32768x128, .f32⟩
  | 101 => ⟨S32768x128, .f32⟩
  | 102 => ⟨S1x524288, .i32⟩
  | 103 => ⟨S524288, .i32⟩
  | 104 => ⟨S1x524288, .i32⟩
  | 105 => ⟨S524288, .i32⟩
  | 106 => ⟨S_, .i32⟩
  | 107 => ⟨S524288, .i32⟩
  | 108 => ⟨S524288, .i1⟩
  | 109 => ⟨S_, .i32⟩
  | 110 => ⟨S524288, .i32⟩
  | 111 => ⟨S524288, .i32⟩
  | 112 => ⟨S524288, .i32⟩
  | 113 => ⟨S524288x1, .i32⟩
  | 114 => ⟨S524288x128, .bf16⟩
  | 115 => ⟨S_, .i32⟩
  | 116 => ⟨S524288, .i32⟩
  | 117 => ⟨S524288, .i1⟩
  | 118 => ⟨S_, .i32⟩
  | 119 => ⟨S524288, .i32⟩
  | 120 => ⟨S524288, .i32⟩
  | 121 => ⟨S524288, .i32⟩
  | 122 => ⟨S524288x1, .i32⟩
  | 123 => ⟨S524288, .i32⟩
  | 124 => ⟨S_, .i32⟩
  | 125 => ⟨S524288, .i32⟩
  | 126 => ⟨S524288, .i1⟩
  | 127 => ⟨S_, .i32⟩
  | _ => ⟨S500000x128, .f32⟩

abbrev hbmTy0_1 (i : Nat) : BufTy := match i % 128 with
  | 0 => ⟨S524288, .i32⟩
  | 1 => ⟨S524288, .i32⟩
  | 2 => ⟨S524288, .i32⟩
  | 3 => ⟨S524288x1, .i32⟩
  | 4 => ⟨S524288, .f32⟩
  | 5 => ⟨S_, .i32⟩
  | 6 => ⟨S524288, .i32⟩
  | 7 => ⟨S524288, .i1⟩
  | 8 => ⟨S_, .i32⟩
  | 9 => ⟨S524288, .i32⟩
  | 10 => ⟨S524288, .i32⟩
  | 11 => ⟨S524288, .i32⟩
  | 12 => ⟨S524288x1, .i32⟩
  | 13 => ⟨S524288, .f32⟩
  | 14 => ⟨S524288, .f32⟩
  | 15 => ⟨S_, .f32⟩
  | 16 => ⟨S_, .f32⟩
  | 17 => ⟨S524288, .f32⟩
  | 18 => ⟨S524288, .f32⟩
  | 19 => ⟨S1, .f32⟩
  | 20 => ⟨S_, .f32⟩
  | 21 => ⟨S524288, .f32⟩
  | 22 => ⟨S524288, .f32⟩
  | 23 => ⟨S524288x1, .f32⟩
  | 24 => ⟨S524288x128, .bf16⟩
  | 25 => ⟨S524288x128, .f32⟩
  | 26 => ⟨S_, .f32⟩
  | 27 => ⟨S32768x128, .f32⟩
  | 28 => ⟨S524288x1, .i32⟩
  | 29 => ⟨S32768x128, .f32⟩
  | 30 => ⟨S32768x128, .f32⟩
  | 31 => ⟨S1x524288, .i32⟩
  | 32 => ⟨S524288, .i32⟩
  | 33 => ⟨S1x524288, .i32⟩
  | 34 => ⟨S524288, .i32⟩
  | 35 => ⟨S_, .i32⟩
  | 36 => ⟨S524288, .i32⟩
  | 37 => ⟨S524288, .i1⟩
  | 38 => ⟨S_, .i32⟩
  | 39 => ⟨S524288, .i32⟩
  | 40 => ⟨S524288, .i32⟩
  | 41 => ⟨S524288, .i32⟩
  | 42 => ⟨S524288x1, .i32⟩
  | 43 => ⟨S524288x128, .bf16⟩
  | 44 => ⟨S_, .i32⟩
  | 45 => ⟨S524288, .i32⟩
  | 46 => ⟨S524288, .i1⟩
  | 47 => ⟨S_, .i32⟩
  | 48 => ⟨S524288, .i32⟩
  | 49 => ⟨S524288, .i32⟩
  | 50 => ⟨S524288, .i32⟩
  | 51 => ⟨S524288x1, .i32⟩
  | 52 => ⟨S524288, .i32⟩
  | 53 => ⟨S_, .i32⟩
  | 54 => ⟨S524288, .i32⟩
  | 55 => ⟨S524288, .i1⟩
  | 56 => ⟨S_, .i32⟩
  | 57 => ⟨S524288, .i32⟩
  | 58 => ⟨S524288, .i32⟩
  | 59 => ⟨S524288, .i32⟩
  | 60 => ⟨S524288x1, .i32⟩
  | 61 => ⟨S524288, .f32⟩
  | 62 => ⟨S_, .i32⟩
  | 63 => ⟨S524288, .i32⟩
  | 64 => ⟨S524288, .i1⟩
  | 65 => ⟨S_, .i32⟩
  | 66 => ⟨S524288, .i32⟩
  | 67 => ⟨S524288, .i32⟩
  | 68 => ⟨S524288, .i32⟩
  | 69 => ⟨S524288x1, .i32⟩
  | 70 => ⟨S524288, .f32⟩
  | 71 => ⟨S524288, .f32⟩
  | 72 => ⟨S_, .f32⟩
  | 73 => ⟨S_, .f32⟩
  | 74 => ⟨S524288, .f32⟩
  | 75 => ⟨S524288, .f32⟩
  | 76 => ⟨S1, .f32⟩
  | 77 => ⟨S_, .f32⟩
  | 78 => ⟨S524288, .f32⟩
  | 79 => ⟨S524288, .f32⟩
  | 80 => ⟨S524288x1, .f32⟩
  | 81 => ⟨S524288x128, .bf16⟩
  | 82 => ⟨S524288x128, .f32⟩
  | 83 => ⟨S_, .f32⟩
  | 84 => ⟨S32768x128, .f32⟩
  | 85 => ⟨S524288x1, .i32⟩
  | 86 => ⟨S32768x128, .f32⟩
  | 87 => ⟨S32768x128, .f32⟩
  | 88 => ⟨S1x524288, .i32⟩
  | 89 => ⟨S524288, .i32⟩
  | 90 => ⟨S1x524288, .i32⟩
  | 91 => ⟨S524288, .i32⟩
  | 92 => ⟨S_, .i32⟩
  | 93 => ⟨S524288, .i32⟩
  | 94 => ⟨S524288, .i1⟩
  | 95 => ⟨S_, .i32⟩
  | 96 => ⟨S524288, .i32⟩
  | 97 => ⟨S524288, .i32⟩
  | 98 => ⟨S524288, .i32⟩
  | 99 => ⟨S524288x1, .i32⟩
  | 100 => ⟨S524288x128, .bf16⟩
  | 101 => ⟨S_, .i32⟩
  | 102 => ⟨S524288, .i32⟩
  | 103 => ⟨S524288, .i1⟩
  | 104 => ⟨S_, .i32⟩
  | 105 => ⟨S524288, .i32⟩
  | 106 => ⟨S524288, .i32⟩
  | 107 => ⟨S524288, .i32⟩
  | 108 => ⟨S524288x1, .i32⟩
  | 109 => ⟨S524288, .i32⟩
  | 110 => ⟨S_, .i32⟩
  | 111 => ⟨S524288, .i32⟩
  | 112 => ⟨S524288, .i1⟩
  | 113 => ⟨S_, .i32⟩
  | 114 => ⟨S524288, .i32⟩
  | 115 => ⟨S524288, .i32⟩
  | 116 => ⟨S524288, .i32⟩
  | 117 => ⟨S524288x1, .i32⟩
  | 118 => ⟨S524288, .f32⟩
  | 119 => ⟨S_, .i32⟩
  | 120 => ⟨S524288, .i32⟩
  | 121 => ⟨S524288, .i1⟩
  | 122 => ⟨S_, .i32⟩
  | 123 => ⟨S524288, .i32⟩
  | 124 => ⟨S524288, .i32⟩
  | 125 => ⟨S524288, .i32⟩
  | 126 => ⟨S524288x1, .i32⟩
  | 127 => ⟨S524288, .f32⟩
  | _ => ⟨S500000x128, .f32⟩

abbrev hbmTy0_2 (i : Nat) : BufTy := match i % 128 with
  | 0 => ⟨S524288, .f32⟩
  | 1 => ⟨S_, .f32⟩
  | 2 => ⟨S_, .f32⟩
  | 3 => ⟨S524288, .f32⟩
  | 4 => ⟨S524288, .f32⟩
  | 5 => ⟨S1, .f32⟩
  | 6 => ⟨S_, .f32⟩
  | 7 => ⟨S524288, .f32⟩
  | 8 => ⟨S524288, .f32⟩
  | 9 => ⟨S524288x1, .f32⟩
  | 10 => ⟨S524288x128, .bf16⟩
  | 11 => ⟨S524288x128, .f32⟩
  | 12 => ⟨S_, .f32⟩
  | 13 => ⟨S32768x128, .f32⟩
  | 14 => ⟨S524288x1, .i32⟩
  | 15 => ⟨S32768x128, .f32⟩
  | 16 => ⟨S32768x128, .f32⟩
  | 17 => ⟨S1x8, .f32⟩
  | 18 => ⟨S32768x8, .f32⟩
  | _ => ⟨S500000x128, .f32⟩

abbrev hbmTy (i : Nat) : BufTy := match i / 128 with
  | 0 => hbmTy0_0 i
  | 1 => hbmTy0_1 i
  | 2 => hbmTy0_2 i
  | _ => ⟨S500000x128, .f32⟩

abbrev bufTy : (tb : Table) → Fin (tcTables nBuf tb) → BufTy
  | .hbm, ⟨i, _⟩ => hbmTy i
  | .local _ .vmem, ⟨0, _⟩ => ⟨S4096x128, .bf16⟩
  | .local _ .vmem, ⟨1, _⟩ => ⟨S4096x128, .bf16⟩
  | .local _ .vmem, ⟨2, _⟩ => ⟨S4096x1, .f32⟩
  | .local _ .vmem, ⟨3, _⟩ => ⟨S4096x1, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x1, .f32⟩
  | .local _ .vmem, ⟨13, _⟩ => ⟨S4096x1, .f32⟩
  | .local _ .vmem, ⟨14, _⟩ => ⟨S128x128, .bf16⟩
  | .local _ .vmem, ⟨15, _⟩ => ⟨S1x128, .f32⟩
  | .local _ .vmem, ⟨16, _⟩ => ⟨S128x128, .bf16⟩
  | .local _ .vmem, ⟨17, _⟩ => ⟨S1x128, .f32⟩
  | .local _ .vmem, ⟨18, _⟩ => ⟨S4096x128, .bf16⟩
  | .local _ .vmem, ⟨19, _⟩ => ⟨S4096x128, .bf16⟩
  | .local _ .vmem, ⟨20, _⟩ => ⟨S4096x128, .bf16⟩
  | .local _ .vmem, ⟨21, _⟩ => ⟨S4096x128, .bf16⟩
  | .local _ .vmem, ⟨22, _⟩ => ⟨S4096x1, .f32⟩
  | .local _ .vmem, ⟨23, _⟩ => ⟨S4096x1, .f32⟩
  | .local _ .vmem, ⟨24, _⟩ => ⟨S128x128, .bf16⟩
  | .local _ .vmem, ⟨25, _⟩ => ⟨S1x128, .f32⟩
  | .local _ .vmem, ⟨26, _⟩ => ⟨S128x128, .bf16⟩
  | .local _ .vmem, ⟨27, _⟩ => ⟨S1x128, .f32⟩
  | .local _ .vmem, ⟨28, _⟩ => ⟨S4096x128, .bf16⟩
  | .local _ .vmem, ⟨29, _⟩ => ⟨S4096x128, .bf16⟩
  | .local _ .vmem, ⟨30, _⟩ => ⟨S4096x128, .bf16⟩
  | .local _ .vmem, ⟨31, _⟩ => ⟨S4096x128, .bf16⟩
  | .local _ .vmem, ⟨32, _⟩ => ⟨S4096x1, .f32⟩
  | .local _ .vmem, ⟨33, _⟩ => ⟨S4096x1, .f32⟩
  | .local _ .vmem, ⟨34, _⟩ => ⟨S128x128, .bf16⟩
  | .local _ .vmem, ⟨35, _⟩ => ⟨S1x128, .f32⟩
  | .local _ .vmem, ⟨36, _⟩ => ⟨S128x128, .bf16⟩
  | .local _ .vmem, ⟨37, _⟩ => ⟨S1x128, .f32⟩
  | .local _ .vmem, ⟨38, _⟩ => ⟨S4096x128, .bf16⟩
  | .local _ .vmem, ⟨39, _⟩ => ⟨S4096x128, .bf16⟩
  | .local _ .vmem, ⟨40, _⟩ => ⟨S4096x128, .bf16⟩
  | .local _ .vmem, ⟨41, _⟩ => ⟨S4096x128, .bf16⟩
  | .local _ .vmem, ⟨42, _⟩ => ⟨S4096x1, .f32⟩
  | .local _ .vmem, ⟨43, _⟩ => ⟨S4096x1, .f32⟩
  | .local _ .vmem, ⟨44, _⟩ => ⟨S128x128, .bf16⟩
  | .local _ .vmem, ⟨45, _⟩ => ⟨S1x128, .f32⟩
  | .local _ .vmem, ⟨46, _⟩ => ⟨S128x128, .bf16⟩
  | .local _ .vmem, ⟨47, _⟩ => ⟨S1x128, .f32⟩
  | .local _ .vmem, ⟨48, _⟩ => ⟨S4096x128, .bf16⟩
  | .local _ .vmem, ⟨49, _⟩ => ⟨S4096x128, .bf16⟩
  | .local _ .vmem, ⟨50, _⟩ => ⟨S8192x128, .f32⟩
  | .local _ .vmem, ⟨51, _⟩ => ⟨S8192x128, .f32⟩
  | .local _ .vmem, ⟨52, _⟩ => ⟨S128x8, .f32⟩
  | .local _ .vmem, ⟨53, _⟩ => ⟨S1x8, .f32⟩
  | .local _ .vmem, ⟨54, _⟩ => ⟨S8192x8, .f32⟩
  | .local _ .vmem, ⟨55, _⟩ => ⟨S8192x8, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_14 : Ref sig .tc := ⟨.hbm, 106, rfl⟩
abbrev main_v78 : Ref sig .tc := ⟨.hbm, 107, rfl⟩
abbrev main_v79 : Ref sig .tc := ⟨.hbm, 108, rfl⟩
abbrev main_c_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_16 : Ref sig .tc := ⟨.hbm, 115, rfl⟩
abbrev main_v85 : Ref sig .tc := ⟨.hbm, 116, rfl⟩
abbrev main_v86 : Ref sig .tc := ⟨.hbm, 117, rfl⟩
abbrev main_c_17 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_c_18 : Ref sig .tc := ⟨.hbm, 124, rfl⟩
abbrev main_v92 : Ref sig .tc := ⟨.hbm, 125, rfl⟩
abbrev main_v93 : Ref sig .tc := ⟨.hbm, 126, rfl⟩
abbrev main_c_19 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_c_20 : Ref sig .tc := ⟨.hbm, 133, rfl⟩
abbrev main_v99 : Ref sig .tc := ⟨.hbm, 134, rfl⟩
abbrev main_v100 : Ref sig .tc := ⟨.hbm, 135, rfl⟩
abbrev main_c_21 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_22 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_23 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_c_24 : Ref sig .tc := ⟨.hbm, 163, rfl⟩
abbrev main_v125 : Ref sig .tc := ⟨.hbm, 164, rfl⟩
abbrev main_v126 : Ref sig .tc := ⟨.hbm, 165, rfl⟩
abbrev main_c_25 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_c_26 : Ref sig .tc := ⟨.hbm, 172, rfl⟩
abbrev main_v132 : Ref sig .tc := ⟨.hbm, 173, rfl⟩
abbrev main_v133 : Ref sig .tc := ⟨.hbm, 174, rfl⟩
abbrev main_c_27 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_c_28 : Ref sig .tc := ⟨.hbm, 181, rfl⟩
abbrev main_v139 : Ref sig .tc := ⟨.hbm, 182, rfl⟩
abbrev main_v140 : Ref sig .tc := ⟨.hbm, 183, rfl⟩
abbrev main_c_29 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_c_30 : Ref sig .tc := ⟨.hbm, 190, rfl⟩
abbrev main_v146 : Ref sig .tc := ⟨.hbm, 191, rfl⟩
abbrev main_v147 : Ref sig .tc := ⟨.hbm, 192, rfl⟩
abbrev main_c_31 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_cst_32 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_cst_33 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_c_34 : Ref sig .tc := ⟨.hbm, 220, rfl⟩
abbrev main_v172 : Ref sig .tc := ⟨.hbm, 221, rfl⟩
abbrev main_v173 : Ref sig .tc := ⟨.hbm, 222, rfl⟩
abbrev main_c_35 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_c_36 : Ref sig .tc := ⟨.hbm, 229, rfl⟩
abbrev main_v179 : Ref sig .tc := ⟨.hbm, 230, rfl⟩
abbrev main_v180 : Ref sig .tc := ⟨.hbm, 231, rfl⟩
abbrev main_c_37 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_c_38 : Ref sig .tc := ⟨.hbm, 238, rfl⟩
abbrev main_v186 : Ref sig .tc := ⟨.hbm, 239, rfl⟩
abbrev main_v187 : Ref sig .tc := ⟨.hbm, 240, rfl⟩
abbrev main_c_39 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_c_40 : Ref sig .tc := ⟨.hbm, 247, rfl⟩
abbrev main_v193 : Ref sig .tc := ⟨.hbm, 248, rfl⟩
abbrev main_v194 : Ref sig .tc := ⟨.hbm, 249, rfl⟩
abbrev main_c_41 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_cst_42 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_cst_43 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg3_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem3_1 : DmaSem sig := 55

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4096x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4096x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4096x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![128], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4096x128 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x8 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x8 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S8192x8 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S500000 : S_.BroadcastsInDim S500000 (![] : Fin 0 → Fin S500000.rank)
  bcast_S_S32768 : S_.BroadcastsInDim S32768 (![] : Fin 0 → Fin S32768.rank)
  bcast_S32768_S32768x1_0 : S32768.BroadcastsInDim S32768x1 (![0] : Fin 1 → Fin S32768x1.rank)
  reducesTo_S32768_S_d0 : S32768.ReducesTo [0] S_
  h_S_ : 0 < S_.numel
  bitsLt_bf16_f32 : FTy.bits .bf16 < FTy.bits .f32
  shapeCasts_S128_S1x128 : S128.ShapeCasts S1x128
  slices_S5_S1_0 : S5.Slices ![0] S1
  shapeCasts_S1_S_ : S1.ShapeCasts S_
  bcast_S_S32768x1 : S_.BroadcastsInDim S32768x1 (![] : Fin 0 → Fin S32768x1.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  packedbf16_S4096x128_S4096x128_0_0 : (Rect.unit (s := S4096x128) ![0, 0] S4096x128.size inb_S4096x128_S4096x128_0_0).PackedRows (EltTy.packing .bf16)
  slices_S4x524288_S1x524288_0_0 : S4x524288.Slices ![0, 0] S1x524288
  shapeCasts_S1x524288_S524288 : S1x524288.ShapeCasts S524288
  bcast_S_S524288 : S_.BroadcastsInDim S524288 (![] : Fin 0 → Fin S524288.rank)
  bcast_S524288_S524288x1_0 : S524288.BroadcastsInDim S524288x1 (![0] : Fin 1 → Fin S524288x1.rank)
  slices_S5_S1_1 : S5.Slices ![1] S1
  shapeCasts_S524288_S524288x1 : S524288.ShapeCasts S524288x1
  bcast_S_S32768x128 : S_.BroadcastsInDim S32768x128 (![] : Fin 0 → Fin S32768x128.rank)
  slices_S4x524288_S1x524288_1_0 : S4x524288.Slices ![1, 0] S1x524288
  slices_S5_S1_2 : S5.Slices ![2] S1
  slices_S4x524288_S1x524288_2_0 : S4x524288.Slices ![2, 0] S1x524288
  slices_S5_S1_3 : S5.Slices ![3] S1
  slices_S4x524288_S1x524288_3_0 : S4x524288.Slices ![3, 0] S1x524288
  slices_S5_S1_4 : S5.Slices ![4] S1
  shapeCasts_S8_S1x8 : S8.ShapeCasts S1x8
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S8192x8 : S1x8.Broadcasts S8192x8
  reduces_S8192x8_S8192 : S8192x8.Reduces [1] S8192
  shapeCasts_S8192_S8192x1 : S8192.ShapeCasts S8192x1
  broadcasts_S8192x1_S8192x8 : S8192x1.Broadcasts S8192x8
  inb_S8192x8_S8192x8_0_0 : ∀ a, (![0, 0] : Fin 2 → Nat) a + S8192x8.size a ≤ S8192x8.size a
  h_S8192x8 : 0 < S8192x8.numel
  gather_S500000_S32768x1_S32768_n_0_n_n_0_1_1_wf : GatherDims.WF S500000 S32768x1 S32768 [] [0] [] [0] [] 1 ![1]
  gather_S500000x128_S32768x1_S32768x128_1_0_n_n_0_1_1128_wf : GatherDims.WF S500000x128 S32768x1 S32768x128 [1] [0] [] [0] [] 1 ![1, 128]
  dot_S4096x128_S128x128_S4096x128_1_0_0_1_n_n_wf : DotDims.WF S4096x128 S128x128 S4096x128 [1] [0] [0] [1] [] []
  gather_S500000x128_S524288x1_S524288x128_1_0_n_n_0_1_1128_wf : GatherDims.WF S500000x128 S524288x1 S524288x128 [1] [0] [] [0] [] 1 ![1, 128]
  gather_S32768_S524288x1_S524288_n_0_n_n_0_1_1_wf : GatherDims.WF S32768 S524288x1 S524288 [] [0] [] [0] [] 1 ![1]
  gather_S500000_S524288x1_S524288_n_0_n_n_0_1_1_wf : GatherDims.WF S500000 S524288x1 S524288 [] [0] [] [0] [] 1 ![1]
  scatter_S32768x128_S524288x1_S524288x128_1_0_0_1_wf : ScatterDims.WF S32768x128 S524288x1 S524288x128 [1] [0] [0] 1
  dot_S8192x128_S128x8_S8192x8_1_0_0_1_n_n_wf : DotDims.WF S8192x128 S128x8 S8192x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S32768x128.size a
  hwx0_0 : ∀ i : grid0.Coords, EltTy.bits .bf16 = 32 ∨ (Rect.block (s := S32768x128) S4096x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S32768x1.size a
  hwx0_1 : ∀ i : grid0.Coords, EltTy.bits .f32 = 32 ∨ (Rect.block (s := S32768x1) S4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S32768x128.size a
  hwx0_6 : ∀ i : grid0.Coords, EltTy.bits .bf16 = 32 ∨ (Rect.block (s := S32768x128) S4096x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S524288x128.size a
  hwx1_0 : ∀ i : grid1.Coords, EltTy.bits .bf16 = 32 ∨ (Rect.block (s := S524288x128) S4096x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S524288x1.size a
  hwx1_1 : ∀ i : grid1.Coords, EltTy.bits .f32 = 32 ∨ (Rect.block (s := S524288x1) S4096x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4096x128.size a ≤ S524288x128.size a
  hwx1_6 : ∀ i : grid1.Coords, EltTy.bits .bf16 = 32 ∨ (Rect.block (s := S524288x128) S4096x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S524288x128.size a
  hwx2_0 : ∀ i : grid2.Coords, EltTy.bits .bf16 = 32 ∨ (Rect.block (s := S524288x128) S4096x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1.size a ≤ S524288x1.size a
  hwx2_1 : ∀ i : grid2.Coords, EltTy.bits .f32 = 32 ∨ (Rect.block (s := S524288x1) S4096x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4096x128.size a ≤ S524288x128.size a
  hwx2_6 : ∀ i : grid2.Coords, EltTy.bits .bf16 = 32 ∨ (Rect.block (s := S524288x128) S4096x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S524288x128.size a
  hwx3_0 : ∀ i : grid3.Coords, EltTy.bits .bf16 = 32 ∨ (Rect.block (s := S524288x128) S4096x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x1.size a ≤ S524288x1.size a
  hwx3_1 : ∀ i : grid3.Coords, EltTy.bits .f32 = 32 ∨ (Rect.block (s := S524288x1) S4096x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .bf16 = 32 ∨ (Rect.block (s := S128x128) S128x128.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4096x128.size a ≤ S524288x128.size a
  hwx3_6 : ∀ i : grid3.Coords, EltTy.bits .bf16 = 32 ∨ (Rect.block (s := S524288x128) S4096x128.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x128.size a ≤ S524288x128.size a
  hwx4_0 : ∀ i : grid4.Coords, EltTy.bits .bf16 = 32 ∨ (Rect.block (s := S524288x128) S4096x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x1.size a ≤ S524288x1.size a
  hwx4_1 : ∀ i : grid4.Coords, EltTy.bits .f32 = 32 ∨ (Rect.block (s := S524288x1) S4096x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .bf16 = 32 ∨ (Rect.block (s := S128x128) S128x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .bf16 = 32 ∨ (Rect.block (s := S128x128) S128x128.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4096x128.size a ≤ S524288x128.size a
  hwx4_6 : ∀ i : grid4.Coords, EltTy.bits .bf16 = 32 ∨ (Rect.block (s := S524288x128) S4096x128.size (cc4_transform_6 i) (hinb4_6 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x128.size a ≤ S32768x128.size a
  hwx5_0 : ∀ i : grid5.Coords, EltTy.bits .f32 = 32 ∨ (Rect.block (s := S32768x128) S8192x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x8.size a ≤ S128x8.size a
  hwx5_1 : ∀ i : grid5.Coords, EltTy.bits .f32 = 32 ∨ (Rect.block (s := S128x8) S128x8.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x8.size a ≤ S1x8.size a
  hwx5_2 : ∀ i : grid5.Coords, EltTy.bits .f32 = 32 ∨ (Rect.block (s := S1x8) S1x8.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8192x8.size a ≤ S32768x8.size a
  hwx5_3 : ∀ i : grid5.Coords, EltTy.bits .f32 = 32 ∨ (Rect.block (s := S32768x8) S8192x8.size (cc5_transform_3 i) (hinb5_3 i)).WholeWords (EltTy.packing .f32)

variable [Facts₀]

def gather_S500000_S32768x1_S32768_n_0_n_n_0_1_1 : GatherDims S500000 S32768x1 S32768 where
  offsetDims := []
  collapsedSliceDims := [0]
  operandBatchingDims := []
  startIndicesBatchingDims := []
  startIndexMap := [0]
  indexVectorDim := 1
  sliceSizes := ![1]
  wf := gather_S500000_S32768x1_S32768_n_0_n_n_0_1_1_wf
def gather_S500000x128_S32768x1_S32768x128_1_0_n_n_0_1_1128 : GatherDims S500000x128 S32768x1 S32768x128 where
  offsetDims := [1]
  collapsedSliceDims := [0]
  operandBatchingDims := []
  startIndicesBatchingDims := []
  startIndexMap := [0]
  indexVectorDim := 1
  sliceSizes := ![1, 128]
  wf := gather_S500000x128_S32768x1_S32768x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S500000x128_S524288x1_S524288x128_1_0_n_n_0_1_1128 : GatherDims S500000x128 S524288x1 S524288x128 where
  offsetDims := [1]
  collapsedSliceDims := [0]
  operandBatchingDims := []
  startIndicesBatchingDims := []
  startIndexMap := [0]
  indexVectorDim := 1
  sliceSizes := ![1, 128]
  wf := gather_S500000x128_S524288x1_S524288x128_1_0_n_n_0_1_1128_wf
def gather_S32768_S524288x1_S524288_n_0_n_n_0_1_1 : GatherDims S32768 S524288x1 S524288 where
  offsetDims := []
  collapsedSliceDims := [0]
  operandBatchingDims := []
  startIndicesBatchingDims := []
  startIndexMap := [0]
  indexVectorDim := 1
  sliceSizes := ![1]
  wf := gather_S32768_S524288x1_S524288_n_0_n_n_0_1_1_wf
def gather_S500000_S524288x1_S524288_n_0_n_n_0_1_1 : GatherDims S500000 S524288x1 S524288 where
  offsetDims := []
  collapsedSliceDims := [0]
  operandBatchingDims := []
  startIndicesBatchingDims := []
  startIndexMap := [0]
  indexVectorDim := 1
  sliceSizes := ![1]
  wf := gather_S500000_S524288x1_S524288_n_0_n_n_0_1_1_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def dot_S8192x128_S128x8_S8192x8_1_0_0_1_n_n : DotDims S8192x128 S128x8 S8192x8 where
  lhsContracting := [1]
  rhsContracting := [0]
  lhsNonContracting := [0]
  rhsNonContracting := [1]
  lhsBatch := []
  rhsBatch := []
  wf := dot_S8192x128_S128x8_S8192x8_1_0_0_1_n_n_wf

abbrev win0_0 : Pipeline.Window sig grid0 :=
  Pipeline.Window.ofSpec (Memref.whole main_v21) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v67) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v68) S4096x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v84) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v114) S4096x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v14) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v115) S4096x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v131) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v161) S4096x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v13) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v12) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v14) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v162) S4096x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v178) S4096x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v208) S4096x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v13) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v12) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v14) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v209) S4096x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v214) S8192x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S128x8.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v215) S1x8.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v216) S8192x8.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S500000x128 : Shape := ⟨2, ![500000, 128]⟩
abbrev S128x128 : Shape := ⟨2, ![128, 128]⟩
abbrev S128 : Shape := ⟨1, ![128]⟩
abbrev S128x8 : Shape := ⟨2, ![128, 8]⟩
abbrev S8 : Shape := ⟨1, ![8]⟩
abbrev S5 : Shape := ⟨1, ![5]⟩
abbrev S500000 : Shape := ⟨1, ![500000]⟩
abbrev S32768 : Shape := ⟨1, ![32768]⟩
abbrev S4x524288 : Shape := ⟨2, ![4, 524288]⟩
abbrev S_ : Shape := ⟨0, ![]⟩
abbrev S32768x1 : Shape := ⟨2, ![32768, 1]⟩
abbrev S1 : Shape := ⟨1, ![1]⟩
abbrev S32768x128 : Shape := ⟨2, ![32768, 128]⟩
abbrev S1x128 : Shape := ⟨2, ![1, 128]⟩
abbrev S1x524288 : Shape := ⟨2, ![1, 524288]⟩
abbrev S524288 : Shape := ⟨1, ![524288]⟩
abbrev S524288x1 : Shape := ⟨2, ![524288, 1]⟩
abbrev S524288x128 : Shape := ⟨2, ![524288, 128]⟩
abbrev S32768x8 : Shape := ⟨2, ![32768, 8]⟩
abbrev S1x8 : Shape := ⟨2, ![1, 8]⟩

abbrev nBuf : Space → Nat
  | .hbm => 344
  | .vmem => 0
  | .smem => 0
  | _ => 0

abbrev hbmTy0_0 (i : Nat) : BufTy := match i % 128 with
  | 0 => ⟨S500000x128, .f32⟩
  | 1 => ⟨S128x128, .f32⟩
  | 2 => ⟨S128, .f32⟩
  | 3 => ⟨S128x128, .f32⟩
  | 4 => ⟨S128, .f32⟩
  | 5 => ⟨S128x8, .f32⟩
  | 6 => ⟨S8, .f32⟩
  | 7 => ⟨S5, .f32⟩
  | 8 => ⟨S500000, .f32⟩
  | 9 => ⟨S32768, .i32⟩
  | 10 => ⟨S4x524288, .i32⟩
  | 11 => ⟨S4x524288, .i32⟩
  | 12 => ⟨S_, .f32⟩
  | 13 => ⟨S500000, .f32⟩
  | 14 => ⟨S500000, .f32⟩
  | 15 => ⟨S_, .i32⟩
  | 16 => ⟨S32768, .i32⟩
  | 17 => ⟨S32768, .i1⟩
  | 18 => ⟨S_, .i32⟩
  | 19 => ⟨S32768, .i32⟩
  | 20 => ⟨S32768, .i32⟩
  | 21 => ⟨S32768, .i32⟩
  | 22 => ⟨S32768x1, .i32⟩
  | 23 => ⟨S32768, .f32⟩
  | 24 => ⟨S_, .f32⟩
  | 25 => ⟨S_, .f32⟩
  | 26 => ⟨S1, .f32⟩
  | 27 => ⟨S_, .f32⟩
  | 28 => ⟨S_, .i32⟩
  | 29 => ⟨S32768, .i32⟩
  | 30 => ⟨S32768, .i1⟩
  | 31 => ⟨S_, .i32⟩
  | 32 => ⟨S32768, .i32⟩
  | 33 => ⟨S32768, .i32⟩
  | 34 => ⟨S32768, .i32⟩
  | 35 => ⟨S32768x1, .i32⟩
  | 36 => ⟨S32768x128, .f32⟩
  | 37 => ⟨S32768x128, .f32⟩
  | 38 => ⟨S1x128, .f32⟩
  | 39 => ⟨S32768x128, .f32⟩
  | 40 => ⟨S32768x128, .f32⟩
  | 41 => ⟨S_, .f32⟩
  | 42 => ⟨S32768x128, .f32⟩
  | 43 => ⟨S32768x128, .f32⟩
  | 44 => ⟨S32768x128, .f32⟩
  | 45 => ⟨S1x128, .f32⟩
  | 46 => ⟨S32768x128, .f32⟩
  | 47 => ⟨S32768x128, .f32⟩
  | 48 => ⟨S32768x128, .f32⟩
  | 49 => ⟨S32768x128, .f32⟩
  | 50 => ⟨S1x524288, .i32⟩
  | 51 => ⟨S524288, .i32⟩
  | 52 => ⟨S1x524288, .i32⟩
  | 53 => ⟨S524288, .i32⟩
  | 54 => ⟨S_, .i32⟩
  | 55 => ⟨S524288, .i32⟩
  | 56 => ⟨S524288, .i1⟩
  | 57 => ⟨S_, .i32⟩
  | 58 => ⟨S524288, .i32⟩
  | 59 => ⟨S524288, .i32⟩
  | 60 => ⟨S524288, .i32⟩
  | 61 => ⟨S524288x1, .i32⟩
  | 62 => ⟨S524288, .i32⟩
  | 63 => ⟨S_, .i32⟩
  | 64 => ⟨S524288, .i32⟩
  | 65 => ⟨S524288, .i1⟩
  | 66 => ⟨S_, .i32⟩
  | 67 => ⟨S524288, .i32⟩
  | 68 => ⟨S524288, .i32⟩
  | 69 => ⟨S524288, .i32⟩
  | 70 => ⟨S524288x1, .i32⟩
  | 71 => ⟨S524288, .f32⟩
  | 72 => ⟨S_, .i32⟩
  | 73 => ⟨S524288, .i32⟩
  | 74 => ⟨S524288, .i1⟩
  | 75 => ⟨S_, .i32⟩
  | 76 => ⟨S524288, .i32⟩
  | 77 => ⟨S524288, .i32⟩
  | 78 => ⟨S524288, .i32⟩
  | 79 => ⟨S524288x1, .i32⟩
  | 80 => ⟨S524288, .f32⟩
  | 81 => ⟨S524288, .f32⟩
  | 82 => ⟨S_, .f32⟩
  | 83 => ⟨S_, .f32⟩
  | 84 => ⟨S524288, .f32⟩
  | 85 => ⟨S524288, .f32⟩
  | 86 => ⟨S_, .i32⟩
  | 87 => ⟨S524288, .i32⟩
  | 88 => ⟨S524288, .i1⟩
  | 89 => ⟨S_, .i32⟩
  | 90 => ⟨S524288, .i32⟩
  | 91 => ⟨S524288, .i32⟩
  | 92 => ⟨S524288, .i32⟩
  | 93 => ⟨S524288x1, .i32⟩
  | 94 => ⟨S524288x128, .f32⟩
  | 95 => ⟨S524288x128, .f32⟩
  | 96 => ⟨S1x128, .f32⟩
  | 97 => ⟨S524288x128, .f32⟩
  | 98 => ⟨S524288x128, .f32⟩
  | 99 => ⟨S_, .f32⟩
  | 100 => ⟨S524288x128, .f32⟩
  | 101 => ⟨S524288x128, .f32⟩
  | 102 => ⟨S524288x128, .f32⟩
  | 103 => ⟨S1x128, .f32⟩
  | 104 => ⟨S524288x128, .f32⟩
  | 105 => ⟨S524288x128, .f32⟩
  | 106 => ⟨S524288x1, .f32⟩
  | 107 => ⟨S524288x128, .f32⟩
  | 108 => ⟨S524288x128, .f32⟩
  | 109 => ⟨S1, .f32⟩
  | 110 => ⟨S_, .f32⟩
  | 111 => ⟨S_, .f32⟩
  | 112 => ⟨S32768x128, .f32⟩
  | 113 => ⟨S524288x1, .i32⟩
  | 114 => ⟨S32768x128, .f32⟩
  | 115 => ⟨S32768x128, .f32⟩
  | 116 => ⟨S32768x128, .f32⟩
  | 117 => ⟨S32768x128, .f32⟩
  | 118 => ⟨S1x524288, .i32⟩
  | 119 => ⟨S524288, .i32⟩
  | 120 => ⟨S1x524288, .i32⟩
  | 121 => ⟨S524288, .i32⟩
  | 122 => ⟨S_, .i32⟩
  | 123 => ⟨S524288, .i32⟩
  | 124 => ⟨S524288, .i1⟩
  | 125 => ⟨S_, .i32⟩
  | 126 => ⟨S524288, .i32⟩
  | 127 => ⟨S524288, .i32⟩
  | _ => ⟨S500000x128, .f32⟩

abbrev hbmTy0_1 (i : Nat) : BufTy := match i % 128 with
  | 0 => ⟨S524288, .i32⟩
  | 1 => ⟨S524288x1, .i32⟩
  | 2 => ⟨S524288, .i32⟩
  | 3 => ⟨S_, .i32⟩
  | 4 => ⟨S524288, .i32⟩
  | 5 => ⟨S524288, .i1⟩
  | 6 => ⟨S_, .i32⟩
  | 7 => ⟨S524288, .i32⟩
  | 8 => ⟨S524288, .i32⟩
  | 9 => ⟨S524288, .i32⟩
  | 10 => ⟨S524288x1, .i32⟩
  | 11 => ⟨S524288, .f32⟩
  | 12 => ⟨S_, .i32⟩
  | 13 => ⟨S524288, .i32⟩
  | 14 => ⟨S524288, .i1⟩
  | 15 => ⟨S_, .i32⟩
  | 16 => ⟨S524288, .i32⟩
  | 17 => ⟨S524288, .i32⟩
  | 18 => ⟨S524288, .i32⟩
  | 19 => ⟨S524288x1, .i32⟩
  | 20 => ⟨S524288, .f32⟩
  | 21 => ⟨S524288, .f32⟩
  | 22 => ⟨S_, .f32⟩
  | 23 => ⟨S_, .f32⟩
  | 24 => ⟨S524288, .f32⟩
  | 25 => ⟨S524288, .f32⟩
  | 26 => ⟨S_, .i32⟩
  | 27 => ⟨S524288, .i32⟩
  | 28 => ⟨S524288, .i1⟩
  | 29 => ⟨S_, .i32⟩
  | 30 => ⟨S524288, .i32⟩
  | 31 => ⟨S524288, .i32⟩
  | 32 => ⟨S524288, .i32⟩
  | 33 => ⟨S524288x1, .i32⟩
  | 34 => ⟨S524288x128, .f32⟩
  | 35 => ⟨S524288x128, .f32⟩
  | 36 => ⟨S1x128, .f32⟩
  | 37 => ⟨S524288x128, .f32⟩
  | 38 => ⟨S524288x128, .f32⟩
  | 39 => ⟨S_, .f32⟩
  | 40 => ⟨S524288x128, .f32⟩
  | 41 => ⟨S524288x128, .f32⟩
  | 42 => ⟨S524288x128, .f32⟩
  | 43 => ⟨S1x128, .f32⟩
  | 44 => ⟨S524288x128, .f32⟩
  | 45 => ⟨S524288x128, .f32⟩
  | 46 => ⟨S524288x1, .f32⟩
  | 47 => ⟨S524288x128, .f32⟩
  | 48 => ⟨S524288x128, .f32⟩
  | 49 => ⟨S1, .f32⟩
  | 50 => ⟨S_, .f32⟩
  | 51 => ⟨S_, .f32⟩
  | 52 => ⟨S32768x128, .f32⟩
  | 53 => ⟨S524288x1, .i32⟩
  | 54 => ⟨S32768x128, .f32⟩
  | 55 => ⟨S32768x128, .f32⟩
  | 56 => ⟨S32768x128, .f32⟩
  | 57 => ⟨S32768x128, .f32⟩
  | 58 => ⟨S1x524288, .i32⟩
  | 59 => ⟨S524288, .i32⟩
  | 60 => ⟨S1x524288, .i32⟩
  | 61 => ⟨S524288, .i32⟩
  | 62 => ⟨S_, .i32⟩
  | 63 => ⟨S524288, .i32⟩
  | 64 => ⟨S524288, .i1⟩
  | 65 => ⟨S_, .i32⟩
  | 66 => ⟨S524288, .i32⟩
  | 67 => ⟨S524288, .i32⟩
  | 68 => ⟨S524288, .i32⟩
  | 69 => ⟨S524288x1, .i32⟩
  | 70 => ⟨S524288, .i32⟩
  | 71 => ⟨S_, .i32⟩
  | 72 => ⟨S524288, .i32⟩
  | 73 => ⟨S524288, .i1⟩
  | 74 => ⟨S_, .i32⟩
  | 75 => ⟨S524288, .i32⟩
  | 76 => ⟨S524288, .i32⟩
  | 77 => ⟨S524288, .i32⟩
  | 78 => ⟨S524288x1, .i32⟩
  | 79 => ⟨S524288, .f32⟩
  | 80 => ⟨S_, .i32⟩
  | 81 => ⟨S524288, .i32⟩
  | 82 => ⟨S524288, .i1⟩
  | 83 => ⟨S_, .i32⟩
  | 84 => ⟨S524288, .i32⟩
  | 85 => ⟨S524288, .i32⟩
  | 86 => ⟨S524288, .i32⟩
  | 87 => ⟨S524288x1, .i32⟩
  | 88 => ⟨S524288, .f32⟩
  | 89 => ⟨S524288, .f32⟩
  | 90 => ⟨S_, .f32⟩
  | 91 => ⟨S_, .f32⟩
  | 92 => ⟨S524288, .f32⟩
  | 93 => ⟨S524288, .f32⟩
  | 94 => ⟨S_, .i32⟩
  | 95 => ⟨S524288, .i32⟩
  | 96 => ⟨S524288, .i1⟩
  | 97 => ⟨S_, .i32⟩
  | 98 => ⟨S524288, .i32⟩
  | 99 => ⟨S524288, .i32⟩
  | 100 => ⟨S524288, .i32⟩
  | 101 => ⟨S524288x1, .i32⟩
  | 102 => ⟨S524288x128, .f32⟩
  | 103 => ⟨S524288x128, .f32⟩
  | 104 => ⟨S1x128, .f32⟩
  | 105 => ⟨S524288x128, .f32⟩
  | 106 => ⟨S524288x128, .f32⟩
  | 107 => ⟨S_, .f32⟩
  | 108 => ⟨S524288x128, .f32⟩
  | 109 => ⟨S524288x128, .f32⟩
  | 110 => ⟨S524288x128, .f32⟩
  | 111 => ⟨S1x128, .f32⟩
  | 112 => ⟨S524288x128, .f32⟩
  | 113 => ⟨S524288x128, .f32⟩
  | 114 => ⟨S524288x1, .f32⟩
  | 115 => ⟨S524288x128, .f32⟩
  | 116 => ⟨S524288x128, .f32⟩
  | 117 => ⟨S1, .f32⟩
  | 118 => ⟨S_, .f32⟩
  | 119 => ⟨S_, .f32⟩
  | 120 => ⟨S32768x128, .f32⟩
  | 121 => ⟨S524288x1, .i32⟩
  | 122 => ⟨S32768x128, .f32⟩
  | 123 => ⟨S32768x128, .f32⟩
  | 124 => ⟨S32768x128, .f32⟩
  | 125 => ⟨S32768x128, .f32⟩
  | 126 => ⟨S1x524288, .i32⟩
  | 127 => ⟨S524288, .i32⟩
  | _ => ⟨S500000x128, .f32⟩

abbrev hbmTy0_2 (i : Nat) : BufTy := match i % 128 with
  | 0 => ⟨S1x524288, .i32⟩
  | 1 => ⟨S524288, .i32⟩
  | 2 => ⟨S_, .i32⟩
  | 3 => ⟨S524288, .i32⟩
  | 4 => ⟨S524288, .i1⟩
  | 5 => ⟨S_, .i32⟩
  | 6 => ⟨S524288, .i32⟩
  | 7 => ⟨S524288, .i32⟩
  | 8 => ⟨S524288, .i32⟩
  | 9 => ⟨S524288x1, .i32⟩
  | 10 => ⟨S524288, .i32⟩
  | 11 => ⟨S_, .i32⟩
  | 12 => ⟨S524288, .i32⟩
  | 13 => ⟨S524288, .i1⟩
  | 14 => ⟨S_, .i32⟩
  | 15 => ⟨S524288, .i32⟩
  | 16 => ⟨S524288, .i32⟩
  | 17 => ⟨S524288, .i32⟩
  | 18 => ⟨S524288x1, .i32⟩
  | 19 => ⟨S524288, .f32⟩
  | 20 => ⟨S_, .i32⟩
  | 21 => ⟨S524288, .i32⟩
  | 22 => ⟨S524288, .i1⟩
  | 23 => ⟨S_, .i32⟩
  | 24 => ⟨S524288, .i32⟩
  | 25 => ⟨S524288, .i32⟩
  | 26 => ⟨S524288, .i32⟩
  | 27 => ⟨S524288x1, .i32⟩
  | 28 => ⟨S524288, .f32⟩
  | 29 => ⟨S524288, .f32⟩
  | 30 => ⟨S_, .f32⟩
  | 31 => ⟨S_, .f32⟩
  | 32 => ⟨S524288, .f32⟩
  | 33 => ⟨S524288, .f32⟩
  | 34 => ⟨S_, .i32⟩
  | 35 => ⟨S524288, .i32⟩
  | 36 => ⟨S524288, .i1⟩
  | 37 => ⟨S_, .i32⟩
  | 38 => ⟨S524288, .i32⟩
  | 39 => ⟨S524288, .i32⟩
  | 40 => ⟨S524288, .i32⟩
  | 41 => ⟨S524288x1, .i32⟩
  | 42 => ⟨S524288x128, .f32⟩
  | 43 => ⟨S524288x128, .f32⟩
  | 44 => ⟨S1x128, .f32⟩
  | 45 => ⟨S524288x128, .f32⟩
  | 46 => ⟨S524288x128, .f32⟩
  | 47 => ⟨S_, .f32⟩
  | 48 => ⟨S524288x128, .f32⟩
  | 49 => ⟨S524288x128, .f32⟩
  | 50 => ⟨S524288x128, .f32⟩
  | 51 => ⟨S1x128, .f32⟩
  | 52 => ⟨S524288x128, .f32⟩
  | 53 => ⟨S524288x128, .f32⟩
  | 54 => ⟨S524288x1, .f32⟩
  | 55 => ⟨S524288x128, .f32⟩
  | 56 => ⟨S524288x128, .f32⟩
  | 57 => ⟨S1, .f32⟩
  | 58 => ⟨S_, .f32⟩
  | 59 => ⟨S_, .f32⟩
  | 60 => ⟨S32768x128, .f32⟩
  | 61 => ⟨S524288x1, .i32⟩
  | 62 => ⟨S32768x128, .f32⟩
  | 63 => ⟨S32768x128, .f32⟩
  | 64 => ⟨S32768x128, .f32⟩
  | 65 => ⟨S32768x128, .f32⟩
  | 66 => ⟨S_, .f32⟩
  | 67 => ⟨S32768x128, .f32⟩
  | 68 => ⟨S32768x128, .f32⟩
  | 69 => ⟨S32768x8, .f32⟩
  | 70 => ⟨S1x8, .f32⟩
  | 71 => ⟨S32768x8, .f32⟩
  | 72 => ⟨S32768x8, .f32⟩
  | 73 => ⟨S_, .f32⟩
  | 74 => ⟨S32768, .f32⟩
  | 75 => ⟨S_, .f32⟩
  | 76 => ⟨S32768, .f32⟩
  | 77 => ⟨S32768, .f32⟩
  | 78 => ⟨S32768x1, .f32⟩
  | 79 => ⟨S32768x8, .f32⟩
  | 80 => ⟨S32768x8, .f32⟩
  | 81 => ⟨S32768x8, .f32⟩
  | 82 => ⟨S_, .f32⟩
  | 83 => ⟨S32768, .f32⟩
  | 84 => ⟨S32768x1, .f32⟩
  | 85 => ⟨S32768x1, .f32⟩
  | 86 => ⟨S32768x8, .f32⟩
  | 87 => ⟨S32768x8, .f32⟩
  | _ => ⟨S500000x128, .f32⟩

abbrev hbmTy (i : Nat) : BufTy := match i / 128 with
  | 0 => hbmTy0_0 i
  | 1 => hbmTy0_1 i
  | 2 => hbmTy0_2 i
  | _ => ⟨S500000x128, .f32⟩

abbrev bufTy : (tb : Table) → Fin (tcTables nBuf tb) → BufTy
  | .hbm, ⟨i, _⟩ => hbmTy i
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call0_cst : Ref sig .tc := ⟨.hbm, 41, rfl⟩
abbrev main_call0_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_6 : Ref sig .tc := ⟨.hbm, 63, rfl⟩
abbrev main_v41 : Ref sig .tc := ⟨.hbm, 64, rfl⟩
abbrev main_v42 : Ref sig .tc := ⟨.hbm, 65, rfl⟩
abbrev main_c_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_11 : Ref sig .tc := ⟨.hbm, 86, rfl⟩
abbrev main_v59 : Ref sig .tc := ⟨.hbm, 87, rfl⟩
abbrev main_v60 : Ref sig .tc := ⟨.hbm, 88, rfl⟩
abbrev main_c_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call1_cst : Ref sig .tc := ⟨.hbm, 99, rfl⟩
abbrev main_call1_v0 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_13 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_14 : Ref sig .tc := ⟨.hbm, 122, rfl⟩
abbrev main_v90 : Ref sig .tc := ⟨.hbm, 123, rfl⟩
abbrev main_v91 : Ref sig .tc := ⟨.hbm, 124, rfl⟩
abbrev main_c_15 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_16 : Ref sig .tc := ⟨.hbm, 131, rfl⟩
abbrev main_v97 : Ref sig .tc := ⟨.hbm, 132, rfl⟩
abbrev main_v98 : Ref sig .tc := ⟨.hbm, 133, rfl⟩
abbrev main_c_17 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_18 : Ref sig .tc := ⟨.hbm, 140, rfl⟩
abbrev main_v104 : Ref sig .tc := ⟨.hbm, 141, rfl⟩
abbrev main_v105 : Ref sig .tc := ⟨.hbm, 142, rfl⟩
abbrev main_c_19 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_20 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_c_21 : Ref sig .tc := ⟨.hbm, 154, rfl⟩
abbrev main_v115 : Ref sig .tc := ⟨.hbm, 155, rfl⟩
abbrev main_v116 : Ref sig .tc := ⟨.hbm, 156, rfl⟩
abbrev main_c_22 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_call2_cst : Ref sig .tc := ⟨.hbm, 167, rfl⟩
abbrev main_call2_v0 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_23 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_c_24 : Ref sig .tc := ⟨.hbm, 190, rfl⟩
abbrev main_v146 : Ref sig .tc := ⟨.hbm, 191, rfl⟩
abbrev main_v147 : Ref sig .tc := ⟨.hbm, 192, rfl⟩
abbrev main_c_25 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_c_26 : Ref sig .tc := ⟨.hbm, 199, rfl⟩
abbrev main_v153 : Ref sig .tc := ⟨.hbm, 200, rfl⟩
abbrev main_v154 : Ref sig .tc := ⟨.hbm, 201, rfl⟩
abbrev main_c_27 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_c_28 : Ref sig .tc := ⟨.hbm, 208, rfl⟩
abbrev main_v160 : Ref sig .tc := ⟨.hbm, 209, rfl⟩
abbrev main_v161 : Ref sig .tc := ⟨.hbm, 210, rfl⟩
abbrev main_c_29 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_cst_30 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_c_31 : Ref sig .tc := ⟨.hbm, 222, rfl⟩
abbrev main_v171 : Ref sig .tc := ⟨.hbm, 223, rfl⟩
abbrev main_v172 : Ref sig .tc := ⟨.hbm, 224, rfl⟩
abbrev main_c_32 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_call3_cst : Ref sig .tc := ⟨.hbm, 235, rfl⟩
abbrev main_call3_v0 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_cst_33 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_c_34 : Ref sig .tc := ⟨.hbm, 258, rfl⟩
abbrev main_v202 : Ref sig .tc := ⟨.hbm, 259, rfl⟩
abbrev main_v203 : Ref sig .tc := ⟨.hbm, 260, rfl⟩
abbrev main_c_35 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_c_36 : Ref sig .tc := ⟨.hbm, 267, rfl⟩
abbrev main_v209 : Ref sig .tc := ⟨.hbm, 268, rfl⟩
abbrev main_v210 : Ref sig .tc := ⟨.hbm, 269, rfl⟩
abbrev main_c_37 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_c_38 : Ref sig .tc := ⟨.hbm, 276, rfl⟩
abbrev main_v216 : Ref sig .tc := ⟨.hbm, 277, rfl⟩
abbrev main_v217 : Ref sig .tc := ⟨.hbm, 278, rfl⟩
abbrev main_c_39 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_cst_40 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_c_41 : Ref sig .tc := ⟨.hbm, 290, rfl⟩
abbrev main_v227 : Ref sig .tc := ⟨.hbm, 291, rfl⟩
abbrev main_v228 : Ref sig .tc := ⟨.hbm, 292, rfl⟩
abbrev main_c_42 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_call4_cst : Ref sig .tc := ⟨.hbm, 303, rfl⟩
abbrev main_call4_v0 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_cst_43 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_v251 : Ref sig .tc := ⟨.hbm, 319, rfl⟩
abbrev main_v252 : Ref sig .tc := ⟨.hbm, 320, rfl⟩
abbrev main_v253 : Ref sig .tc := ⟨.hbm, 321, rfl⟩
abbrev main_call5_cst : Ref sig .tc := ⟨.hbm, 322, rfl⟩
abbrev main_call5_v0 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_v258 : Ref sig .tc := ⟨.hbm, 328, rfl⟩
abbrev main_call6_cst : Ref sig .tc := ⟨.hbm, 329, rfl⟩
abbrev main_call6_v0 : Ref sig .tc := ⟨.hbm, 330, rfl⟩
abbrev main_call6_cst_0 : Ref sig .tc := ⟨.hbm, 331, rfl⟩
abbrev main_call6_v1 : Ref sig .tc := ⟨.hbm, 332, rfl⟩
abbrev main_call6_v2 : Ref sig .tc := ⟨.hbm, 333, rfl⟩
abbrev main_call6_v3 : Ref sig .tc := ⟨.hbm, 334, rfl⟩
abbrev main_call6_v4 : Ref sig .tc := ⟨.hbm, 335, rfl⟩
abbrev main_call6_v5 : Ref sig .tc := ⟨.hbm, 336, rfl⟩
abbrev main_call6_v6 : Ref sig .tc := ⟨.hbm, 337, rfl⟩
abbrev main_call6_cst_1 : Ref sig .tc := ⟨.hbm, 338, rfl⟩
abbrev main_call6_v7 : Ref sig .tc := ⟨.hbm, 339, rfl⟩
abbrev main_call6_v8 : Ref sig .tc := ⟨.hbm, 340, rfl⟩
abbrev main_call6_v9 : Ref sig .tc := ⟨.hbm, 341, rfl⟩
abbrev main_call6_v10 : Ref sig .tc := ⟨.hbm, 342, rfl⟩
abbrev main_v259 : Ref sig .tc := ⟨.hbm, 343, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S_S32768 : S_.BroadcastsInDim S32768 (![] : Fin 0 → Fin S32768.rank)
  bcast_S32768_S32768x1_0 : S32768.BroadcastsInDim S32768x1 (![0] : Fin 1 → Fin S32768x1.rank)
  reducesTo_S32768_S_d0 : S32768.ReducesTo [0] S_
  h_S_ : 0 < S_.numel
  slices_S5_S1_0 : S5.Slices ![0] S1
  shapeCasts_S1_S_ : S1.ShapeCasts S_
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  slices_S4x524288_S1x524288_0_0 : S4x524288.Slices ![0, 0] S1x524288
  shapeCasts_S1x524288_S524288 : S1x524288.ShapeCasts S524288
  bcast_S_S524288 : S_.BroadcastsInDim S524288 (![] : Fin 0 → Fin S524288.rank)
  bcast_S524288_S524288x1_0 : S524288.BroadcastsInDim S524288x1 (![0] : Fin 1 → Fin S524288x1.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  bcast_S524288x1_S524288x128_0_1 : S524288x1.BroadcastsInDim S524288x128 (![0, 1] : Fin 2 → Fin S524288x128.rank)
  slices_S5_S1_1 : S5.Slices ![1] S1
  slices_S4x524288_S1x524288_1_0 : S4x524288.Slices ![1, 0] S1x524288
  slices_S5_S1_2 : S5.Slices ![2] S1
  slices_S4x524288_S1x524288_2_0 : S4x524288.Slices ![2, 0] S1x524288
  slices_S5_S1_3 : S5.Slices ![3] S1
  slices_S4x524288_S1x524288_3_0 : S4x524288.Slices ![3, 0] S1x524288
  slices_S5_S1_4 : S5.Slices ![4] S1
  bcast_S8_S1x8_1 : S8.BroadcastsInDim S1x8 (![1] : Fin 1 → Fin S1x8.rank)
  bcast_S1x8_S32768x8_0_1 : S1x8.BroadcastsInDim S32768x8 (![0, 1] : Fin 2 → Fin S32768x8.rank)
  reducesTo_S32768x8_S32768_d1 : S32768x8.ReducesTo [1] S32768
  bcast_S32768x1_S32768x8_0_1 : S32768x1.BroadcastsInDim S32768x8 (![0, 1] : Fin 2 → Fin S32768x8.rank)
  gather_S500000_S32768x1_S32768_n_0_n_n_0_1_1_wf : GatherDims.WF S500000 S32768x1 S32768 [] [0] [] [0] [] 1 ![1]
  gather_S500000x128_S32768x1_S32768x128_1_0_n_n_0_1_1128_wf : GatherDims.WF S500000x128 S32768x1 S32768x128 [1] [0] [] [0] [] 1 ![1, 128]
  dot_S32768x128_S128x128_S32768x128_1_0_0_1_n_n_wf : DotDims.WF S32768x128 S128x128 S32768x128 [1] [0] [0] [1] [] []
  gather_S32768_S524288x1_S524288_n_0_n_n_0_1_1_wf : GatherDims.WF S32768 S524288x1 S524288 [] [0] [] [0] [] 1 ![1]
  gather_S500000_S524288x1_S524288_n_0_n_n_0_1_1_wf : GatherDims.WF S500000 S524288x1 S524288 [] [0] [] [0] [] 1 ![1]
  gather_S500000x128_S524288x1_S524288x128_1_0_n_n_0_1_1128_wf : GatherDims.WF S500000x128 S524288x1 S524288x128 [1] [0] [] [0] [] 1 ![1, 128]
  dot_S524288x128_S128x128_S524288x128_1_0_0_1_n_n_wf : DotDims.WF S524288x128 S128x128 S524288x128 [1] [0] [0] [1] [] []
  scatter_S32768x128_S524288x1_S524288x128_1_0_0_1_wf : ScatterDims.WF S32768x128 S524288x1 S524288x128 [1] [0] [0] 1
  dot_S32768x128_S128x8_S32768x8_1_0_0_1_n_n_wf : DotDims.WF S32768x128 S128x8 S32768x8 [1] [0] [0] [1] [] []

variable [Facts₀]

def gather_S500000_S32768x1_S32768_n_0_n_n_0_1_1 : GatherDims S500000 S32768x1 S32768 where
  offsetDims := []
  collapsedSliceDims := [0]
  operandBatchingDims := []
  startIndicesBatchingDims := []
  startIndexMap := [0]
  indexVectorDim := 1
  sliceSizes := ![1]
  wf := gather_S500000_S32768x1_S32768_n_0_n_n_0_1_1_wf
def gather_S500000x128_S32768x1_S32768x128_1_0_n_n_0_1_1128 : GatherDims S500000x128 S32768x1 S32768x128 where
  offsetDims := [1]
  collapsedSliceDims := [0]
  operandBatchingDims := []
  startIndicesBatchingDims := []
  startIndexMap := [0]
  indexVectorDim := 1
  sliceSizes := ![1, 128]
  wf := gather_S500000x128_S32768x1_S32768x128_1_0_n_n_0_1_1128_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def gather_S32768_S524288x1_S524288_n_0_n_n_0_1_1 : GatherDims S32768 S524288x1 S524288 where
  offsetDims := []
  collapsedSliceDims := [0]
  operandBatchingDims := []
  startIndicesBatchingDims := []
  startIndexMap := [0]
  indexVectorDim := 1
  sliceSizes := ![1]
  wf := gather_S32768_S524288x1_S524288_n_0_n_n_0_1_1_wf
def gather_S500000_S524288x1_S524288_n_0_n_n_0_1_1 : GatherDims S500000 S524288x1 S524288 where
  offsetDims := []
  collapsedSliceDims := [0]
  operandBatchingDims := []
  startIndicesBatchingDims := []
  startIndexMap := [0]
  indexVectorDim := 1
  sliceSizes := ![1]
  wf := gather_S500000_S524288x1_S524288_n_0_n_n_0_1_1_wf
def gather_S500000x128_S524288x1_S524288x128_1_0_n_n_0_1_1128 : GatherDims S500000x128 S524288x1 S524288x128 where
  offsetDims := [1]
  collapsedSliceDims := [0]
  operandBatchingDims := []
  startIndicesBatchingDims := []
  startIndexMap := [0]
  indexVectorDim := 1
  sliceSizes := ![1, 128]
  wf := gather_S500000x128_S524288x1_S524288x128_1_0_n_n_0_1_1128_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def dot_S32768x128_S128x8_S32768x8_1_0_0_1_n_n : DotDims S32768x128 S128x8 S32768x8 where
  lhsContracting := [1]
  rhsContracting := [0]
  lhsNonContracting := [0]
  rhsNonContracting := [1]
  lhsBatch := []
  rhsBatch := []
  wf := dot_S32768x128_S128x8_S32768x8_1_0_0_1_n_n_wf

class Facts : Prop extends Facts₀ where

variable [Facts]
-- ==== Proof.KRun.lean ====
/-
  The idealized kernel's run with its result named.

  Every weakly fair execution of the program ends, nothing faulting, with the argument arrays as launched and the
  result array holding what the last boundary of the program's segments holds there: the sixth region's output array
  after its write-backs.
-/
import proofs.«114530_j6519760355655_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run_named : θ_run defs (onTc (τ := τ) (main (F := F))) ⟨m, fun _ => 0, ρ⟩ (fun r => ∀ c : Dev nD,
      r.2.mem ((c.tc : Thread nD τ).loc main_v216) = W12 m ρ c (Proc.devRef .tc main_v216)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v216 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.Run

end
-- ==== Proof.LibDense.lean ====
/-
  Dense layers on the extended reals, index by index.

  A matrix here is a function of a two-coordinate index into the extended reals.  `mm X W` is the
  textbook product: entry (r, j) is the sum over k of X (r, k) * W (k, j).  A matrix unit's product into a zero
  accumulator, read at an output index, is that sum (`matmul_zero_eq`), whatever the formats of the operands
  (a change of float format is the identity on the extended reals); the host's `dot_general` likewise
  (`dotGeneral_eq`).  `ssp` is the shifted softplus as the kernel spells it,
  max z 0 + log1p (exp (0 - |z - 0|)) - log 2 under a guard `z - 0 ≠ z - 0` that never fires on the
  extended reals, and `ssp_host` says that the host's spelling, with a negation in place of the subtraction
  from zero, is the same number.
-/
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx

/-- Entry (r, j) of the product of an [R, K] matrix and a [K, C] matrix: the sum over k of X (r, k) * W (k, j). -/
def mm {R K C : Nat} (X : (⟨2, ![R, K]⟩ : Shape).Idx → EReal) (W : (⟨2, ![K, C]⟩ : Shape).Idx → EReal) :
    (⟨2, ![R, C]⟩ : Shape).Idx → EReal :=
  fun i => ∑ k : Fin K, X (ix2 (i 0) k) * W (ix2 k (i 1))

/-- A product into the zero accumulator, with dimension numbers that contract the left operand's second axis
    with the right operand's first, is `mm` at every output index. -/
theorem matmul_zero_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision)
    (lhs : FVec Ideal ⟨2, ![R, K]⟩ φ₁) (rhs : FVec Ideal ⟨2, ![K, C]⟩ φ₂) (j : (⟨2, ![R, C]⟩ : Shape).Idx) :
    FloatOps.matmul D prec lhs rhs (constant ⟨2, ![R, C]⟩ .f32 0x00000000#32) j = mm lhs rhs j := by
  rw [Ideal.matmul_constant_zero_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- The host's product of the same operands is the same sum. -/
theorem dotGeneral_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision) (sched : HostSchedule)
    (lhs : FVec Ideal ⟨2, ![R, K]⟩ φ₁) (rhs : FVec Ideal ⟨2, ![K, C]⟩ φ₂) (j : (⟨2, ![R, C]⟩ : Shape).Idx) :
    FloatOps.dotGeneral D prec sched lhs rhs j = mm lhs rhs j := by
  rw [Ideal.dotGeneral_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- Two products agree at two entries when the left operands agree along the two rows and the right operands
    along the two columns. -/
theorem mm_congr {R R' K C C' : Nat} {X : (⟨2, ![R, K]⟩ : Shape).Idx → EReal} {X' : (⟨2, ![R', K]⟩ : Shape).Idx → EReal}
    {W : (⟨2, ![K, C]⟩ : Shape).Idx → EReal} {W' : (⟨2, ![K, C']⟩ : Shape).Idx → EReal}
    (i : (⟨2, ![R, C]⟩ : Shape).Idx) (i' : (⟨2, ![R', C']⟩ : Shape).Idx)
    (hX : ∀ k : Fin K, X (ix2 (i 0) k) = X' (ix2 (i' 0) k))
    (hW : ∀ k : Fin K, W (ix2 k (i 1)) = W' (ix2 k (i' 1))) : mm X W i = mm X' W' i' := by
  unfold mm
  exact Finset.sum_congr rfl fun k _ => by rw [hX k, hW k]

/-- The zero and the shift of the softplus, as the float words both programs spell. -/
abbrev z0 : EReal := Ideal.ofBits .f32 0x00000000#32
abbrev ln2 : EReal := Ideal.ofBits .f32 0x3F317218#32

/-- The shifted softplus of one extended real, in the kernel's spelling. -/
def ssp (z : EReal) : EReal :=
  Scalar.select (Ideal.cmp .one (z - z0) (z - z0)) (z + z0)
    (max z z0 + Ideal.log1p (Ideal.exp (z0 - max (z - z0) (-(z - z0))))) - ln2

/-- The host's spelling: the unordered comparison in the guard (the same comparison on a linear order) and a
    negation where the kernel subtracts from zero. -/
theorem ssp_host (z : EReal) :
    Scalar.select (Ideal.cmp .une (z - z0) (z - z0)) (z + z0)
      (max z z0 + Ideal.log1p (Ideal.exp (-(max (z - z0) (-(z - z0)))))) - ln2 = ssp z := by
  unfold ssp
  have h0 : ∀ a : EReal, z0 - a = -a := fun a => by
    show Ideal.ofBits .f32 0x00000000#32 - a = -a
    rw [Ideal.ofBits_zero_f32, zero_sub]
  rw [h0]
  rfl

/-! ## The layers of the interaction block, entry by entry

  A bias is kept as the [1, C] row both programs hand to the layer; the per-edge distance as an [E, 1] column. -/

/-- The cosine cutoff's constants, as the float words both programs spell: π/10 rounded to f32, one, one half. -/
abbrev kpi : EReal := Ideal.ofBits .f32 0x3EA0D97C#32
abbrev one : EReal := Ideal.ofBits .f32 0x3F800000#32
abbrev half : EReal := Ideal.ofBits .f32 0x3F000000#32

/-- A length-C vector as the [1, C] row a layer takes its bias as, and a length-E vector as an [E, 1] column. -/
def row {C : Nat} (b : (⟨1, ![C]⟩ : Shape).Idx → EReal) : (⟨2, ![1, C]⟩ : Shape).Idx → EReal := fun i => b (ix1 (i 1))
def col {E : Nat} (d : (⟨1, ![E]⟩ : Shape).Idx → EReal) : (⟨2, ![E, 1]⟩ : Shape).Idx → EReal := fun i => d (ix1 (i 0))

/-- A dense layer: entry (r, j) of X · W plus the bias row's entry j. -/
def lin {R K C : Nat} (X : (⟨2, ![R, K]⟩ : Shape).Idx → EReal) (W : (⟨2, ![K, C]⟩ : Shape).Idx → EReal)
    (B : (⟨2, ![1, C]⟩ : Shape).Idx → EReal) : (⟨2, ![R, C]⟩ : Shape).Idx → EReal :=
  fun i => mm X W i + B (ix2 (0 : Fin 1) (i 1))

/-- The cosine cutoff of row r's distance d: one half of (cos (d · π/10) + 1). -/
def cutoff {R : Nat} (D : (⟨2, ![R, 1]⟩ : Shape).Idx → EReal) (r : Fin R) : EReal :=
  half * (Ideal.cos (D (ix2 r (0 : Fin 1)) * kpi) + one)

/-- Two dense layers with the shifted softplus between them. -/
def mlp {R K C C' : Nat} (X : (⟨2, ![R, K]⟩ : Shape).Idx → EReal) (W1 : (⟨2, ![K, C]⟩ : Shape).Idx → EReal)
    (B1 : (⟨2, ![1, C]⟩ : Shape).Idx → EReal) (W2 : (⟨2, ![C, C']⟩ : Shape).Idx → EReal)
    (B2 : (⟨2, ![1, C']⟩ : Shape).Idx → EReal) : (⟨2, ![R, C']⟩ : Shape).Idx → EReal :=
  lin (fun i' => ssp (lin X W1 B1 i')) W2 B2

/-- The edge filter: the two-layer filter network of an edge's features, times the edge's cutoff. -/
def edgeFilter {E K C C' : Nat} (A : (⟨2, ![E, K]⟩ : Shape).Idx → EReal) (D : (⟨2, ![E, 1]⟩ : Shape).Idx → EReal)
    (W1 : (⟨2, ![K, C]⟩ : Shape).Idx → EReal) (B1 : (⟨2, ![1, C]⟩ : Shape).Idx → EReal)
    (W2 : (⟨2, ![C, C']⟩ : Shape).Idx → EReal) (B2 : (⟨2, ![1, C']⟩ : Shape).Idx → EReal) :
    (⟨2, ![E, C']⟩ : Shape).Idx → EReal :=
  fun i => mlp A W1 B1 W2 B2 i * cutoff D (i 0)

/-- Two dense layers agree at an entry when their inputs agree on the entry's row and their weights and biases
    on its column. -/
theorem lin_congr {R R' K C : Nat} {X : (⟨2, ![R, K]⟩ : Shape).Idx → EReal} {X' : (⟨2, ![R', K]⟩ : Shape).Idx → EReal}
    {W W' : (⟨2, ![K, C]⟩ : Shape).Idx → EReal} {B B' : (⟨2, ![1, C]⟩ : Shape).Idx → EReal}
    (i : (⟨2, ![R, C]⟩ : Shape).Idx) (i' : (⟨2, ![R', C]⟩ : Shape).Idx) (h1 : i 1 = i' 1)
    (hX : ∀ k : Fin K, X (ix2 (i 0) k) = X' (ix2 (i' 0) k)) (hW : W = W') (hB : B = B') :
    lin X W B i = lin X' W' B' i' := by
  subst hW hB
  unfold lin mm
  rw [h1]
  exact congrArg (· + B (ix2 (0 : Fin 1) (i' 1))) (Finset.sum_congr rfl fun k _ => by rw [hX k])

end Cert.Dense

end
-- ==== Proof.Appnp.lean ====
/-
  The functions both programs compute, stated once over arrays of extended reals.

  A node's features go through a two-layer perceptron: a dense layer, the positive part, a second dense layer. The
  aggregated rows end in a classifier head: the positive part, a dense layer into eight logits, and the log of the
  softmax of those eight, written as the programs write it: the logits less their maximum, less the log of the sum of
  the exponentials of those differences.
-/
import proofs.«114530_j6519760355655_2_alg».proof.Proof.LibDense

noncomputable section

namespace Cert.Appnp

open Idealize.ShloMosaic Idealize.ShloMosaic.ValueIdx Cert.Dense

/-- The word of -∞, the start of a running maximum. -/
abbrev ninf : EReal := Ideal.ofBits .f32 0xFF800000#32

/-- The two-layer perceptron at entry (r, q): the second dense layer of the positive part of the first. -/
def perceptron {R : Nat} (X : (⟨2, ![R, 128]⟩ : Shape).Idx → EReal) (W0 : (⟨2, ![128, 128]⟩ : Shape).Idx → EReal)
    (B0 : (⟨2, ![1, 128]⟩ : Shape).Idx → EReal) (W1 : (⟨2, ![128, 128]⟩ : Shape).Idx → EReal)
    (B1 : (⟨2, ![1, 128]⟩ : Shape).Idx → EReal) : (⟨2, ![R, 128]⟩ : Shape).Idx → EReal :=
  lin (fun j => max (lin X W0 B0 j) z0) W1 B1

/-- The eight logits of row r: the dense layer of the positive part of the aggregated row. -/
def logits {R : Nat} (A : (⟨2, ![R, 128]⟩ : Shape).Idx → EReal) (W2 : (⟨2, ![128, 8]⟩ : Shape).Idx → EReal)
    (B2 : (⟨2, ![1, 8]⟩ : Shape).Idx → EReal) : (⟨2, ![R, 8]⟩ : Shape).Idx → EReal :=
  lin (fun j => max (A j) z0) W2 B2

/-- The log of the softmax of eight numbers, entry o: with m the maximum of -∞ and the running maximum of the eight
    from -∞, the number less m, less the log of zero plus the sum of the exponentials of the eight less m. -/
def logSoftmax8 (z : Fin 8 → EReal) (o : Fin 8) : EReal :=
  (z o - max ninf (Finset.univ.fold max ninf z))
    - Ideal.log (z0 + ∑ o' : Fin 8, Ideal.exp (z o' - max ninf (Finset.univ.fold max ninf z)))

/-- The classifier head at entry (r, o). -/
def head {R : Nat} (A : (⟨2, ![R, 128]⟩ : Shape).Idx → EReal) (W2 : (⟨2, ![128, 8]⟩ : Shape).Idx → EReal)
    (B2 : (⟨2, ![1, 8]⟩ : Shape).Idx → EReal) : (⟨2, ![R, 8]⟩ : Shape).Idx → EReal :=
  fun i => logSoftmax8 (fun o => logits A W2 B2 (ix2 (i 0) o)) (i 1)

/-- The perceptron of row r depends on row r of its input only. -/
theorem perceptron_congr {R R' : Nat} {X : (⟨2, ![R, 128]⟩ : Shape).Idx → EReal} {X' : (⟨2, ![R', 128]⟩ : Shape).Idx → EReal}
    {W0 B0 W1 B1} (i : (⟨2, ![R, 128]⟩ : Shape).Idx) (i' : (⟨2, ![R', 128]⟩ : Shape).Idx) (h1 : i 1 = i' 1)
    (hX : ∀ k : Fin 128, X (ix2 (i 0) k) = X' (ix2 (i' 0) k)) :
    perceptron X W0 B0 W1 B1 i = perceptron X' W0 B0 W1 B1 i' := by
  unfold perceptron
  refine lin_congr i i' h1 (fun k => ?_) rfl rfl
  exact congrArg (max · z0) (lin_congr (ix2 (i 0) k) (ix2 (i' 0) k) rfl hX rfl rfl)

/-- The head of row r depends on row r of the aggregated array only. -/
theorem head_congr {R R' : Nat} {A : (⟨2, ![R, 128]⟩ : Shape).Idx → EReal} {A' : (⟨2, ![R', 128]⟩ : Shape).Idx → EReal}
    {W2 B2} (i : (⟨2, ![R, 8]⟩ : Shape).Idx) (i' : (⟨2, ![R', 8]⟩ : Shape).Idx) (h1 : i 1 = i' 1)
    (hA : ∀ k : Fin 128, A (ix2 (i 0) k) = A' (ix2 (i' 0) k)) :
    head A W2 B2 i = head A' W2 B2 i' := by
  unfold head
  rw [h1]
  refine congrArg (fun z => logSoftmax8 z (i' 1)) (funext fun o => ?_)
  unfold logits
  exact lin_congr (ix2 (i 0) o) (ix2 (i' 0) o) rfl (fun k => congrArg (max · z0) (hA k)) rfl rfl

end Cert.Appnp

end
-- ==== Proof.KTerms.lean ====
/-
  The idealized kernel's result as one term of its arguments.

  The program gathers the batch nodes' feature rows, runs them through the perceptron kernel with the first attention
  weight in every row, and widens the result: the aggregated array's start. Each of the four hops gathers the hop's end
  nodes' rows, runs them through the same kernel with the row weights (the hop's attention weight times the product of
  the two inverse square-root degrees times the mean batch degree), widens, scatters the rows onto the batch rows the
  hop's heads name, starting from zeros, and adds that to the aggregated array. The classifier head of the last
  aggregated array is the result. The index columns, the weights and the attention scalars are the reference's own
  stages of the same arguments.
-/
import proofs.«114530_j6519760355655_2_alg».proof.Proof.Gen.KernelIdeal
import proofs.«114530_j6519760355655_2_alg».proof.Proof.RefRead
import proofs.«114530_j6519760355655_2_alg».proof.Proof.Appnp

noncomputable section

namespace Cert.KernelIdeal.Terms

open Cert.KernelIdeal Cert.KernelIdeal.Facts₀ Cert.KernelIdeal.Facts Idealize.ShloMosaic Idealize.ShloMosaic.ValueIdx Cert.Appnp
open Cert.ReferenceIdeal.ReadP (val_main_v1 val_main_v9 val_main_v11 val_main_v17 val_main_v64 val_main_v120 val_main_v176
  val_main_v232 val_main_v79 val_main_v135 val_main_v191 val_main_v247 val_main_v58 val_main_v114 val_main_v170 val_main_v226
  val_main_v31 val_main_v87 val_main_v143 val_main_v199)

variable (x0 : FVec Ideal S500000x128 .f32) (x1 : FVec Ideal S128x128 .f32) (x2 : FVec Ideal S128 .f32)
  (x3 : FVec Ideal S128x128 .f32) (x4 : FVec Ideal S128 .f32) (x5 : FVec Ideal S128x8 .f32) (x6 : FVec Ideal S8 .f32)
  (x7 : FVec Ideal S5 .f32) (x8 : FVec Ideal S500000 .f32) (x9 : IVec S32768 32)
  (x10 x11 : IVec S4x524288 32)

/-- The features, the two weight matrices in the narrow format; the two biases as rows. -/
def xb : FVec Ideal S500000x128 .bf16 := truncf .bf16 x0 bitsLt_bf16_f32
def w0c : FVec Ideal S128x128 .bf16 := truncf .bf16 x1 bitsLt_bf16_f32
def w1c : FVec Ideal S128x128 .bf16 := truncf .bf16 x3 bitsLt_bf16_f32
def b0r : FVec Ideal S1x128 .f32 := shapeCast S1x128 x2 shapeCasts_S128_S1x128
def b1r : FVec Ideal S1x128 .f32 := shapeCast S1x128 x4 shapeCasts_S128_S1x128

/-- The batch nodes' feature rows, and the self term's weight column: the first attention weight in every row. -/
def rows0 : FVec Ideal S32768x128 .bf16 :=
  Host.gather gather_S500000x128_S32768x1_S32768x128_1_0_n_n_0_1_1128 (xb x0) (val_main_v17 (F := Ideal) x9)
def wself : FVec Ideal S32768x1 .f32 := broadcastInDim S32768x1 ![] bcast_S_S32768x1 (val_main_v11 (F := Ideal) x7)

/-- A hop's gathered end rows, and its weight column: att · val down the rows. -/
def rowsE (idx : IVec S524288x1 32) : FVec Ideal S524288x128 .bf16 :=
  Host.gather gather_S500000x128_S524288x1_S524288x128_1_0_n_n_0_1_1128 (xb x0) idx
def wE (att : FVec Ideal S_ .f32) (val : FVec Ideal S524288 .f32) : FVec Ideal S524288x1 .f32 :=
  shapeCast S524288x1 (mulf (broadcastInDim S524288 ![] bcast_S_S524288 att) val) shapeCasts_S524288_S524288x1

/-- The self term's kernel output: the perceptron of the batch nodes' rows times the first attention weight. -/
def out0 : FVec Ideal S32768x128 .bf16 := fun i =>
  perceptron (R := 32768) (rows0 x0 x9) (w0c x1) (b0r x2) (w1c x3) (b1r x4) i * wself x7 (ix2 (i 0) (0 : Fin 1))

/-- A hop's kernel output: the perceptron of the gathered end rows times the row weights att · val. -/
def outE (idx : IVec S524288x1 32) (att : FVec Ideal S_ .f32) (val : FVec Ideal S524288 .f32) :
    FVec Ideal S524288x128 .bf16 := fun i =>
  perceptron (R := 524288) (rowsE x0 idx) (w0c x1) (b0r x2) (w1c x3) (b1r x4) i * wE att val (ix2 (i 0) (0 : Fin 1))

/-- The aggregated array's start: the self term widened. -/
def agg0 : FVec Ideal S32768x128 .f32 := extf .f32 (out0 x0 x1 x2 x3 x4 x7 x9) bitsLt_bf16_f32

/-- One hop's update: the hop's output rows widened and scattered, from zeros, onto the rows the heads name, added. -/
def aggStep (prev : FVec Ideal S32768x128 .f32) (heads : IVec S524288 32) (out : FVec Ideal S524288x128 .bf16) :
    FVec Ideal S32768x128 .f32 :=
  addf prev (Host.scatterAdd scatter_S32768x128_S524288x1_S524288x128_1_0_0_1
    (broadcastInDim S32768x128 ![] bcast_S_S32768x128 (constant S_ .f32 0x00000000#32))
    (broadcastInDim S524288x1 ![0] bcast_S524288_S524288x1_0 heads) (extf .f32 out bitsLt_bf16_f32))

def agg1 : FVec Ideal S32768x128 .f32 :=
  aggStep (agg0 x0 x1 x2 x3 x4 x7 x9) (val_main_v31 (F := Ideal) x10)
    (outE x0 x1 x2 x3 x4 (val_main_v64 (F := Ideal) x11) (val_main_v79 (F := Ideal) x7) (val_main_v58 (F := Ideal) x8 x9 x10 x11))
def agg2 : FVec Ideal S32768x128 .f32 :=
  aggStep (agg1 x0 x1 x2 x3 x4 x7 x8 x9 x10 x11) (val_main_v87 (F := Ideal) x10)
    (outE x0 x1 x2 x3 x4 (val_main_v120 (F := Ideal) x11) (val_main_v135 (F := Ideal) x7) (val_main_v114 (F := Ideal) x8 x9 x10 x11))
def agg3 : FVec Ideal S32768x128 .f32 :=
  aggStep (agg2 x0 x1 x2 x3 x4 x7 x8 x9 x10 x11) (val_main_v143 (F := Ideal) x10)
    (outE x0 x1 x2 x3 x4 (val_main_v176 (F := Ideal) x11) (val_main_v191 (F := Ideal) x7) (val_main_v170 (F := Ideal) x8 x9 x10 x11))
def agg4 : FVec Ideal S32768x128 .f32 :=
  aggStep (agg3 x0 x1 x2 x3 x4 x7 x8 x9 x10 x11) (val_main_v199 (F := Ideal) x10)
    (outE x0 x1 x2 x3 x4 (val_main_v232 (F := Ideal) x11) (val_main_v247 (F := Ideal) x7) (val_main_v226 (F := Ideal) x8 x9 x10 x11))

/-- The kernel's result: the classifier head of the last aggregated array. -/
def result : FVec Ideal S32768x8 .f32 :=
  head (R := 32768) (agg4 x0 x1 x2 x3 x4 x7 x8 x9 x10 x11) x5 (shapeCast S1x8 x6 shapeCasts_S8_S1x8)

end Cert.KernelIdeal.Terms

end
-- ==== Proof.ChainA.lean ====
/-
  The idealized kernel's buffers when its first region is entered.

  The host operations before the first region compute, from the arguments: the features and the two weight matrices
  in the narrow format (at the exact instance the same numbers), the bias vectors as rows, the inverse square roots of
  the degrees, the sum of the batch nodes' degrees, the batch nodes' feature rows, and the self term's weight column.
  Each is stated here as the same operations of the arguments that the reference's stages apply.
-/
import proofs.«114530_j6519760355655_2_alg».proof.Proof.Gen.KernelIdeal.Frame
import proofs.«114530_j6519760355655_2_alg».proof.Proof.RefRead
import proofs.«114530_j6519760355655_2_alg».proof.Proof.KTerms
set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem
open Cert.ReferenceIdeal.ReadP (val_main_v1 val_main_v9)
open Cert.KernelIdeal.Terms

variable (m : (ℓ : Loc nD τ sig) → Buf (Elt Ideal) ℓ) (ρ : Dev nD → PrngReg)

/-- Argument 0 as launched on core c. -/
abbrev A0 (c : Dev nD) := m ((c : Thread nD τ).loc main_arg0)
/-- Argument 1 as launched on core c. -/
abbrev A1 (c : Dev nD) := m ((c : Thread nD τ).loc main_arg1)
/-- Argument 2 as launched on core c. -/
abbrev A2 (c : Dev nD) := m ((c : Thread nD τ).loc main_arg2)
/-- Argument 3 as launched on core c. -/
abbrev A3 (c : Dev nD) := m ((c : Thread nD τ).loc main_arg3)
/-- Argument 4 as launched on core c. -/
abbrev A4 (c : Dev nD) := m ((c : Thread nD τ).loc main_arg4)
/-- Argument 5 as launched on core c. -/
abbrev A5 (c : Dev nD) := m ((c : Thread nD τ).loc main_arg5)
/-- Argument 6 as launched on core c. -/
abbrev A6 (c : Dev nD) := m ((c : Thread nD τ).loc main_arg6)
/-- Argument 7 as launched on core c. -/
abbrev A7 (c : Dev nD) := m ((c : Thread nD τ).loc main_arg7)
/-- Argument 8 as launched on core c. -/
abbrev A8 (c : Dev nD) := m ((c : Thread nD τ).loc main_arg8)
/-- Argument 9 as launched on core c. -/
abbrev A9 (c : Dev nD) := m ((c : Thread nD τ).loc main_arg9)
/-- Argument 10 as launched on core c. -/
abbrev A10 (c : Dev nD) := m ((c : Thread nD τ).loc main_arg10)
/-- Argument 11 as launched on core c. -/
abbrev A11 (c : Dev nD) := m ((c : Thread nD τ).loc main_arg11)

/-- The features in the narrow format. -/
theorem w1_v10 (c : Dev nD) : W1 m ρ c (Proc.devRef .tc main_v10) = xb (A0 m c) := by
  show StableHlo.after hostOps0 (W0 m ρ c) (Proc.devRef .tc main_v10) = _
  after_results_simp <;> rfl
/-- The first weight matrix in the narrow format. -/
theorem w1_v11 (c : Dev nD) : W1 m ρ c (Proc.devRef .tc main_v11) = w0c (A1 m c) := by
  show StableHlo.after hostOps0 (W0 m ρ c) (Proc.devRef .tc main_v11) = _
  after_results_simp <;> rfl
/-- The second weight matrix in the narrow format. -/
theorem w1_v12 (c : Dev nD) : W1 m ρ c (Proc.devRef .tc main_v12) = w1c (A3 m c) := by
  show StableHlo.after hostOps0 (W0 m ρ c) (Proc.devRef .tc main_v12) = _
  after_results_simp <;> rfl
/-- The first bias as a row. -/
theorem w1_v13 (c : Dev nD) : W1 m ρ c (Proc.devRef .tc main_v13) = b0r (A2 m c) := by
  show StableHlo.after hostOps0 (W0 m ρ c) (Proc.devRef .tc main_v13) = _
  after_results_simp <;> rfl
/-- The second bias as a row. -/
theorem w1_v14 (c : Dev nD) : W1 m ρ c (Proc.devRef .tc main_v14) = b1r (A4 m c) := by
  show StableHlo.after hostOps0 (W0 m ρ c) (Proc.devRef .tc main_v14) = _
  after_results_simp <;> rfl
/-- The inverse square roots of the degrees. -/
theorem w1_v1 (c : Dev nD) : W1 m ρ c (Proc.devRef .tc main_v1) = val_main_v1 (F := Ideal) (A8 m c) := by
  show StableHlo.after hostOps0 (W0 m ρ c) (Proc.devRef .tc main_v1) = _
  after_results_simp <;> rfl
/-- The sum of the batch nodes' degrees. -/
theorem w1_v9 (c : Dev nD) : W1 m ρ c (Proc.devRef .tc main_v9) = val_main_v9 (F := Ideal) (A8 m c) (A9 m c) := by
  show StableHlo.after hostOps0 (W0 m ρ c) (Proc.devRef .tc main_v9) = _
  after_results_simp <;> rfl
/-- The batch nodes' feature rows. -/
theorem w1_v21 (c : Dev nD) : W1 m ρ c (Proc.devRef .tc main_v21) = rows0 (A0 m c) (A9 m c) := by
  show StableHlo.after hostOps0 (W0 m ρ c) (Proc.devRef .tc main_v21) = _
  after_results_simp <;> rfl
/-- The self term's weight column. -/
theorem w1_v24 (c : Dev nD) : W1 m ρ c (Proc.devRef .tc main_v24) = wself (A7 m c) := by
  show StableHlo.after hostOps0 (W0 m ρ c) (Proc.devRef .tc main_v24) = _
  after_results_simp <;> rfl
/-- Argument 5 is as launched. -/
theorem w1_arg5 (c : Dev nD) : W1 m ρ c (Proc.devRef .tc main_arg5) = A5 m c := by
  show StableHlo.after hostOps0 (W0 m ρ c) (Proc.devRef .tc main_arg5) = _
  after_results_simp <;> rfl
/-- Argument 6 is as launched. -/
theorem w1_arg6 (c : Dev nD) : W1 m ρ c (Proc.devRef .tc main_arg6) = A6 m c := by
  show StableHlo.after hostOps0 (W0 m ρ c) (Proc.devRef .tc main_arg6) = _
  after_results_simp <;> rfl
/-- Argument 7 is as launched. -/
theorem w1_arg7 (c : Dev nD) : W1 m ρ c (Proc.devRef .tc main_arg7) = A7 m c := by
  show StableHlo.after hostOps0 (W0 m ρ c) (Proc.devRef .tc main_arg7) = _
  after_results_simp <;> rfl
/-- Argument 9 is as launched. -/
theorem w1_arg9 (c : Dev nD) : W1 m ρ c (Proc.devRef .tc main_arg9) = A9 m c := by
  show StableHlo.after hostOps0 (W0 m ρ c) (Proc.devRef .tc main_arg9) = _
  after_results_simp <;> rfl
/-- Argument 10 is as launched. -/
theorem w1_arg10 (c : Dev nD) : W1 m ρ c (Proc.devRef .tc main_arg10) = A10 m c := by
  show StableHlo.after hostOps0 (W0 m ρ c) (Proc.devRef .tc main_arg10) = _
  after_results_simp <;> rfl
/-- Argument 11 is as launched. -/
theorem w1_arg11 (c : Dev nD) : W1 m ρ c (Proc.devRef .tc main_arg11) = A11 m c := by
  show StableHlo.after hostOps0 (W0 m ρ c) (Proc.devRef .tc main_arg11) = _
  after_results_simp <;> rfl

end Cert.KernelIdeal.Chain

end
-- ==== Proof.LibLayoutCol.lean ====
/-
  Two layout operations read at an index written by coordinates, for a column kept after a reduction along the
  rows' second axis: a vector of length a viewed as an [a, 1] column, and an [a, 1] column repeated along b columns.
  They complete the leading-unit-axis forms of the library's ValueLayout file.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Body.lean ====
/-
  The two kernel bodies, read at an entry.

  The perceptron's body stores, at entry (p, q), the two-layer perceptron of row p at q — a dense layer, the positive
  part, a second dense layer — times the scale of row p. The head's body stores, at entry (p, o), the log of the softmax
  of row p's eight logits at o: the logit less m, less the log of the sum over the eight lanes of the exponentials of the
  logits less m, where m is the maximum of -∞ and the running maximum of the eight logits from -∞.

  Each dense layer is a product into a zero accumulator plus a bias row repeated along the rows; a change of float format
  is the identity on the extended reals; a maximum or a sum over the lanes of row p ranges over the entries (p, o'); and a
  number per row, kept as a one-column array and repeated along the lanes, reads at (p, o) as the number of row p.
-/
import proofs.«114530_j6519760355655_2_alg».proof.Proof.Gen.KernelIdeal.Skeleton
import proofs.«114530_j6519760355655_2_alg».proof.Proof.Appnp
import proofs.«114530_j6519760355655_2_alg».proof.Proof.LibLayoutCol
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Dense Cert.Appnp

/-! ### The product's operand indices (S4096x128 by S128x128): the left operand is read at (row of the entry, k), the right at (k, column of the entry) -/

theorem dotP_l0 (i : S4096x128.Idx) (q : dot_S4096x128_S128x128_S4096x128_1_0_0_1_n_n.contr.Idx) : (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl

theorem dotP_l1 (i : S4096x128.Idx) (q : dot_S4096x128_S128x128_S4096x128_1_0_0_1_n_n.contr.Idx) : (dot_S4096x128_S128x128_S4096x128_1_0_0_1_n_n.lhsIdx i q 1).val = (q ⟨0, by decide⟩).val :=
  dot_S4096x128_S128x128_S4096x128_1_0_0_1_n_n.lhsIdx_val_of_single rfl i q

theorem dotP_r0 (i : S4096x128.Idx) (q : dot_S4096x128_S128x128_S4096x128_1_0_0_1_n_n.contr.Idx) : (dot_S4096x128_S128x128_S4096x128_1_0_0_1_n_n.rhsIdx i q 0).val = (q ⟨0, by decide⟩).val :=
  dot_S4096x128_S128x128_S4096x128_1_0_0_1_n_n.rhsIdx_val_of_single rfl i q

theorem dotP_r1 (i : S4096x128.Idx) (q : dot_S4096x128_S128x128_S4096x128_1_0_0_1_n_n.contr.Idx) : (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-! ### The product's operand indices (S8192x128 by S128x8): the left operand is read at (row of the entry, k), the right at (k, column of the entry) -/

theorem dotH_l0 (i : S8192x8.Idx) (q : dot_S8192x128_S128x8_S8192x8_1_0_0_1_n_n.contr.Idx) : (dot_S8192x128_S128x8_S8192x8_1_0_0_1_n_n.lhsIdx i q 0).val = (i 0).val := by
  unfold DotDims.lhsIdx
  rw [dif_neg (show ¬(0 : Fin S8192x128.rank) ∈ dot_S8192x128_S128x8_S8192x8_1_0_0_1_n_n.lhsBatch by decide), dif_pos (show (0 : Fin S8192x128.rank) ∈ dot_S8192x128_S128x8_S8192x8_1_0_0_1_n_n.lhsNonContracting by decide)]
  rfl

theorem dotH_l1 (i : S8192x8.Idx) (q : dot_S8192x128_S128x8_S8192x8_1_0_0_1_n_n.contr.Idx) : (dot_S8192x128_S128x8_S8192x8_1_0_0_1_n_n.lhsIdx i q 1).val = (q ⟨0, by decide⟩).val :=
  dot_S8192x128_S128x8_S8192x8_1_0_0_1_n_n.lhsIdx_val_of_single rfl i q

theorem dotH_r0 (i : S8192x8.Idx) (q : dot_S8192x128_S128x8_S8192x8_1_0_0_1_n_n.contr.Idx) : (dot_S8192x128_S128x8_S8192x8_1_0_0_1_n_n.rhsIdx i q 0).val = (q ⟨0, by decide⟩).val :=
  dot_S8192x128_S128x8_S8192x8_1_0_0_1_n_n.rhsIdx_val_of_single rfl i q

theorem dotH_r1 (i : S8192x8.Idx) (q : dot_S8192x128_S128x8_S8192x8_1_0_0_1_n_n.contr.Idx) : (dot_S8192x128_S128x8_S8192x8_1_0_0_1_n_n.rhsIdx i q 1).val = (i 1).val := by
  unfold DotDims.rhsIdx
  rw [dif_neg (show ¬(1 : Fin S128x8.rank) ∈ dot_S8192x128_S128x8_S8192x8_1_0_0_1_n_n.rhsBatch by decide), dif_pos (show (1 : Fin S128x8.rank) ∈ dot_S8192x128_S128x8_S8192x8_1_0_0_1_n_n.rhsNonContracting by decide)]
  rfl

/-- A dense layer of the perceptron at an entry: the product into the zero accumulator plus the bias row repeated along the rows. -/
theorem layerP {φ₁ φ₂ : FTy} (X : FVec Ideal S4096x128 φ₁) (W : FVec Ideal S128x128 φ₂) (B : FVec Ideal S1x128 .f32)
    (h : S1x128.Broadcasts S4096x128) (p : Fin 4096) (q : Fin 128) :
    addf (matmul dot_S4096x128_S128x128_S4096x128_1_0_0_1_n_n none X W (constant (F := Ideal) S4096x128 .f32 0x00000000#32)) (broadcastTo S4096x128 B h) (ix2 p q)
      = lin X W B (ix2 p q) := by
  show FloatOps.matmul dot_S4096x128_S128x128_S4096x128_1_0_0_1_n_n none X W (constant S4096x128 .f32 0x00000000#32) (ix2 p q) + broadcastTo S4096x128 B h (ix2 p q)
      = mm X W (ix2 p q) + B (ix2 (0 : Fin 1) q)
  rw [matmul_zero_eq dot_S4096x128_S128x128_S4096x128_1_0_0_1_n_n rfl rfl dotP_l0 dotP_l1 dotP_r0 dotP_r1, broadcastTo_1b_ab_apply]

/-- The head's dense layer at an entry. -/
theorem layerH {φ₁ φ₂ : FTy} (X : FVec Ideal S8192x128 φ₁) (W : FVec Ideal S128x8 φ₂) (B : FVec Ideal S1x8 .f32)
    (h : S1x8.Broadcasts S8192x8) (p : Fin 8192) (o : Fin 8) :
    addf (matmul dot_S8192x128_S128x8_S8192x8_1_0_0_1_n_n none X W (constant (F := Ideal) S8192x8 .f32 0x00000000#32)) (broadcastTo S8192x8 B h) (ix2 p o)
      = lin X W B (ix2 p o) := by
  show FloatOps.matmul dot_S8192x128_S128x8_S8192x8_1_0_0_1_n_n none X W (constant S8192x8 .f32 0x00000000#32) (ix2 p o) + broadcastTo S8192x8 B h (ix2 p o)
      = mm X W (ix2 p o) + B (ix2 (0 : Fin 1) o)
  rw [matmul_zero_eq dot_S8192x128_S128x8_S8192x8_1_0_0_1_n_n rfl rfl dotH_l0 dotH_l1 dotH_r0 dotH_r1, broadcastTo_1b_ab_apply]

/-! ### The lanes of a row: the running maximum, the sum, and a per-row number repeated along the lanes -/

/-- The index the reduction inserts lane o' into at row p is (p, o'). -/
theorem lift_row (h : S8192x8.Reduces [1] S8192) (p : Fin 8192) (o' : Fin 8) : h.lift (ix1 p) o' = ix2 p o' :=
  funext fun a => Fin.ext (by
    match a with
    | ⟨0, _⟩ => rfl
    | ⟨1, _⟩ => rfl)

/-- The maximum over the lanes of row p, from -∞. -/
theorem rowMax (x : FVec Ideal S8192x8 .f32) (h : S8192x8.Reduces [1] S8192) (hφ : FKind.Formats .f32)
    (hacc : (0xFF800000#32 : BitVec 32) = 0xFF800000#32) (p : Fin 8192) :
    multiReduction .maximumf [1] S8192 x 0xFF800000#32 h hφ hacc (ix1 p)
      = Finset.univ.fold max ninf (fun o' : Fin 8 => x (ix2 p o')) := by
  refine (Ideal.multiReduction_maximumf_single x _ h hφ hacc (ix1 p)).trans ?_
  have e : (x ∘ h.lift (ix1 p)) = fun o' : Fin 8 => x (ix2 p o') := funext fun o' => congrArg x (lift_row h p o')
  exact congrArg (fun f : Fin 8 → EReal => Finset.univ.fold max ninf f) e

/-- The sum over the lanes of row p. -/
theorem rowSum (x : FVec Ideal S8192x8 .f32) (h : S8192x8.Reduces [1] S8192) (hφ : FKind.Formats .f32)
    (hacc : (0x00000000#32 : BitVec 32) = 0x00000000#32) (p : Fin 8192) :
    multiReduction .add [1] S8192 x 0x00000000#32 h hφ hacc (ix1 p) = ∑ o' : Fin 8, x (ix2 p o') := by
  refine (Ideal.multiReduction_add_single x _ h hφ hacc (ix1 p)).trans ?_
  exact Finset.sum_congr rfl fun o' _ => congrArg x (lift_row h p o')

/-- A number per row, kept as a column and repeated along the eight lanes, reads at (p, o) the row's number. -/
theorem keep (v : FVec Ideal S8192 .f32) (hc : S8192.ShapeCasts S8192x1) (hb : S8192x1.Broadcasts S8192x8)
    (p : Fin 8192) (o : Fin 8) : broadcastTo S8192x8 (shapeCast S8192x1 v hc) hb (ix2 p o) = v (ix1 p) :=
  (broadcastTo_a1_ab_apply _ hb p o).trans (shapeCast_a_a1_apply v hc p 0)

/-- The same with the logarithm taken on the column. -/
theorem keepLog (v : FVec Ideal S8192 .f32) (hc : S8192.ShapeCasts S8192x1) (hb : S8192x1.Broadcasts S8192x8)
    (p : Fin 8192) (o : Fin 8) :
    broadcastTo S8192x8 (log (shapeCast S8192x1 v hc)) hb (ix2 p o) = Ideal.log (v (ix1 p)) :=
  (broadcastTo_a1_ab_apply _ hb p o).trans (congrArg Ideal.log (shapeCast_a_a1_apply v hc p 0))

/-- The log-softmax of the rows of an [8192, 8] array, as the head spells it, at entry (p, o). -/
theorem logSoftmax_rows (x : FVec Ideal S8192x8 .f32) (hr : S8192x8.Reduces [1] S8192) (hφ : FKind.Formats .f32)
    (haccM : (0xFF800000#32 : BitVec 32) = 0xFF800000#32) (haccS : (0x00000000#32 : BitVec 32) = 0x00000000#32)
    (hc : S8192.ShapeCasts S8192x1) (hb : S8192x1.Broadcasts S8192x8) (p : Fin 8192) (o : Fin 8) :
    subf (subf x (broadcastTo S8192x8 (shapeCast S8192x1 (maximumf (broadcast S8192 (Scalar.ofBits (F := Ideal) .f32 0xFF800000#32))
              (multiReduction .maximumf [1] S8192 x 0xFF800000#32 hr hφ haccM)) hc) hb))
         (broadcastTo S8192x8 (log (shapeCast S8192x1 (multiReduction .add [1] S8192
              (exp (subf x (broadcastTo S8192x8 (shapeCast S8192x1 (maximumf (broadcast S8192 (Scalar.ofBits (F := Ideal) .f32 0xFF800000#32))
                (multiReduction .maximumf [1] S8192 x 0xFF800000#32 hr hφ haccM)) hc) hb)))
              0x00000000#32 hr hφ haccS) hc)) hb) (ix2 p o)
      = logSoftmax8 (fun o' => x (ix2 p o')) o := by
  generalize hMb : broadcastTo S8192x8 (shapeCast S8192x1 (maximumf (broadcast S8192 (Scalar.ofBits (F := Ideal) .f32 0xFF800000#32))
              (multiReduction .maximumf [1] S8192 x 0xFF800000#32 hr hφ haccM)) hc) hb = Mb
  have hM : ∀ o' : Fin 8, Mb (ix2 p o') = max ninf (Finset.univ.fold max ninf (fun o'' : Fin 8 => x (ix2 p o''))) := fun o' => by
    subst hMb
    exact (keep _ hc hb p o').trans (congrArg (max ninf) (rowMax x hr hφ haccM p))
  show (x (ix2 p o) - Mb (ix2 p o))
      - broadcastTo S8192x8 (log (shapeCast S8192x1 (multiReduction .add [1] S8192 (exp (subf x Mb)) 0x00000000#32 hr hφ haccS) hc)) hb (ix2 p o) = _
  rw [keepLog, rowSum]
  show (x (ix2 p o) - Mb (ix2 p o)) - Ideal.log (∑ o' : Fin 8, Ideal.exp (x (ix2 p o') - Mb (ix2 p o'))) = _
  simp only [hM]
  unfold logSoftmax8
  have hz : z0 = 0 := Ideal.ofBits_zero_f32
  rw [hz, zero_add]

/-! ### The perceptron's body at an entry -/

/-- The positive part, then the change of format (the identity on the extended reals), at an index. -/
theorem posPartP (X : FVec Ideal S4096x128 .f32) (hb : FTy.bits .bf16 < FTy.bits .f32) (j : S4096x128.Idx) :
    truncf .bf16 (maximumf X (broadcast S4096x128 (Scalar.ofBits (F := Ideal) .f32 0x00000000#32))) hb j = max (X j) z0 := rfl

/-- The row scale: the product with the [4096, 1] column repeated along the rows' entries, at an entry. -/
theorem scaled (A : FVec Ideal S4096x128 .f32) (C : FVec Ideal S4096x1 .f32) (h : S4096x1.Broadcasts S4096x128)
    (hb : FTy.bits .bf16 < FTy.bits .f32) (p : Fin 4096) (q : Fin 128) :
    truncf .bf16 (mulf A (broadcastTo S4096x128 C h)) hb (ix2 p q) = A (ix2 p q) * C (ix2 p (0 : Fin 1)) :=
  congrArg (A (ix2 p q) * ·) (broadcastTo_a1_ab_apply C h p q)

/-- The perceptron's body at entry (p, q): the two-layer perceptron of row p at q, times row p's scale. -/
theorem perceptron_payload (v0 : Vec Ideal S4096x128 .bf16) (v2 : Vec Ideal S128x128 .bf16) (v5 : Vec Ideal S1x128 .f32)
    (v12 : Vec Ideal S128x128 .bf16) (v15 : Vec Ideal S1x128 .f32) (v19 : Vec Ideal S4096x1 .f32) (p : Fin 4096) (q : Fin 128) :
    k0_pay1 (F := Ideal) v0 v2 v5 v12 v15 v19 (ix2 p q)
      = perceptron v0 v2 v5 v12 v15 (ix2 p q) * v19 (ix2 p (0 : Fin 1)) := by
  unfold k0_pay1
  simp only [shapeCast_self]
  refine (scaled _ v19 _ _ p q).trans (congrArg (· * v19 (ix2 p (0 : Fin 1))) ?_)
  refine (layerP _ v12 v15 _ p q).trans ?_
  unfold perceptron
  exact lin_congr (ix2 p q) (ix2 p q) rfl (fun k => congrArg (max · z0) (layerP v0 v2 v5 _ p k)) rfl rfl

/-- The five perceptron bodies are one term. -/
theorem pay1_1 : @k1_pay1 Ideal _ = @k0_pay1 Ideal _ := rfl
theorem pay1_2 : @k2_pay1 Ideal _ = @k0_pay1 Ideal _ := rfl
theorem pay1_3 : @k3_pay1 Ideal _ = @k0_pay1 Ideal _ := rfl
theorem pay1_4 : @k4_pay1 Ideal _ = @k0_pay1 Ideal _ := rfl

/-! ### The head's body at an entry -/

/-- The head's body at entry (p, o): the log-softmax of row p's eight logits, at o. -/
theorem head_payload (v0 : Vec Ideal S8192x128 .f32) (v5 : Vec Ideal S128x8 .f32) (v8 : Vec Ideal S1x8 .f32)
    (p : Fin 8192) (o : Fin 8) :
    k5_pay1 (F := Ideal) v0 v5 v8 (ix2 p o) = head v0 v5 v8 (ix2 p o) := by
  unfold k5_pay1
  simp only [shapeCast_self]
  refine (logSoftmax_rows _ _ _ _ _ _ _ p o).trans ?_
  unfold head
  refine congrArg (fun z => logSoftmax8 z o) (funext fun o' => ?_)
  unfold logits
  refine (layerH _ _ v8 _ p o').trans ?_
  exact lin_congr (ix2 p o') (ix2 p o') rfl (fun k => rfl) rfl rfl

end Cert.KernelIdeal.Body

end
-- ==== Proof.Region0.lean ====
/-
  Region 0: the perceptron kernel's output array after its run.

  The grid cuts the 32768 rows into 8 blocks of 4096. Point t stages rows 4096·t … 4096·t + 4095 of the feature array and
  of the weight column, and the two weight matrices and the two bias rows whole; what it writes back is, entry by
  entry, the perceptron of the staged rows times the staged weights. The blocks tile the array, so the array ends
  holding, at every entry (r, q), the perceptron of row r of the features times the weight of row r.
-/
import proofs.«114530_j6519760355655_2_alg».proof.Proof.Gen.KernelIdeal.Frame
import proofs.«114530_j6519760355655_2_alg».proof.Proof.Body
import proofs.«114530_j6519760355655_2_alg».proof.Proof.Appnp

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem Cert.Dense Cert.Appnp
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The array the region leaves: entry (r, q) is the perceptron of row r of the features times row r's weight. -/
def G (c : Dev nD) : S32768x128.Idx → EReal := fun i =>
  perceptron (R := 32768) (V c main_v21 : S32768x128.Idx → EReal) (V c main_v11 : S128x128.Idx → EReal) (V c main_v13 : S1x128.Idx → EReal)
    (V c main_v12 : S128x128.Idx → EReal) (V c main_v14 : S1x128.Idx → EReal) i * (V c main_v24 : S32768x1.Idx → EReal) (ix2 (i 0) (0 : Fin 1))

/-- The index maps over the grid: the features, the weight column and the output move together down the rows; the
    matrices and the bias rows stay at their one block. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 7 :=
  (by decide +kernel : ∀ t : Fin grid0.N, _)

/-- Every block of rows is some point's. -/
theorem idx_onto : ∀ q0 : Fin 8, ∃ t : Fin cfg0.N, win0_6.index t = ![q0.val, 0] :=
  (by decide +kernel : ∀ q0 : Fin 8, ∃ t : Fin grid0.N, win0_6.index t = ![q0.val, 0])

/-- A window staged whole: its block at any point is its array. -/
theorem blk2 (c : Dev nD) (t : Fin cfg0.N) : iblk0 V c 2 t = (V c main_v11 : S128x128.Idx → EReal) := by
  funext y
  show V c main_v11 (((cfg0.win 2).blk t).view.emb y) = V c main_v11 y
  refine congrArg _ (funext fun a => Fin.ext ?_)
  obtain ⟨-, -, -, -, e0, e1, -⟩ := idx_facts t
  match a with
  | ⟨0, _⟩ => show win0_2.index t (0 : Fin 2) * 128 + 1 * (y 0).val = (y 0).val; omega
  | ⟨1, _⟩ => show win0_2.index t (1 : Fin 2) * 128 + 1 * (y 1).val = (y 1).val; omega
theorem blk3 (c : Dev nD) (t : Fin cfg0.N) : iblk0 V c 3 t = (V c main_v13 : S1x128.Idx → EReal) := by
  funext y
  show V c main_v13 (((cfg0.win 3).blk t).view.emb y) = V c main_v13 y
  refine congrArg _ (funext fun a => Fin.ext ?_)
  obtain ⟨-, -, -, -, -, -, e0, e1, -⟩ := idx_facts t
  match a with
  | ⟨0, _⟩ => show win0_3.index t (0 : Fin 2) * 1 + 1 * (y 0).val = (y 0).val; omega
  | ⟨1, _⟩ => show win0_3.index t (1 : Fin 2) * 128 + 1 * (y 1).val = (y 1).val; omega
theorem blk4 (c : Dev nD) (t : Fin cfg0.N) : iblk0 V c 4 t = (V c main_v12 : S128x128.Idx → EReal) := by
  funext y
  show V c main_v12 (((cfg0.win 4).blk t).view.emb y) = V c main_v12 y
  refine congrArg _ (funext fun a => Fin.ext ?_)
  obtain ⟨-, -, -, -, -, -, -, -, e0, e1, -⟩ := idx_facts t
  match a with
  | ⟨0, _⟩ => show win0_4.index t (0 : Fin 2) * 128 + 1 * (y 0).val = (y 0).val; omega
  | ⟨1, _⟩ => show win0_4.index t (1 : Fin 2) * 128 + 1 * (y 1).val = (y 1).val; omega
theorem blk5 (c : Dev nD) (t : Fin cfg0.N) : iblk0 V c 5 t = (V c main_v14 : S1x128.Idx → EReal) := by
  funext y
  show V c main_v14 (((cfg0.win 5).blk t).view.emb y) = V c main_v14 y
  refine congrArg _ (funext fun a => Fin.ext ?_)
  obtain ⟨-, -, -, -, -, -, -, -, -, -, e0, e1, -⟩ := idx_facts t
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Row p of the staged feature block is the feature array's row under row p of the output block. -/
theorem blk0 (c : Dev nD) (t : Fin cfg0.N) (y : S4096x128.Idx) (j : Fin 128) :
    iblk0 V c 0 t (ix2 (y 0) j) = (V c main_v21 : S32768x128.Idx → EReal) (ix2 ((((cfg0.win 6).blk t).view.emb y) 0) j) := by
  show V c main_v21 (((cfg0.win 0).blk t).view.emb (ix2 (y 0) j)) = V c main_v21 (ix2 ((((cfg0.win 6).blk t).view.emb y) 0) j)
  refine congrArg _ (funext fun a => Fin.ext ?_)
  obtain ⟨e0, e1, -⟩ := idx_facts t
  match a with
  | ⟨0, _⟩ => show win0_0.index t (0 : Fin 2) * 4096 + 1 * (y 0).val = win0_6.index t (0 : Fin 2) * 4096 + 1 * (y 0).val; omega
  | ⟨1, _⟩ => show win0_0.index t (1 : Fin 2) * 128 + 1 * j.val = j.val; omega

/-- Row p of the staged weight column is the weight of the row under row p of the output block. -/
theorem blk1 (c : Dev nD) (t : Fin cfg0.N) (y : S4096x128.Idx) :
    iblk0 V c 1 t (ix2 (y 0) (0 : Fin 1)) = (V c main_v24 : S32768x1.Idx → EReal) (ix2 ((((cfg0.win 6).blk t).view.emb y) 0) (0 : Fin 1)) := by
  show V c main_v24 (((cfg0.win 1).blk t).view.emb (ix2 (y 0) (0 : Fin 1))) = V c main_v24 (ix2 ((((cfg0.win 6).blk t).view.emb y) 0) (0 : Fin 1))
  refine congrArg _ (funext fun a => Fin.ext ?_)
  obtain ⟨-, -, e0, e1, -⟩ := idx_facts t
  match a with
  | ⟨0, _⟩ => show win0_1.index t (0 : Fin 2) * 4096 + 1 * (y 0).val = win0_6.index t (0 : Fin 2) * 4096 + 1 * (y 0).val; omega
  | ⟨1, _⟩ => show win0_1.index t (1 : Fin 2) * 1 + 1 * 0 = 0; omega

/-- WHAT POINT t WRITES BACK is its block of G. -/
theorem flushed (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S4096x128) hz, View.ld_unit_zero (S := S128x128) hz, View.ld_unit_zero (S := S1x128) hz,
    View.ld_unit_zero (S := S4096x1) hz]
  rw [blk2 V c t, blk3 V c t, blk4 V c t, blk5 V c t]
  funext y
  obtain ⟨p, q, rfl⟩ : ∃ (p : Fin 4096) (q : Fin 128), y = ix2 p q := ⟨y 0, y 1, eq_ix2 y⟩
  refine (Cert.KernelIdeal.Body.perceptron_payload (iblk0 V c 0 t) _ _ _ _ (iblk0 V c 1 t) p q).trans ?_
  show _ = G V c (((cfg0.win 6).blk t).view.emb (ix2 p q))
  unfold G
  refine congrArg₂ (· * ·) (perceptron_congr (ix2 p q) (((cfg0.win 6).blk t).view.emb (ix2 p q)) ?_ (fun j => blk0 V c t (ix2 p q) j))
    (blk1 V c t (ix2 p q))
  obtain ⟨-, -, -, -, -, -, -, -, -, -, -, -, e1, -⟩ := idx_facts t
  refine Fin.ext ?_
  show q.val = win0_6.index t (1 : Fin 2) * 128 + 1 * q.val
  omega

/-- An index of the array is in point t's block iff each coordinate is in the block's range on its axis. -/
theorem mem_blk (t : Fin cfg0.N) (i : S32768x128.Idx) :
    i ∈ ((cfg0.win 6).blk t).view.set ↔ ∀ a : Fin 2, win0_6.index t a * S4096x128.size a ≤ (i a).val
      ∧ (i a).val < win0_6.index t a * S4096x128.size a + S4096x128.size a := by
  show i ∈ ((View.whole main_v25).slice (win0_6.rect t)).set ↔ _
  rw [View.set_slice_whole, Rect.mem_set_unit]
  exact Iff.rfl

/-- The blocks tile the array: row r lies in the block of point r / 4096. -/
theorem cover (i : S32768x128.Idx) : ∃ t : Fin cfg0.N, (cfg0.win 6).flush t = true ∧ i ∈ ((cfg0.win 6).blk t).view.set := by
  have hi0 : (i 0).val < 32768 := (i 0).isLt
  have hi1 : (i 1).val < 128 := (i 1).isLt
  obtain ⟨t, ht⟩ := idx_onto ⟨(i 0).val / 4096, by omega⟩
  have q0 : win0_6.index t (0 : Fin 2) = (i 0).val / 4096 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 4096 ≤ (i 0).val ∧ (i 0).val < win0_6.index t (0 : Fin 2) * 4096 + 4096; omega
  | ⟨1, _⟩ => show win0_6.index t (1 : Fin 2) * 128 ≤ (i 1).val ∧ (i 1).val < win0_6.index t (1 : Fin 2) * 128 + 128; omega

/-- THE ARRAY after the region's write-backs. -/
theorem final (c : Dev nD) : (dat0 V c).arrAt 6 cfg0.N = G V c :=
  (dat0 V c).arrAt_eq_of_cover 6 (G V c) (fun t _ => flushed V c t) cover

end Cert.KernelIdeal.Region0

end
-- ==== Proof.Region1.lean ====
/-
  Region 1: the perceptron kernel's output array after its run.

  The grid cuts the 524288 rows into 128 blocks of 4096. Point t stages rows 4096·t … 4096·t + 4095 of the feature array and
  of the weight column, and the two weight matrices and the two bias rows whole; what it writes back is, entry by
  entry, the perceptron of the staged rows times the staged weights. The blocks tile the array, so the array ends
  holding, at every entry (r, q), the perceptron of row r of the features times the weight of row r.
-/
import proofs.«114530_j6519760355655_2_alg».proof.Proof.Gen.KernelIdeal.Frame
import proofs.«114530_j6519760355655_2_alg».proof.Proof.Body
import proofs.«114530_j6519760355655_2_alg».proof.Proof.Appnp

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem Cert.Dense Cert.Appnp
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The array the region leaves: entry (r, q) is the perceptron of row r of the features times row r's weight. -/
def G (c : Dev nD) : S524288x128.Idx → EReal := fun i =>
  perceptron (R := 524288) (V c main_v37 : S524288x128.Idx → EReal) (V c main_v11 : S128x128.Idx → EReal) (V c main_v13 : S1x128.Idx → EReal)
    (V c main_v12 : S128x128.Idx → EReal) (V c main_v14 : S1x128.Idx → EReal) i * (V c main_v67 : S524288x1.Idx → EReal) (ix2 (i 0) (0 : Fin 1))

/-- The index maps over the grid: the features, the weight column and the output move together down the rows; the
    matrices and the bias rows stay at their one block. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 127 :=
  (by decide +kernel : ∀ t : Fin grid1.N, _)

/-- Every block of rows is some point's. -/
theorem idx_onto : ∀ q0 : Fin 128, ∃ t : Fin cfg1.N, win1_6.index t = ![q0.val, 0] :=
  (by decide +kernel : ∀ q0 : Fin 128, ∃ t : Fin grid1.N, win1_6.index t = ![q0.val, 0])

/-- A window staged whole: its block at any point is its array. -/
theorem blk2 (c : Dev nD) (t : Fin cfg1.N) : iblk1 V c 2 t = (V c main_v11 : S128x128.Idx → EReal) := by
  funext y
  show V c main_v11 (((cfg1.win 2).blk t).view.emb y) = V c main_v11 y
  refine congrArg _ (funext fun a => Fin.ext ?_)
  obtain ⟨-, -, -, -, e0, e1, -⟩ := idx_facts t
  match a with
  | ⟨0, _⟩ => show win1_2.index t (0 : Fin 2) * 128 + 1 * (y 0).val = (y 0).val; omega
  | ⟨1, _⟩ => show win1_2.index t (1 : Fin 2) * 128 + 1 * (y 1).val = (y 1).val; omega
theorem blk3 (c : Dev nD) (t : Fin cfg1.N) : iblk1 V c 3 t = (V c main_v13 : S1x128.Idx → EReal) := by
  funext y
  show V c main_v13 (((cfg1.win 3).blk t).view.emb y) = V c main_v13 y
  refine congrArg _ (funext fun a => Fin.ext ?_)
  obtain ⟨-, -, -, -, -, -, e0, e1, -⟩ := idx_facts t
  match a with
  | ⟨0, _⟩ => show win1_3.index t (0 : Fin 2) * 1 + 1 * (y 0).val = (y 0).val; omega
  | ⟨1, _⟩ => show win1_3.index t (1 : Fin 2) * 128 + 1 * (y 1).val = (y 1).val; omega
theorem blk4 (c : Dev nD) (t : Fin cfg1.N) : iblk1 V c 4 t = (V c main_v12 : S128x128.Idx → EReal) := by
  funext y
  show V c main_v12 (((cfg1.win 4).blk t).view.emb y) = V c main_v12 y
  refine congrArg _ (funext fun a => Fin.ext ?_)
  obtain ⟨-, -, -, -, -, -, -, -, e0, e1, -⟩ := idx_facts t
  match a with
  | ⟨0, _⟩ => show win1_4.index t (0 : Fin 2) * 128 + 1 * (y 0).val = (y 0).val; omega
  | ⟨1, _⟩ => show win1_4.index t (1 : Fin 2) * 128 + 1 * (y 1).val = (y 1).val; omega
theorem blk5 (c : Dev nD) (t : Fin cfg1.N) : iblk1 V c 5 t = (V c main_v14 : S1x128.Idx → EReal) := by
  funext y
  show V c main_v14 (((cfg1.win 5).blk t).view.emb y) = V c main_v14 y
  refine congrArg _ (funext fun a => Fin.ext ?_)
  obtain ⟨-, -, -, -, -, -, -, -, -, -, e0, e1, -⟩ := idx_facts t
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Row p of the staged feature block is the feature array's row under row p of the output block. -/
theorem blk0 (c : Dev nD) (t : Fin cfg1.N) (y : S4096x128.Idx) (j : Fin 128) :
    iblk1 V c 0 t (ix2 (y 0) j) = (V c main_v37 : S524288x128.Idx → EReal) (ix2 ((((cfg1.win 6).blk t).view.emb y) 0) j) := by
  show V c main_v37 (((cfg1.win 0).blk t).view.emb (ix2 (y 0) j)) = V c main_v37 (ix2 ((((cfg1.win 6).blk t).view.emb y) 0) j)
  refine congrArg _ (funext fun a => Fin.ext ?_)
  obtain ⟨e0, e1, -⟩ := idx_facts t
  match a with
  | ⟨0, _⟩ => show win1_0.index t (0 : Fin 2) * 4096 + 1 * (y 0).val = win1_6.index t (0 : Fin 2) * 4096 + 1 * (y 0).val; omega
  | ⟨1, _⟩ => show win1_0.index t (1 : Fin 2) * 128 + 1 * j.val = j.val; omega

/-- Row p of the staged weight column is the weight of the row under row p of the output block. -/
theorem blk1 (c : Dev nD) (t : Fin cfg1.N) (y : S4096x128.Idx) :
    iblk1 V c 1 t (ix2 (y 0) (0 : Fin 1)) = (V c main_v67 : S524288x1.Idx → EReal) (ix2 ((((cfg1.win 6).blk t).view.emb y) 0) (0 : Fin 1)) := by
  show V c main_v67 (((cfg1.win 1).blk t).view.emb (ix2 (y 0) (0 : Fin 1))) = V c main_v67 (ix2 ((((cfg1.win 6).blk t).view.emb y) 0) (0 : Fin 1))
  refine congrArg _ (funext fun a => Fin.ext ?_)
  obtain ⟨-, -, e0, e1, -⟩ := idx_facts t
  match a with
  | ⟨0, _⟩ => show win1_1.index t (0 : Fin 2) * 4096 + 1 * (y 0).val = win1_6.index t (0 : Fin 2) * 4096 + 1 * (y 0).val; omega
  | ⟨1, _⟩ => show win1_1.index t (1 : Fin 2) * 1 + 1 * 0 = 0; omega

/-- WHAT POINT t WRITES BACK is its block of G. -/
theorem flushed (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S4096x128) hz, View.ld_unit_zero (S := S128x128) hz, View.ld_unit_zero (S := S1x128) hz,
    View.ld_unit_zero (S := S4096x1) hz]
  rw [blk2 V c t, blk3 V c t, blk4 V c t, blk5 V c t]
  rw [Cert.KernelIdeal.Body.pay1_1]
  funext y
  obtain ⟨p, q, rfl⟩ : ∃ (p : Fin 4096) (q : Fin 128), y = ix2 p q := ⟨y 0, y 1, eq_ix2 y⟩
  refine (Cert.KernelIdeal.Body.perceptron_payload (iblk1 V c 0 t) _ _ _ _ (iblk1 V c 1 t) p q).trans ?_
  show _ = G V c (((cfg1.win 6).blk t).view.emb (ix2 p q))
  unfold G
  refine congrArg₂ (· * ·) (perceptron_congr (ix2 p q) (((cfg1.win 6).blk t).view.emb (ix2 p q)) ?_ (fun j => blk0 V c t (ix2 p q) j))
    (blk1 V c t (ix2 p q))
  obtain ⟨-, -, -, -, -, -, -, -, -, -, -, -, e1, -⟩ := idx_facts t
  refine Fin.ext ?_
  show q.val = win1_6.index t (1 : Fin 2) * 128 + 1 * q.val
  omega

/-- An index of the array is in point t's block iff each coordinate is in the block's range on its axis. -/
theorem mem_blk (t : Fin cfg1.N) (i : S524288x128.Idx) :
    i ∈ ((cfg1.win 6).blk t).view.set ↔ ∀ a : Fin 2, win1_6.index t a * S4096x128.size a ≤ (i a).val
      ∧ (i a).val < win1_6.index t a * S4096x128.size a + S4096x128.size a := by
  show i ∈ ((View.whole main_v68).slice (win1_6.rect t)).set ↔ _
  rw [View.set_slice_whole, Rect.mem_set_unit]
  exact Iff.rfl

/-- The blocks tile the array: row r lies in the block of point r / 4096. -/
theorem cover (i : S524288x128.Idx) : ∃ t : Fin cfg1.N, (cfg1.win 6).flush t = true ∧ i ∈ ((cfg1.win 6).blk t).view.set := by
  have hi0 : (i 0).val < 524288 := (i 0).isLt
  have hi1 : (i 1).val < 128 := (i 1).isLt
  obtain ⟨t, ht⟩ := idx_onto ⟨(i 0).val / 4096, by omega⟩
  have q0 : win1_6.index t (0 : Fin 2) = (i 0).val / 4096 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 4096 ≤ (i 0).val ∧ (i 0).val < win1_6.index t (0 : Fin 2) * 4096 + 4096; omega
  | ⟨1, _⟩ => show win1_6.index t (1 : Fin 2) * 128 ≤ (i 1).val ∧ (i 1).val < win1_6.index t (1 : Fin 2) * 128 + 128; omega

/-- THE ARRAY after the region's write-backs. -/
theorem final (c : Dev nD) : (dat1 V c).arrAt 6 cfg1.N = G V c :=
  (dat1 V c).arrAt_eq_of_cover 6 (G V c) (fun t _ => flushed V c t) cover

end Cert.KernelIdeal.Region1

end
-- ==== Proof.ChainB.lean ====
/-
  The idealized kernel's buffers from the first region's exit to the second region's exit.

  A region leaves its output array holding the row-scaled perceptron of its input arrays as they stood when the region
  was entered, its input arrays as entered, and every other buffer as entered. A stretch of host operations writes
  its own results and leaves every other buffer alone. So the first region's output is the self term; the stretch
  after it widens that into the aggregated array's start and computes, from the arguments, the first hop's heads,
  gathered end rows and row weights; and the second region's output is the first hop's kernel output.
-/
import proofs.«114530_j6519760355655_2_alg».proof.Proof.Gen.KernelIdeal.Frame
import proofs.«114530_j6519760355655_2_alg».proof.Proof.RefRead
import proofs.«114530_j6519760355655_2_alg».proof.Proof.KTerms
import proofs.«114530_j6519760355655_2_alg».proof.Proof.ChainA
import proofs.«114530_j6519760355655_2_alg».proof.Proof.Region0
import proofs.«114530_j6519760355655_2_alg».proof.Proof.Region1

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem
open Cert.KernelIdeal.Terms Cert.Appnp
open Cert.ReferenceIdeal.ReadP (val_main_v1 val_main_v9 val_main_v31 val_main_v64 val_main_v79 val_main_v58)

variable (m : (ℓ : Loc nD τ sig) → Buf (Elt Ideal) ℓ) (ρ : Dev nD → PrngReg)

/-- Two row-scaled perceptron arrays are equal when their six operands are. -/
theorem rows_congr {R : Nat} {X X' : (⟨2, ![R, 128]⟩ : Shape).Idx → EReal} {W0 W0' W1 W1' : (⟨2, ![128, 128]⟩ : Shape).Idx → EReal}
    {B0 B0' B1 B1' : (⟨2, ![1, 128]⟩ : Shape).Idx → EReal} {S S' : (⟨2, ![R, 1]⟩ : Shape).Idx → EReal}
    (hX : X = X') (hW0 : W0 = W0') (hB0 : B0 = B0') (hW1 : W1 = W1') (hB1 : B1 = B1') (hS : S = S') :
    (fun i : (⟨2, ![R, 128]⟩ : Shape).Idx => perceptron X W0 B0 W1 B1 i * S (ValueIdx.ix2 (i 0) (0 : Fin 1)))
      = fun i => perceptron X' W0' B0' W1' B1' i * S' (ValueIdx.ix2 (i 0) (0 : Fin 1)) := by
  subst hX hW0 hB0 hW1 hB1 hS; rfl

/-! ## When the first region is left

  Its output holds the self term; its four whole input arrays and every buffer it does not touch are as entered. -/

/-- The self term's kernel output. -/
theorem w2_v25 (c : Dev nD) : W2 m ρ c (Proc.devRef .tc main_v25)
    = out0 (A0 m c) (A1 m c) (A2 m c) (A3 m c) (A4 m c) (A7 m c) (A9 m c) :=
  ((W2_arr m ρ c 6).trans (Region0.final (V1 m ρ) c)).trans
    (rows_congr (w1_v21 m ρ c) (w1_v11 m ρ c) (w1_v13 m ρ c) (w1_v12 m ρ c) (w1_v14 m ρ c) (w1_v24 m ρ c))
theorem w2_v11 (c : Dev nD) : W2 m ρ c (Proc.devRef .tc main_v11) = w0c (A1 m c) :=
  ((W2_arr m ρ c 2).trans (((dat0 (V1 m ρ) c).arrAt_in 2 rfl _).trans (A_eq0 (V1 m ρ) c 2))).trans (w1_v11 m ρ c)
theorem w2_v13 (c : Dev nD) : W2 m ρ c (Proc.devRef .tc main_v13) = b0r (A2 m c) :=
  ((W2_arr m ρ c 3).trans (((dat0 (V1 m ρ) c).arrAt_in 3 rfl _).trans (A_eq0 (V1 m ρ) c 3))).trans (w1_v13 m ρ c)
theorem w2_v12 (c : Dev nD) : W2 m ρ c (Proc.devRef .tc main_v12) = w1c (A3 m c) :=
  ((W2_arr m ρ c 4).trans (((dat0 (V1 m ρ) c).arrAt_in 4 rfl _).trans (A_eq0 (V1 m ρ) c 4))).trans (w1_v12 m ρ c)
theorem w2_v14 (c : Dev nD) : W2 m ρ c (Proc.devRef .tc main_v14) = b1r (A4 m c) :=
  ((W2_arr m ρ c 5).trans (((dat0 (V1 m ρ) c).arrAt_in 5 rfl _).trans (A_eq0 (V1 m ρ) c 5))).trans (w1_v14 m ρ c)
theorem w2_v10 (c : Dev nD) : W2 m ρ c (Proc.devRef .tc main_v10) = xb (A0 m c) :=
  (W2_of_ne m ρ c main_v10 (by decide)).trans (w1_v10 m ρ c)
theorem w2_v1 (c : Dev nD) : W2 m ρ c (Proc.devRef .tc main_v1) = val_main_v1 (F := Ideal) (A8 m c) :=
  (W2_of_ne m ρ c main_v1 (by decide)).trans (w1_v1 m ρ c)
theorem w2_v9 (c : Dev nD) : W2 m ρ c (Proc.devRef .tc main_v9) = val_main_v9 (F := Ideal) (A8 m c) (A9 m c) :=
  (W2_of_ne m ρ c main_v9 (by decide)).trans (w1_v9 m ρ c)
theorem w2_arg5 (c : Dev nD) : W2 m ρ c (Proc.devRef .tc main_arg5) = A5 m c :=
  (W2_of_ne m ρ c main_arg5 (by decide)).trans (w1_arg5 m ρ c)
theorem w2_arg6 (c : Dev nD) : W2 m ρ c (Proc.devRef .tc main_arg6) = A6 m c :=
  (W2_of_ne m ρ c main_arg6 (by decide)).trans (w1_arg6 m ρ c)
theorem w2_arg7 (c : Dev nD) : W2 m ρ c (Proc.devRef .tc main_arg7) = A7 m c :=
  (W2_of_ne m ρ c main_arg7 (by decide)).trans (w1_arg7 m ρ c)
theorem w2_arg9 (c : Dev nD) : W2 m ρ c (Proc.devRef .tc main_arg9) = A9 m c :=
  (W2_of_ne m ρ c main_arg9 (by decide)).trans (w1_arg9 m ρ c)
theorem w2_arg10 (c : Dev nD) : W2 m ρ c (Proc.devRef .tc main_arg10) = A10 m c :=
  (W2_of_ne m ρ c main_arg10 (by decide)).trans (w1_arg10 m ρ c)
theorem w2_arg11 (c : Dev nD) : W2 m ρ c (Proc.devRef .tc main_arg11) = A11 m c :=
  (W2_of_ne m ρ c main_arg11 (by decide)).trans (w1_arg11 m ρ c)

/-! ## When the second region is entered

  The host operations between the two regions widen the self term into the aggregated array's start and compute the
  first hop's heads, gathered end rows and row weights; they write none of the buffers carried along. -/

/-- The aggregated array's start. -/
theorem w3_v26 (c : Dev nD) : W3 m ρ c (Proc.devRef .tc main_v26)
    = agg0 (A0 m c) (A1 m c) (A2 m c) (A3 m c) (A4 m c) (A7 m c) (A9 m c) := by
  show StableHlo.after hostOps1 (W2 m ρ c) (Proc.devRef .tc main_v26) = _
  after_results_simp
  rw [w2_v25 m ρ c]; rfl
/-- The first hop's heads. -/
theorem w3_v28 (c : Dev nD) : W3 m ρ c (Proc.devRef .tc main_v28) = val_main_v31 (F := Ideal) (A10 m c) := by
  show StableHlo.after hostOps1 (W2 m ρ c) (Proc.devRef .tc main_v28) = _
  after_results_simp
  rw [w2_arg10 m ρ c]; rfl
/-- The first hop's gathered end rows. -/
theorem w3_v37 (c : Dev nD) : W3 m ρ c (Proc.devRef .tc main_v37) = rowsE (A0 m c) (val_main_v64 (F := Ideal) (A11 m c)) := by
  show StableHlo.after hostOps1 (W2 m ρ c) (Proc.devRef .tc main_v37) = _
  after_results_simp
  rw [w2_v10 m ρ c, w2_arg11 m ρ c]; rfl
/-- The first hop's row weights. -/
theorem w3_v67 (c : Dev nD) : W3 m ρ c (Proc.devRef .tc main_v67)
    = wE (val_main_v79 (F := Ideal) (A7 m c)) (val_main_v58 (F := Ideal) (A8 m c) (A9 m c) (A10 m c) (A11 m c)) := by
  show StableHlo.after hostOps1 (W2 m ρ c) (Proc.devRef .tc main_v67) = _
  after_results_simp
  rw [w2_v1 m ρ c, w2_v9 m ρ c, w2_arg7 m ρ c, w2_arg9 m ρ c, w2_arg10 m ρ c, w2_arg11 m ρ c]; rfl
theorem w3_v11 (c : Dev nD) : W3 m ρ c (Proc.devRef .tc main_v11) = w0c (A1 m c) := by
  refine Eq.trans ?_ (w2_v11 m ρ c)
  show StableHlo.after hostOps1 (W2 m ρ c) (Proc.devRef .tc main_v11) = W2 m ρ c (Proc.devRef .tc main_v11)
  after_results_simp
theorem w3_v13 (c : Dev nD) : W3 m ρ c (Proc.devRef .tc main_v13) = b0r (A2 m c) := by
  refine Eq.trans ?_ (w2_v13 m ρ c)
  show StableHlo.after hostOps1 (W2 m ρ c) (Proc.devRef .tc main_v13) = W2 m ρ c (Proc.devRef .tc main_v13)
  after_results_simp
theorem w3_v12 (c : Dev nD) : W3 m ρ c (Proc.devRef .tc main_v12) = w1c (A3 m c) := by
  refine Eq.trans ?_ (w2_v12 m ρ c)
  show StableHlo.after hostOps1 (W2 m ρ c) (Proc.devRef .tc main_v12) = W2 m ρ c (Proc.devRef .tc main_v12)
  after_results_simp
theorem w3_v14 (c : Dev nD) : W3 m ρ c (Proc.devRef .tc main_v14) = b1r (A4 m c) := by
  refine Eq.trans ?_ (w2_v14 m ρ c)
  show StableHlo.after hostOps1 (W2 m ρ c) (Proc.devRef .tc main_v14) = W2 m ρ c (Proc.devRef .tc main_v14)
  after_results_simp
theorem w3_v10 (c : Dev nD) : W3 m ρ c (Proc.devRef .tc main_v10) = xb (A0 m c) := by
  refine Eq.trans ?_ (w2_v10 m ρ c)
  show StableHlo.after hostOps1 (W2 m ρ c) (Proc.devRef .tc main_v10) = W2 m ρ c (Proc.devRef .tc main_v10)
  after_results_simp
theorem w3_v1 (c : Dev nD) : W3 m ρ c (Proc.devRef .tc main_v1) = val_main_v1 (F := Ideal) (A8 m c) := by
  refine Eq.trans ?_ (w2_v1 m ρ c)
  show StableHlo.after hostOps1 (W2 m ρ c) (Proc.devRef .tc main_v1) = W2 m ρ c (Proc.devRef .tc main_v1)
  after_results_simp
theorem w3_v9 (c : Dev nD) : W3 m ρ c (Proc.devRef .tc main_v9) = val_main_v9 (F := Ideal) (A8 m c) (A9 m c) := by
  refine Eq.trans ?_ (w2_v9 m ρ c)
  show StableHlo.after hostOps1 (W2 m ρ c) (Proc.devRef .tc main_v9) = W2 m ρ c (Proc.devRef .tc main_v9)
  after_results_simp
theorem w3_arg5 (c : Dev nD) : W3 m ρ c (Proc.devRef .tc main_arg5) = A5 m c := by
  refine Eq.trans ?_ (w2_arg5 m ρ c)
  show StableHlo.after hostOps1 (W2 m ρ c) (Proc.devRef .tc main_arg5) = W2 m ρ c (Proc.devRef .tc main_arg5)
  after_results_simp
theorem w3_arg6 (c : Dev nD) : W3 m ρ c (Proc.devRef .tc main_arg6) = A6 m c := by
  refine Eq.trans ?_ (w2_arg6 m ρ c)
  show StableHlo.after hostOps1 (W2 m ρ c) (Proc.devRef .tc main_arg6) = W2 m ρ c (Proc.devRef .tc main_arg6)
  after_results_simp
theorem w3_arg7 (c : Dev nD) : W3 m ρ c (Proc.devRef .tc main_arg7) = A7 m c := by
  refine Eq.trans ?_ (w2_arg7 m ρ c)
  show StableHlo.after hostOps1 (W2 m ρ c) (Proc.devRef .tc main_arg7) = W2 m ρ c (Proc.devRef .tc main_arg7)
  after_results_simp
theorem w3_arg9 (c : Dev nD) : W3 m ρ c (Proc.devRef .tc main_arg9) = A9 m c := by
  refine Eq.trans ?_ (w2_arg9 m ρ c)
  show StableHlo.after hostOps1 (W2 m ρ c) (Proc.devRef .tc main_arg9) = W2 m ρ c (Proc.devRef .tc main_arg9)
  after_results_simp
theorem w3_arg10 (c : Dev nD) : W3 m ρ c (Proc.devRef .tc main_arg10) = A10 m c := by
  refine Eq.trans ?_ (w2_arg10 m ρ c)
  show StableHlo.after hostOps1 (W2 m ρ c) (Proc.devRef .tc main_arg10) = W2 m ρ c (Proc.devRef .tc main_arg10)
  after_results_simp
theorem w3_arg11 (c : Dev nD) : W3 m ρ c (Proc.devRef .tc main_arg11) = A11 m c := by
  refine Eq.trans ?_ (w2_arg11 m ρ c)
  show StableHlo.after hostOps1 (W2 m ρ c) (Proc.devRef .tc main_arg11) = W2 m ρ c (Proc.devRef .tc main_arg11)
  after_results_simp

/-! ## When the second region is left

  Its output holds the first hop's kernel output; everything carried along is as entered. -/

/-- The first hop's kernel output. -/
theorem w4_v68 (c : Dev nD) : W4 m ρ c (Proc.devRef .tc main_v68)
    = outE (A0 m c) (A1 m c) (A2 m c) (A3 m c) (A4 m c) (val_main_v64 (F := Ideal) (A11 m c)) (val_main_v79 (F := Ideal) (A7 m c))
        (val_main_v58 (F := Ideal) (A8 m c) (A9 m c) (A10 m c) (A11 m c)) :=
  ((W4_arr m ρ c 6).trans (Region1.final (V3 m ρ) c)).trans
    (rows_congr (w3_v37 m ρ c) (w3_v11 m ρ c) (w3_v13 m ρ c) (w3_v12 m ρ c) (w3_v14 m ρ c) (w3_v67 m ρ c))
theorem w4_v26 (c : Dev nD) : W4 m ρ c (Proc.devRef .tc main_v26)
    = agg0 (A0 m c) (A1 m c) (A2 m c) (A3 m c) (A4 m c) (A7 m c) (A9 m c) :=
  (W4_of_ne m ρ c main_v26 (by decide)).trans (w3_v26 m ρ c)
theorem w4_v28 (c : Dev nD) : W4 m ρ c (Proc.devRef .tc main_v28) = val_main_v31 (F := Ideal) (A10 m c) :=
  (W4_of_ne m ρ c main_v28 (by decide)).trans (w3_v28 m ρ c)
theorem w4_v11 (c : Dev nD) : W4 m ρ c (Proc.devRef .tc main_v11) = w0c (A1 m c) :=
  ((W4_arr m ρ c 2).trans (((dat1 (V3 m ρ) c).arrAt_in 2 rfl _).trans (A_eq1 (V3 m ρ) c 2))).trans (w3_v11 m ρ c)
theorem w4_v13 (c : Dev nD) : W4 m ρ c (Proc.devRef .tc main_v13) = b0r (A2 m c) :=
  ((W4_arr m ρ c 3).trans (((dat1 (V3 m ρ) c).arrAt_in 3 rfl _).trans (A_eq1 (V3 m ρ) c 3))).trans (w3_v13 m ρ c)
theorem w4_v12 (c : Dev nD) : W4 m ρ c (Proc.devRef .tc main_v12) = w1c (A3 m c) :=
  ((W4_arr m ρ c 4).trans (((dat1 (V3 m ρ) c).arrAt_in 4 rfl _).trans (A_eq1 (V3 m ρ) c 4))).trans (w3_v12 m ρ c)
theorem w4_v14 (c : Dev nD) : W4 m ρ c (Proc.devRef .tc main_v14) = b1r (A4 m c) :=
  ((W4_arr m ρ c 5).trans (((dat1 (V3 m ρ) c).arrAt_in 5 rfl _).trans (A_eq1 (V3 m ρ) c 5))).trans (w3_v14 m ρ c)
theorem w4_v10 (c : Dev nD) : W4 m ρ c (Proc.devRef .tc main_v10) = xb (A0 m c) :=
  (W4_of_ne m ρ c main_v10 (by decide)).trans (w3_v10 m ρ c)
theorem w4_v1 (c : Dev nD) : W4 m ρ c (Proc.devRef .tc main_v1) = val_main_v1 (F := Ideal) (A8 m c) :=
  (W4_of_ne m ρ c main_v1 (by decide)).trans (w3_v1 m ρ c)
theorem w4_v9 (c : Dev nD) : W4 m ρ c (Proc.devRef .tc main_v9) = val_main_v9 (F := Ideal) (A8 m c) (A9 m c) :=
  (W4_of_ne m ρ c main_v9 (by decide)).trans (w3_v9 m ρ c)
theorem w4_arg5 (c : Dev nD) : W4 m ρ c (Proc.devRef .tc main_arg5) = A5 m c :=
  (W4_of_ne m ρ c main_arg5 (by decide)).trans (w3_arg5 m ρ c)
theorem w4_arg6 (c : Dev nD) : W4 m ρ c (Proc.devRef .tc main_arg6) = A6 m c :=
  (W4_of_ne m ρ c main_arg6 (by decide)).trans (w3_arg6 m ρ c)
theorem w4_arg7 (c : Dev nD) : W4 m ρ c (Proc.devRef .tc main_arg7) = A7 m c :=
  (W4_of_ne m ρ c main_arg7 (by decide)).trans (w3_arg7 m ρ c)
theorem w4_arg9 (c : Dev nD) : W4 m ρ c (Proc.devRef .tc main_arg9) = A9 m c :=
  (W4_of_ne m ρ c main_arg9 (by decide)).trans (w3_arg9 m ρ c)
theorem w4_arg10 (c : Dev nD) : W4 m ρ c (Proc.devRef .tc main_arg10) = A10 m c :=
  (W4_of_ne m ρ c main_arg10 (by decide)).trans (w3_arg10 m ρ c)
theorem w4_arg11 (c : Dev nD) : W4 m ρ c (Proc.devRef .tc main_arg11) = A11 m c :=
  (W4_of_ne m ρ c main_arg11 (by decide)).trans (w3_arg11 m ρ c)

end Cert.KernelIdeal.Chain

end
-- ==== Proof.Region2.lean ====
/-
  Region 2: the perceptron kernel's output array after its run.

  The grid cuts the 524288 rows into 128 blocks of 4096. Point t stages rows 4096·t … 4096·t + 4095 of the feature array and
  of the weight column, and the two weight matrices and the two bias rows whole; what it writes back is, entry by
  entry, the perceptron of the staged rows times the staged weights. The blocks tile the array, so the array ends
  holding, at every entry (r, q), the perceptron of row r of the features times the weight of row r.
-/
import proofs.«114530_j6519760355655_2_alg».proof.Proof.Gen.KernelIdeal.Frame
import proofs.«114530_j6519760355655_2_alg».proof.Proof.Body
import proofs.«114530_j6519760355655_2_alg».proof.Proof.Appnp

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem Cert.Dense Cert.Appnp
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The array the region leaves: entry (r, q) is the perceptron of row r of the features times row r's weight. -/
def G (c : Dev nD) : S524288x128.Idx → EReal := fun i =>
  perceptron (R := 524288) (V c main_v84 : S524288x128.Idx → EReal) (V c main_v11 : S128x128.Idx → EReal) (V c main_v13 : S1x128.Idx → EReal)
    (V c main_v12 : S128x128.Idx → EReal) (V c main_v14 : S1x128.Idx → EReal) i * (V c main_v114 : S524288x1.Idx → EReal) (ix2 (i 0) (0 : Fin 1))

/-- The index maps over the grid: the features, the weight column and the output move together down the rows; the
    matrices and the bias rows stay at their one block. -/
theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (1 : Fin 2) = 0 ∧ win2_6.index t (0 : Fin 2) ≤ 127 :=
  (by decide +kernel : ∀ t : Fin grid2.N, _)

/-- Every block of rows is some point's. -/
theorem idx_onto : ∀ q0 : Fin 128, ∃ t : Fin cfg2.N, win2_6.index t = ![q0.val, 0] :=
  (by decide +kernel : ∀ q0 : Fin 128, ∃ t : Fin grid2.N, win2_6.index t = ![q0.val, 0])

/-- A window staged whole: its block at any point is its array. -/
theorem blk2 (c : Dev nD) (t : Fin cfg2.N) : iblk2 V c 2 t = (V c main_v11 : S128x128.Idx → EReal) := by
  funext y
  show V c main_v11 (((cfg2.win 2).blk t).view.emb y) = V c main_v11 y
  refine congrArg _ (funext fun a => Fin.ext ?_)
  obtain ⟨-, -, -, -, e0, e1, -⟩ := idx_facts t
  match a with
  | ⟨0, _⟩ => show win2_2.index t (0 : Fin 2) * 128 + 1 * (y 0).val = (y 0).val; omega
  | ⟨1, _⟩ => show win2_2.index t (1 : Fin 2) * 128 + 1 * (y 1).val = (y 1).val; omega
theorem blk3 (c : Dev nD) (t : Fin cfg2.N) : iblk2 V c 3 t = (V c main_v13 : S1x128.Idx → EReal) := by
  funext y
  show V c main_v13 (((cfg2.win 3).blk t).view.emb y) = V c main_v13 y
  refine congrArg _ (funext fun a => Fin.ext ?_)
  obtain ⟨-, -, -, -, -, -, e0, e1, -⟩ := idx_facts t
  match a with
  | ⟨0, _⟩ => show win2_3.index t (0 : Fin 2) * 1 + 1 * (y 0).val = (y 0).val; omega
  | ⟨1, _⟩ => show win2_3.index t (1 : Fin 2) * 128 + 1 * (y 1).val = (y 1).val; omega
theorem blk4 (c : Dev nD) (t : Fin cfg2.N) : iblk2 V c 4 t = (V c main_v12 : S128x128.Idx → EReal) := by
  funext y
  show V c main_v12 (((cfg2.win 4).blk t).view.emb y) = V c main_v12 y
  refine congrArg _ (funext fun a => Fin.ext ?_)
  obtain ⟨-, -, -, -, -, -, -, -, e0, e1, -⟩ := idx_facts t
  match a with
  | ⟨0, _⟩ => show win2_4.index t (0 : Fin 2) * 128 + 1 * (y 0).val = (y 0).val; omega
  | ⟨1, _⟩ => show win2_4.index t (1 : Fin 2) * 128 + 1 * (y 1).val = (y 1).val; omega
theorem blk5 (c : Dev nD) (t : Fin cfg2.N) : iblk2 V c 5 t = (V c main_v14 : S1x128.Idx → EReal) := by
  funext y
  show V c main_v14 (((cfg2.win 5).blk t).view.emb y) = V c main_v14 y
  refine congrArg _ (funext fun a => Fin.ext ?_)
  obtain ⟨-, -, -, -, -, -, -, -, -, -, e0, e1, -⟩ := idx_facts t
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- Row p of the staged feature block is the feature array's row under row p of the output block. -/
theorem blk0 (c : Dev nD) (t : Fin cfg2.N) (y : S4096x128.Idx) (j : Fin 128) :
    iblk2 V c 0 t (ix2 (y 0) j) = (V c main_v84 : S524288x128.Idx → EReal) (ix2 ((((cfg2.win 6).blk t).view.emb y) 0) j) := by
  show V c main_v84 (((cfg2.win 0).blk t).view.emb (ix2 (y 0) j)) = V c main_v84 (ix2 ((((cfg2.win 6).blk t).view.emb y) 0) j)
  refine congrArg _ (funext fun a => Fin.ext ?_)
  obtain ⟨e0, e1, -⟩ := idx_facts t
  match a with
  | ⟨0, _⟩ => show win2_0.index t (0 : Fin 2) * 4096 + 1 * (y 0).val = win2_6.index t (0 : Fin 2) * 4096 + 1 * (y 0).val; omega
  | ⟨1, _⟩ => show win2_0.index t (1 : Fin 2) * 128 + 1 * j.val = j.val; omega

/-- Row p of the staged weight column is the weight of the row under row p of the output block. -/
theorem blk1 (c : Dev nD) (t : Fin cfg2.N) (y : S4096x128.Idx) :
    iblk2 V c 1 t (ix2 (y 0) (0 : Fin 1)) = (V c main_v114 : S524288x1.Idx → EReal) (ix2 ((((cfg2.win 6).blk t).view.emb y) 0) (0 : Fin 1)) := by
  show V c main_v114 (((cfg2.win 1).blk t).view.emb (ix2 (y 0) (0 : Fin 1))) = V c main_v114 (ix2 ((((cfg2.win 6).blk t).view.emb y) 0) (0 : Fin 1))
  refine congrArg _ (funext fun a => Fin.ext ?_)
  obtain ⟨-, -, e0, e1, -⟩ := idx_facts t
  match a with
  | ⟨0, _⟩ => show win2_1.index t (0 : Fin 2) * 4096 + 1 * (y 0).val = win2_6.index t (0 : Fin 2) * 4096 + 1 * (y 0).val; omega
  | ⟨1, _⟩ => show win2_1.index t (1 : Fin 2) * 1 + 1 * 0 = 0; omega

/-- WHAT POINT t WRITES BACK is its block of G. -/
theorem flushed (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S4096x128) hz, View.ld_unit_zero (S := S128x128) hz, View.ld_unit_zero (S := S1x128) hz,
    View.ld_unit_zero (S := S4096x1) hz]
  rw [blk2 V c t, blk3 V c t, blk4 V c t, blk5 V c t]
  rw [Cert.KernelIdeal.Body.pay1_2]
  funext y
  obtain ⟨p, q, rfl⟩ : ∃ (p : Fin 4096) (q : Fin 128), y = ix2 p q := ⟨y 0, y 1, eq_ix2 y⟩
  refine (Cert.KernelIdeal.Body.perceptron_payload (iblk2 V c 0 t) _ _ _ _ (iblk2 V c 1 t) p q).trans ?_
  show _ = G V c (((cfg2.win 6).blk t).view.emb (ix2 p q))
  unfold G
  refine congrArg₂ (· * ·) (perceptron_congr (ix2 p q) (((cfg2.win 6).blk t).view.emb (ix2 p q)) ?_ (fun j => blk0 V c t (ix2 p q) j))
    (blk1 V c t (ix2 p q))
  obtain ⟨-, -, -, -, -, -, -, -, -, -, -, -, e1, -⟩ := idx_facts t
  refine Fin.ext ?_
  show q.val = win2_6.index t (1 : Fin 2) * 128 + 1 * q.val
  omega

/-- An index of the array is in point t's block iff each coordinate is in the block's range on its axis. -/
theorem mem_blk (t : Fin cfg2.N) (i : S524288x128.Idx) :
    i ∈ ((cfg2.win 6).blk t).view.set ↔ ∀ a : Fin 2, win2_6.index t a * S4096x128.size a ≤ (i a).val
      ∧ (i a).val < win2_6.index t a * S4096x128.size a + S4096x128.size a := by
  show i ∈ ((View.whole main_v115).slice (win2_6.rect t)).set ↔ _
  rw [View.set_slice_whole, Rect.mem_set_unit]
  exact Iff.rfl

/-- The blocks tile the array: row r lies in the block of point r / 4096. -/
theorem cover (i : S524288x128.Idx) : ∃ t : Fin cfg2.N, (cfg2.win 6).flush t = true ∧ i ∈ ((cfg2.win 6).blk t).view.set := by
  have hi0 : (i 0).val < 524288 := (i 0).isLt
  have hi1 : (i 1).val < 128 := (i 1).isLt
  obtain ⟨t, ht⟩ := idx_onto ⟨(i 0).val / 4096, by omega⟩
  have q0 : win2_6.index t (0 : Fin 2) = (i 0).val / 4096 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 4096 ≤ (i 0).val ∧ (i 0).val < win2_6.index t (0 : Fin 2) * 4096 + 4096; omega
  | ⟨1, _⟩ => show win2_6.index t (1 : Fin 2) * 128 ≤ (i 1).val ∧ (i 1).val < win2_6.index t (1 : Fin 2) * 128 + 128; omega

/-- THE ARRAY after the region's write-backs. -/
theorem final (c : Dev nD) : (dat2 V c).arrAt 6 cfg2.N = G V c :=
  (dat2 V c).arrAt_eq_of_cover 6 (G V c) (fun t _ => flushed V c t) cover

end Cert.KernelIdeal.Region2

end
-- ==== Proof.ChainC.lean ====
/-
  The idealized kernel's buffers from the third region's entry to its exit: the second hop.

  The host operations before the region scatter the first hop's widened kernel output, from zeros, onto the rows its
  heads name and add that to the aggregated array; and they compute, from the arguments, the second hop's heads,
  gathered end rows and row weights. The region's output is the second hop's kernel output.
-/
import proofs.«114530_j6519760355655_2_alg».proof.Proof.Gen.KernelIdeal.Frame
import proofs.«114530_j6519760355655_2_alg».proof.Proof.RefRead
import proofs.«114530_j6519760355655_2_alg».proof.Proof.KTerms
import proofs.«114530_j6519760355655_2_alg».proof.Proof.ChainA
import proofs.«114530_j6519760355655_2_alg».proof.Proof.ChainB
import proofs.«114530_j6519760355655_2_alg».proof.Proof.Region2

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem
open Cert.KernelIdeal.Terms Cert.Appnp
open Cert.ReferenceIdeal.ReadP (val_main_v1 val_main_v9 val_main_v31 val_main_v64 val_main_v79 val_main_v58
  val_main_v87 val_main_v120 val_main_v135 val_main_v114)

variable (m : (ℓ : Loc nD τ sig) → Buf (Elt Ideal) ℓ) (ρ : Dev nD → PrngReg)

/-! ## When the third region is entered -/

/-- The aggregated array after the first hop. -/
theorem w5_v73 (c : Dev nD) : W5 m ρ c (Proc.devRef .tc main_v73)
    = agg1 (A0 m c) (A1 m c) (A2 m c) (A3 m c) (A4 m c) (A7 m c) (A8 m c) (A9 m c) (A10 m c) (A11 m c) := by
  show StableHlo.after hostOps2 (W4 m ρ c) (Proc.devRef .tc main_v73) = _
  after_results_simp
  rw [w4_v26 m ρ c, w4_v28 m ρ c, w4_v68 m ρ c]; rfl
/-- The second hop's heads. -/
theorem w5_v75 (c : Dev nD) : W5 m ρ c (Proc.devRef .tc main_v75) = val_main_v87 (F := Ideal) (A10 m c) := by
  show StableHlo.after hostOps2 (W4 m ρ c) (Proc.devRef .tc main_v75) = _
  after_results_simp
  rw [w4_arg10 m ρ c]; rfl
/-- The second hop's gathered end rows. -/
theorem w5_v84 (c : Dev nD) : W5 m ρ c (Proc.devRef .tc main_v84) = rowsE (A0 m c) (val_main_v120 (F := Ideal) (A11 m c)) := by
  show StableHlo.after hostOps2 (W4 m ρ c) (Proc.devRef .tc main_v84) = _
  after_results_simp
  rw [w4_v10 m ρ c, w4_arg11 m ρ c]; rfl
/-- The second hop's row weights. -/
theorem w5_v114 (c : Dev nD) : W5 m ρ c (Proc.devRef .tc main_v114)
    = wE (val_main_v135 (F := Ideal) (A7 m c)) (val_main_v114 (F := Ideal) (A8 m c) (A9 m c) (A10 m c) (A11 m c)) := by
  show StableHlo.after hostOps2 (W4 m ρ c) (Proc.devRef .tc main_v114) = _
  after_results_simp
  rw [w4_v1 m ρ c, w4_v9 m ρ c, w4_arg7 m ρ c, w4_arg9 m ρ c, w4_arg10 m ρ c, w4_arg11 m ρ c]; rfl
theorem w5_v11 (c : Dev nD) : W5 m ρ c (Proc.devRef .tc main_v11) = w0c (A1 m c) := by
  refine Eq.trans ?_ (w4_v11 m ρ c)
  show StableHlo.after hostOps2 (W4 m ρ c) (Proc.devRef .tc main_v11) = W4 m ρ c (Proc.devRef .tc main_v11)
  after_results_simp
theorem w5_v13 (c : Dev nD) : W5 m ρ c (Proc.devRef .tc main_v13) = b0r (A2 m c) := by
  refine Eq.trans ?_ (w4_v13 m ρ c)
  show StableHlo.after hostOps2 (W4 m ρ c) (Proc.devRef .tc main_v13) = W4 m ρ c (Proc.devRef .tc main_v13)
  after_results_simp
theorem w5_v12 (c : Dev nD) : W5 m ρ c (Proc.devRef .tc main_v12) = w1c (A3 m c) := by
  refine Eq.trans ?_ (w4_v12 m ρ c)
  show StableHlo.after hostOps2 (W4 m ρ c) (Proc.devRef .tc main_v12) = W4 m ρ c (Proc.devRef .tc main_v12)
  after_results_simp
theorem w5_v14 (c : Dev nD) : W5 m ρ c (Proc.devRef .tc main_v14) = b1r (A4 m c) := by
  refine Eq.trans ?_ (w4_v14 m ρ c)
  show StableHlo.after hostOps2 (W4 m ρ c) (Proc.devRef .tc main_v14) = W4 m ρ c (Proc.devRef .tc main_v14)
  after_results_simp
theorem w5_v10 (c : Dev nD) : W5 m ρ c (Proc.devRef .tc main_v10) = xb (A0 m c) := by
  refine Eq.trans ?_ (w4_v10 m ρ c)
  show StableHlo.after hostOps2 (W4 m ρ c) (Proc.devRef .tc main_v10) = W4 m ρ c (Proc.devRef .tc main_v10)
  after_results_simp
theorem w5_v1 (c : Dev nD) : W5 m ρ c (Proc.devRef .tc main_v1) = val_main_v1 (F := Ideal) (A8 m c) := by
  refine Eq.trans ?_ (w4_v1 m ρ c)
  show StableHlo.after hostOps2 (W4 m ρ c) (Proc.devRef .tc main_v1) = W4 m ρ c (Proc.devRef .tc main_v1)
  after_results_simp
theorem w5_v9 (c : Dev nD) : W5 m ρ c (Proc.devRef .tc main_v9) = val_main_v9 (F := Ideal) (A8 m c) (A9 m c) := by
  refine Eq.trans ?_ (w4_v9 m ρ c)
  show StableHlo.after hostOps2 (W4 m ρ c) (Proc.devRef .tc main_v9) = W4 m ρ c (Proc.devRef .tc main_v9)
  after_results_simp
theorem w5_arg5 (c : Dev nD) : W5 m ρ c (Proc.devRef .tc main_arg5) = A5 m c := by
  refine Eq.trans ?_ (w4_arg5 m ρ c)
  show StableHlo.after hostOps2 (W4 m ρ c) (Proc.devRef .tc main_arg5) = W4 m ρ c (Proc.devRef .tc main_arg5)
  after_results_simp
theorem w5_arg6 (c : Dev nD) : W5 m ρ c (Proc.devRef .tc main_arg6) = A6 m c := by
  refine Eq.trans ?_ (w4_arg6 m ρ c)
  show StableHlo.after hostOps2 (W4 m ρ c) (Proc.devRef .tc main_arg6) = W4 m ρ c (Proc.devRef .tc main_arg6)
  after_results_simp
theorem w5_arg7 (c : Dev nD) : W5 m ρ c (Proc.devRef .tc main_arg7) = A7 m c := by
  refine Eq.trans ?_ (w4_arg7 m ρ c)
  show StableHlo.after hostOps2 (W4 m ρ c) (Proc.devRef .tc main_arg7) = W4 m ρ c (Proc.devRef .tc main_arg7)
  after_results_simp
theorem w5_arg9 (c : Dev nD) : W5 m ρ c (Proc.devRef .tc main_arg9) = A9 m c := by
  refine Eq.trans ?_ (w4_arg9 m ρ c)
  show StableHlo.after hostOps2 (W4 m ρ c) (Proc.devRef .tc main_arg9) = W4 m ρ c (Proc.devRef .tc main_arg9)
  after_results_simp
theorem w5_arg10 (c : Dev nD) : W5 m ρ c (Proc.devRef .tc main_arg10) = A10 m c := by
  refine Eq.trans ?_ (w4_arg10 m ρ c)
  show StableHlo.after hostOps2 (W4 m ρ c) (Proc.devRef .tc main_arg10) = W4 m ρ c (Proc.devRef .tc main_arg10)
  after_results_simp
theorem w5_arg11 (c : Dev nD) : W5 m ρ c (Proc.devRef .tc main_arg11) = A11 m c := by
  refine Eq.trans ?_ (w4_arg11 m ρ c)
  show StableHlo.after hostOps2 (W4 m ρ c) (Proc.devRef .tc main_arg11) = W4 m ρ c (Proc.devRef .tc main_arg11)
  after_results_simp

/-! ## When the third region is left -/

/-- The second hop's kernel output. -/
theorem w6_v115 (c : Dev nD) : W6 m ρ c (Proc.devRef .tc main_v115)
    = outE (A0 m c) (A1 m c) (A2 m c) (A3 m c) (A4 m c) (val_main_v120 (F := Ideal) (A11 m c)) (val_main_v135 (F := Ideal) (A7 m c))
        (val_main_v114 (F := Ideal) (A8 m c) (A9 m c) (A10 m c) (A11 m c)) :=
  ((W6_arr m ρ c 6).trans (Region2.final (V5 m ρ) c)).trans
    (rows_congr (w5_v84 m ρ c) (w5_v11 m ρ c) (w5_v13 m ρ c) (w5_v12 m ρ c) (w5_v14 m ρ c) (w5_v114 m ρ c))
theorem w6_v73 (c : Dev nD) : W6 m ρ c (Proc.devRef .tc main_v73)
    = agg1 (A0 m c) (A1 m c) (A2 m c) (A3 m c) (A4 m c) (A7 m c) (A8 m c) (A9 m c) (A10 m c) (A11 m c) :=
  (W6_of_ne m ρ c main_v73 (by decide)).trans (w5_v73 m ρ c)
theorem w6_v75 (c : Dev nD) : W6 m ρ c (Proc.devRef .tc main_v75) = val_main_v87 (F := Ideal) (A10 m c) :=
  (W6_of_ne m ρ c main_v75 (by decide)).trans (w5_v75 m ρ c)
theorem w6_v11 (c : Dev nD) : W6 m ρ c (Proc.devRef .tc main_v11) = w0c (A1 m c) :=
  ((W6_arr m ρ c 2).trans (((dat2 (V5 m ρ) c).arrAt_in 2 rfl _).trans (A_eq2 (V5 m ρ) c 2))).trans (w5_v11 m ρ c)
theorem w6_v13 (c : Dev nD) : W6 m ρ c (Proc.devRef .tc main_v13) = b0r (A2 m c) :=
  ((W6_arr m ρ c 3).trans (((dat2 (V5 m ρ) c).arrAt_in 3 rfl _).trans (A_eq2 (V5 m ρ) c 3))).trans (w5_v13 m ρ c)
theorem w6_v12 (c : Dev nD) : W6 m ρ c (Proc.devRef .tc main_v12) = w1c (A3 m c) :=
  ((W6_arr m ρ c 4).trans (((dat2 (V5 m ρ) c).arrAt_in 4 rfl _).trans (A_eq2 (V5 m ρ) c 4))).trans (w5_v12 m ρ c)
theorem w6_v14 (c : Dev nD) : W6 m ρ c (Proc.devRef .tc main_v14) = b1r (A4 m c) :=
  ((W6_arr m ρ c 5).trans (((dat2 (V5 m ρ) c).arrAt_in 5 rfl _).trans (A_eq2 (V5 m ρ) c 5))).trans (w5_v14 m ρ c)
theorem w6_v10 (c : Dev nD) : W6 m ρ c (Proc.devRef .tc main_v10) = xb (A0 m c) :=
  (W6_of_ne m ρ c main_v10 (by decide)).trans (w5_v10 m ρ c)
theorem w6_v1 (c : Dev nD) : W6 m ρ c (Proc.devRef .tc main_v1) = val_main_v1 (F := Ideal) (A8 m c) :=
  (W6_of_ne m ρ c main_v1 (by decide)).trans (w5_v1 m ρ c)
theorem w6_v9 (c : Dev nD) : W6 m ρ c (Proc.devRef .tc main_v9) = val_main_v9 (F := Ideal) (A8 m c) (A9 m c) :=
  (W6_of_ne m ρ c main_v9 (by decide)).trans (w5_v9 m ρ c)
theorem w6_arg5 (c : Dev nD) : W6 m ρ c (Proc.devRef .tc main_arg5) = A5 m c :=
  (W6_of_ne m ρ c main_arg5 (by decide)).trans (w5_arg5 m ρ c)
theorem w6_arg6 (c : Dev nD) : W6 m ρ c (Proc.devRef .tc main_arg6) = A6 m c :=
  (W6_of_ne m ρ c main_arg6 (by decide)).trans (w5_arg6 m ρ c)
theorem w6_arg7 (c : Dev nD) : W6 m ρ c (Proc.devRef .tc main_arg7) = A7 m c :=
  (W6_of_ne m ρ c main_arg7 (by decide)).trans (w5_arg7 m ρ c)
theorem w6_arg9 (c : Dev nD) : W6 m ρ c (Proc.devRef .tc main_arg9) = A9 m c :=
  (W6_of_ne m ρ c main_arg9 (by decide)).trans (w5_arg9 m ρ c)
theorem w6_arg10 (c : Dev nD) : W6 m ρ c (Proc.devRef .tc main_arg10) = A10 m c :=
  (W6_of_ne m ρ c main_arg10 (by decide)).trans (w5_arg10 m ρ c)
theorem w6_arg11 (c : Dev nD) : W6 m ρ c (Proc.devRef .tc main_arg11) = A11 m c :=
  (W6_of_ne m ρ c main_arg11 (by decide)).trans (w5_arg11 m ρ c)

end Cert.KernelIdeal.Chain

end
-- ==== Proof.Region3.lean ====
/-
  Region 3: the perceptron kernel's output array after its run.

  The grid cuts the 524288 rows into 128 blocks of 4096. Point t stages rows 4096·t … 4096·t + 4095 of the feature array and
  of the weight column, and the two weight matrices and the two bias rows whole; what it writes back is, entry by
  entry, the perceptron of the staged rows times the staged weights. The blocks tile the array, so the array ends
  holding, at every entry (r, q), the perceptron of row r of the features times the weight of row r.
-/
import proofs.«114530_j6519760355655_2_alg».proof.Proof.Gen.KernelIdeal.Frame
import proofs.«114530_j6519760355655_2_alg».proof.Proof.Body
import proofs.«114530_j6519760355655_2_alg».proof.Proof.Appnp

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem Cert.Dense Cert.Appnp
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The array the region leaves: entry (r, q) is the perceptron of row r of the features times row r's weight. -/
def G (c : Dev nD) : S524288x128.Idx → EReal := fun i =>
  perceptron (R := 524288) (V c main_v131 : S524288x128.Idx → EReal) (V c main_v11 : S128x128.Idx → EReal) (V c main_v13 : S1x128.Idx → EReal)
    (V c main_v12 : S128x128.Idx → EReal) (V c main_v14 : S1x128.Idx → EReal) i * (V c main_v161 : S524288x1.Idx → EReal) (ix2 (i 0) (0 : Fin 1))

/-- The index maps over the grid: the features, the weight column and the output move together down the rows; the
    matrices and the bias rows stay at their one block. -/
theorem idx_facts : ∀ t : Fin cfg3.N,
    win3_0.index t (0 : Fin 2) = win3_6.index t (0 : Fin 2) ∧ win3_0.index t (1 : Fin 2) = 0
    ∧ win3_1.index t (0 : Fin 2) = win3_6.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (1 : Fin 2) = 0 ∧ win3_6.index t (0 : Fin 2) ≤ 127 :=
  (by decide +kernel : ∀ t : Fin grid3.N, _)

/-- Every block of rows is some point's. -/
theorem idx_onto : ∀ q0 : Fin 128, ∃ t : Fin cfg3.N, win3_6.index t = ![q0.val, 0] :=
  (by decide +kernel : ∀ q0 : Fin 128, ∃ t : Fin grid3.N, win3_6.index t = ![q0.val, 0])

/-- A window staged whole: its block at any point is its array. -/
theorem blk2 (c : Dev nD) (t : Fin cfg3.N) : iblk3 V c 2 t = (V c main_v11 : S128x128.Idx → EReal) := by
  funext y
  show V c main_v11 (((cfg3.win 2).blk t).view.emb y) = V c main_v11 y
  refine congrArg _ (funext fun a => Fin.ext ?_)
  obtain ⟨-, -, -, -, e0, e1, -⟩ := idx_facts t
  match a with
  | ⟨0, _⟩ => show win3_2.index t (0 : Fin 2) * 128 + 1 * (y 0).val = (y 0).val; omega
  | ⟨1, _⟩ => show win3_2.index t (1 : Fin 2) * 128 + 1 * (y 1).val = (y 1).val; omega
theorem blk3 (c : Dev nD) (t : Fin cfg3.N) : iblk3 V c 3 t = (V c main_v13 : S1x128.Idx → EReal) := by
  funext y
  show V c main_v13 (((cfg3.win 3).blk t).view.emb y) = V c main_v13 y
  refine congrArg _ (funext fun a => Fin.ext ?_)
  obtain ⟨-, -, -, -, -, -, e0, e1, -⟩ := idx_facts t
  match a with
  | ⟨0, _⟩ => show win3_3.index t (0 : Fin 2) * 1 + 1 * (y 0).val = (y 0).val; omega
  | ⟨1, _⟩ => show win3_3.index t (1 : Fin 2) * 128 + 1 * (y 1).val = (y 1).val; omega
theorem blk4 (c : Dev nD) (t : Fin cfg3.N) : iblk3 V c 4 t = (V c main_v12 : S128x128.Idx → EReal) := by
  funext y
  show V c main_v12 (((cfg3.win 4).blk t).view.emb y) = V c main_v12 y
  refine congrArg _ (funext fun a => Fin.ext ?_)
  obtain ⟨-, -, -, -, -, -, -, -, e0, e1, -⟩ := idx_facts t
  match a with
  | ⟨0, _⟩ => show win3_4.index t (0 : Fin 2) * 128 + 1 * (y 0).val = (y 0).val; omega
  | ⟨1, _⟩ => show win3_4.index t (1 : Fin 2) * 128 + 1 * (y 1).val = (y 1).val; omega
theorem blk5 (c : Dev nD) (t : Fin cfg3.N) : iblk3 V c 5 t = (V c main_v14 : S1x128.Idx → EReal) := by
  funext y
  show V c main_v14 (((cfg3.win 5).blk t).view.emb y) = V c main_v14 y
  refine congrArg _ (funext fun a => Fin.ext ?_)
  obtain ⟨-, -, -, -, -, -, -, -, -, -, e0, e1, -⟩ := idx_facts t
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- Row p of the staged feature block is the feature array's row under row p of the output block. -/
theorem blk0 (c : Dev nD) (t : Fin cfg3.N) (y : S4096x128.Idx) (j : Fin 128) :
    iblk3 V c 0 t (ix2 (y 0) j) = (V c main_v131 : S524288x128.Idx → EReal) (ix2 ((((cfg3.win 6).blk t).view.emb y) 0) j) := by
  show V c main_v131 (((cfg3.win 0).blk t).view.emb (ix2 (y 0) j)) = V c main_v131 (ix2 ((((cfg3.win 6).blk t).view.emb y) 0) j)
  refine congrArg _ (funext fun a => Fin.ext ?_)
  obtain ⟨e0, e1, -⟩ := idx_facts t
  match a with
  | ⟨0, _⟩ => show win3_0.index t (0 : Fin 2) * 4096 + 1 * (y 0).val = win3_6.index t (0 : Fin 2) * 4096 + 1 * (y 0).val; omega
  | ⟨1, _⟩ => show win3_0.index t (1 : Fin 2) * 128 + 1 * j.val = j.val; omega

/-- Row p of the staged weight column is the weight of the row under row p of the output block. -/
theorem blk1 (c : Dev nD) (t : Fin cfg3.N) (y : S4096x128.Idx) :
    iblk3 V c 1 t (ix2 (y 0) (0 : Fin 1)) = (V c main_v161 : S524288x1.Idx → EReal) (ix2 ((((cfg3.win 6).blk t).view.emb y) 0) (0 : Fin 1)) := by
  show V c main_v161 (((cfg3.win 1).blk t).view.emb (ix2 (y 0) (0 : Fin 1))) = V c main_v161 (ix2 ((((cfg3.win 6).blk t).view.emb y) 0) (0 : Fin 1))
  refine congrArg _ (funext fun a => Fin.ext ?_)
  obtain ⟨-, -, e0, e1, -⟩ := idx_facts t
  match a with
  | ⟨0, _⟩ => show win3_1.index t (0 : Fin 2) * 4096 + 1 * (y 0).val = win3_6.index t (0 : Fin 2) * 4096 + 1 * (y 0).val; omega
  | ⟨1, _⟩ => show win3_1.index t (1 : Fin 2) * 1 + 1 * 0 = 0; omega

/-- WHAT POINT t WRITES BACK is its block of G. -/
theorem flushed (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S4096x128) hz, View.ld_unit_zero (S := S128x128) hz, View.ld_unit_zero (S := S1x128) hz,
    View.ld_unit_zero (S := S4096x1) hz]
  rw [blk2 V c t, blk3 V c t, blk4 V c t, blk5 V c t]
  rw [Cert.KernelIdeal.Body.pay1_3]
  funext y
  obtain ⟨p, q, rfl⟩ : ∃ (p : Fin 4096) (q : Fin 128), y = ix2 p q := ⟨y 0, y 1, eq_ix2 y⟩
  refine (Cert.KernelIdeal.Body.perceptron_payload (iblk3 V c 0 t) _ _ _ _ (iblk3 V c 1 t) p q).trans ?_
  show _ = G V c (((cfg3.win 6).blk t).view.emb (ix2 p q))
  unfold G
  refine congrArg₂ (· * ·) (perceptron_congr (ix2 p q) (((cfg3.win 6).blk t).view.emb (ix2 p q)) ?_ (fun j => blk0 V c t (ix2 p q) j))
    (blk1 V c t (ix2 p q))
  obtain ⟨-, -, -, -, -, -, -, -, -, -, -, -, e1, -⟩ := idx_facts t
  refine Fin.ext ?_
  show q.val = win3_6.index t (1 : Fin 2) * 128 + 1 * q.val
  omega

/-- An index of the array is in point t's block iff each coordinate is in the block's range on its axis. -/
theorem mem_blk (t : Fin cfg3.N) (i : S524288x128.Idx) :
    i ∈ ((cfg3.win 6).blk t).view.set ↔ ∀ a : Fin 2, win3_6.index t a * S4096x128.size a ≤ (i a).val
      ∧ (i a).val < win3_6.index t a * S4096x128.size a + S4096x128.size a := by
  show i ∈ ((View.whole main_v162).slice (win3_6.rect t)).set ↔ _
  rw [View.set_slice_whole, Rect.mem_set_unit]
  exact Iff.rfl

/-- The blocks tile the array: row r lies in the block of point r / 4096. -/
theorem cover (i : S524288x128.Idx) : ∃ t : Fin cfg3.N, (cfg3.win 6).flush t = true ∧ i ∈ ((cfg3.win 6).blk t).view.set := by
  have hi0 : (i 0).val < 524288 := (i 0).isLt
  have hi1 : (i 1).val < 128 := (i 1).isLt
  obtain ⟨t, ht⟩ := idx_onto ⟨(i 0).val / 4096, by omega⟩
  have q0 : win3_6.index t (0 : Fin 2) = (i 0).val / 4096 := congrFun ht 0
  have q1 : win3_6.index t (1 : Fin 2) = 0 := congrFun ht 1
  refine ⟨t, flush3_6 t, ?_⟩
  rw [mem_blk]
  intro a
  match a with
  | ⟨0, _⟩ => show win3_6.index t (0 : Fin 2) * 4096 ≤ (i 0).val ∧ (i 0).val < win3_6.index t (0 : Fin 2) * 4096 + 4096; omega
  | ⟨1, _⟩ => show win3_6.index t (1 : Fin 2) * 128 ≤ (i 1).val ∧ (i 1).val < win3_6.index t (1 : Fin 2) * 128 + 128; omega

/-- THE ARRAY after the region's write-backs. -/
theorem final (c : Dev nD) : (dat3 V c).arrAt 6 cfg3.N = G V c :=
  (dat3 V c).arrAt_eq_of_cover 6 (G V c) (fun t _ => flushed V c t) cover

end Cert.KernelIdeal.Region3

end
-- ==== Proof.ChainD.lean ====
/-
  The idealized kernel's buffers from the fourth region's entry to its exit: the third hop.

  The host operations before the region scatter the second hop's widened kernel output, from zeros, onto the rows its
  heads name and add that to the aggregated array; and they compute, from the arguments, the third hop's heads,
  gathered end rows and row weights. The region's output is the third hop's kernel output.
-/
import proofs.«114530_j6519760355655_2_alg».proof.Proof.Gen.KernelIdeal.Frame
import proofs.«114530_j6519760355655_2_alg».proof.Proof.RefRead
import proofs.«114530_j6519760355655_2_alg».proof.Proof.KTerms
import proofs.«114530_j6519760355655_2_alg».proof.Proof.ChainA
import proofs.«114530_j6519760355655_2_alg».proof.Proof.ChainB
import proofs.«114530_j6519760355655_2_alg».proof.Proof.ChainC
import proofs.«114530_j6519760355655_2_alg».proof.Proof.Region3

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem
open Cert.KernelIdeal.Terms Cert.Appnp
open Cert.ReferenceIdeal.ReadP (val_main_v1 val_main_v9 val_main_v31 val_main_v64 val_main_v79 val_main_v58
  val_main_v87 val_main_v120 val_main_v135 val_main_v114 val_main_v143 val_main_v176 val_main_v191 val_main_v170)

variable (m : (ℓ : Loc nD τ sig) → Buf (Elt Ideal) ℓ) (ρ : Dev nD → PrngReg)

/-! ## When the fourth region is entered -/

/-- The aggregated array after the second hop. -/
theorem w7_v120 (c : Dev nD) : W7 m ρ c (Proc.devRef .tc main_v120)
    = agg2 (A0 m c) (A1 m c) (A2 m c) (A3 m c) (A4 m c) (A7 m c) (A8 m c) (A9 m c) (A10 m c) (A11 m c) := by
  show StableHlo.after hostOps3 (W6 m ρ c) (Proc.devRef .tc main_v120) = _
  after_results_simp
  rw [w6_v73 m ρ c, w6_v75 m ρ c, w6_v115 m ρ c]; rfl
/-- The third hop's heads. -/
theorem w7_v122 (c : Dev nD) : W7 m ρ c (Proc.devRef .tc main_v122) = val_main_v143 (F := Ideal) (A10 m c) := by
  show StableHlo.after hostOps3 (W6 m ρ c) (Proc.devRef .tc main_v122) = _
  after_results_simp
  rw [w6_arg10 m ρ c]; rfl
/-- The third hop's gathered end rows. -/
theorem w7_v131 (c : Dev nD) : W7 m ρ c (Proc.devRef .tc main_v131) = rowsE (A0 m c) (val_main_v176 (F := Ideal) (A11 m c)) := by
  show StableHlo.after hostOps3 (W6 m ρ c) (Proc.devRef .tc main_v131) = _
  after_results_simp
  rw [w6_v10 m ρ c, w6_arg11 m ρ c]; rfl
/-- The third hop's row weights. -/
theorem w7_v161 (c : Dev nD) : W7 m ρ c (Proc.devRef .tc main_v161)
    = wE (val_main_v191 (F := Ideal) (A7 m c)) (val_main_v170 (F := Ideal) (A8 m c) (A9 m c) (A10 m c) (A11 m c)) := by
  show StableHlo.after hostOps3 (W6 m ρ c) (Proc.devRef .tc main_v161) = _
  after_results_simp
  rw [w6_v1 m ρ c, w6_v9 m ρ c, w6_arg7 m ρ c, w6_arg9 m ρ c, w6_arg10 m ρ c, w6_arg11 m ρ c]; rfl
theorem w7_v11 (c : Dev nD) : W7 m ρ c (Proc.devRef .tc main_v11) = w0c (A1 m c) := by
  refine Eq.trans ?_ (w6_v11 m ρ c)
  show StableHlo.after hostOps3 (W6 m ρ c) (Proc.devRef .tc main_v11) = W6 m ρ c (Proc.devRef .tc main_v11)
  after_results_simp
theorem w7_v13 (c : Dev nD) : W7 m ρ c (Proc.devRef .tc main_v13) = b0r (A2 m c) := by
  refine Eq.trans ?_ (w6_v13 m ρ c)
  show StableHlo.after hostOps3 (W6 m ρ c) (Proc.devRef .tc main_v13) = W6 m ρ c (Proc.devRef .tc main_v13)
  after_results_simp
theorem w7_v12 (c : Dev nD) : W7 m ρ c (Proc.devRef .tc main_v12) = w1c (A3 m c) := by
  refine Eq.trans ?_ (w6_v12 m ρ c)
  show StableHlo.after hostOps3 (W6 m ρ c) (Proc.devRef .tc main_v12) = W6 m ρ c (Proc.devRef .tc main_v12)
  after_results_simp
theorem w7_v14 (c : Dev nD) : W7 m ρ c (Proc.devRef .tc main_v14) = b1r (A4 m c) := by
  refine Eq.trans ?_ (w6_v14 m ρ c)
  show StableHlo.after hostOps3 (W6 m ρ c) (Proc.devRef .tc main_v14) = W6 m ρ c (Proc.devRef .tc main_v14)
  after_results_simp
theorem w7_v10 (c : Dev nD) : W7 m ρ c (Proc.devRef .tc main_v10) = xb (A0 m c) := by
  refine Eq.trans ?_ (w6_v10 m ρ c)
  show StableHlo.after hostOps3 (W6 m ρ c) (Proc.devRef .tc main_v10) = W6 m ρ c (Proc.devRef .tc main_v10)
  after_results_simp
theorem w7_v1 (c : Dev nD) : W7 m ρ c (Proc.devRef .tc main_v1) = val_main_v1 (F := Ideal) (A8 m c) := by
  refine Eq.trans ?_ (w6_v1 m ρ c)
  show StableHlo.after hostOps3 (W6 m ρ c) (Proc.devRef .tc main_v1) = W6 m ρ c (Proc.devRef .tc main_v1)
  after_results_simp
theorem w7_v9 (c : Dev nD) : W7 m ρ c (Proc.devRef .tc main_v9) = val_main_v9 (F := Ideal) (A8 m c) (A9 m c) := by
  refine Eq.trans ?_ (w6_v9 m ρ c)
  show StableHlo.after hostOps3 (W6 m ρ c) (Proc.devRef .tc main_v9) = W6 m ρ c (Proc.devRef .tc main_v9)
  after_results_simp
theorem w7_arg5 (c : Dev nD) : W7 m ρ c (Proc.devRef .tc main_arg5) = A5 m c := by
  refine Eq.trans ?_ (w6_arg5 m ρ c)
  show StableHlo.after hostOps3 (W6 m ρ c) (Proc.devRef .tc main_arg5) = W6 m ρ c (Proc.devRef .tc main_arg5)
  after_results_simp
theorem w7_arg6 (c : Dev nD) : W7 m ρ c (Proc.devRef .tc main_arg6) = A6 m c := by
  refine Eq.trans ?_ (w6_arg6 m ρ c)
  show StableHlo.after hostOps3 (W6 m ρ c) (Proc.devRef .tc main_arg6) = W6 m ρ c (Proc.devRef .tc main_arg6)
  after_results_simp
theorem w7_arg7 (c : Dev nD) : W7 m ρ c (Proc.devRef .tc main_arg7) = A7 m c := by
  refine Eq.trans ?_ (w6_arg7 m ρ c)
  show StableHlo.after hostOps3 (W6 m ρ c) (Proc.devRef .tc main_arg7) = W6 m ρ c (Proc.devRef .tc main_arg7)
  after_results_simp
theorem w7_arg9 (c : Dev nD) : W7 m ρ c (Proc.devRef .tc main_arg9) = A9 m c := by
  refine Eq.trans ?_ (w6_arg9 m ρ c)
  show StableHlo.after hostOps3 (W6 m ρ c) (Proc.devRef .tc main_arg9) = W6 m ρ c (Proc.devRef .tc main_arg9)
  after_results_simp
theorem w7_arg10 (c : Dev nD) : W7 m ρ c (Proc.devRef .tc main_arg10) = A10 m c := by
  refine Eq.trans ?_ (w6_arg10 m ρ c)
  show StableHlo.after hostOps3 (W6 m ρ c) (Proc.devRef .tc main_arg10) = W6 m ρ c (Proc.devRef .tc main_arg10)
  after_results_simp
theorem w7_arg11 (c : Dev nD) : W7 m ρ c (Proc.devRef .tc main_arg11) = A11 m c := by
  refine Eq.trans ?_ (w6_arg11 m ρ c)
  show StableHlo.after hostOps3 (W6 m ρ c) (Proc.devRef .tc main_arg11) = W6 m ρ c (Proc.devRef .tc main_arg11)
  after_results_simp

/-! ## When the fourth region is left -/

/-- The third hop's kernel output. -/
theorem w8_v162 (c : Dev nD) : W8 m ρ c (Proc.devRef .tc main_v162)
    = outE (A0 m c) (A1 m c) (A2 m c) (A3 m c) (A4 m c) (val_main_v176 (F := Ideal) (A11 m c)) (val_main_v191 (F := Ideal) (A7 m c))
        (val_main_v170 (F := Ideal) (A8 m c) (A9 m c) (A10 m c) (A11 m c)) :=
  ((W8_arr m ρ c 6).trans (Region3.final (V7 m ρ) c)).trans
    (rows_congr (w7_v131 m ρ c) (w7_v11 m ρ c) (w7_v13 m ρ c) (w7_v12 m ρ c) (w7_v14 m ρ c) (w7_v161 m ρ c))
theorem w8_v120 (c : Dev nD) : W8 m ρ c (Proc.devRef .tc main_v120)
    = agg2 (A0 m c) (A1 m c) (A2 m c) (A3 m c) (A4 m c) (A7 m c) (A8 m c) (A9 m c) (A10 m c) (A11 m c) :=
  (W8_of_ne m ρ c main_v120 (by decide)).trans (w7_v120 m ρ c)
theorem w8_v122 (c : Dev nD) : W8 m ρ c (Proc.devRef .tc main_v122) = val_main_v143 (F := Ideal) (A10 m c) :=
  (W8_of_ne m ρ c main_v122 (by decide)).trans (w7_v122 m ρ c)
theorem w8_v11 (c : Dev nD) : W8 m ρ c (Proc.devRef .tc main_v11) = w0c (A1 m c) :=
  ((W8_arr m ρ c 2).trans (((dat3 (V7 m ρ) c).arrAt_in 2 rfl _).trans (A_eq3 (V7 m ρ) c 2))).trans (w7_v11 m ρ c)
theorem w8_v13 (c : Dev nD) : W8 m ρ c (Proc.devRef .tc main_v13) = b0r (A2 m c) :=
  ((W8_arr m ρ c 3).trans (((dat3 (V7 m ρ) c).arrAt_in 3 rfl _).trans (A_eq3 (V7 m ρ) c 3))).trans (w7_v13 m ρ c)
theorem w8_v12 (c : Dev nD) : W8 m ρ c (Proc.devRef .tc main_v12) = w1c (A3 m c) :=
  ((W8_arr m ρ c 4).trans (((dat3 (V7 m ρ) c).arrAt_in 4 rfl _).trans (A_eq3 (V7 m ρ) c 4))).trans (w7_v12 m ρ c)
theorem w8_v14 (c : Dev nD) : W8 m ρ c (Proc.devRef .tc main_v14) = b1r (A4 m c) :=
  ((W8_arr m ρ c 5).trans (((dat3 (V7 m ρ) c).arrAt_in 5 rfl _).trans (A_eq3 (V7 m ρ) c 5))).trans (w7_v14 m ρ c)
theorem w8_v10 (c : Dev nD) : W8 m ρ c (Proc.devRef .tc main_v10) = xb (A0 m c) :=
  (W8_of_ne m ρ c main_v10 (by decide)).trans (w7_v10 m ρ c)
theorem w8_v1 (c : Dev nD) : W8 m ρ c (Proc.devRef .tc main_v1) = val_main_v1 (F := Ideal) (A8 m c) :=
  (W8_of_ne m ρ c main_v1 (by decide)).trans (w7_v1 m ρ c)
theorem w8_v9 (c : Dev nD) : W8 m ρ c (Proc.devRef .tc main_v9) = val_main_v9 (F := Ideal) (A8 m c) (A9 m c) :=
  (W8_of_ne m ρ c main_v9 (by decide)).trans (w7_v9 m ρ c)
theorem w8_arg5 (c : Dev nD) : W8 m ρ c (Proc.devRef .tc main_arg5) = A5 m c :=
  (W8_of_ne m ρ c main_arg5 (by decide)).trans (w7_arg5 m ρ c)
theorem w8_arg6 (c : Dev nD) : W8 m ρ c (Proc.devRef .tc main_arg6) = A6 m c :=
  (W8_of_ne m ρ c main_arg6 (by decide)).trans (w7_arg6 m ρ c)
theorem w8_arg7 (c : Dev nD) : W8 m ρ c (Proc.devRef .tc main_arg7) = A7 m c :=
  (W8_of_ne m ρ c main_arg7 (by decide)).trans (w7_arg7 m ρ c)
theorem w8_arg9 (c : Dev nD) : W8 m ρ c (Proc.devRef .tc main_arg9) = A9 m c :=
  (W8_of_ne m ρ c main_arg9 (by decide)).trans (w7_arg9 m ρ c)
theorem w8_arg10 (c : Dev nD) : W8 m ρ c (Proc.devRef .tc main_arg10) = A10 m c :=
  (W8_of_ne m ρ c main_arg10 (by decide)).trans (w7_arg10 m ρ c)
theorem w8_arg11 (c : Dev nD) : W8 m ρ c (Proc.devRef .tc main_arg11) = A11 m c :=
  (W8_of_ne m ρ c main_arg11 (by decide)).trans (w7_arg11 m ρ c)

end Cert.KernelIdeal.Chain

end
-- ==== Proof.Region4.lean ====
/-
  Region 4: the perceptron kernel's output array after its run.

  The grid cuts the 524288 rows into 128 blocks of 4096. Point t stages rows 4096·t … 4096·t + 4095 of the feature array and
  of the weight column, and the two weight matrices and the two bias rows whole; what it writes back is, entry by
  entry, the perceptron of the staged rows times the staged weights. The blocks tile the array, so the array ends
  holding, at every entry (r, q), the perceptron of row r of the features times the weight of row r.
-/
import proofs.«114530_j6519760355655_2_alg».proof.Proof.Gen.KernelIdeal.Frame
import proofs.«114530_j6519760355655_2_alg».proof.Proof.Body
import proofs.«114530_j6519760355655_2_alg».proof.Proof.Appnp

set_option maxRecDepth 16384

noncomputable section

namespace Cert.KernelIdeal.Region4

open Cert.KernelIdeal Cert.KernelIdeal.Gen Idealize.ShloMosaic Idealize.ShloMosaic.TcCoe Idealize.ShloMosaic.ValueIdx
open Idealize.SL.Sem Cert.Dense Cert.Appnp
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The array the region leaves: entry (r, q) is the perceptron of row r of the features times row r's weight. -/
def G (c : Dev nD) : S524288x128.Idx → EReal := fun i =>
  perceptron (R := 524288) (V c main_v178 : S524288x128.Idx → EReal) (V c main_v11 : S128x128.Idx → EReal) (V c main_v13 : S1x128.Idx → EReal)
    (V c main_v12 : S128x128.Idx → EReal) (V c main_v14 : S1x128.Idx → EReal) i * (V c main_v208 : S524288x1.Idx → EReal) (ix2 (i 0) (0 : Fin 1))

/-- The index maps over the grid: the features, the weight column and the output move together down the rows; the
    matrices and the bias rows stay at their one block. -/
theorem idx_facts : ∀ t : Fin cfg4.N,
    win4_0.index t (0 : Fin 2) = win4_6.index t (0 : Fin 2) ∧ win4_0.index t (1 : Fin 2) = 0
    ∧ win4_1.index t (0 : Fin 2) = win4_6.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (1 : Fin 2) = 0 ∧ win4_6.index t (0 : Fin 2) ≤ 127 :=
  (by decide +kernel : ∀ t : Fin grid4.N, _)

/-- Every block of rows is some point's. -/
theorem idx_onto : ∀ q0 : Fin 128, ∃ t : Fin cfg4.N, win4_6.index t = ![q0.val, 0] :=
  (by decide +kernel : ∀ q0 : Fin 128, ∃ t : Fin grid4.N, win4_6.index t = ![q0.val, 0])

/-- A window staged whole: its block at any point is its array. -/
theorem blk2 (c : Dev nD) (t : Fin cfg4.N) : iblk4 V c 2 t = (V c main_v11 : S128x128.Idx → EReal) := by
  funext y
  show V c main_v11 (((cfg4.win 2).blk t).view.emb y) = V c main_v11 y
  refine congrArg _ (funext fun a => Fin.ext ?_)
  obtain ⟨-, -, -, -, e0, e1, -⟩ := idx_facts t
  match a with
  | ⟨0, _⟩ => show win4_2.index t (0 : Fin 2) * 128 + 1 * (y 0).val = (y 0).val; omega
  | ⟨1, _⟩ => show win4_2.index t (1 : Fin 2) * 128 + 1 * (y 1).val = (y 1).val; omega
theorem blk3 (c : Dev nD) (t : Fin cfg4.N) : iblk4 V c 3 t = (V c main_v13 : S1x128.Idx → EReal) := by
  funext y
  show V c main_v13 (((cfg4.win 3).blk t).view.emb y) = V c main_v13 y
  refine congrArg _ (funext fun a => Fin.ext ?_)
  obtain ⟨-, -, -, -, -, -, e0, e1, -⟩ := idx_facts t
  match a with
  | ⟨0, _⟩ => show win4_3.index t (0 : Fin 2) * 1 + 1 * (y 0).val = (y 0).val; omega
  | ⟨1, _⟩ => show win4_3.index t (1 : Fin 2) * 128 + 1 * (y 1).val = (y 1).val; omega
theorem blk4 (c : Dev nD) (t : Fin cfg4.N) : iblk4 V c 4 t = (V c main_v12 : S128x128.Idx → EReal) := by
  funext y
  show V c main_v12 (((cfg4.win 4).blk t).view.emb y) = V c main_v12 y
  refine congrArg _ (funext fun a => Fin.ext ?_)
  obtain ⟨-, -, -, -, -, -, -, -, e0, e1, -⟩ := idx_facts t
  match a with
  | ⟨0, _⟩ => show win4_4.index t (0 : Fin 2) * 128 + 1 * (y 0).val = (y 0).val; omega
  | ⟨1, _⟩ => show win4_4.index t (1 : Fin 2) * 128 + 1 * (y 1).val = (y 1).val; omega
theorem blk5 (c : Dev nD) (t : Fin cfg4.N) : iblk4 V c 5 t = (V c main_v14 : S1x128.Idx → EReal) := by
  funext y
  show V c main_v14 (((cfg4.win 5).blk t).view.emb y) = V c main_v14 y
  refine congrArg _ (funext fun a => Fin.ext ?_)
  obtain ⟨-, -, -, -, -, -, -, -, -, -, e0, e1, -⟩ := idx_facts t
  match a with
  | ⟨0, _⟩ => show win4_5.index t (0 : Fin 2) * 1 + 1 * (y 0).val = (y 0).val; omega
  | ⟨1, _⟩ => show win4_5.index t (1 : Fin 2) * 128 + 1 * (y 1).val = (y 1).val; omega

/-- Row p of the staged feature block is the feature array's row under row p of the output block. -/
theorem blk0 (c : Dev nD) (t : Fin cfg4.N) (y : S4096x128.Idx) (j : Fin 128) :
    iblk4 V c 0 t (ix2 (y 0) j) = (V c main_v178 : S524288x128.Idx → EReal) (ix2 ((((cfg4.win 6).blk t).view.emb y) 0) j) := by
  show V c main_v178 (((cfg4.win 0).blk t).view.emb (ix2 (y 0) j)) = V c main_v178 (ix2 ((((cfg4.win 6).blk t).view.emb y) 0) j)
  refine congrArg _ (funext fun a => Fin.ext ?_)
  obtain ⟨e0, e1, -⟩ := idx_facts t
  match a with
  | ⟨0, _⟩ => show win4_0.index t (0 : Fin 2) * 4096 + 1 * (y 0).val = win4_6.index t (0 : Fin 2) * 4096 + 1 * (y 0).val; omega
  | ⟨1, _⟩ => show win4_0.index t (1 : Fin 2) * 128 + 1 * j.val = j.val; omega

/-- Row p of the staged weight column is the weight of the row under row p of the output block. -/
theorem blk1 (c : Dev nD) (t : Fin cfg4.N) (y : S4096x128.Idx) :
    iblk4 V c 1 t (ix2 (y 0) (0 : Fin 1)) = (V c main_v208 : S524288x1.Idx → EReal) (ix2 ((((cfg4.win 6).blk t).view.emb y) 0) (0 : Fin 1)) := by
  show V c main_v208 (((cfg4.win 1).blk t).view.emb (ix2 (y 0) (0 : Fin 1))) = V c main_v208 (ix2 ((((cfg4.win 6).blk t).view.emb y) 0) (0 : Fin 1))
  refine congrArg _ (funext fun a => Fin.ext ?_)
  obtain ⟨-, -, e0, e1, -⟩ := idx_facts t
  match a with
  | ⟨0, _⟩ => show win4_1.index t (0 : Fin 2) * 4096 + 1 * (y 0).val = win4_6.index t (0 : Fin 2) * 4096 + 1 * (y 0).val; omega
  | ⟨1, _⟩ => show win4_1.index t (1 : Fin 2) * 1 + 1 * 0 = 0; omega

/-- WHAT POINT t WRITES BACK is its block of G. -/
theorem flushed (c : Dev nD) (t : Fin cfg4.N) :
    (dat4 V c).flushed 6 t = ((cfg4.win 6).blk t).view.read (Elt Ideal) (G V c) := by
  show (cfg4.win 6).cut (grid4.coords t) ((dat4 V c).after 6 t) = _
  rw [after4_6]
  unfold out4_6
  rw [View.canon_unit_zero hz]
  simp only [View.ld_unit_zero (S := S4096x128) hz, View.ld_unit_zero (S := S128x128) hz, View.ld_unit_zero (S := S1x128) hz,
    View.ld_unit_zero (S := S4096x1) hz]
  rw [blk2 V c t, blk3 V c t, blk4 V c t, blk5 V c t]
  rw [Cert.KernelIdeal.Body.pay1_4]
  funext y
  obtain ⟨p, q, rfl⟩ : ∃ (p : Fin 4096) (q : Fin 128), y = ix2 p q := ⟨y 0, y 1, eq_ix2 y⟩
  refine (Cert.KernelIdeal.Body.perceptron_payload (iblk4 V c 0 t) _ _ _ _ (iblk4 V c 1 t) p q).trans ?_
  show _ = G V c (((cfg4.win 6).blk t).view.emb (ix2 p q))
  unfold G
  refine congrArg₂ (· * ·) (perceptron_congr (ix2 p q) (((cfg4.win 6).blk t).view.emb (ix2 p q)) ?_ (fun j => blk0 V c t (ix2 p q) j))
    (blk1 V c t (ix2 p q))
  obtain ⟨-, -, -, -, -, -, -, -, -, -, -, -, e1, -⟩ := idx_facts t
  refine Fin.ext ?_
  show q.val = win4_6.index t (1 : Fin 2) * 128 + 1 * q.val
  omega

/-- An index of the array is in point t's block iff each coordinate is in the block's range on its axis. -/
theorem mem_blk (t : Fin cfg4.N) (i : S524288x128.Idx) :
    i ∈ ((cfg4.win 6).blk t).view.set ↔ ∀ a : Fin 2, win4_6.index t a * S4096x128.size a ≤ (i a).val
      ∧ (i a).val < win4_6.index t a * S4096x128.size a + S4096x128.size a := by
  show i ∈ ((View.whole main_v209).slice (win4_6.rect t)).set ↔ _
  rw [View.set_slice_whole, Rect.mem_set_unit]
  exact Iff.rfl

/-- The blocks tile the array: row r lies in the block of point r / 4096. -/
theorem cover (i : S524288x128.Idx) : ∃ t : Fin cfg4.N, (cfg4.win 6).flush t = true ∧ i ∈ ((cfg4.win 6).blk t).view.set := by
  have hi0 : (i 0).val < 524288 := (i 0).isLt
  have hi1 : (i 1).val < 128 := (i 1).isLt
  obtain ⟨t, ht⟩ := idx_onto ⟨(i 0).val / 4096, by omega⟩
  have q0 : win4_6.index t (0 : Fin 2) = (i 0).val / 4096 := congrFun ht 0
  have q1 : win4_6.index t (1 : Fin 2) = 0 := congrFun ht 1
  refine ⟨t, flush4_6 t, ?_⟩
  rw [mem_blk]
  intro a
  match a with
  | ⟨0, _⟩ => show win4_6.index t (0 : Fin 2) * 4096 ≤ (i 0).val ∧ (i 0).val < win4_6.index t (0 : Fin 2) * 4096 + 4096; omega
  | ⟨1, _⟩ => show win4_6.index t (1 : Fin 2) * 128 ≤ (i 1).val ∧ (i 1).val < win4_6.index t (1 : Fin 2) * 128 + 128; omega

/-- THE ARRAY after the region's write-backs. -/
theorem final (c : Dev nD) : (dat4 V c).arrAt 6 cfg4.N = G V c :=
  (dat4 V c).arrAt_eq_of_cover 6 (G V c) (fun t _ => flushed V c t) cover

end Cert.KernelIdeal.Region4

end
-- ==== Proof.Region5.lean ====
/-
  Region 5: the classifier head's output array after its run.

  The grid cuts the 32768 rows into 4 blocks of 8192. Point t stages rows 8192·t … 8192·t + 8191 of the aggregated
  array, and the classifier's weight matrix and bias row whole; what it writes back is, entry by entry, the head of
  the staged rows. The blocks tile the array, so the array ends holding, at every entry (r, o), the head of row r.
-/
import proofs.«114530_j6519760355655_2_alg».proof.Proof.Gen.KernelIdeal.Frame
import proofs.«114530_j6519760355655_2_alg».proof.Proof.Body
import proofs.«114530_j6519760355655_2_alg».proof.Proof.Appnp

set_option maxRecDepth 16384

noncomputable section

namespace Cert.KernelIdeal.Region5

open Cert.KernelIdeal Cert.KernelIdeal.Gen Idealize.ShloMosaic Idealize.ShloMosaic.TcCoe Idealize.ShloMosaic.ValueIdx
open Idealize.SL.Sem Cert.Dense Cert.Appnp
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The array the region leaves: entry (r, o) is the head of row r of the aggregated array. -/
def G (c : Dev nD) : S32768x8.Idx → EReal :=
  head (R := 32768) (V c main_v214 : S32768x128.Idx → EReal) (V c main_arg5 : S128x8.Idx → EReal) (V c main_v215 : S1x8.Idx → EReal)

/-- The index maps over the grid: the aggregated rows and the output move together; the weights stay. -/
theorem idx_facts : ∀ t : Fin cfg5.N,
    win5_0.index t (0 : Fin 2) = win5_3.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (1 : Fin 2) = 0 ∧ win5_3.index t (0 : Fin 2) ≤ 3 :=
  (by decide +kernel : ∀ t : Fin grid5.N, _)

/-- Every block of rows is some point's. -/
theorem idx_onto : ∀ q0 : Fin 4, ∃ t : Fin cfg5.N, win5_3.index t = ![q0.val, 0] :=
  (by decide +kernel : ∀ q0 : Fin 4, ∃ t : Fin grid5.N, win5_3.index t = ![q0.val, 0])

theorem blk1 (c : Dev nD) (t : Fin cfg5.N) : iblk5 V c 1 t = (V c main_arg5 : S128x8.Idx → EReal) := by
  funext y
  show V c main_arg5 (((cfg5.win 1).blk t).view.emb y) = V c main_arg5 y
  refine congrArg _ (funext fun a => Fin.ext ?_)
  obtain ⟨-, -, e0, e1, -⟩ := idx_facts t
  match a with
  | ⟨0, _⟩ => show win5_1.index t (0 : Fin 2) * 128 + 1 * (y 0).val = (y 0).val; omega
  | ⟨1, _⟩ => show win5_1.index t (1 : Fin 2) * 8 + 1 * (y 1).val = (y 1).val; omega
theorem blk2 (c : Dev nD) (t : Fin cfg5.N) : iblk5 V c 2 t = (V c main_v215 : S1x8.Idx → EReal) := by
  funext y
  show V c main_v215 (((cfg5.win 2).blk t).view.emb y) = V c main_v215 y
  refine congrArg _ (funext fun a => Fin.ext ?_)
  obtain ⟨-, -, -, -, e0, e1, -⟩ := idx_facts t
  match a with
  | ⟨0, _⟩ => show win5_2.index t (0 : Fin 2) * 1 + 1 * (y 0).val = (y 0).val; omega
  | ⟨1, _⟩ => show win5_2.index t (1 : Fin 2) * 8 + 1 * (y 1).val = (y 1).val; omega

/-- Row p of the staged aggregated block is the aggregated array's row under row p of the output block. -/
theorem blk0 (c : Dev nD) (t : Fin cfg5.N) (y : S8192x8.Idx) (j : Fin 128) :
    iblk5 V c 0 t (ix2 (y 0) j) = (V c main_v214 : S32768x128.Idx → EReal) (ix2 ((((cfg5.win 3).blk t).view.emb y) 0) j) := by
  show V c main_v214 (((cfg5.win 0).blk t).view.emb (ix2 (y 0) j)) = V c main_v214 (ix2 ((((cfg5.win 3).blk t).view.emb y) 0) j)
  refine congrArg _ (funext fun a => Fin.ext ?_)
  obtain ⟨e0, e1, -⟩ := idx_facts t
  match a with
  | ⟨0, _⟩ => show win5_0.index t (0 : Fin 2) * 8192 + 1 * (y 0).val = win5_3.index t (0 : Fin 2) * 8192 + 1 * (y 0).val; omega
  | ⟨1, _⟩ => show win5_0.index t (1 : Fin 2) * 128 + 1 * j.val = j.val; omega

/-- WHAT POINT t WRITES BACK is its block of G. -/
theorem flushed (c : Dev nD) (t : Fin cfg5.N) :
    (dat5 V c).flushed 3 t = ((cfg5.win 3).blk t).view.read (Elt Ideal) (G V c) := by
  show (cfg5.win 3).cut (grid5.coords t) ((dat5 V c).after 3 t) = _
  rw [after5_3]
  unfold out5_3
  rw [View.canon_unit_zero hz]
  simp only [View.ld_unit_zero (S := S8192x128) hz, View.ld_unit_zero (S := S128x8) hz, View.ld_unit_zero (S := S1x8) hz]
  rw [blk1 V c t, blk2 V c t]
  funext y
  obtain ⟨p, o, rfl⟩ : ∃ (p : Fin 8192) (o : Fin 8), y = ix2 p o := ⟨y 0, y 1, eq_ix2 y⟩
  refine (Cert.KernelIdeal.Body.head_payload (iblk5 V c 0 t) _ _ p o).trans ?_
  show _ = G V c (((cfg5.win 3).blk t).view.emb (ix2 p o))
  unfold G
  refine head_congr (ix2 p o) (((cfg5.win 3).blk t).view.emb (ix2 p o)) ?_ (fun j => blk0 V c t (ix2 p o) j)
  obtain ⟨-, -, -, -, -, -, e1, -⟩ := idx_facts t
  refine Fin.ext ?_
  show o.val = win5_3.index t (1 : Fin 2) * 8 + 1 * o.val
  omega

/-- An index of the array is in point t's block iff each coordinate is in the block's range on its axis. -/
theorem mem_blk (t : Fin cfg5.N) (i : S32768x8.Idx) :
    i ∈ ((cfg5.win 3).blk t).view.set ↔ ∀ a : Fin 2, win5_3.index t a * S8192x8.size a ≤ (i a).val
      ∧ (i a).val < win5_3.index t a * S8192x8.size a + S8192x8.size a := by
  show i ∈ ((View.whole main_v216).slice (win5_3.rect t)).set ↔ _
  rw [View.set_slice_whole, Rect.mem_set_unit]
  exact Iff.rfl

/-- The blocks tile the array: row r lies in the block of point r / 8192. -/
theorem cover (i : S32768x8.Idx) : ∃ t : Fin cfg5.N, (cfg5.win 3).flush t = true ∧ i ∈ ((cfg5.win 3).blk t).view.set := by
  have hi0 : (i 0).val < 32768 := (i 0).isLt
  have hi1 : (i 1).val < 8 := (i 1).isLt
  obtain ⟨t, ht⟩ := idx_onto ⟨(i 0).val / 8192, by omega⟩
  have q0 : win5_3.index t (0 : Fin 2) = (i 0).val / 8192 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 8192 ≤ (i 0).val ∧ (i 0).val < win5_3.index t (0 : Fin 2) * 8192 + 8192; omega
  | ⟨1, _⟩ => show win5_3.index t (1 : Fin 2) * 8 ≤ (i 1).val ∧ (i 1).val < win5_3.index t (1 : Fin 2) * 8 + 8; omega

/-- THE ARRAY after the region's write-backs. -/
theorem final (c : Dev nD) : (dat5 V c).arrAt 3 cfg5.N = G V c :=
  (dat5 V c).arrAt_eq_of_cover 3 (G V c) (fun t _ => flushed V c t) cover

end Cert.KernelIdeal.Region5

end
-- ==== Proof.ChainZ.lean ====
/-
  The idealized kernel's buffers from the fifth region's entry to the last region's exit: the fourth hop and the head.

  The host operations before the fifth region add the third hop's scattered rows to the aggregated array and compute the
  fourth hop's heads, gathered end rows and row weights; the region's output is the fourth hop's kernel output. The host
  operations before the last region add the fourth hop's scattered rows and view the classifier's bias as a row. The last
  region's output, the program's result, is the classifier head of the last aggregated array.
-/
import proofs.«114530_j6519760355655_2_alg».proof.Proof.Gen.KernelIdeal.Frame
import proofs.«114530_j6519760355655_2_alg».proof.Proof.RefRead
import proofs.«114530_j6519760355655_2_alg».proof.Proof.KTerms
import proofs.«114530_j6519760355655_2_alg».proof.Proof.ChainA
import proofs.«114530_j6519760355655_2_alg».proof.Proof.ChainB
import proofs.«114530_j6519760355655_2_alg».proof.Proof.ChainC
import proofs.«114530_j6519760355655_2_alg».proof.Proof.ChainD
import proofs.«114530_j6519760355655_2_alg».proof.Proof.Region4
import proofs.«114530_j6519760355655_2_alg».proof.Proof.Region5

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem
open Cert.KernelIdeal.Terms Cert.Appnp
open Cert.ReferenceIdeal.ReadP (val_main_v1 val_main_v9 val_main_v31 val_main_v64 val_main_v79 val_main_v58
  val_main_v87 val_main_v120 val_main_v135 val_main_v114 val_main_v143 val_main_v176 val_main_v191 val_main_v170
  val_main_v199 val_main_v232 val_main_v247 val_main_v226)

variable (m : (ℓ : Loc nD τ sig) → Buf (Elt Ideal) ℓ) (ρ : Dev nD → PrngReg)

/-- The heads of equal operands are equal. -/
theorem head_args {R : Nat} {A A' : (⟨2, ![R, 128]⟩ : Shape).Idx → EReal} {W W' : (⟨2, ![128, 8]⟩ : Shape).Idx → EReal}
    {B B' : (⟨2, ![1, 8]⟩ : Shape).Idx → EReal} (hA : A = A') (hW : W = W') (hB : B = B') :
    head A W B = head A' W' B' := by
  subst hA hW hB; rfl

/-! ## When the fifth region is entered -/

/-- The aggregated array after the third hop. -/
theorem w9_v167 (c : Dev nD) : W9 m ρ c (Proc.devRef .tc main_v167)
    = agg3 (A0 m c) (A1 m c) (A2 m c) (A3 m c) (A4 m c) (A7 m c) (A8 m c) (A9 m c) (A10 m c) (A11 m c) := by
  show StableHlo.after hostOps4 (W8 m ρ c) (Proc.devRef .tc main_v167) = _
  after_results_simp
  rw [w8_v120 m ρ c, w8_v122 m ρ c, w8_v162 m ρ c]; rfl
/-- The fourth hop's heads. -/
theorem w9_v169 (c : Dev nD) : W9 m ρ c (Proc.devRef .tc main_v169) = val_main_v199 (F := Ideal) (A10 m c) := by
  show StableHlo.after hostOps4 (W8 m ρ c) (Proc.devRef .tc main_v169) = _
  after_results_simp
  rw [w8_arg10 m ρ c]; rfl
/-- The fourth hop's gathered end rows. -/
theorem w9_v178 (c : Dev nD) : W9 m ρ c (Proc.devRef .tc main_v178) = rowsE (A0 m c) (val_main_v232 (F := Ideal) (A11 m c)) := by
  show StableHlo.after hostOps4 (W8 m ρ c) (Proc.devRef .tc main_v178) = _
  after_results_simp
  rw [w8_v10 m ρ c, w8_arg11 m ρ c]; rfl
set_option maxHeartbeats 1000000 in
/-- The fourth hop's row weights. -/
theorem w9_v208 (c : Dev nD) : W9 m ρ c (Proc.devRef .tc main_v208)
    = wE (val_main_v247 (F := Ideal) (A7 m c)) (val_main_v226 (F := Ideal) (A8 m c) (A9 m c) (A10 m c) (A11 m c)) := by
  show StableHlo.after hostOps4 (W8 m ρ c) (Proc.devRef .tc main_v208) = _
  after_results_simp
  rw [w8_v1 m ρ c, w8_v9 m ρ c, w8_arg7 m ρ c, w8_arg9 m ρ c, w8_arg10 m ρ c, w8_arg11 m ρ c]; rfl
theorem w9_v11 (c : Dev nD) : W9 m ρ c (Proc.devRef .tc main_v11) = w0c (A1 m c) := by
  refine Eq.trans ?_ (w8_v11 m ρ c)
  show StableHlo.after hostOps4 (W8 m ρ c) (Proc.devRef .tc main_v11) = W8 m ρ c (Proc.devRef .tc main_v11)
  after_results_simp
theorem w9_v13 (c : Dev nD) : W9 m ρ c (Proc.devRef .tc main_v13) = b0r (A2 m c) := by
  refine Eq.trans ?_ (w8_v13 m ρ c)
  show StableHlo.after hostOps4 (W8 m ρ c) (Proc.devRef .tc main_v13) = W8 m ρ c (Proc.devRef .tc main_v13)
  after_results_simp
theorem w9_v12 (c : Dev nD) : W9 m ρ c (Proc.devRef .tc main_v12) = w1c (A3 m c) := by
  refine Eq.trans ?_ (w8_v12 m ρ c)
  show StableHlo.after hostOps4 (W8 m ρ c) (Proc.devRef .tc main_v12) = W8 m ρ c (Proc.devRef .tc main_v12)
  after_results_simp
theorem w9_v14 (c : Dev nD) : W9 m ρ c (Proc.devRef .tc main_v14) = b1r (A4 m c) := by
  refine Eq.trans ?_ (w8_v14 m ρ c)
  show StableHlo.after hostOps4 (W8 m ρ c) (Proc.devRef .tc main_v14) = W8 m ρ c (Proc.devRef .tc main_v14)
  after_results_simp
theorem w9_arg5 (c : Dev nD) : W9 m ρ c (Proc.devRef .tc main_arg5) = A5 m c := by
  refine Eq.trans ?_ (w8_arg5 m ρ c)
  show StableHlo.after hostOps4 (W8 m ρ c) (Proc.devRef .tc main_arg5) = W8 m ρ c (Proc.devRef .tc main_arg5)
  after_results_simp
theorem w9_arg6 (c : Dev nD) : W9 m ρ c (Proc.devRef .tc main_arg6) = A6 m c := by
  refine Eq.trans ?_ (w8_arg6 m ρ c)
  show StableHlo.after hostOps4 (W8 m ρ c) (Proc.devRef .tc main_arg6) = W8 m ρ c (Proc.devRef .tc main_arg6)
  after_results_simp

/-! ## When the fifth region is left -/

/-- The fourth hop's kernel output. -/
theorem w10_v209 (c : Dev nD) : W10 m ρ c (Proc.devRef .tc main_v209)
    = outE (A0 m c) (A1 m c) (A2 m c) (A3 m c) (A4 m c) (val_main_v232 (F := Ideal) (A11 m c)) (val_main_v247 (F := Ideal) (A7 m c))
        (val_main_v226 (F := Ideal) (A8 m c) (A9 m c) (A10 m c) (A11 m c)) :=
  ((W10_arr m ρ c 6).trans (Region4.final (V9 m ρ) c)).trans
    (rows_congr (w9_v178 m ρ c) (w9_v11 m ρ c) (w9_v13 m ρ c) (w9_v12 m ρ c) (w9_v14 m ρ c) (w9_v208 m ρ c))
theorem w10_v167 (c : Dev nD) : W10 m ρ c (Proc.devRef .tc main_v167)
    = agg3 (A0 m c) (A1 m c) (A2 m c) (A3 m c) (A4 m c) (A7 m c) (A8 m c) (A9 m c) (A10 m c) (A11 m c) :=
  (W10_of_ne m ρ c main_v167 (by decide)).trans (w9_v167 m ρ c)
theorem w10_v169 (c : Dev nD) : W10 m ρ c (Proc.devRef .tc main_v169) = val_main_v199 (F := Ideal) (A10 m c) :=
  (W10_of_ne m ρ c main_v169 (by decide)).trans (w9_v169 m ρ c)
theorem w10_arg5 (c : Dev nD) : W10 m ρ c (Proc.devRef .tc main_arg5) = A5 m c :=
  (W10_of_ne m ρ c main_arg5 (by decide)).trans (w9_arg5 m ρ c)
theorem w10_arg6 (c : Dev nD) : W10 m ρ c (Proc.devRef .tc main_arg6) = A6 m c :=
  (W10_of_ne m ρ c main_arg6 (by decide)).trans (w9_arg6 m ρ c)

/-! ## When the last region is entered -/

/-- The aggregated array after the fourth hop. -/
theorem w11_v214 (c : Dev nD) : W11 m ρ c (Proc.devRef .tc main_v214)
    = agg4 (A0 m c) (A1 m c) (A2 m c) (A3 m c) (A4 m c) (A7 m c) (A8 m c) (A9 m c) (A10 m c) (A11 m c) := by
  show StableHlo.after hostOps5 (W10 m ρ c) (Proc.devRef .tc main_v214) = _
  after_results_simp
  rw [w10_v167 m ρ c, w10_v169 m ρ c, w10_v209 m ρ c]; rfl
/-- The classifier's bias as a row. -/
theorem w11_v215 (c : Dev nD) : W11 m ρ c (Proc.devRef .tc main_v215) = shapeCast S1x8 (A6 m c) shapeCasts_S8_S1x8 := by
  show StableHlo.after hostOps5 (W10 m ρ c) (Proc.devRef .tc main_v215) = _
  after_results_simp
  rw [w10_arg6 m ρ c]; rfl
theorem w11_arg5 (c : Dev nD) : W11 m ρ c (Proc.devRef .tc main_arg5) = A5 m c := by
  refine Eq.trans ?_ (w10_arg5 m ρ c)
  show StableHlo.after hostOps5 (W10 m ρ c) (Proc.devRef .tc main_arg5) = W10 m ρ c (Proc.devRef .tc main_arg5)
  after_results_simp

/-! ## When the last region is left -/

/-- THE RESULT: the classifier head of the last aggregated array, a term of the twelve arguments. -/
theorem kernel_value (c : Dev nD) : W12 m ρ c (Proc.devRef .tc main_v216)
    = Cert.KernelIdeal.Terms.result (A0 m c) (A1 m c) (A2 m c) (A3 m c) (A4 m c) (A5 m c) (A6 m c) (A7 m c) (A8 m c) (A9 m c)
        (A10 m c) (A11 m c) :=
  ((W12_arr m ρ c 3).trans (Region5.final (V11 m ρ) c)).trans
    (head_args (w11_v214 m ρ c) (w11_arg5 m ρ c) (w11_v215 m ρ c))

end Cert.KernelIdeal.Chain

end
-- ==== Proof.RefStages.lean ====
/-
  The reference's perceptron and classifier-head stages, read at an entry.

  The reference writes a dense layer as a product, a bias vector broadcast to a one-row matrix and then down the rows,
  and a sum; the positive part as the maximum with a splat of zero.  Read at an entry these are the layer `lin` and
  `max · 0`, so each perceptron stage (over the batch's gathered rows and over each hop's gathered rows) is
  `perceptron` of the gathered rows.  The last stage is `head` of the aggregated rows: the row maximum is the fold of
  `max` from -∞ over the row's eight logits, the normaliser is zero plus the sum of the eight exponentials.

  The lemmas are stated once for any number of rows, over the operations the reference is written in; the stages are
  instances.
-/
import proofs.«114530_j6519760355655_2_alg».proof.Proof.RefRead
import proofs.«114530_j6519760355655_2_alg».proof.Proof.Appnp
import Idealize.ShloMosaic.PureOps.Reduce
import Idealize.ShloMosaic.PureOps.Ideal.Laws

noncomputable section

namespace Cert.ReferenceIdeal.Stages

open Idealize.ShloMosaic Idealize.ShloMosaic.ValueIdx Cert.Dense Cert.Appnp

/-! ## A dense layer and the positive part, for any number of rows -/

/-- On an axis of extent C a coordinate is itself unless C = 1, where it is zero anyway. -/
theorem coord_eq {C : Nat} (t : Fin C) : t.val = if C = 1 then 0 else t.val := by
  split_ifs with h
  · have := t.isLt; omega
  · rfl

/-- A vector broadcast to a one-row matrix and then down R rows, read at (r, q), is the vector's entry q. -/
theorem bias_apply {R C : Nat} (hb1 : (⟨1, ![C]⟩ : Shape).BroadcastsInDim ⟨2, ![1, C]⟩ ![1])
    (hb2 : (⟨2, ![1, C]⟩ : Shape).BroadcastsInDim ⟨2, ![R, C]⟩ ![0, 1]) (b : FVec Ideal ⟨1, ![C]⟩ .f32)
    (i : (⟨2, ![R, C]⟩ : Shape).Idx) :
    broadcastInDim ⟨2, ![R, C]⟩ ![0, 1] hb2 (broadcastInDim ⟨2, ![1, C]⟩ ![1] hb1 b) i
      = row b (ix2 (0 : Fin 1) (i 1)) := by
  refine (broadcastInDim_apply _ hb2 (broadcastInDim ⟨2, ![1, C]⟩ ![1] hb1 b) i (ix2 (0 : Fin 1) (i 1)) (fun a => ?_)).trans ?_
  · match a with
    | ⟨0, _⟩ => show 0 = if (1 : Nat) = 1 then 0 else (i 0).val; rw [if_pos rfl]
    | ⟨1, _⟩ => exact coord_eq (i 1)
  · exact broadcastInDim_apply _ hb1 b (ix2 (0 : Fin 1) (i 1)) (ix1 (i 1)) (fun a => by
      match a with
      | ⟨0, _⟩ => exact coord_eq (i 1))

/-- A product plus a broadcast bias, read at an entry, is the dense layer. -/
theorem lin_read {R K C : Nat} (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (hb1 : (⟨1, ![C]⟩ : Shape).BroadcastsInDim ⟨2, ![1, C]⟩ ![1])
    (hb2 : (⟨2, ![1, C]⟩ : Shape).BroadcastsInDim ⟨2, ![R, C]⟩ ![0, 1])
    (Y : FVec Ideal ⟨2, ![R, K]⟩ .f32) (W : FVec Ideal ⟨2, ![K, C]⟩ .f32) (b : FVec Ideal ⟨1, ![C]⟩ .f32)
    (j : (⟨2, ![R, C]⟩ : Shape).Idx) :
    addf (Host.dotGeneral D none Y W) (broadcastInDim ⟨2, ![R, C]⟩ ![0, 1] hb2 (broadcastInDim ⟨2, ![1, C]⟩ ![1] hb1 b)) j
      = lin Y W (row b) j := by
  rw [addf_apply, bias_apply hb1 hb2 b j]
  exact congrArg (· + row b (ix2 (0 : Fin 1) (j 1))) (dotGeneral_eq D hr hs l0 l1 r0 r1 none .single Y W j)

/-- The maximum with a splat of the zero word, read at an entry, is the positive part. -/
theorem relu_read {R C : Nat} (hb0 : (⟨0, ![]⟩ : Shape).BroadcastsInDim ⟨2, ![R, C]⟩ ![])
    (A : FVec Ideal ⟨2, ![R, C]⟩ .f32) (j : (⟨2, ![R, C]⟩ : Shape).Idx) :
    maximumf A (broadcastInDim ⟨2, ![R, C]⟩ ![] hb0 (constant ⟨0, ![]⟩ .f32 0x00000000#32)) j = max (A j) z0 := by
  rw [maximumf_apply]
  exact congrArg (max (A j))
    (broadcastInDim_apply _ hb0 (constant (F := Ideal) ⟨0, ![]⟩ .f32 0x00000000#32) j (fun a => a.elim0) (fun a => a.elim0))

/-- The reference's two-layer perceptron over R rows, read at an entry. -/
theorem perceptron_read {R : Nat} (D : DotDims ⟨2, ![R, 128]⟩ ⟨2, ![128, 128]⟩ ⟨2, ![R, 128]⟩)
    (hr : D.contr.rank = 1) (hs : D.contr.size ⟨0, by omega⟩ = 128)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (hb1 : (⟨1, ![128]⟩ : Shape).BroadcastsInDim ⟨2, ![1, 128]⟩ ![1])
    (hb2 : (⟨2, ![1, 128]⟩ : Shape).BroadcastsInDim ⟨2, ![R, 128]⟩ ![0, 1])
    (hb0 : (⟨0, ![]⟩ : Shape).BroadcastsInDim ⟨2, ![R, 128]⟩ ![])
    (X : FVec Ideal ⟨2, ![R, 128]⟩ .f32) (W0 : FVec Ideal ⟨2, ![128, 128]⟩ .f32) (b0 : FVec Ideal ⟨1, ![128]⟩ .f32)
    (W1 : FVec Ideal ⟨2, ![128, 128]⟩ .f32) (b1 : FVec Ideal ⟨1, ![128]⟩ .f32) (i : (⟨2, ![R, 128]⟩ : Shape).Idx) :
    addf (Host.dotGeneral D none
        (maximumf (addf (Host.dotGeneral D none X W0)
            (broadcastInDim ⟨2, ![R, 128]⟩ ![0, 1] hb2 (broadcastInDim ⟨2, ![1, 128]⟩ ![1] hb1 b0)))
          (broadcastInDim ⟨2, ![R, 128]⟩ ![] hb0 (constant ⟨0, ![]⟩ .f32 0x00000000#32))) W1)
      (broadcastInDim ⟨2, ![R, 128]⟩ ![0, 1] hb2 (broadcastInDim ⟨2, ![1, 128]⟩ ![1] hb1 b1)) i
      = perceptron X W0 (row b0) W1 (row b1) i := by
  refine (lin_read D hr hs l0 l1 r0 r1 hb1 hb2 _ W1 b1 i).trans ?_
  unfold perceptron
  refine lin_congr i i rfl (fun k => ?_) rfl rfl
  exact (relu_read hb0 _ (ix2 (i 0) k)).trans
    (congrArg (max · z0) (lin_read D hr hs l0 l1 r0 r1 hb1 hb2 X W0 b0 (ix2 (i 0) k)))

/-! ## The log of the softmax of each row -/

/-- The host's pointwise exponential and logarithm at an entry. -/
theorem hostExp_apply {s : Shape} (v : FVec Ideal s .f32) (k : s.Idx) : Host.exp v k = Ideal.exp (v k) := rfl
theorem hostLog_apply {s : Shape} (v : FVec Ideal s .f32) (k : s.Idx) : Host.log v k = Ideal.log (v k) := rfl

/-- A vector over the rows broadcast to a column, read at (r, 0), is the vector's entry r. -/
theorem col_apply {R : Nat} (hbc : (⟨1, ![R]⟩ : Shape).BroadcastsInDim ⟨2, ![R, 1]⟩ ![0])
    (y : FVec Ideal ⟨1, ![R]⟩ .f32) (j : (⟨2, ![R, 1]⟩ : Shape).Idx) :
    broadcastInDim ⟨2, ![R, 1]⟩ ![0] hbc y j = y (ix1 (j 0)) :=
  broadcastInDim_apply _ hbc y j (ix1 (j 0)) (fun a => by
    match a with
    | ⟨0, _⟩ => exact coord_eq (j 0))

/-- A column broadcast along the C entries of each row, read at (r, o), is the column's entry r. -/
theorem along_apply {R C : Nat} (hba : (⟨2, ![R, 1]⟩ : Shape).BroadcastsInDim ⟨2, ![R, C]⟩ ![0, 1])
    (c : FVec Ideal ⟨2, ![R, 1]⟩ .f32) (i : (⟨2, ![R, C]⟩ : Shape).Idx) :
    broadcastInDim ⟨2, ![R, C]⟩ ![0, 1] hba c i = c (ix2 (i 0) (0 : Fin 1)) :=
  broadcastInDim_apply _ hba c i (ix2 (i 0) (0 : Fin 1)) (fun a => by
    match a with
    | ⟨0, _⟩ => exact coord_eq (i 0)
    | ⟨1, _⟩ => show 0 = if (1 : Nat) = 1 then 0 else (i 1).val; rw [if_pos rfl])

/-- Over row r, the index whose coordinate on the reduced axis is o is (r, o). -/
theorem lift_eq {R C : Nat} (h : (⟨2, ![R, C]⟩ : Shape).Reduces [1] ⟨1, ![R]⟩) (r : (⟨1, ![R]⟩ : Shape).Idx) (o : Fin C) :
    h.lift r o = ix2 (r 0) o := by
  funext a
  apply Fin.ext
  match a with
  | ⟨0, _⟩ => rfl
  | ⟨1, _⟩ => rfl

/-- The maximum over each row from the word of -∞, at row r: the fold of max from -∞ over the row's entries. -/
theorem rowmax_read {R C : Nat} (h' : (⟨2, ![R, C]⟩ : Shape).ReducesTo [1] ⟨1, ![R]⟩)
    (h : (⟨2, ![R, C]⟩ : Shape).Reduces [1] ⟨1, ![R]⟩) (hu : 0 < (⟨0, ![]⟩ : Shape).numel)
    (Z : FVec Ideal ⟨2, ![R, C]⟩ .f32) (r : (⟨1, ![R]⟩ : Shape).Idx) :
    Host.reduce FloatOps.maximumf Z (constant (F := Ideal) ⟨0, ![]⟩ .f32 0xFF800000#32) h' hu r
      = Finset.univ.fold max ninf (fun o : Fin C => Z (ix2 (r 0) o)) := by
  refine (Host.reduce_eq_fold_single FloatOps.maximumf Z _ h' h hu r).trans ?_
  show Finset.univ.fold max ninf (fun o : Fin C => Z (h.lift r o)) = _
  exact congrArg (fun f : Fin C → EReal => Finset.univ.fold max ninf f) (funext fun o => congrArg Z (lift_eq h r o))

/-- The sum over each row from the zero word, at row r: zero plus the sum of the row's entries. -/
theorem rowsum_read {R C : Nat} (h' : (⟨2, ![R, C]⟩ : Shape).ReducesTo [1] ⟨1, ![R]⟩)
    (h : (⟨2, ![R, C]⟩ : Shape).Reduces [1] ⟨1, ![R]⟩) (hu : 0 < (⟨0, ![]⟩ : Shape).numel)
    (E : FVec Ideal ⟨2, ![R, C]⟩ .f32) (r : (⟨1, ![R]⟩ : Shape).Idx) :
    Host.reduceAdd E (constant (F := Ideal) ⟨0, ![]⟩ .f32 0x00000000#32) h' hu r = z0 + ∑ o : Fin C, E (ix2 (r 0) o) := by
  simp only [Host.reduceAdd, Ideal.hostReduceAdd_def]
  rw [Ideal.hostReduceAdd_single h' h]
  exact congrArg (z0 + ·) (Finset.sum_congr rfl fun o _ => congrArg E (lift_eq h r o))

/-- The reference's log-softmax over rows of eight, read at an entry: the entry less the row's maximum, less the log
    of the sum of the exponentials of the row's entries less that maximum. -/
theorem logSoftmax_read {R : Nat} (h' : (⟨2, ![R, 8]⟩ : Shape).ReducesTo [1] ⟨1, ![R]⟩)
    (h : (⟨2, ![R, 8]⟩ : Shape).Reduces [1] ⟨1, ![R]⟩) (hu : 0 < (⟨0, ![]⟩ : Shape).numel)
    (hbR : (⟨0, ![]⟩ : Shape).BroadcastsInDim ⟨1, ![R]⟩ ![])
    (hbc : (⟨1, ![R]⟩ : Shape).BroadcastsInDim ⟨2, ![R, 1]⟩ ![0])
    (hba : (⟨2, ![R, 1]⟩ : Shape).BroadcastsInDim ⟨2, ![R, 8]⟩ ![0, 1])
    (Z : FVec Ideal ⟨2, ![R, 8]⟩ .f32) (i : (⟨2, ![R, 8]⟩ : Shape).Idx) :
    subf
      (subf Z (broadcastInDim ⟨2, ![R, 8]⟩ ![0, 1] hba (broadcastInDim ⟨2, ![R, 1]⟩ ![0] hbc
        (maximumf (broadcastInDim ⟨1, ![R]⟩ ![] hbR (constant ⟨0, ![]⟩ .f32 0xFF800000#32))
          (Host.reduce FloatOps.maximumf Z (constant ⟨0, ![]⟩ .f32 0xFF800000#32) h' hu)))))
      (broadcastInDim ⟨2, ![R, 8]⟩ ![0, 1] hba (Host.log (broadcastInDim ⟨2, ![R, 1]⟩ ![0] hbc
        (Host.reduceAdd (Host.exp
          (subf Z (broadcastInDim ⟨2, ![R, 8]⟩ ![0, 1] hba (broadcastInDim ⟨2, ![R, 1]⟩ ![0] hbc
            (maximumf (broadcastInDim ⟨1, ![R]⟩ ![] hbR (constant ⟨0, ![]⟩ .f32 0xFF800000#32))
              (Host.reduce FloatOps.maximumf Z (constant ⟨0, ![]⟩ .f32 0xFF800000#32) h' hu))))))
          (constant ⟨0, ![]⟩ .f32 0x00000000#32) h' hu)))) i
      = logSoftmax8 (fun o => Z (ix2 (i 0) o)) (i 1) := by
  -- the row maximum the reference subtracts, at any entry of the row
  have hmax : ∀ j : (⟨2, ![R, 8]⟩ : Shape).Idx,
      broadcastInDim ⟨2, ![R, 8]⟩ ![0, 1] hba (broadcastInDim ⟨2, ![R, 1]⟩ ![0] hbc
        (maximumf (broadcastInDim ⟨1, ![R]⟩ ![] hbR (constant (F := Ideal) ⟨0, ![]⟩ .f32 0xFF800000#32))
          (Host.reduce FloatOps.maximumf Z (constant (F := Ideal) ⟨0, ![]⟩ .f32 0xFF800000#32) h' hu))) j
        = max ninf (Finset.univ.fold max ninf (fun o : Fin 8 => Z (ix2 (j 0) o))) := fun j => by
    rw [along_apply, col_apply, maximumf_apply, rowmax_read h' h hu]
    exact congrArg (max · _)
      (broadcastInDim_apply _ hbR (constant (F := Ideal) ⟨0, ![]⟩ .f32 0xFF800000#32) _ (fun a => a.elim0) (fun a => a.elim0))
  rw [subf_apply, subf_apply, hmax, along_apply, hostLog_apply, col_apply, rowsum_read h' h hu]
  simp only [hostExp_apply, subf_apply, hmax]
  unfold logSoftmax8
  rw [show Z i = Z (ix2 (i 0) (i 1)) from congrArg Z (eq_ix2 i)]
  rfl

/-! ## The reference's stages -/

open Cert.ReferenceIdeal Cert.ReferenceIdeal.Gen Cert.ReferenceIdeal.ReadP

/-- The batch's stage: the perceptron of the batch's gathered rows. -/
theorem perceptron_batch (x0 : (⟨S500000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x9 : (⟨S32768, .i32⟩ : BufTy).Contents (Elt Ideal)) (i : S32768x128.Idx) :
    val_main_v27 (F := Ideal) x0 x1 x2 x3 x4 x9 i
      = perceptron (val_main_v18 (F := Ideal) x0 x9) x1 (row x2) x3 (row x4) i :=
  perceptron_read dot_S32768x128_S128x128_S32768x128_1_0_0_1_n_n rfl rfl
    lhs_main_v19_0 lhs_main_v19_1 rhs_main_v19_0 rhs_main_v19_1
    bcast_S128_S1x128_1 bcast_S1x128_S32768x128_0_1 bcast_S_S32768x128 (val_main_v18 (F := Ideal) x0 x9) x1 x2 x3 x4 i

/-- The perceptron over an arbitrary array X of 524288 rows, on the operations every hop's stage is written in. -/
theorem perceptron_hop (X : FVec Ideal S524288x128 .f32) (x1 : FVec Ideal S128x128 .f32) (x2 : FVec Ideal S128 .f32)
    (x3 : FVec Ideal S128x128 .f32) (x4 : FVec Ideal S128 .f32) (i : S524288x128.Idx) :
    addf (Host.dotGeneral dot_S524288x128_S128x128_S524288x128_1_0_0_1_n_n none
        (maximumf (addf (Host.dotGeneral dot_S524288x128_S128x128_S524288x128_1_0_0_1_n_n none X x1)
            (broadcastInDim S524288x128 ![0, 1] bcast_S1x128_S524288x128_0_1
              (broadcastInDim S1x128 ![1] bcast_S128_S1x128_1 x2)))
          (broadcastInDim S524288x128 ![] bcast_S_S524288x128 (constant S_ .f32 0x00000000#32))) x3)
      (broadcastInDim S524288x128 ![0, 1] bcast_S1x128_S524288x128_0_1
        (broadcastInDim S1x128 ![1] bcast_S128_S1x128_1 x4)) i
      = perceptron X x1 (row x2) x3 (row x4) i :=
  perceptron_read dot_S524288x128_S128x128_S524288x128_1_0_0_1_n_n rfl rfl
    lhs_main_v66_0 lhs_main_v66_1 rhs_main_v66_0 rhs_main_v66_1
    bcast_S128_S1x128_1 bcast_S1x128_S524288x128_0_1 bcast_S_S524288x128 X x1 x2 x3 x4 i

/-- Hop 1: the stage over the hop's gathered rows is their perceptron. -/
theorem perceptron_hop1 (x0 : (⟨S500000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x11 : (⟨S4x524288, .i32⟩ : BufTy).Contents (Elt Ideal)) (i : S524288x128.Idx) :
    val_main_v74 (F := Ideal) x0 x1 x2 x3 x4 x11 i
      = perceptron (val_main_v65 (F := Ideal) x0 x11) x1 (row x2) x3 (row x4) i :=
  perceptron_hop (val_main_v65 (F := Ideal) x0 x11) x1 x2 x3 x4 i

/-- Hop 2: the stage over the hop's gathered rows is their perceptron. -/
theorem perceptron_hop2 (x0 : (⟨S500000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x11 : (⟨S4x524288, .i32⟩ : BufTy).Contents (Elt Ideal)) (i : S524288x128.Idx) :
    val_main_v130 (F := Ideal) x0 x1 x2 x3 x4 x11 i
      = perceptron (val_main_v121 (F := Ideal) x0 x11) x1 (row x2) x3 (row x4) i :=
  perceptron_hop (val_main_v121 (F := Ideal) x0 x11) x1 x2 x3 x4 i

/-- Hop 3: the stage over the hop's gathered rows is their perceptron. -/
theorem perceptron_hop3 (x0 : (⟨S500000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x11 : (⟨S4x524288, .i32⟩ : BufTy).Contents (Elt Ideal)) (i : S524288x128.Idx) :
    val_main_v186 (F := Ideal) x0 x1 x2 x3 x4 x11 i
      = perceptron (val_main_v177 (F := Ideal) x0 x11) x1 (row x2) x3 (row x4) i :=
  perceptron_hop (val_main_v177 (F := Ideal) x0 x11) x1 x2 x3 x4 i

/-- Hop 4: the stage over the hop's gathered rows is their perceptron. -/
theorem perceptron_hop4 (x0 : (⟨S500000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x11 : (⟨S4x524288, .i32⟩ : BufTy).Contents (Elt Ideal)) (i : S524288x128.Idx) :
    val_main_v242 (F := Ideal) x0 x1 x2 x3 x4 x11 i
      = perceptron (val_main_v233 (F := Ideal) x0 x11) x1 (row x2) x3 (row x4) i :=
  perceptron_hop (val_main_v233 (F := Ideal) x0 x11) x1 x2 x3 x4 i

/-- The last stage: the classifier head of the aggregated rows. -/
theorem head_ref (x0 : (⟨S500000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 : (⟨S128x8, .f32⟩ : BufTy).Contents (Elt Ideal))
    (x6 : (⟨S8, .f32⟩ : BufTy).Contents (Elt Ideal)) (x7 : (⟨S5, .f32⟩ : BufTy).Contents (Elt Ideal))
    (x8 : (⟨S500000, .f32⟩ : BufTy).Contents (Elt Ideal)) (x9 : (⟨S32768, .i32⟩ : BufTy).Contents (Elt Ideal))
    (x10 x11 : (⟨S4x524288, .i32⟩ : BufTy).Contents (Elt Ideal)) (i : S32768x8.Idx) :
    val_main_v259 (F := Ideal) x0 x1 x2 x3 x4 x5 x6 x7 x8 x9 x10 x11 i
      = head (val_main_v253 (F := Ideal) x0 x1 x2 x3 x4 x7 x8 x9 x10 x11) x5 (row x6) i := by
  -- the logits the reference computes are the head's
  have hz : ∀ j : S32768x8.Idx, val_main_v258 (F := Ideal) x0 x1 x2 x3 x4 x5 x6 x7 x8 x9 x10 x11 j
      = logits (val_main_v253 (F := Ideal) x0 x1 x2 x3 x4 x7 x8 x9 x10 x11) x5 (row x6) j := fun j => by
    refine (lin_read dot_S32768x128_S128x8_S32768x8_1_0_0_1_n_n rfl rfl
      lhs_main_v255_0 lhs_main_v255_1 rhs_main_v255_0 rhs_main_v255_1 bcast_S8_S1x8_1 bcast_S1x8_S32768x8_0_1
      (val_main_v254 (F := Ideal) x0 x1 x2 x3 x4 x7 x8 x9 x10 x11) x5 x6 j).trans ?_
    unfold logits
    exact lin_congr j j rfl (fun k => relu_read bcast_S_S32768x128
      (val_main_v253 (F := Ideal) x0 x1 x2 x3 x4 x7 x8 x9 x10 x11) (ix2 (j 0) k)) rfl rfl
  refine (logSoftmax_read reducesTo_S32768x8_S32768_d1 (by decide) h_S_ bcast_S_S32768 bcast_S32768_S32768x1_0
    bcast_S32768x1_S32768x8_0_1 (val_main_v258 (F := Ideal) x0 x1 x2 x3 x4 x5 x6 x7 x8 x9 x10 x11) i).trans ?_
  unfold head
  exact congrArg (fun z => logSoftmax8 z (i 1)) (funext fun o => hz (ix2 (i 0) o))

end Cert.ReferenceIdeal.Stages

end
-- ==== Proof.RealArith.lean ====
/-
  Real numbers inside the extended reals.

  The extended reals do not distribute multiplication over addition at the infinities; on real numbers they do. Here:
  the predicate "is a real number", its closure under the operations the two programs use (sums, products, maxima,
  finite sums, real powers, the quotient by a nonzero real), and the law that joins the two programs: a real factor
  moves across a finite sum of real terms, so scaling every scattered row by a hop's weight is scaling the hop's sum.
-/
import Idealize.ShloMosaic.PureOps.Ideal
import Idealize.ShloMosaic.PureOps.Ideal.Laws

noncomputable section

namespace Cert.RealArith

open Idealize.ShloMosaic

/-- An extended real that is a real number. -/
def IsReal (a : EReal) : Prop := ∃ r : ℝ, a = (r : EReal)

theorem isReal_coe (r : ℝ) : IsReal (r : EReal) := ⟨r, rfl⟩

theorem isReal_zero : IsReal 0 := ⟨0, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.max {a b : EReal} (ha : IsReal a) (hb : IsReal b) : IsReal (max a b) := by
  rcases max_choice a b with h | h <;> rw [h] <;> assumption

theorem IsReal.ite {c : Prop} [Decidable c] {a b : EReal} (ha : IsReal a) (hb : IsReal b) :
    IsReal (if c then a else b) := by
  split <;> assumption

theorem IsReal.sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A real power of a real base is a real (whatever the base's sign). -/
theorem IsReal.pow {a b : EReal} (ha : IsReal a) (hb : IsReal b) : IsReal (Ideal.pow a b) := by
  obtain ⟨x, rfl⟩ := ha; obtain ⟨y, rfl⟩ := hb; exact ⟨Real.rpow x y, rfl⟩

/-- The quotient of a real by a nonzero real is a real. -/
theorem IsReal.div {a : EReal} (ha : IsReal a) {y : ℝ} (hy : y ≠ 0) : IsReal (Ideal.div a (y : EReal)) := by
  rw [Ideal.div_coe hy]; exact ha.mul (isReal_coe _)

/-- The zero word is the real zero. -/
theorem isReal_zeroWord : IsReal (Ideal.ofBits .f32 0x00000000#32) := by
  rw [Ideal.ofBits_zero_f32]; exact isReal_zero

/-- A real factor moves across a finite sum of real terms. -/
theorem mul_sum_of_real {ι : Type} (s : Finset ι) {a : EReal} (ha : IsReal a) (f : ι → EReal)
    (h : ∀ i ∈ s, IsReal (f i)) : a * ∑ i ∈ s, f i = ∑ i ∈ s, a * f i := by
  classical
  obtain ⟨x, rfl⟩ := ha
  induction s using Finset.induction_on with
  | empty => simp
  | insert b s hb ih =>
    rw [Finset.sum_insert hb, Finset.sum_insert hb, ← ih fun i hi => h i (Finset.mem_insert_of_mem hi)]
    obtain ⟨y, hy⟩ := h b (Finset.mem_insert_self b s)
    obtain ⟨z, hz⟩ := IsReal.sum s f fun i hi => h i (Finset.mem_insert_of_mem hi)
    rw [hy, hz, ← EReal.coe_add, ← EReal.coe_mul, ← EReal.coe_mul, ← EReal.coe_mul, ← EReal.coe_add, mul_add]

/-- THE HOP LAW. Rows e with a real perceptron entry P e and a real weight v e, scattered where c e holds from a zero
    start z: scaling each scattered row's weight by the real a is scaling the whole scattered sum by a. -/
theorem scaled_scatter {ι : Type} [Fintype ι] (z a : EReal) (hz : z = 0) (ha : IsReal a) (c : ι → Prop)
    [DecidablePred c] (P v : ι → EReal) (hP : ∀ e, IsReal (P e)) (hv : ∀ e, IsReal (v e)) :
    z + ∑ e, (if c e then P e * (a * v e) else 0) = a * (z + ∑ e, if c e then P e * v e else 0) := by
  subst hz
  rw [zero_add, zero_add, mul_sum_of_real Finset.univ ha _ fun e _ => IsReal.ite ((hP e).mul (hv e)) isReal_zero]
  refine Finset.sum_congr rfl fun e _ => ?_
  split
  · exact mul_left_comm _ _ _
  · exact (mul_zero a).symm

end Cert.RealArith

end
-- ==== Proof.RefReal.lean ====
/-
  The reference program's intermediate arrays are arrays of real numbers when its float arguments are.

  The extended reals carry the two infinities, at which multiplication does not distribute over addition; the laws that
  join the two programs hold on real numbers. Here: a dense layer and the two-layer perceptron of real entries are real;
  an operation that only moves entries (a gather, a slice, a reshape, a broadcast) keeps them real; and with these the
  reference's gathered feature rows, its hop weights (a product of two real powers of the degrees and the quotient of a
  finite sum of degrees by 524288) and its attention scalars are real.
-/
import proofs.«114530_j6519760355655_2_alg».proof.Proof.RefRead
import proofs.«114530_j6519760355655_2_alg».proof.Proof.RealArith
import proofs.«114530_j6519760355655_2_alg».proof.Proof.Appnp

noncomputable section

namespace Cert.ReferenceIdeal.Reals

open Cert.ReferenceIdeal Cert.ReferenceIdeal.ReadP Cert.RealArith Cert.Appnp Cert.Dense Idealize.ShloMosaic
  Idealize.ShloMosaic.ValueIdx

/-! ## Dense layers of real entries -/

/-- A matrix product of real entries is real. -/
theorem mm_real {R K C : Nat} (X : (⟨2, ![R, K]⟩ : Shape).Idx → EReal) (W : (⟨2, ![K, C]⟩ : Shape).Idx → EReal)
    (hX : ∀ i, IsReal (X i)) (hW : ∀ i, IsReal (W i)) : ∀ i, IsReal (mm X W i) := by
  intro i
  unfold mm
  exact IsReal.sum _ _ fun k _ => (hX _).mul (hW _)

/-- A dense layer of real entries, weights and bias is real. -/
theorem lin_real {R K C : Nat} (X : (⟨2, ![R, K]⟩ : Shape).Idx → EReal) (W : (⟨2, ![K, C]⟩ : Shape).Idx → EReal)
    (B : (⟨2, ![1, C]⟩ : Shape).Idx → EReal) (hX : ∀ i, IsReal (X i)) (hW : ∀ i, IsReal (W i))
    (hB : ∀ i, IsReal (B i)) : ∀ i, IsReal (lin X W B i) := by
  intro i
  unfold lin
  exact (mm_real X W hX hW i).add (hB _)

/-- The two-layer perceptron of real entries, weights and biases is real. -/
theorem perceptron_real {R : Nat} (X : (⟨2, ![R, 128]⟩ : Shape).Idx → EReal) (W0 : (⟨2, ![128, 128]⟩ : Shape).Idx → EReal)
    (B0 : (⟨2, ![1, 128]⟩ : Shape).Idx → EReal) (W1 : (⟨2, ![128, 128]⟩ : Shape).Idx → EReal)
    (B1 : (⟨2, ![1, 128]⟩ : Shape).Idx → EReal) (hX : ∀ i, IsReal (X i)) (hW0 : ∀ i, IsReal (W0 i))
    (hB0 : ∀ i, IsReal (B0 i)) (hW1 : ∀ i, IsReal (W1 i)) (hB1 : ∀ i, IsReal (B1 i)) :
    ∀ i, IsReal (perceptron (R := R) X W0 B0 W1 B1 i) := by
  unfold perceptron
  exact lin_real _ W1 B1 (fun j => (lin_real X W0 B0 hX hW0 hB0 j).max isReal_zeroWord) hW1 hB1

/-- A vector of reals laid out as a row is real. -/
theorem row_real {C : Nat} (b : (⟨1, ![C]⟩ : Shape).Idx → EReal) (h : ∀ i, IsReal (b i)) : ∀ i, IsReal (Cert.Dense.row b i) :=
  fun _ => h _

/-! ## Operations that only move entries

  A gather, a slice, a reshape and a broadcast each read, at every result index, one entry of their operand: an operand of
  real entries gives a result of real entries. -/

theorem gather_real {s si t : Shape} {w : Nat} (d : GatherDims s si t) (x : s.Idx → EReal) (idx : IVec si w)
    (h : ∀ i, IsReal (x i)) : ∀ j, IsReal (Host.gather d x idx j) := fun _ => h _

theorem slice_real {s t : Shape} (off : Fin s.rank → Nat) (x : s.Idx → EReal) (hs : s.Slices off t)
    (h : ∀ i, IsReal (x i)) : ∀ j, IsReal (extractStridedSlice t off x hs j) := fun _ => h _

theorem shapeCast_real {s t : Shape} (x : s.Idx → EReal) (hc : s.ShapeCasts t)
    (h : ∀ i, IsReal (x i)) : ∀ j, IsReal (shapeCast t x hc j) := fun _ => h _

theorem bcast_real {s t : Shape} (dims : Fin s.rank → Fin t.rank) (hb : s.BroadcastsInDim t dims) (x : s.Idx → EReal)
    (h : ∀ i, IsReal (x i)) : ∀ j, IsReal (broadcastInDim t dims hb x j) := fun _ => h _

/-! ## The two float words the hop weights use -/

/-- The word 0xBF000000 is the real -1/2. -/
theorem negHalfWord : Ideal.ofBits .f32 0xBF000000#32 = ((-(1 / 2 : ℝ) : ℝ) : EReal) := by
  simp [Ideal.ofBits, Ideal.ieee, -EReal.coe_mul, -EReal.coe_neg]; norm_num

/-- The word 0x49000000 is the real 524288. -/
theorem edgesWord : Ideal.ofBits .f32 0x49000000#32 = ((524288 : ℝ) : EReal) := by
  simp [Ideal.ofBits, Ideal.ieee, -EReal.coe_mul]; norm_num

/-! ## The gathered feature rows -/

/-- The batch's feature rows. -/
theorem gather_batch_real (x0 : (⟨S500000x128, .f32⟩ : BufTy).Contents (Elt Ideal))
    (x9 : (⟨S32768, .i32⟩ : BufTy).Contents (Elt Ideal)) (h0 : ∀ i, IsReal (x0 i)) :
    ∀ i, IsReal (val_main_v18 (F := Ideal) x0 x9 i) := gather_real _ x0 _ h0

/-- The four hops' source rows. -/
theorem gather_hop1_real (x0 : (⟨S500000x128, .f32⟩ : BufTy).Contents (Elt Ideal))
    (x11 : (⟨S4x524288, .i32⟩ : BufTy).Contents (Elt Ideal)) (h0 : ∀ i, IsReal (x0 i)) :
    ∀ i, IsReal (val_main_v65 (F := Ideal) x0 x11 i) := gather_real _ x0 _ h0

theorem gather_hop2_real (x0 : (⟨S500000x128, .f32⟩ : BufTy).Contents (Elt Ideal))
    (x11 : (⟨S4x524288, .i32⟩ : BufTy).Contents (Elt Ideal)) (h0 : ∀ i, IsReal (x0 i)) :
    ∀ i, IsReal (val_main_v121 (F := Ideal) x0 x11 i) := gather_real _ x0 _ h0

theorem gather_hop3_real (x0 : (⟨S500000x128, .f32⟩ : BufTy).Contents (Elt Ideal))
    (x11 : (⟨S4x524288, .i32⟩ : BufTy).Contents (Elt Ideal)) (h0 : ∀ i, IsReal (x0 i)) :
    ∀ i, IsReal (val_main_v177 (F := Ideal) x0 x11 i) := gather_real _ x0 _ h0

theorem gather_hop4_real (x0 : (⟨S500000x128, .f32⟩ : BufTy).Contents (Elt Ideal))
    (x11 : (⟨S4x524288, .i32⟩ : BufTy).Contents (Elt Ideal)) (h0 : ∀ i, IsReal (x0 i)) :
    ∀ i, IsReal (val_main_v233 (F := Ideal) x0 x11 i) := gather_real _ x0 _ h0

/-! ## The hop weights -/

/-- The degrees to the power -1/2. -/
theorem dis_real (x8 : (⟨S500000, .f32⟩ : BufTy).Contents (Elt Ideal)) (h8 : ∀ i, IsReal (x8 i)) :
    ∀ i, IsReal (val_main_v1 (F := Ideal) x8 i) := by
  intro i
  show IsReal (Ideal.pow (x8 i) (Ideal.ofBits .f32 0xBF000000#32))
  rw [negHalfWord]
  exact (h8 i).pow (isReal_coe _)

/-- The sum of the batch's degrees: the zero word plus a finite sum of gathered degrees. -/
theorem dsum_real (x8 : (⟨S500000, .f32⟩ : BufTy).Contents (Elt Ideal)) (x9 : (⟨S32768, .i32⟩ : BufTy).Contents (Elt Ideal))
    (h8 : ∀ i, IsReal (x8 i)) : ∀ i, IsReal (val_main_v9 (F := Ideal) x8 x9 i) := by
  intro i
  rw [val_main_v9_apply]
  exact isReal_zeroWord.add (IsReal.sum _ _ fun j _ => gather_real _ x8 _ h8 j)

/-- A hop weight's shape: the product of two real arrays, times the broadcast quotient of a real scalar by 524288. -/
theorem weight_real {s : Shape} (hb : S_.BroadcastsInDim s (![] : Fin 0 → Fin s.rank)) (A B : FVec Ideal s .f32)
    (D : FVec Ideal S_ .f32) (hA : ∀ i, IsReal (A i)) (hB : ∀ i, IsReal (B i)) (hD : ∀ i, IsReal (D i)) :
    ∀ i, IsReal (mulf (mulf A B) (broadcastInDim s ![] hb (Host.divf D (constant S_ .f32 0x49000000#32))) i) := by
  intro i
  show IsReal (A i * B i * Ideal.div (D _) (Ideal.ofBits .f32 0x49000000#32))
  rw [edgesWord]
  exact ((hA i).mul (hB i)).mul ((hD _).div (by norm_num))

theorem val1_real (x8 : (⟨S500000, .f32⟩ : BufTy).Contents (Elt Ideal)) (x9 : (⟨S32768, .i32⟩ : BufTy).Contents (Elt Ideal))
    (x10 x11 : (⟨S4x524288, .i32⟩ : BufTy).Contents (Elt Ideal)) (h8 : ∀ i, IsReal (x8 i)) :
    ∀ i, IsReal (val_main_v58 (F := Ideal) x8 x9 x10 x11 i) :=
  weight_real _ _ _ _ (gather_real _ _ _ (dis_real x8 h8)) (gather_real _ _ _ (dis_real x8 h8)) (dsum_real x8 x9 h8)

theorem val2_real (x8 : (⟨S500000, .f32⟩ : BufTy).Contents (Elt Ideal)) (x9 : (⟨S32768, .i32⟩ : BufTy).Contents (Elt Ideal))
    (x10 x11 : (⟨S4x524288, .i32⟩ : BufTy).Contents (Elt Ideal)) (h8 : ∀ i, IsReal (x8 i)) :
    ∀ i, IsReal (val_main_v114 (F := Ideal) x8 x9 x10 x11 i) :=
  weight_real _ _ _ _ (gather_real _ _ _ (dis_real x8 h8)) (gather_real _ _ _ (dis_real x8 h8)) (dsum_real x8 x9 h8)

theorem val3_real (x8 : (⟨S500000, .f32⟩ : BufTy).Contents (Elt Ideal)) (x9 : (⟨S32768, .i32⟩ : BufTy).Contents (Elt Ideal))
    (x10 x11 : (⟨S4x524288, .i32⟩ : BufTy).Contents (Elt Ideal)) (h8 : ∀ i, IsReal (x8 i)) :
    ∀ i, IsReal (val_main_v170 (F := Ideal) x8 x9 x10 x11 i) :=
  weight_real _ _ _ _ (gather_real _ _ _ (dis_real x8 h8)) (gather_real _ _ _ (dis_real x8 h8)) (dsum_real x8 x9 h8)

theorem val4_real (x8 : (⟨S500000, .f32⟩ : BufTy).Contents (Elt Ideal)) (x9 : (⟨S32768, .i32⟩ : BufTy).Contents (Elt Ideal))
    (x10 x11 : (⟨S4x524288, .i32⟩ : BufTy).Contents (Elt Ideal)) (h8 : ∀ i, IsReal (x8 i)) :
    ∀ i, IsReal (val_main_v226 (F := Ideal) x8 x9 x10 x11 i) :=
  weight_real _ _ _ _ (gather_real _ _ _ (dis_real x8 h8)) (gather_real _ _ _ (dis_real x8 h8)) (dsum_real x8 x9 h8)

/-! ## The attention scalars: entry k of the five, as a scalar -/

theorem att0_real (x7 : (⟨S5, .f32⟩ : BufTy).Contents (Elt Ideal)) (h7 : ∀ i, IsReal (x7 i)) :
    ∀ i, IsReal (val_main_v11 (F := Ideal) x7 i) := shapeCast_real _ _ (slice_real _ x7 _ h7)

theorem att1_real (x7 : (⟨S5, .f32⟩ : BufTy).Contents (Elt Ideal)) (h7 : ∀ i, IsReal (x7 i)) :
    ∀ i, IsReal (val_main_v79 (F := Ideal) x7 i) := shapeCast_real _ _ (slice_real _ x7 _ h7)

theorem att2_real (x7 : (⟨S5, .f32⟩ : BufTy).Contents (Elt Ideal)) (h7 : ∀ i, IsReal (x7 i)) :
    ∀ i, IsReal (val_main_v135 (F := Ideal) x7 i) := shapeCast_real _ _ (slice_real _ x7 _ h7)

theorem att3_real (x7 : (⟨S5, .f32⟩ : BufTy).Contents (Elt Ideal)) (h7 : ∀ i, IsReal (x7 i)) :
    ∀ i, IsReal (val_main_v191 (F := Ideal) x7 i) := shapeCast_real _ _ (slice_real _ x7 _ h7)

theorem att4_real (x7 : (⟨S5, .f32⟩ : BufTy).Contents (Elt Ideal)) (h7 : ∀ i, IsReal (x7 i)) :
    ∀ i, IsReal (val_main_v247 (F := Ideal) x7 i) := shapeCast_real _ _ (slice_real _ x7 _ h7)

end Cert.ReferenceIdeal.Reals

end
-- ==== Proof.LibScatterCol.lean ====
/-
  A count scattered into a vector and the same count scattered into a one-column matrix.

  The host's accumulating scatter adds, to each operand element, the updates whose result index is that element.
  With one scatter index per update (the index array an [E, 1] column, read signed and not clamped) there are two
  spellings of "add update e at row idx e": into an [N] vector from an [E] vector of updates (no window axis, the
  operand's only axis inserted), and into an [N, 1] matrix from an [E, 1] matrix of updates (the second axis a
  window of extent one). Update e lands on row n in either spelling exactly when the signed index word of e is n,
  so the two results agree row by row whenever the operands and the updates do.
-/
import Idealize.ShloMosaic.Lib.ValueIdx
import Idealize.ShloMosaic.Lib.Pipeline.Value
import Idealize.ShloMosaic.PureOps.Ideal.Laws

noncomputable section

namespace Cert.ScatterCol

open Idealize.ShloMosaic Idealize.ShloMosaic.ValueIdx

variable {N E : Nat}

/-- The dimension numbers of the scatter into a vector: no window axis, the operand's axis inserted. -/
abbrev dvec (h : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, h⟩
/-- The dimension numbers of the scatter into a one-column matrix: the second axis a window. -/
abbrev dcol (h : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ := ⟨[1], [0], [0], 1, h⟩

theorem start_vec (h) {w : Nat} (j : (⟨1, ![E]⟩ : Shape).Idx) (idx : IVec ⟨2, ![E, 1]⟩ w) :
    (dvec (N := N) h).start j idx 0 = (idx (ix2 (j 0) (0 : Fin 1))).toInt := by
  refine congrArg (fun z => (idx z).toInt) (funext fun b => Fin.ext ?_)
  match b with
  | ⟨0, _⟩ => rfl
  | ⟨1, _⟩ => rfl

theorem window_vec (h) (j : (⟨1, ![E]⟩ : Shape).Idx) : (dvec (N := N) h).window j 0 = 0 := rfl

theorem start_col0 (h) {w : Nat} (j : (⟨2, ![E, 1]⟩ : Shape).Idx) (idx : IVec ⟨2, ![E, 1]⟩ w) :
    (dcol (N := N) h).start j idx 0 = (idx (ix2 (j 0) (0 : Fin 1))).toInt := by
  refine congrArg (fun z => (idx z).toInt) (funext fun b => Fin.ext ?_)
  match b with
  | ⟨0, _⟩ => rfl
  | ⟨1, _⟩ => rfl

theorem start_col1 (h) {w : Nat} (j : (⟨2, ![E, 1]⟩ : Shape).Idx) (idx : IVec ⟨2, ![E, 1]⟩ w) :
    (dcol (N := N) h).start j idx 1 = 0 := rfl
theorem window_col0 (h) (j : (⟨2, ![E, 1]⟩ : Shape).Idx) : (dcol (N := N) h).window j 0 = 0 := rfl
theorem window_col1 (h) (j : (⟨2, ![E, 1]⟩ : Shape).Idx) : (dcol (N := N) h).window j 1 = (j 1).val := rfl

/-- Into the vector, update j lands on element i exactly when its signed index word is i's coordinate. -/
theorem resultIdx_vec_iff (h) {w : Nat} (j : (⟨1, ![E]⟩ : Shape).Idx) (idx : IVec ⟨2, ![E, 1]⟩ w)
    (i : (⟨1, ![N]⟩ : Shape).Idx) :
    (dvec (N := N) h).resultIdx? j idx = some i ↔ (idx (ix2 (j 0) (0 : Fin 1))).toInt = ((i 0).val : Int) := by
  have hs := start_vec (N := N) h j idx
  have hw := window_vec (N := N) h j
  have hi : (i 0).val < N := (i 0).isLt
  unfold ScatterDims.resultIdx?
  split
  · rename_i hall
    have h0 : 0 ≤ (dvec (N := N) h).start j idx 0 + ((dvec (N := N) h).window j 0 : Int)
        ∧ (dvec (N := N) h).start j idx 0 + ((dvec (N := N) h).window j 0 : Int) < (N : Int) := hall 0
    rw [hs, hw] at h0
    rw [Option.some.injEq]
    constructor
    · intro e
      have e0 : ((dvec (N := N) h).start j idx 0 + ((dvec (N := N) h).window j 0 : Int)).toNat = (i 0).val :=
        congrArg (fun f => (f 0).val) e
      rw [hs, hw] at e0
      omega
    · intro e
      funext a
      match a with
      | ⟨0, _⟩ =>
        apply Fin.ext
        show ((dvec (N := N) h).start j idx 0 + ((dvec (N := N) h).window j 0 : Int)).toNat = (i 0).val
        rw [hs, hw]; omega
  · rename_i hnot
    constructor
    · intro e; cases e
    · intro e
      exfalso; apply hnot
      intro a
      match a with
      | ⟨0, _⟩ =>
        show 0 ≤ (dvec (N := N) h).start j idx 0 + ((dvec (N := N) h).window j 0 : Int)
          ∧ (dvec (N := N) h).start j idx 0 + ((dvec (N := N) h).window j 0 : Int) < (N : Int)
        rw [hs, hw]; omega

/-- Into the one-column matrix, update j lands on element i exactly when its signed index word is i's row. -/
theorem resultIdx_col_iff (h) {w : Nat} (j : (⟨2, ![E, 1]⟩ : Shape).Idx) (idx : IVec ⟨2, ![E, 1]⟩ w)
    (i : (⟨2, ![N, 1]⟩ : Shape).Idx) :
    (dcol (N := N) h).resultIdx? j idx = some i ↔ (idx (ix2 (j 0) (0 : Fin 1))).toInt = ((i 0).val : Int) := by
  have hs0 := start_col0 (N := N) h j idx
  have hs1 := start_col1 (N := N) h j idx
  have hw0 := window_col0 (N := N) h j
  have hw1 := window_col1 (N := N) h j
  have hi : (i 0).val < N := (i 0).isLt
  have hi1 : (i 1).val < 1 := (i 1).isLt
  have hj1 : (j 1).val < 1 := (j 1).isLt
  unfold ScatterDims.resultIdx?
  split
  · rename_i hall
    have h0 : 0 ≤ (dcol (N := N) h).start j idx 0 + ((dcol (N := N) h).window j 0 : Int)
        ∧ (dcol (N := N) h).start j idx 0 + ((dcol (N := N) h).window j 0 : Int) < (N : Int) := hall 0
    rw [hs0, hw0] at h0
    rw [Option.some.injEq]
    constructor
    · intro e
      have e0 : ((dcol (N := N) h).start j idx 0 + ((dcol (N := N) h).window j 0 : Int)).toNat = (i 0).val :=
        congrArg (fun f => (f 0).val) e
      rw [hs0, hw0] at e0
      omega
    · intro e
      funext a
      match a with
      | ⟨0, _⟩ =>
        apply Fin.ext
        show ((dcol (N := N) h).start j idx 0 + ((dcol (N := N) h).window j 0 : Int)).toNat = (i 0).val
        rw [hs0, hw0]; omega
      | ⟨1, _⟩ =>
        apply Fin.ext
        show ((dcol (N := N) h).start j idx 1 + ((dcol (N := N) h).window j 1 : Int)).toNat = (i 1).val
        rw [hs1, hw1]; omega
  · rename_i hnot
    constructor
    · intro e; cases e
    · intro e
      exfalso; apply hnot
      intro a
      match a with
      | ⟨0, _⟩ =>
        show 0 ≤ (dcol (N := N) h).start j idx 0 + ((dcol (N := N) h).window j 0 : Int)
          ∧ (dcol (N := N) h).start j idx 0 + ((dcol (N := N) h).window j 0 : Int) < (N : Int)
        rw [hs0, hw0]; omega
      | ⟨1, _⟩ =>
        show 0 ≤ (dcol (N := N) h).start j idx 1 + ((dcol (N := N) h).window j 1 : Int)
          ∧ (dcol (N := N) h).start j idx 1 + ((dcol (N := N) h).window j 1 : Int) < ((1 : Nat) : Int)
        rw [hs1, hw1]; omega

/-- The [E, 1] update indices are the [E] update indices, by the first coordinate. -/
def colEquiv : (⟨2, ![E, 1]⟩ : Shape).Idx ≃ (⟨1, ![E]⟩ : Shape).Idx where
  toFun j := ix1 (j 0)
  invFun j := ix2 (j 0) (0 : Fin 1)
  left_inv j := by
    funext a
    match a with
    | ⟨0, _⟩ => rfl
    | ⟨1, _⟩ => exact Fin.ext (by have h1 : (j 1).val < 1 := (j 1).isLt; show 0 = (j 1).val; omega)
  right_inv j := by
    funext a
    match a with
    | ⟨0, _⟩ => rfl

/-- The scatter into the one-column matrix, at row n, is the scatter into the vector at n, when the operands
    agree at that row and the updates agree row by row. -/
theorem scatterAdd_col_eq_vec (hv) (hc) {w : Nat} (idx : IVec ⟨2, ![E, 1]⟩ w)
    (x1 : (⟨1, ![N]⟩ : Shape).Idx → EReal) (x2 : (⟨2, ![N, 1]⟩ : Shape).Idx → EReal)
    (u1 : (⟨1, ![E]⟩ : Shape).Idx → EReal) (u2 : (⟨2, ![E, 1]⟩ : Shape).Idx → EReal)
    (n : Fin N) (hx : x2 (ix2 n (0 : Fin 1)) = x1 (ix1 n))
    (hu : ∀ e : Fin E, u2 (ix2 e (0 : Fin 1)) = u1 (ix1 e)) :
    Ideal.hostScatterAdd (dcol (N := N) hc) x2 idx u2 (ix2 n (0 : Fin 1))
      = Ideal.hostScatterAdd (dvec (N := N) hv) x1 idx u1 (ix1 n) := by
  unfold Ideal.hostScatterAdd
  rw [hx]
  refine congrArg (x1 (ix1 n) + ·) ?_
  refine Finset.sum_equiv colEquiv (fun j => ?_) (fun j _ => ?_)
  · simp only [Finset.mem_filter, Finset.mem_univ, true_and]
    rw [resultIdx_col_iff, resultIdx_vec_iff]
    exact Iff.rfl
  · have hj : j = ix2 (j 0) (0 : Fin 1) := (colEquiv.left_inv j).symm
    rw [hj]
    exact hu (j 0)

end Cert.ScatterCol

end
-- ==== Proof.LibScatterSum.lean ====
/-
  The host's accumulating scatter, one scatter index per update row, read at an element as a sum over the rows.

  With the scatter indices an [E, 1] column (read signed, not clamped) an update row e lands on operand row n exactly
  when the signed word idx[e, 0] is n. Two spellings: [E] updates into an [N] vector, and [E, C] update rows into an
  [N, C] matrix (the second axis a window axis: update (e, k) lands on (n, k)). Either result element is the operand
  element plus the sum, over all rows e, of the update of row e when that row lands on n and of zero otherwise.
-/
import proofs.«114530_j6519760355655_2_alg».proof.Proof.LibScatterCol

noncomputable section

namespace Cert.ScatterSum

open Idealize.ShloMosaic Idealize.ShloMosaic.ValueIdx Cert.ScatterCol

variable {N C E : Nat}

/-- The dimension numbers of the scatter of rows into a matrix: the second axis a window, the first inserted. -/
abbrev dmat (h : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, h⟩

theorem start_mat0 (h) {w : Nat} (j : (⟨2, ![E, C]⟩ : Shape).Idx) (idx : IVec ⟨2, ![E, 1]⟩ w) :
    (dmat (N := N) h).start j idx 0 = (idx (ix2 (j 0) (0 : Fin 1))).toInt := by
  refine congrArg (fun z => (idx z).toInt) (funext fun b => Fin.ext ?_)
  match b with
  | ⟨0, _⟩ => rfl
  | ⟨1, _⟩ => rfl

theorem start_mat1 (h) {w : Nat} (j : (⟨2, ![E, C]⟩ : Shape).Idx) (idx : IVec ⟨2, ![E, 1]⟩ w) :
    (dmat (N := N) h).start j idx 1 = 0 := rfl
theorem window_mat0 (h) (j : (⟨2, ![E, C]⟩ : Shape).Idx) : (dmat (N := N) h).window j 0 = 0 := rfl
theorem window_mat1 (h) (j : (⟨2, ![E, C]⟩ : Shape).Idx) : (dmat (N := N) h).window j 1 = (j 1).val := rfl

/-- Into the matrix, update (e, k) lands on element (n, k') exactly when the signed index word of row e is n and
    k = k'. -/
theorem resultIdx_mat_iff (h) {w : Nat} (j : (⟨2, ![E, C]⟩ : Shape).Idx) (idx : IVec ⟨2, ![E, 1]⟩ w)
    (i : (⟨2, ![N, C]⟩ : Shape).Idx) :
    (dmat (N := N) h).resultIdx? j idx = some i
      ↔ (idx (ix2 (j 0) (0 : Fin 1))).toInt = ((i 0).val : Int) ∧ (j 1).val = (i 1).val := by
  have hs0 := start_mat0 (N := N) h j idx
  have hs1 := start_mat1 (N := N) h j idx
  have hw0 := window_mat0 (N := N) h j
  have hw1 := window_mat1 (N := N) h j
  have hi : (i 0).val < N := (i 0).isLt
  have hi1 : (i 1).val < C := (i 1).isLt
  have hj1 : (j 1).val < C := (j 1).isLt
  unfold ScatterDims.resultIdx?
  split
  · rename_i hall
    have h0 : 0 ≤ (dmat (N := N) h).start j idx 0 + ((dmat (N := N) h).window j 0 : Int)
        ∧ (dmat (N := N) h).start j idx 0 + ((dmat (N := N) h).window j 0 : Int) < (N : Int) := hall 0
    rw [hs0, hw0] at h0
    rw [Option.some.injEq]
    constructor
    · intro e
      have e0 : ((dmat (N := N) h).start j idx 0 + ((dmat (N := N) h).window j 0 : Int)).toNat = (i 0).val :=
        congrArg (fun f => (f 0).val) e
      have e1 : ((dmat (N := N) h).start j idx 1 + ((dmat (N := N) h).window j 1 : Int)).toNat = (i 1).val :=
        congrArg (fun f => (f 1).val) e
      rw [hs0, hw0] at e0
      rw [hs1, hw1] at e1
      omega
    · intro e
      funext a
      match a with
      | ⟨0, _⟩ =>
        apply Fin.ext
        show ((dmat (N := N) h).start j idx 0 + ((dmat (N := N) h).window j 0 : Int)).toNat = (i 0).val
        rw [hs0, hw0]; omega
      | ⟨1, _⟩ =>
        apply Fin.ext
        show ((dmat (N := N) h).start j idx 1 + ((dmat (N := N) h).window j 1 : Int)).toNat = (i 1).val
        rw [hs1, hw1]; omega
  · rename_i hnot
    constructor
    · intro e; cases e
    · intro e
      exfalso; apply hnot
      intro a
      match a with
      | ⟨0, _⟩ =>
        show 0 ≤ (dmat (N := N) h).start j idx 0 + ((dmat (N := N) h).window j 0 : Int)
          ∧ (dmat (N := N) h).start j idx 0 + ((dmat (N := N) h).window j 0 : Int) < (N : Int)
        rw [hs0, hw0]; omega
      | ⟨1, _⟩ =>
        show 0 ≤ (dmat (N := N) h).start j idx 1 + ((dmat (N := N) h).window j 1 : Int)
          ∧ (dmat (N := N) h).start j idx 1 + ((dmat (N := N) h).window j 1 : Int) < ((C : Nat) : Int)
        rw [hs1, hw1]; omega

/-- The host's accumulating scatter at the exact instance is the sum it denotes (by definition). -/
theorem scatterAdd_ideal {s si su : Shape} {φ : FTy} (d : ScatterDims s si su) {w : Nat} (x : FVec Ideal s φ)
    (idx : IVec si w) (u : FVec Ideal su φ) : Host.scatterAdd d x idx u = Ideal.hostScatterAdd d x idx u := rfl

/-- THE SCATTER OF ROWS READ AT (n, k): the operand there plus, over the rows e, update (e, k) when row e's signed
    index word is n. -/
theorem scatterAdd_mat_apply (h) {w : Nat} (idx : IVec ⟨2, ![E, 1]⟩ w)
    (x : (⟨2, ![N, C]⟩ : Shape).Idx → EReal) (u : (⟨2, ![E, C]⟩ : Shape).Idx → EReal) (n : Fin N) (k : Fin C) :
    Ideal.hostScatterAdd (dmat (N := N) h) x idx u (ix2 n k)
      = x (ix2 n k) + ∑ e : Fin E, if (idx (ix2 e (0 : Fin 1))).toInt = (n.val : Int) then u (ix2 e k) else 0 := by
  unfold Ideal.hostScatterAdd
  refine congrArg (x (ix2 n k) + ·) ?_
  rw [← Finset.sum_filter]
  refine Finset.sum_bij (fun j _ => j 0) (fun j hj => ?_) (fun j hj j' hj' e => ?_) (fun e he => ?_) (fun j hj => ?_)
  · have := (resultIdx_mat_iff (N := N) h j idx (ix2 n k)).mp (Finset.mem_filter.mp hj).2
    exact Finset.mem_filter.mpr ⟨Finset.mem_univ _, this.1⟩
  · have a := (resultIdx_mat_iff (N := N) h j idx (ix2 n k)).mp (Finset.mem_filter.mp hj).2
    have a' := (resultIdx_mat_iff (N := N) h j' idx (ix2 n k)).mp (Finset.mem_filter.mp hj').2
    rw [eq_ix2 j, eq_ix2 j']
    have e1 : j 1 = j' 1 := Fin.ext (a.2.trans a'.2.symm)
    have e0 : j 0 = j' 0 := e
    rw [e0, e1]
  · refine ⟨ix2 e k, Finset.mem_filter.mpr ⟨Finset.mem_univ _, ?_⟩, rfl⟩
    exact (resultIdx_mat_iff (N := N) h (ix2 e k) idx (ix2 n k)).mpr ⟨(Finset.mem_filter.mp he).2, rfl⟩
  · have a := (resultIdx_mat_iff (N := N) h j idx (ix2 n k)).mp (Finset.mem_filter.mp hj).2
    have e1 : j 1 = k := Fin.ext a.2
    exact congrArg u ((eq_ix2 j).trans (congrArg (fun z => ix2 (j 0) z) e1))

/-- THE SCATTER INTO A VECTOR READ AT n: the operand there plus, over the rows e, update e when row e's signed
    index word is n. -/
theorem scatterAdd_vec_apply (h) {w : Nat} (idx : IVec ⟨2, ![E, 1]⟩ w)
    (x : (⟨1, ![N]⟩ : Shape).Idx → EReal) (u : (⟨1, ![E]⟩ : Shape).Idx → EReal) (n : Fin N) :
    Ideal.hostScatterAdd (dvec (N := N) h) x idx u (ix1 n)
      = x (ix1 n) + ∑ e : Fin E, if (idx (ix2 e (0 : Fin 1))).toInt = (n.val : Int) then u (ix1 e) else 0 := by
  unfold Ideal.hostScatterAdd
  refine congrArg (x (ix1 n) + ·) ?_
  rw [← Finset.sum_filter]
  refine Finset.sum_bij (fun j _ => j 0) (fun j hj => ?_) (fun j hj j' hj' e => ?_) (fun e he => ?_) (fun j hj => ?_)
  · have := (resultIdx_vec_iff (N := N) h j idx (ix1 n)).mp (Finset.mem_filter.mp hj).2
    exact Finset.mem_filter.mpr ⟨Finset.mem_univ _, this⟩
  · rw [eq_ix1 j, eq_ix1 j']
    have e0 : j 0 = j' 0 := e
    rw [e0]
  · refine ⟨ix1 e, Finset.mem_filter.mpr ⟨Finset.mem_univ _, ?_⟩, rfl⟩
    exact (resultIdx_vec_iff (N := N) h (ix1 e) idx (ix1 n)).mpr (Finset.mem_filter.mp he).2
  · exact congrArg u (eq_ix1 j)

end Cert.ScatterSum

end
-- ==== Proof.LibColRow.lean ====
/-
  A vector viewed as a one-column or a one-row matrix, spelt two ways.

  A kernel's wrapper reshapes an `[a]` vector to an `[a, 1]` column (or a `[b]` vector to a `[1, b]` row) before it
  hands it to a kernel; a jnp reference that writes `v[:, None]` or adds a bias row broadcasts the vector in
  dimensions, along axis 0 (or axis 1). Both are the same array: entry `(p, 0)` of the column is `v p`, entry `(0, q)`
  of the row is `v q`. Also here: a column broadcast in dimensions along every row's entries, and a row along every
  row, read at an index written by coordinates (the host's companions of the kernel-side broadcasts of a column and of
  a row).
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` vector broadcast in dimensions along axis 0 of `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A `[b]` vector broadcast in dimensions along axis 1 of `[1, b]` reads, at `(u, q)`, the vector at `q`. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- The column of a vector: the cast to `[a, 1]` is the broadcast in dimensions along axis 0. -/
theorem shapeCast_col_eq_broadcastInDim {a : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext i
  obtain ⟨p, u, rfl⟩ : ∃ (p : Fin a) (u : Fin 1), i = ix2 p u := ⟨i 0, i 1, eq_ix2 i⟩
  rw [broadcastInDim_a_a1_apply]
  refine shapeCast_apply x hc _ _ ?_
  have hu : u.val = 0 := by omega
  rw [Shape.rowMajor_val_two, Shape.rowMajor_val_one]
  show p.val = p.val * 1 + u.val
  rw [hu, Nat.mul_one, Nat.add_zero]

/-- The row of a vector: the cast to `[1, b]` is the broadcast in dimensions along axis 1. -/
theorem shapeCast_row_eq_broadcastInDim {b : ℕ} (x : (⟨1, ![b]⟩ : Shape).Idx → α)
    (hc : (⟨1, ![b]⟩ : Shape).ShapeCasts ⟨2, ![1, b]⟩) (hb : (⟨1, ![b]⟩ : Shape).BroadcastsInDim ⟨2, ![1, b]⟩ ![1]) :
    shapeCast ⟨2, ![1, b]⟩ x hc = broadcastInDim ⟨2, ![1, b]⟩ ![1] hb x := by
  funext i
  obtain ⟨u, q, rfl⟩ : ∃ (u : Fin 1) (q : Fin b), i = ix2 u q := ⟨i 0, i 1, eq_ix2 i⟩
  rw [broadcastInDim_b_1b_apply, shapeCast_a_1a_apply]

/-- An `[a, 1]` column broadcast in dimensions to `[a, b]` reads, at `(p, q)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, b]` row broadcast in dimensions to `[a, b]` reads, at `(p, q)`, the row's entry of column `q`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

end Idealize.ShloMosaic.ValueIdx
-- ==== Proof.Bridge.lean ====
/-
  The two programs compute the same array.

  Both end in the classifier head of an aggregated array; the aggregated arrays are built level by level: a self term and
  four hops. The self term is the same product written in the other order. In a hop, one program scales every gathered
  row's perceptron by the hop's attention scalar times the edge weight and scatters the rows; the other scales by the edge
  weight, scatters, and multiplies the scattered sum by the attention scalar. A real factor moves across a finite sum of
  real terms, so on real inputs the two agree; on the extended reals' infinities they need not, which is why the inputs
  are taken real.
-/
import proofs.«114530_j6519760355655_2_alg».proof.Proof.KTerms
import proofs.«114530_j6519760355655_2_alg».proof.Proof.RefStages
import proofs.«114530_j6519760355655_2_alg».proof.Proof.RefReal
import proofs.«114530_j6519760355655_2_alg».proof.Proof.RealArith
import proofs.«114530_j6519760355655_2_alg».proof.Proof.LibScatterSum
import proofs.«114530_j6519760355655_2_alg».proof.Proof.LibLayoutCol
import proofs.«114530_j6519760355655_2_alg».proof.Proof.LibColRow

noncomputable section

namespace Cert.Bridge

open Cert.ReferenceIdeal Cert.ReferenceIdeal.Gen Cert.ReferenceIdeal.ReadP Cert.ReferenceIdeal.Stages
  Cert.ReferenceIdeal.Reals Cert.RealArith Cert.Appnp Cert.Dense Cert.ScatterSum Cert.KernelIdeal.Terms
  Idealize.ShloMosaic Idealize.ShloMosaic.ValueIdx

/-! ## Small readings -/

/-- A scalar broadcast to any shape reads, at every index, the scalar. -/
theorem bcast0_apply {α : Type} {t : Shape} (hb : (⟨0, ![]⟩ : Shape).BroadcastsInDim t (![] : Fin 0 → Fin t.rank))
    (y : (⟨0, ![]⟩ : Shape).Idx → α) (j : t.Idx) : broadcastInDim t ![] hb y j = y ix0 :=
  broadcastInDim_apply _ hb y j ix0 (fun a => a.elim0)

/-- A vector cast to a one-row matrix is the vector laid out as a row. -/
theorem shapeCast_row {b : Nat} (x : (⟨1, ![b]⟩ : Shape).Idx → EReal) (hc : (⟨1, ![b]⟩ : Shape).ShapeCasts ⟨2, ![1, b]⟩) :
    shapeCast ⟨2, ![1, b]⟩ x hc = row x := by
  funext i
  obtain ⟨u, q, rfl⟩ : ∃ (u : Fin 1) (q : Fin b), i = ix2 u q := ⟨i 0, i 1, eq_ix2 i⟩
  exact shapeCast_a_1a_apply x hc u q

/-! ## The hop law on scattered rows -/

/-- Rows U (e, k) = P e k * (a * v e) and rows U' (e, k) = P e k * v e, scattered from a zero start onto the rows an index
    column names: the first scattered array is a times the second, entry by entry, when a, P and v are real. -/
theorem hop_core {N E C : Nat} (hsc : ScatterDims.WF ⟨2, ![N, C]⟩ ⟨2, ![E, 1]⟩ ⟨2, ![E, C]⟩ [1] [0] [0] 1) {w : Nat}
    (I : IVec ⟨2, ![E, 1]⟩ w) (Z A : (⟨2, ![N, C]⟩ : Shape).Idx → EReal) (U U' : (⟨2, ![E, C]⟩ : Shape).Idx → EReal)
    (a : EReal) (P : Fin E → Fin C → EReal) (v : Fin E → EReal) (hZ : ∀ j, Z j = 0) (hA : ∀ j, A j = a)
    (hU : ∀ e k, U (ix2 e k) = P e k * (a * v e)) (hU' : ∀ e k, U' (ix2 e k) = P e k * v e)
    (ha : IsReal a) (hP : ∀ e k, IsReal (P e k)) (hv : ∀ e, IsReal (v e)) :
    ∀ j, Ideal.hostScatterAdd (dmat (N := N) hsc) Z I U j = A j * Ideal.hostScatterAdd (dmat (N := N) hsc) Z I U' j := by
  intro j
  obtain ⟨n, k, rfl⟩ : ∃ (n : Fin N) (k : Fin C), j = ix2 n k := ⟨j 0, j 1, eq_ix2 j⟩
  rw [scatterAdd_mat_apply, scatterAdd_mat_apply, hA]
  simp only [hU, hU']
  exact scaled_scatter _ a (hZ _) ha _ (fun e => P e k) v (fun e => hP e k) hv

/-! ## One hop -/

/-- The kernel's perceptron arguments are the reference's: a change of float format is the identity on the extended
    reals, and a bias cast to a one-row matrix is the bias laid out as a row. -/
theorem kernel_perceptron {R : Nat} (X : (⟨2, ![R, 128]⟩ : Shape).Idx → EReal) (x1 : FVec Ideal S128x128 .f32)
    (x2 : FVec Ideal S128 .f32) (x3 : FVec Ideal S128x128 .f32) (x4 : FVec Ideal S128 .f32) :
    perceptron (R := R) X (w0c x1) (b0r x2) (w1c x3) (b1r x4) = perceptron X x1 (row x2) x3 (row x4) := by
  have e0 : b0r x2 = row x2 := shapeCast_row x2 _
  have e1 : b1r x4 = row x4 := shapeCast_row x4 _
  rw [e0, e1]
  rfl

/-- ONE HOP, on the operations both programs are written in. The kernel scatters the rows perceptron (e, k) * (att * val e)
    and adds the scattered array to the previous level; the reference scatters the rows V (e, k) * val e, V the perceptron
    of the same gathered rows, multiplies the scattered array by att, and adds. With real rows, weights and attention
    scalar the two levels agree. -/
theorem hop_step (x0 : FVec Ideal S500000x128 .f32) (x1 : FVec Ideal S128x128 .f32) (x2 : FVec Ideal S128 .f32)
    (x3 : FVec Ideal S128x128 .f32) (x4 : FVec Ideal S128 .f32)
    (h1 : ∀ i, IsReal (x1 i)) (h2 : ∀ i, IsReal (x2 i)) (h3 : ∀ i, IsReal (x3 i)) (h4 : ∀ i, IsReal (x4 i))
    (idx : IVec S524288x1 32) (att : FVec Ideal S_ .f32) (val : FVec Ideal S524288 .f32) (heads : IVec S524288 32)
    (X V : FVec Ideal S524288x128 .f32) (hX : rowsE x0 idx = X)
    (hV : ∀ i, V i = perceptron X x1 (row x2) x3 (row x4) i)
    (hXr : ∀ i, IsReal (X i)) (hatt : ∀ i, IsReal (att i)) (hval : ∀ i, IsReal (val i))
    (prev prev' : FVec Ideal S32768x128 .f32) (hprev : prev = prev') :
    aggStep prev heads (outE x0 x1 x2 x3 x4 idx att val)
      = addf prev' (mulf (broadcastInDim S32768x128 ![] bcast_S_S32768x128 att)
          (Host.scatterAdd scatter_S32768x128_S524288x1_S524288x128_1_0_0_1
            (broadcastInDim S32768x128 ![] bcast_S_S32768x128 (constant S_ .f32 0x00000000#32))
            (broadcastInDim S524288x1 ![0] bcast_S524288_S524288x1_0 heads)
            (mulf V (broadcastInDim S524288x128 ![0, 1] bcast_S524288x1_S524288x128_0_1
              (broadcastInDim S524288x1 ![0] bcast_S524288_S524288x1_0 val))))) := by
  subst hprev
  subst hX
  unfold aggStep
  refine congrArg (addf prev) ?_
  have hZ : ∀ j, broadcastInDim S32768x128 ![] bcast_S_S32768x128 (constant (F := Ideal) S_ .f32 0x00000000#32) j = 0 :=
    fun j => (bcast0_apply _ _ j).trans Ideal.ofBits_zero_f32
  have hU : ∀ (e : Fin 524288) (k : Fin 128),
      extf .f32 (outE x0 x1 x2 x3 x4 idx att val) (by decide) (ix2 e k)
      = perceptron (rowsE x0 idx) x1 (row x2) x3 (row x4) (ix2 e k) * (att ix0 * val (ix1 e)) := fun e k => by
    rw [extf_apply]
    show perceptron (rowsE x0 idx) (w0c x1) (b0r x2) (w1c x3) (b1r x4) (ix2 e k)
      * shapeCast ⟨2, ![524288, 1]⟩ (mulf (broadcastInDim ⟨1, ![524288]⟩ ![] _ att) val) _ (ix2 e (0 : Fin 1)) = _
    rw [kernel_perceptron, shapeCast_a_a1_apply, mulf_apply, bcast0_apply]
  have hU' : ∀ (e : Fin 524288) (k : Fin 128),
      mulf V (broadcastInDim S524288x128 ![0, 1] bcast_S524288x1_S524288x128_0_1
        (broadcastInDim S524288x1 ![0] bcast_S524288_S524288x1_0 val)) (ix2 e k)
      = perceptron (rowsE x0 idx) x1 (row x2) x3 (row x4) (ix2 e k) * val (ix1 e) := fun e k => by
    rw [mulf_apply, hV, broadcastInDim_a1_ab_apply, broadcastInDim_a_a1_apply]
  have key := hop_core scatter_S32768x128_S524288x1_S524288x128_1_0_0_1_wf
    (broadcastInDim S524288x1 ![0] bcast_S524288_S524288x1_0 heads)
    (broadcastInDim S32768x128 ![] bcast_S_S32768x128 (constant (F := Ideal) S_ .f32 0x00000000#32))
    (broadcastInDim S32768x128 ![] bcast_S_S32768x128 att)
    (extf .f32 (outE x0 x1 x2 x3 x4 idx att val) (by decide))
    (mulf V (broadcastInDim S524288x128 ![0, 1] bcast_S524288x1_S524288x128_0_1
      (broadcastInDim S524288x1 ![0] bcast_S524288_S524288x1_0 val)))
    (att ix0) (fun e k => perceptron (rowsE x0 idx) x1 (row x2) x3 (row x4) (ix2 e k)) (fun e => val (ix1 e))
    hZ (bcast0_apply _ att) hU hU' (hatt _)
    (fun e k => perceptron_real _ x1 (row x2) x3 (row x4) hXr h1 (row_real x2 h2) h3 (row_real x4 h4) _)
    (fun e => hval _)
  funext j
  rw [mulf_apply, scatterAdd_ideal, scatterAdd_ideal]
  exact key j

/-! ## The levels of the aggregated array -/

/-- The gathered rows the kernel's perceptron reads are the reference's: the narrow format is the identity here. -/
theorem rows0_eq (x0 : FVec Ideal S500000x128 .f32) (x9 : IVec S32768 32) :
    rows0 x0 x9 = val_main_v18 (F := Ideal) x0 x9 := rfl

/-- The start: the perceptron of the batch's rows times the first attention scalar, the product in either order. -/
theorem agg0_eq (x0 : FVec Ideal S500000x128 .f32) (x1 : FVec Ideal S128x128 .f32) (x2 : FVec Ideal S128 .f32)
    (x3 : FVec Ideal S128x128 .f32) (x4 : FVec Ideal S128 .f32) (x7 : FVec Ideal S5 .f32) (x9 : IVec S32768 32) :
    agg0 x0 x1 x2 x3 x4 x7 x9 = val_main_v29 (F := Ideal) x0 x1 x2 x3 x4 x7 x9 := by
  funext i
  unfold agg0 val_main_v29 val_main_v28
  rw [extf_apply, mulf_apply, bcast0_apply, perceptron_batch]
  show perceptron (rows0 x0 x9) (w0c x1) (b0r x2) (w1c x3) (b1r x4) i
    * broadcastInDim ⟨2, ![32768, 1]⟩ ![] _ (val_main_v11 (F := Ideal) x7) (ix2 (i 0) (0 : Fin 1)) = _
  rw [kernel_perceptron, bcast0_apply, rows0_eq]
  exact mul_comm _ _

/-- Level 1: hop 1 added to level 0. -/
theorem agg1_eq (x0 : FVec Ideal S500000x128 .f32) (x1 : FVec Ideal S128x128 .f32) (x2 : FVec Ideal S128 .f32)
    (x3 : FVec Ideal S128x128 .f32) (x4 : FVec Ideal S128 .f32)
    (x7 : FVec Ideal S5 .f32) (x8 : FVec Ideal S500000 .f32) (x9 : IVec S32768 32) (x10 x11 : IVec S4x524288 32)
    (h0 : ∀ i, IsReal (x0 i)) (h1 : ∀ i, IsReal (x1 i)) (h2 : ∀ i, IsReal (x2 i)) (h3 : ∀ i, IsReal (x3 i))
    (h4 : ∀ i, IsReal (x4 i)) (h7 : ∀ i, IsReal (x7 i)) (h8 : ∀ i, IsReal (x8 i)) :
    agg1 x0 x1 x2 x3 x4 x7 x8 x9 x10 x11 = val_main_v85 (F := Ideal) x0 x1 x2 x3 x4 x7 x8 x9 x10 x11 := by
  unfold agg1 val_main_v85 val_main_v84 val_main_v83 val_main_v82 val_main_v80 val_main_cst_13 val_main_v81
    val_main_v77 val_main_v76 val_main_v75
  exact hop_step x0 x1 x2 x3 x4 h1 h2 h3 h4 (val_main_v64 (F := Ideal) x11) (val_main_v79 (F := Ideal) x7)
    (val_main_v58 (F := Ideal) x8 x9 x10 x11) (val_main_v31 (F := Ideal) x10) (val_main_v65 (F := Ideal) x0 x11)
    (val_main_v74 (F := Ideal) x0 x1 x2 x3 x4 x11) rfl (perceptron_hop1 x0 x1 x2 x3 x4 x11)
    (gather_hop1_real x0 x11 h0) (att1_real x7 h7) (val1_real x8 x9 x10 x11 h8) _ _
    (agg0_eq x0 x1 x2 x3 x4 x7 x9)

/-- Level 2: hop 2 added to level 1. -/
theorem agg2_eq (x0 : FVec Ideal S500000x128 .f32) (x1 : FVec Ideal S128x128 .f32) (x2 : FVec Ideal S128 .f32)
    (x3 : FVec Ideal S128x128 .f32) (x4 : FVec Ideal S128 .f32)
    (x7 : FVec Ideal S5 .f32) (x8 : FVec Ideal S500000 .f32) (x9 : IVec S32768 32) (x10 x11 : IVec S4x524288 32)
    (h0 : ∀ i, IsReal (x0 i)) (h1 : ∀ i, IsReal (x1 i)) (h2 : ∀ i, IsReal (x2 i)) (h3 : ∀ i, IsReal (x3 i))
    (h4 : ∀ i, IsReal (x4 i)) (h7 : ∀ i, IsReal (x7 i)) (h8 : ∀ i, IsReal (x8 i)) :
    agg2 x0 x1 x2 x3 x4 x7 x8 x9 x10 x11 = val_main_v141 (F := Ideal) x0 x1 x2 x3 x4 x7 x8 x9 x10 x11 := by
  unfold agg2 val_main_v141 val_main_v140 val_main_v139 val_main_v138 val_main_v136 val_main_cst_23 val_main_v137
    val_main_v133 val_main_v132 val_main_v131
  exact hop_step x0 x1 x2 x3 x4 h1 h2 h3 h4 (val_main_v120 (F := Ideal) x11) (val_main_v135 (F := Ideal) x7)
    (val_main_v114 (F := Ideal) x8 x9 x10 x11) (val_main_v87 (F := Ideal) x10) (val_main_v121 (F := Ideal) x0 x11)
    (val_main_v130 (F := Ideal) x0 x1 x2 x3 x4 x11) rfl (perceptron_hop2 x0 x1 x2 x3 x4 x11)
    (gather_hop2_real x0 x11 h0) (att2_real x7 h7) (val2_real x8 x9 x10 x11 h8) _ _
    (agg1_eq x0 x1 x2 x3 x4 x7 x8 x9 x10 x11 h0 h1 h2 h3 h4 h7 h8)

/-- Level 3: hop 3 added to level 2. -/
theorem agg3_eq (x0 : FVec Ideal S500000x128 .f32) (x1 : FVec Ideal S128x128 .f32) (x2 : FVec Ideal S128 .f32)
    (x3 : FVec Ideal S128x128 .f32) (x4 : FVec Ideal S128 .f32)
    (x7 : FVec Ideal S5 .f32) (x8 : FVec Ideal S500000 .f32) (x9 : IVec S32768 32) (x10 x11 : IVec S4x524288 32)
    (h0 : ∀ i, IsReal (x0 i)) (h1 : ∀ i, IsReal (x1 i)) (h2 : ∀ i, IsReal (x2 i)) (h3 : ∀ i, IsReal (x3 i))
    (h4 : ∀ i, IsReal (x4 i)) (h7 : ∀ i, IsReal (x7 i)) (h8 : ∀ i, IsReal (x8 i)) :
    agg3 x0 x1 x2 x3 x4 x7 x8 x9 x10 x11 = val_main_v197 (F := Ideal) x0 x1 x2 x3 x4 x7 x8 x9 x10 x11 := by
  unfold agg3 val_main_v197 val_main_v196 val_main_v195 val_main_v194 val_main_v192 val_main_cst_33 val_main_v193
    val_main_v189 val_main_v188 val_main_v187
  exact hop_step x0 x1 x2 x3 x4 h1 h2 h3 h4 (val_main_v176 (F := Ideal) x11) (val_main_v191 (F := Ideal) x7)
    (val_main_v170 (F := Ideal) x8 x9 x10 x11) (val_main_v143 (F := Ideal) x10) (val_main_v177 (F := Ideal) x0 x11)
    (val_main_v186 (F := Ideal) x0 x1 x2 x3 x4 x11) rfl (perceptron_hop3 x0 x1 x2 x3 x4 x11)
    (gather_hop3_real x0 x11 h0) (att3_real x7 h7) (val3_real x8 x9 x10 x11 h8) _ _
    (agg2_eq x0 x1 x2 x3 x4 x7 x8 x9 x10 x11 h0 h1 h2 h3 h4 h7 h8)

/-- Level 4: hop 4 added to level 3. -/
theorem agg4_eq (x0 : FVec Ideal S500000x128 .f32) (x1 : FVec Ideal S128x128 .f32) (x2 : FVec Ideal S128 .f32)
    (x3 : FVec Ideal S128x128 .f32) (x4 : FVec Ideal S128 .f32)
    (x7 : FVec Ideal S5 .f32) (x8 : FVec Ideal S500000 .f32) (x9 : IVec S32768 32) (x10 x11 : IVec S4x524288 32)
    (h0 : ∀ i, IsReal (x0 i)) (h1 : ∀ i, IsReal (x1 i)) (h2 : ∀ i, IsReal (x2 i)) (h3 : ∀ i, IsReal (x3 i))
    (h4 : ∀ i, IsReal (x4 i)) (h7 : ∀ i, IsReal (x7 i)) (h8 : ∀ i, IsReal (x8 i)) :
    agg4 x0 x1 x2 x3 x4 x7 x8 x9 x10 x11 = val_main_v253 (F := Ideal) x0 x1 x2 x3 x4 x7 x8 x9 x10 x11 := by
  unfold agg4 val_main_v253 val_main_v252 val_main_v251 val_main_v250 val_main_v248 val_main_cst_43 val_main_v249
    val_main_v245 val_main_v244 val_main_v243
  exact hop_step x0 x1 x2 x3 x4 h1 h2 h3 h4 (val_main_v232 (F := Ideal) x11) (val_main_v247 (F := Ideal) x7)
    (val_main_v226 (F := Ideal) x8 x9 x10 x11) (val_main_v199 (F := Ideal) x10) (val_main_v233 (F := Ideal) x0 x11)
    (val_main_v242 (F := Ideal) x0 x1 x2 x3 x4 x11) rfl (perceptron_hop4 x0 x1 x2 x3 x4 x11)
    (gather_hop4_real x0 x11 h0) (att4_real x7 h7) (val4_real x8 x9 x10 x11 h8) _ _
    (agg3_eq x0 x1 x2 x3 x4 x7 x8 x9 x10 x11 h0 h1 h2 h3 h4 h7 h8)

/-! ## The result -/

/-- THE TWO PROGRAMS' RESULTS AGREE on real inputs: both are the classifier head of the same aggregated array. -/
theorem result_eq (x0 : FVec Ideal S500000x128 .f32) (x1 : FVec Ideal S128x128 .f32) (x2 : FVec Ideal S128 .f32)
    (x3 : FVec Ideal S128x128 .f32) (x4 : FVec Ideal S128 .f32) (x5 : FVec Ideal S128x8 .f32) (x6 : FVec Ideal S8 .f32)
    (x7 : FVec Ideal S5 .f32) (x8 : FVec Ideal S500000 .f32) (x9 : IVec S32768 32) (x10 x11 : IVec S4x524288 32)
    (h0 : ∀ i, IsReal (x0 i)) (h1 : ∀ i, IsReal (x1 i)) (h2 : ∀ i, IsReal (x2 i)) (h3 : ∀ i, IsReal (x3 i))
    (h4 : ∀ i, IsReal (x4 i)) (h7 : ∀ i, IsReal (x7 i)) (h8 : ∀ i, IsReal (x8 i)) :
    result x0 x1 x2 x3 x4 x5 x6 x7 x8 x9 x10 x11 = val_main_v259 (F := Ideal) x0 x1 x2 x3 x4 x5 x6 x7 x8 x9 x10 x11 := by
  funext i
  rw [head_ref]
  unfold result
  rw [agg4_eq x0 x1 x2 x3 x4 x7 x8 x9 x10 x11 h0 h1 h2 h3 h4 h7 h8, shapeCast_row]

end Cert.Bridge

end
-- ==== Proof.RefStretch.lean ====
/-
  The idealized reference's run, stretch by stretch.

  @main is a straight line of 332 host operations. It is cut here into six stretches — the self term, the four hops,
  the classifier head — so that what a buffer holds at the end is read one stretch at a time against the contents the
  stretch starts from, never as one term of the arguments. Every weakly fair execution terminates with each buffer at
  the fold of the operations' results over the launch memory.
-/
import proofs.«114530_j6519760355655_2_alg».proof.Proof.Gen.ReferenceIdeal
import Idealize.ShloMosaic.Lib.StableHlo.Run

noncomputable section

namespace Cert.ReferenceIdeal.Stretch

open Cert.ReferenceIdeal Cert.ReferenceIdeal.Gen Idealize.ShloMosaic Idealize.ShloMosaic.TcCoe Idealize.SL.Sem Idealize.ShloMosaic.StableHlo

variable {F : FTy → Type} [FloatOps F]

/-- Stretch 0 of @main's operations. -/
abbrev ops0 : List (HloOp τ sig (Elt F)) :=
  [ nullary main_cst (constant S_ .f32 0xBF000000#32),
    unary main_cst main_v0 (broadcastInDim S500000 ![] bcast_S_S500000 : (⟨S_, .f32⟩ : BufTy).Contents (Elt F) → (⟨S500000, .f32⟩ : BufTy).Contents (Elt F)),
    binary main_arg8 main_v0 main_v1 (Host.powf : (⟨S500000, .f32⟩ : BufTy).Contents (Elt F) → (⟨S500000, .f32⟩ : BufTy).Contents (Elt F) → (⟨S500000, .f32⟩ : BufTy).Contents (Elt F)),
    nullary main_c (constantI S_ 32 0#32),
    unary main_c main_v2 (broadcastInDim S32768 ![] bcast_S_S32768 : (⟨S_, .i32⟩ : BufTy).Contents (Elt F) → (⟨S32768, .i32⟩ : BufTy).Contents (Elt F)),
    binary main_arg9 main_v2 main_v3 (cmpi .slt : (⟨S32768, .i32⟩ : BufTy).Contents (Elt F) → (⟨S32768, .i32⟩ : BufTy).Contents (Elt F) → (⟨S32768, .i1⟩ : BufTy).Contents (Elt F)),
    nullary main_c_0 (constantI S_ 32 500000#32),
    unary main_c_0 main_v4 (broadcastInDim S32768 ![] bcast_S_S32768 : (⟨S_, .i32⟩ : BufTy).Contents (Elt F) → (⟨S32768, .i32⟩ : BufTy).Contents (Elt F)),
    binary main_arg9 main_v4 main_v5 (addi : (⟨S32768, .i32⟩ : BufTy).Contents (Elt F) → (⟨S32768, .i32⟩ : BufTy).Contents (Elt F) → (⟨S32768, .i32⟩ : BufTy).Contents (Elt F)),
    ternary main_v3 main_v5 main_arg9 main_v6 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v6 main_v7 (broadcastInDim S32768x1 ![0] bcast_S32768_S32768x1_0 : (⟨S32768, .i32⟩ : BufTy).Contents (Elt F) → (⟨S32768x1, .i32⟩ : BufTy).Contents (Elt F)),
    binary main_arg8 main_v7 main_v8 ((fun x i => Host.gather gather_S500000_S32768x1_S32768_n_0_n_n_0_1_1 x i) : (⟨S500000, .f32⟩ : BufTy).Contents (Elt F) → (⟨S32768x1, .i32⟩ : BufTy).Contents (Elt F) → (⟨S32768, .f32⟩ : BufTy).Contents (Elt F)),
    nullary main_cst_1 (constant S_ .f32 0x00000000#32),
    binary main_v8 main_cst_1 main_v9 ((fun x v => Host.reduceAdd x v reducesTo_S32768_S_d0 h_S_) : (⟨S32768, .f32⟩ : BufTy).Contents (Elt F) → (⟨S_, .f32⟩ : BufTy).Contents (Elt F) → (⟨S_, .f32⟩ : BufTy).Contents (Elt F)),
    unary main_arg7 main_v10 ((extractStridedSlice S1 ![0] · slices_S5_S1_0) : (⟨S5, .f32⟩ : BufTy).Contents (Elt F) → (⟨S1, .f32⟩ : BufTy).Contents (Elt F)),
    reshape main_v10 main_v11 rfl shapeCasts_S1_S_,
    nullary main_c_2 (constantI S_ 32 0#32),
    unary main_c_2 main_v12 (broadcastInDim S32768 ![] bcast_S_S32768 : (⟨S_, .i32⟩ : BufTy).Contents (Elt F) → (⟨S32768, .i32⟩ : BufTy).Contents (Elt F)),
    binary main_arg9 main_v12 main_v13 (cmpi .slt : (⟨S32768, .i32⟩ : BufTy).Contents (Elt F) → (⟨S32768, .i32⟩ : BufTy).Contents (Elt F) → (⟨S32768, .i1⟩ : BufTy).Contents (Elt F)),
    nullary main_c_3 (constantI S_ 32 500000#32),
    unary main_c_3 main_v14 (broadcastInDim S32768 ![] bcast_S_S32768 : (⟨S_, .i32⟩ : BufTy).Contents (Elt F) → (⟨S32768, .i32⟩ : BufTy).Contents (Elt F)),
    binary main_arg9 main_v14 main_v15 (addi : (⟨S32768, .i32⟩ : BufTy).Contents (Elt F) → (⟨S32768, .i32⟩ : BufTy).Contents (Elt F) → (⟨S32768, .i32⟩ : BufTy).Contents (Elt F)),
    ternary main_v13 main_v15 main_arg9 main_v16 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v16 main_v17 (broadcastInDim S32768x1 ![0] bcast_S32768_S32768x1_0 : (⟨S32768, .i32⟩ : BufTy).Contents (Elt F) → (⟨S32768x1, .i32⟩ : BufTy).Contents (Elt F)),
    binary main_arg0 main_v17 main_v18 ((fun x i => Host.gather gather_S500000x128_S32768x1_S32768x128_1_0_n_n_0_1_1128 x i) : (⟨S500000x128, .f32⟩ : BufTy).Contents (Elt F) → (⟨S32768x1, .i32⟩ : BufTy).Contents (Elt F) → (⟨S32768x128, .f32⟩ : BufTy).Contents (Elt F)),
    binary main_v18 main_arg1 main_v19 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_arg2 main_v20 (broadcastInDim S1x128 ![1] bcast_S128_S1x128_1 : (⟨S128, .f32⟩ : BufTy).Contents (Elt F) → (⟨S1x128, .f32⟩ : BufTy).Contents (Elt F)),
    unary main_v20 main_v21 (broadcastInDim S32768x128 ![0, 1] bcast_S1x128_S32768x128_0_1 : (⟨S1x128, .f32⟩ : BufTy).Contents (Elt F) → (⟨S32768x128, .f32⟩ : BufTy).Contents (Elt F)),
    binary main_v19 main_v21 main_v22 (addf : (⟨S32768x128, .f32⟩ : BufTy).Contents (Elt F) → (⟨S32768x128, .f32⟩ : BufTy).Contents (Elt F) → (⟨S32768x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32768x128, .f32⟩) main_call0_v0) (broadcastInDim S32768x128 ![] bcast_S_S32768x128),
    TRef.binary (TRef.of (T := ⟨S32768x128, .f32⟩) main_v22) (TRef.of (T := ⟨S32768x128, .f32⟩) main_call0_v0) (TRef.of (T := ⟨S32768x128, .f32⟩) main_v23) maximumf,
    binary main_v23 main_arg3 main_v24 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_arg4 main_v25 (broadcastInDim S1x128 ![1] bcast_S128_S1x128_1 : (⟨S128, .f32⟩ : BufTy).Contents (Elt F) → (⟨S1x128, .f32⟩ : BufTy).Contents (Elt F)),
    unary main_v25 main_v26 (broadcastInDim S32768x128 ![0, 1] bcast_S1x128_S32768x128_0_1 : (⟨S1x128, .f32⟩ : BufTy).Contents (Elt F) → (⟨S32768x128, .f32⟩ : BufTy).Contents (Elt F)),
    binary main_v24 main_v26 main_v27 (addf : (⟨S32768x128, .f32⟩ : BufTy).Contents (Elt F) → (⟨S32768x128, .f32⟩ : BufTy).Contents (Elt F) → (⟨S32768x128, .f32⟩ : BufTy).Contents (Elt F)),
    unary main_v11 main_v28 (broadcastInDim S32768x128 ![] bcast_S_S32768x128 : (⟨S_, .f32⟩ : BufTy).Contents (Elt F) → (⟨S32768x128, .f32⟩ : BufTy).Contents (Elt F)),
    binary main_v28 main_v27 main_v29 (mulf : (⟨S32768x128, .f32⟩ : BufTy).Contents (Elt F) → (⟨S32768x128, .f32⟩ : BufTy).Contents (Elt F) → (⟨S32768x128, .f32⟩ : BufTy).Contents (Elt F)) ]

/-- Stretch 1 of @main's operations. -/
abbrev ops1 : List (HloOp τ sig (Elt F)) :=
  [ unary main_arg10 main_v30 ((extractStridedSlice S1x524288 ![0, 0] · slices_S4x524288_S1x524288_0_0) : (⟨S4x524288, .i32⟩ : BufTy).Contents (Elt F) → (⟨S1x524288, .i32⟩ : BufTy).Contents (Elt F)),
    reshape main_v30 main_v31 rfl shapeCasts_S1x524288_S524288,
    unary main_arg11 main_v32 ((extractStridedSlice S1x524288 ![0, 0] · slices_S4x524288_S1x524288_0_0) : (⟨S4x524288, .i32⟩ : BufTy).Contents (Elt F) → (⟨S1x524288, .i32⟩ : BufTy).Contents (Elt F)),
    reshape main_v32 main_v33 rfl shapeCasts_S1x524288_S524288,
    nullary main_c_4 (constantI S_ 32 0#32),
    unary main_c_4 main_v34 (broadcastInDim S524288 ![] bcast_S_S524288 : (⟨S_, .i32⟩ : BufTy).Contents (Elt F) → (⟨S524288, .i32⟩ : BufTy).Contents (Elt F)),
    binary main_v31 main_v34 main_v35 (cmpi .slt : (⟨S524288, .i32⟩ : BufTy).Contents (Elt F) → (⟨S524288, .i32⟩ : BufTy).Contents (Elt F) → (⟨S524288, .i1⟩ : BufTy).Contents (Elt F)),
    nullary main_c_5 (constantI S_ 32 32768#32),
    unary main_c_5 main_v36 (broadcastInDim S524288 ![] bcast_S_S524288 : (⟨S_, .i32⟩ : BufTy).Contents (Elt F) → (⟨S524288, .i32⟩ : BufTy).Contents (Elt F)),
    binary main_v31 main_v36 main_v37 (addi : (⟨S524288, .i32⟩ : BufTy).Contents (Elt F) → (⟨S524288, .i32⟩ : BufTy).Contents (Elt F) → (⟨S524288, .i32⟩ : BufTy).Contents (Elt F)),
    ternary main_v35 main_v37 main_v31 main_v38 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v38 main_v39 (broadcastInDim S524288x1 ![0] bcast_S524288_S524288x1_0 : (⟨S524288, .i32⟩ : BufTy).Contents (Elt F) → (⟨S524288x1, .i32⟩ : BufTy).Contents (Elt F)),
    binary main_arg9 main_v39 main_v40 ((fun x i => Host.gather gather_S32768_S524288x1_S524288_n_0_n_n_0_1_1 x i) : (⟨S32768, .i32⟩ : BufTy).Contents (Elt F) → (⟨S524288x1, .i32⟩ : BufTy).Contents (Elt F) → (⟨S524288, .i32⟩ : BufTy).Contents (Elt F)),
    nullary main_c_6 (constantI S_ 32 0#32),
    unary main_c_6 main_v41 (broadcastInDim S524288 ![] bcast_S_S524288 : (⟨S_, .i32⟩ : BufTy).Contents (Elt F) → (⟨S524288, .i32⟩ : BufTy).Contents (Elt F)),
    binary main_v40 main_v41 main_v42 (cmpi .slt : (⟨S524288, .i32⟩ : BufTy).Contents (Elt F) → (⟨S524288, .i32⟩ : BufTy).Contents (Elt F) → (⟨S524288, .i1⟩ : BufTy).Contents (Elt F)),
    nullary main_c_7 (constantI S_ 32 500000#32),
    unary main_c_7 main_v43 (broadcastInDim S524288 ![] bcast_S_S524288 : (⟨S_, .i32⟩ : BufTy).Contents (Elt F) → (⟨S524288, .i32⟩ : BufTy).Contents (Elt F)),
    binary main_v40 main_v43 main_v44 (addi : (⟨S524288, .i32⟩ : BufTy).Contents (Elt F) → (⟨S524288, .i32⟩ : BufTy).Contents (Elt F) → (⟨S524288, .i32⟩ : BufTy).Contents (Elt F)),
    ternary main_v42 main_v44 main_v40 main_v45 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v45 main_v46 (broadcastInDim S524288x1 ![0] bcast_S524288_S524288x1_0 : (⟨S524288, .i32⟩ : BufTy).Contents (Elt F) → (⟨S524288x1, .i32⟩ : BufTy).Contents (Elt F)),
    binary main_v1 main_v46 main_v47 ((fun x i => Host.gather gather_S500000_S524288x1_S524288_n_0_n_n_0_1_1 x i) : (⟨S500000, .f32⟩ : BufTy).Contents (Elt F) → (⟨S524288x1, .i32⟩ : BufTy).Contents (Elt F) → (⟨S524288, .f32⟩ : BufTy).Contents (Elt F)),
    nullary main_c_8 (constantI S_ 32 0#32),
    unary main_c_8 main_v48 (broadcastInDim S524288 ![] bcast_S_S524288 : (⟨S_, .i32⟩ : BufTy).Contents (Elt F) → (⟨S524288, .i32⟩ : BufTy).Contents (Elt F)),
    binary main_v33 main_v48 main_v49 (cmpi .slt : (⟨S524288, .i32⟩ : BufTy).Contents (Elt F) → (⟨S524288, .i32⟩ : BufTy).Contents (Elt F) → (⟨S524288, .i1⟩ : BufTy).Contents (Elt F)),
    nullary main_c_9 (constantI S_ 32 500000#32),
    unary main_c_9 main_v50 (broadcastInDim S524288 ![] bcast_S_S524288 : (⟨S_, .i32⟩ : BufTy).Contents (Elt F) → (⟨S524288, .i32⟩ : BufTy).Contents (Elt F)),
    binary main_v33 main_v50 main_v51 (addi : (⟨S524288, .i32⟩ : BufTy).Contents (Elt F) → (⟨S524288, .i32⟩ : BufTy).Contents (Elt F) → (⟨S524288, .i32⟩ : BufTy).Contents (Elt F)),
    ternary main_v49 main_v51 main_v33 main_v52 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v52 main_v53 (broadcastInDim S524288x1 ![0] bcast_S524288_S524288x1_0 : (⟨S524288, .i32⟩ : BufTy).Contents (Elt F) → (⟨S524288x1, .i32⟩ : BufTy).Contents (Elt F)),
    binary main_v1 main_v53 main_v54 ((fun x i => Host.gather gather_S500000_S524288x1_S524288_n_0_n_n_0_1_1 x i) : (⟨S500000, .f32⟩ : BufTy).Contents (Elt F) → (⟨S524288x1, .i32⟩ : BufTy).Contents (Elt F) → (⟨S524288, .f32⟩ : BufTy).Contents (Elt F)),
    binary main_v47 main_v54 main_v55 (mulf : (⟨S524288, .f32⟩ : BufTy).Contents (Elt F) → (⟨S524288, .f32⟩ : BufTy).Contents (Elt F) → (⟨S524288, .f32⟩ : BufTy).Contents (Elt F)),
    nullary main_cst_10 (constant S_ .f32 0x49000000#32),
    binary main_v9 main_cst_10 main_v56 (Host.divf : (⟨S_, .f32⟩ : BufTy).Contents (Elt F) → (⟨S_, .f32⟩ : BufTy).Contents (Elt F) → (⟨S_, .f32⟩ : BufTy).Contents (Elt F)),
    unary main_v56 main_v57 (broadcastInDim S524288 ![] bcast_S_S524288 : (⟨S_, .f32⟩ : BufTy).Contents (Elt F) → (⟨S524288, .f32⟩ : BufTy).Contents (Elt F)),
    binary main_v55 main_v57 main_v58 (mulf : (⟨S524288, .f32⟩ : BufTy).Contents (Elt F) → (⟨S524288, .f32⟩ : BufTy).Contents (Elt F) → (⟨S524288, .f32⟩ : BufTy).Contents (Elt F)),
    nullary main_c_11 (constantI S_ 32 0#32),
    unary main_c_11 main_v59 (broadcastInDim S524288 ![] bcast_S_S524288 : (⟨S_, .i32⟩ : BufTy).Contents (Elt F) → (⟨S524288, .i32⟩ : BufTy).Contents (Elt F)),
    binary main_v33 main_v59 main_v60 (cmpi .slt : (⟨S524288, .i32⟩ : BufTy).Contents (Elt F) → (⟨S524288, .i32⟩ : BufTy).Contents (Elt F) → (⟨S524288, .i1⟩ : BufTy).Contents (Elt F)),
    nullary main_c_12 (constantI S_ 32 500000#32),
    unary main_c_12 main_v61 (broadcastInDim S524288 ![] bcast_S_S524288 : (⟨S_, .i32⟩ : BufTy).Contents (Elt F) → (⟨S524288, .i32⟩ : BufTy).Contents (Elt F)),
    binary main_v33 main_v61 main_v62 (addi : (⟨S524288, .i32⟩ : BufTy).Contents (Elt F) → (⟨S524288, .i32⟩ : BufTy).Contents (Elt F) → (⟨S524288, .i32⟩ : BufTy).Contents (Elt F)),
    ternary main_v60 main_v62 main_v33 main_v63 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v63 main_v64 (broadcastInDim S524288x1 ![0] bcast_S524288_S524288x1_0 : (⟨S524288, .i32⟩ : BufTy).Contents (Elt F) → (⟨S524288x1, .i32⟩ : BufTy).Contents (Elt F)),
    binary main_arg0 main_v64 main_v65 ((fun x i => Host.gather gather_S500000x128_S524288x1_S524288x128_1_0_n_n_0_1_1128 x i) : (⟨S500000x128, .f32⟩ : BufTy).Contents (Elt F) → (⟨S524288x1, .i32⟩ : BufTy).Contents (Elt F) → (⟨S524288x128, .f32⟩ : BufTy).Contents (Elt F)),
    binary main_v65 main_arg1 main_v66 ((fun l r => Host.dotGeneral dot_S524288x128_S128x128_S524288x128_1_0_0_1_n_n none l r) : (⟨S524288x128, .f32⟩ : BufTy).Contents (Elt F) → (⟨S128x128, .f32⟩ : BufTy).Contents (Elt F) → (⟨S524288x128, .f32⟩ : BufTy).Contents (Elt F)),
    unary main_arg2 main_v67 (broadcastInDim S1x128 ![1] bcast_S128_S1x128_1 : (⟨S128, .f32⟩ : BufTy).Contents (Elt F) → (⟨S1x128, .f32⟩ : BufTy).Contents (Elt F)),
    unary main_v67 main_v68 (broadcastInDim S524288x128 ![0, 1] bcast_S1x128_S524288x128_0_1 : (⟨S1x128, .f32⟩ : BufTy).Contents (Elt F) → (⟨S524288x128, .f32⟩ : BufTy).Contents (Elt F)),
    binary main_v66 main_v68 main_v69 (addf : (⟨S524288x128, .f32⟩ : BufTy).Contents (Elt F) → (⟨S524288x128, .f32⟩ : BufTy).Contents (Elt F) → (⟨S524288x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S524288x128, .f32⟩) main_call1_v0) (broadcastInDim S524288x128 ![] bcast_S_S524288x128),
    TRef.binary (TRef.of (T := ⟨S524288x128, .f32⟩) main_v69) (TRef.of (T := ⟨S524288x128, .f32⟩) main_call1_v0) (TRef.of (T := ⟨S524288x128, .f32⟩) main_v70) maximumf,
    binary main_v70 main_arg3 main_v71 ((fun l r => Host.dotGeneral dot_S524288x128_S128x128_S524288x128_1_0_0_1_n_n none l r) : (⟨S524288x128, .f32⟩ : BufTy).Contents (Elt F) → (⟨S128x128, .f32⟩ : BufTy).Contents (Elt F) → (⟨S524288x128, .f32⟩ : BufTy).Contents (Elt F)),
    unary main_arg4 main_v72 (broadcastInDim S1x128 ![1] bcast_S128_S1x128_1 : (⟨S128, .f32⟩ : BufTy).Contents (Elt F) → (⟨S1x128, .f32⟩ : BufTy).Contents (Elt F)),
    unary main_v72 main_v73 (broadcastInDim S524288x128 ![0, 1] bcast_S1x128_S524288x128_0_1 : (⟨S1x128, .f32⟩ : BufTy).Contents (Elt F) → (⟨S524288x128, .f32⟩ : BufTy).Contents (Elt F)),
    binary main_v71 main_v73 main_v74 (addf : (⟨S524288x128, .f32⟩ : BufTy).Contents (Elt F) → (⟨S524288x128, .f32⟩ : BufTy).Contents (Elt F) → (⟨S524288x128, .f32⟩ : BufTy).Contents (Elt F)),
    unary main_v58 main_v75 (broadcastInDim S524288x1 ![0] bcast_S524288_S524288x1_0 : (⟨S524288, .f32⟩ : BufTy).Contents (Elt F) → (⟨S524288x1, .f32⟩ : BufTy).Contents (Elt F)),
    unary main_v75 main_v76 (broadcastInDim S524288x128 ![0, 1] bcast_S524288x1_S524288x128_0_1 : (⟨S524288x1, .f32⟩ : BufTy).Contents (Elt F) → (⟨S524288x128, .f32⟩ : BufTy).Contents (Elt F)),
    binary main_v74 main_v76 main_v77 (mulf : (⟨S524288x128, .f32⟩ : BufTy).Contents (Elt F) → (⟨S524288x128, .f32⟩ : BufTy).Contents (Elt F) → (⟨S524288x128, .f32⟩ : BufTy).Contents (Elt F)),
    unary main_arg7 main_v78 ((extractStridedSlice S1 ![1] · slices_S5_S1_1) : (⟨S5, .f32⟩ : BufTy).Contents (Elt F) → (⟨S1, .f32⟩ : BufTy).Contents (Elt F)),
    reshape main_v78 main_v79 rfl shapeCasts_S1_S_,
    nullary main_cst_13 (constant S_ .f32 0x00000000#32),
    unary main_cst_13 main_v80 (broadcastInDim S32768x128 ![] bcast_S_S32768x128 : (⟨S_, .f32⟩ : BufTy).Contents (Elt F) → (⟨S32768x128, .f32⟩ : BufTy).Contents (Elt F)),
    unary main_v31 main_v81 (broadcastInDim S524288x1 ![0] bcast_S524288_S524288x1_0 : (⟨S524288, .i32⟩ : BufTy).Contents (Elt F) → (⟨S524288x1, .i32⟩ : BufTy).Contents (Elt F)),
    ternary main_v80 main_v81 main_v77 main_v82 ((fun x i u => Host.scatterAdd scatter_S32768x128_S524288x1_S524288x128_1_0_0_1 x i u) : (⟨S32768x128, .f32⟩ : BufTy).Contents (Elt F) → (⟨S524288x1, .i32⟩ : BufTy).Contents (Elt F) → (⟨S524288x128, .f32⟩ : BufTy).Contents (Elt F) → (⟨S32768x128, .f32⟩ : BufTy).Contents (Elt F)),
    unary main_v79 main_v83 (broadcastInDim S32768x128 ![] bcast_S_S32768x128 : (⟨S_, .f32⟩ : BufTy).Contents (Elt F) → (⟨S32768x128, .f32⟩ : BufTy).Contents (Elt F)),
    binary main_v83 main_v82 main_v84 (mulf : (⟨S32768x128, .f32⟩ : BufTy).Contents (Elt F) → (⟨S32768x128, .f32⟩ : BufTy).Contents (Elt F) → (⟨S32768x128, .f32⟩ : BufTy).Contents (Elt F)),
    binary main_v29 main_v84 main_v85 (addf : (⟨S32768x128, .f32⟩ : BufTy).Contents (Elt F) → (⟨S32768x128, .f32⟩ : BufTy).Contents (Elt F) → (⟨S32768x128, .f32⟩ : BufTy).Contents (Elt F)) ]

/-- Stretch 2 of @main's operations. -/
abbrev ops2 : List (HloOp τ sig (Elt F)) :=
  [ unary main_arg10 main_v86 ((extractStridedSlice S1x524288 ![1, 0] · slices_S4x524288_S1x524288_1_0) : (⟨S4x524288, .i32⟩ : BufTy).Contents (Elt F) → (⟨S1x524288, .i32⟩ : BufTy).Contents (Elt F)),
    reshape main_v86 main_v87 rfl shapeCasts_S1x524288_S524288,
    unary main_arg11 main_v88 ((extractStridedSlice S1x524288 ![1, 0] · slices_S4x524288_S1x524288_1_0) : (⟨S4x524288, .i32⟩ : BufTy).Contents (Elt F) → (⟨S1x524288, .i32⟩ : BufTy).Contents (Elt F)),
    reshape main_v88 main_v89 rfl shapeCasts_S1x524288_S524288,
    nullary main_c_14 (constantI S_ 32 0#32),
    unary main_c_14 main_v90 (broadcastInDim S524288 ![] bcast_S_S524288 : (⟨S_, .i32⟩ : BufTy).Contents (Elt F) → (⟨S524288, .i32⟩ : BufTy).Contents (Elt F)),
    binary main_v87 main_v90 main_v91 (cmpi .slt : (⟨S524288, .i32⟩ : BufTy).Contents (Elt F) → (⟨S524288, .i32⟩ : BufTy).Contents (Elt F) → (⟨S524288, .i1⟩ : BufTy).Contents (Elt F)),
    nullary main_c_15 (constantI S_ 32 32768#32),
    unary main_c_15 main_v92 (broadcastInDim S524288 ![] bcast_S_S524288 : (⟨S_, .i32⟩ : BufTy).Contents (Elt F) → (⟨S524288, .i32⟩ : BufTy).Contents (Elt F)),
    binary main_v87 main_v92 main_v93 (addi : (⟨S524288, .i32⟩ : BufTy).Contents (Elt F) → (⟨S524288, .i32⟩ : BufTy).Contents (Elt F) → (⟨S524288, .i32⟩ : BufTy).Contents (Elt F)),
    ternary main_v91 main_v93 main_v87 main_v94 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v94 main_v95 (broadcastInDim S524288x1 ![0] bcast_S524288_S524288x1_0 : (⟨S524288, .i32⟩ : BufTy).Contents (Elt F) → (⟨S524288x1, .i32⟩ : BufTy).Contents (Elt F)),
    binary main_arg9 main_v95 main_v96 ((fun x i => Host.gather gather_S32768_S524288x1_S524288_n_0_n_n_0_1_1 x i) : (⟨S32768, .i32⟩ : BufTy).Contents (Elt F) → (⟨S524288x1, .i32⟩ : BufTy).Contents (Elt F) → (⟨S524288, .i32⟩ : BufTy).Contents (Elt F)),
    nullary main_c_16 (constantI S_ 32 0#32),
    unary main_c_16 main_v97 (broadcastInDim S524288 ![] bcast_S_S524288 : (⟨S_, .i32⟩ : BufTy).Contents (Elt F) → (⟨S524288, .i32⟩ : BufTy).Contents (Elt F)),
    binary main_v96 main_v97 main_v98 (cmpi .slt : (⟨S524288, .i32⟩ : BufTy).Contents (Elt F) → (⟨S524288, .i32⟩ : BufTy).Contents (Elt F) → (⟨S524288, .i1⟩ : BufTy).Contents (Elt F)),
    nullary main_c_17 (constantI S_ 32 500000#32),
    unary main_c_17 main_v99 (broadcastInDim S524288 ![] bcast_S_S524288 : (⟨S_, .i32⟩ : BufTy).Contents (Elt F) → (⟨S524288, .i32⟩ : BufTy).Contents (Elt F)),
    binary main_v96 main_v99 main_v100 (addi : (⟨S524288, .i32⟩ : BufTy).Contents (Elt F) → (⟨S524288, .i32⟩ : BufTy).Contents (Elt F) → (⟨S524288, .i32⟩ : BufTy).Contents (Elt F)),
    ternary main_v98 main_v100 main_v96 main_v101 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v101 main_v102 (broadcastInDim S524288x1 ![0] bcast_S524288_S524288x1_0 : (⟨S524288, .i32⟩ : BufTy).Contents (Elt F) → (⟨S524288x1, .i32⟩ : BufTy).Contents (Elt F)),
    binary main_v1 main_v102 main_v103 ((fun x i => Host.gather gather_S500000_S524288x1_S524288_n_0_n_n_0_1_1 x i) : (⟨S500000, .f32⟩ : BufTy).Contents (Elt F) → (⟨S524288x1, .i32⟩ : BufTy).Contents (Elt F) → (⟨S524288, .f32⟩ : BufTy).Contents (Elt F)),
    nullary main_c_18 (constantI S_ 32 0#32),
    unary main_c_18 main_v104 (broadcastInDim S524288 ![] bcast_S_S524288 : (⟨S_, .i32⟩ : BufTy).Contents (Elt F) → (⟨S524288, .i32⟩ : BufTy).Contents (Elt F)),
    binary main_v89 main_v104 main_v105 (cmpi .slt : (⟨S524288, .i32⟩ : BufTy).Contents (Elt F) → (⟨S524288, .i32⟩ : BufTy).Contents (Elt F) → (⟨S524288, .i1⟩ : BufTy).Contents (Elt F)),
    nullary main_c_19 (constantI S_ 32 500000#32),
    unary main_c_19 main_v106 (broadcastInDim S524288 ![] bcast_S_S524288 : (⟨S_, .i32⟩ : BufTy).Contents (Elt F) → (⟨S524288, .i32⟩ : BufTy).Contents (Elt F)),
    binary main_v89 main_v106 main_v107 (addi : (⟨S524288, .i32⟩ : BufTy).Contents (Elt F) → (⟨S524288, .i32⟩ : BufTy).Contents (Elt F) → (⟨S524288, .i32⟩ : BufTy).Contents (Elt F)),
    ternary main_v105 main_v107 main_v89 main_v108 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v108 main_v109 (broadcastInDim S524288x1 ![0] bcast_S524288_S524288x1_0 : (⟨S524288, .i32⟩ : BufTy).Contents (Elt F) → (⟨S524288x1, .i32⟩ : BufTy).Contents (Elt F)),
    binary main_v1 main_v109 main_v110 ((fun x i => Host.gather gather_S500000_S524288x1_S524288_n_0_n_n_0_1_1 x i) : (⟨S500000, .f32⟩ : BufTy).Contents (Elt F) → (⟨S524288x1, .i32⟩ : BufTy).Contents (Elt F) → (⟨S524288, .f32⟩ : BufTy).Contents (Elt F)),
    binary main_v103 main_v110 main_v111 (mulf : (⟨S524288, .f32⟩ : BufTy).Contents (Elt F) → (⟨S524288, .f32⟩ : BufTy).Contents (Elt F) → (⟨S524288, .f32⟩ : BufTy).Contents (Elt F)),
    nullary main_cst_20 (constant S_ .f32 0x49000000#32),
    binary main_v9 main_cst_20 main_v112 (Host.divf : (⟨S_, .f32⟩ : BufTy).Contents (Elt F) → (⟨S_, .f32⟩ : BufTy).Contents (Elt F) → (⟨S_, .f32⟩ : BufTy).Contents (Elt F)),
    unary main_v112 main_v113 (broadcastInDim S524288 ![] bcast_S_S524288 : (⟨S_, .f32⟩ : BufTy).Contents (Elt F) → (⟨S524288, .f32⟩ : BufTy).Contents (Elt F)),
    binary main_v111 main_v113 main_v114 (mulf : (⟨S524288, .f32⟩ : BufTy).Contents (Elt F) → (⟨S524288, .f32⟩ : BufTy).Contents (Elt F) → (⟨S524288, .f32⟩ : BufTy).Contents (Elt F)),
    nullary main_c_21 (constantI S_ 32 0#32),
    unary main_c_21 main_v115 (broadcastInDim S524288 ![] bcast_S_S524288 : (⟨S_, .i32⟩ : BufTy).Contents (Elt F) → (⟨S524288, .i32⟩ : BufTy).Contents (Elt F)),
    binary main_v89 main_v115 main_v116 (cmpi .slt : (⟨S524288, .i32⟩ : BufTy).Contents (Elt F) → (⟨S524288, .i32⟩ : BufTy).Contents (Elt F) → (⟨S524288, .i1⟩ : BufTy).Contents (Elt F)),
    nullary main_c_22 (constantI S_ 32 500000#32),
    unary main_c_22 main_v117 (broadcastInDim S524288 ![] bcast_S_S524288 : (⟨S_, .i32⟩ : BufTy).Contents (Elt F) → (⟨S524288, .i32⟩ : BufTy).Contents (Elt F)),
    binary main_v89 main_v117 main_v118 (addi : (⟨S524288, .i32⟩ : BufTy).Contents (Elt F) → (⟨S524288, .i32⟩ : BufTy).Contents (Elt F) → (⟨S524288, .i32⟩ : BufTy).Contents (Elt F)),
    ternary main_v116 main_v118 main_v89 main_v119 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v119 main_v120 (broadcastInDim S524288x1 ![0] bcast_S524288_S524288x1_0 : (⟨S524288, .i32⟩ : BufTy).Contents (Elt F) → (⟨S524288x1, .i32⟩ : BufTy).Contents (Elt F)),
    binary main_arg0 main_v120 main_v121 ((fun x i => Host.gather gather_S500000x128_S524288x1_S524288x128_1_0_n_n_0_1_1128 x i) : (⟨S500000x128, .f32⟩ : BufTy).Contents (Elt F) → (⟨S524288x1, .i32⟩ : BufTy).Contents (Elt F) → (⟨S524288x128, .f32⟩ : BufTy).Contents (Elt F)),
    binary main_v121 main_arg1 main_v122 ((fun l r => Host.dotGeneral dot_S524288x128_S128x128_S524288x128_1_0_0_1_n_n none l r) : (⟨S524288x128, .f32⟩ : BufTy).Contents (Elt F) → (⟨S128x128, .f32⟩ : BufTy).Contents (Elt F) → (⟨S524288x128, .f32⟩ : BufTy).Contents (Elt F)),
    unary main_arg2 main_v123 (broadcastInDim S1x128 ![1] bcast_S128_S1x128_1 : (⟨S128, .f32⟩ : BufTy).Contents (Elt F) → (⟨S1x128, .f32⟩ : BufTy).Contents (Elt F)),
    unary main_v123 main_v124 (broadcastInDim S524288x128 ![0, 1] bcast_S1x128_S524288x128_0_1 : (⟨S1x128, .f32⟩ : BufTy).Contents (Elt F) → (⟨S524288x128, .f32⟩ : BufTy).Contents (Elt F)),
    binary main_v122 main_v124 main_v125 (addf : (⟨S524288x128, .f32⟩ : BufTy).Contents (Elt F) → (⟨S524288x128, .f32⟩ : BufTy).Contents (Elt F) → (⟨S524288x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S524288x128, .f32⟩) main_call2_v0) (broadcastInDim S524288x128 ![] bcast_S_S524288x128),
    TRef.binary (TRef.of (T := ⟨S524288x128, .f32⟩) main_v125) (TRef.of (T := ⟨S524288x128, .f32⟩) main_call2_v0) (TRef.of (T := ⟨S524288x128, .f32⟩) main_v126) maximumf,
    binary main_v126 main_arg3 main_v127 ((fun l r => Host.dotGeneral dot_S524288x128_S128x128_S524288x128_1_0_0_1_n_n none l r) : (⟨S524288x128, .f32⟩ : BufTy).Contents (Elt F) → (⟨S128x128, .f32⟩ : BufTy).Contents (Elt F) → (⟨S524288x128, .f32⟩ : BufTy).Contents (Elt F)),
    unary main_arg4 main_v128 (broadcastInDim S1x128 ![1] bcast_S128_S1x128_1 : (⟨S128, .f32⟩ : BufTy).Contents (Elt F) → (⟨S1x128, .f32⟩ : BufTy).Contents (Elt F)),
    unary main_v128 main_v129 (broadcastInDim S524288x128 ![0, 1] bcast_S1x128_S524288x128_0_1 : (⟨S1x128, .f32⟩ : BufTy).Contents (Elt F) → (⟨S524288x128, .f32⟩ : BufTy).Contents (Elt F)),
    binary main_v127 main_v129 main_v130 (addf : (⟨S524288x128, .f32⟩ : BufTy).Contents (Elt F) → (⟨S524288x128, .f32⟩ : BufTy).Contents (Elt F) → (⟨S524288x128, .f32⟩ : BufTy).Contents (Elt F)),
    unary main_v114 main_v131 (broadcastInDim S524288x1 ![0] bcast_S524288_S524288x1_0 : (⟨S524288, .f32⟩ : BufTy).Contents (Elt F) → (⟨S524288x1, .f32⟩ : BufTy).Contents (Elt F)),
    unary main_v131 main_v132 (broadcastInDim S524288x128 ![0, 1] bcast_S524288x1_S524288x128_0_1 : (⟨S524288x1, .f32⟩ : BufTy).Contents (Elt F) → (⟨S524288x128, .f32⟩ : BufTy).Contents (Elt F)),
    binary main_v130 main_v132 main_v133 (mulf : (⟨S524288x128, .f32⟩ : BufTy).Contents (Elt F) → (⟨S524288x128, .f32⟩ : BufTy).Contents (Elt F) → (⟨S524288x128, .f32⟩ : BufTy).Contents (Elt F)),
    unary main_arg7 main_v134 ((extractStridedSlice S1 ![2] · slices_S5_S1_2) : (⟨S5, .f32⟩ : BufTy).Contents (Elt F) → (⟨S1, .f32⟩ : BufTy).Contents (Elt F)),
    reshape main_v134 main_v135 rfl shapeCasts_S1_S_,
    nullary main_cst_23 (constant S_ .f32 0x00000000#32),
    unary main_cst_23 main_v136 (broadcastInDim S32768x128 ![] bcast_S_S32768x128 : (⟨S_, .f32⟩ : BufTy).Contents (Elt F) → (⟨S32768x128, .f32⟩ : BufTy).Contents (Elt F)),
    unary main_v87 main_v137 (broadcastInDim S524288x1 ![0] bcast_S524288_S524288x1_0 : (⟨S524288, .i32⟩ : BufTy).Contents (Elt F) → (⟨S524288x1, .i32⟩ : BufTy).Contents (Elt F)),
    ternary main_v136 main_v137 main_v133 main_v138 ((fun x i u => Host.scatterAdd scatter_S32768x128_S524288x1_S524288x128_1_0_0_1 x i u) : (⟨S32768x128, .f32⟩ : BufTy).Contents (Elt F) → (⟨S524288x1, .i32⟩ : BufTy).Contents (Elt F) → (⟨S524288x128, .f32⟩ : BufTy).Contents (Elt F) → (⟨S32768x128, .f32⟩ : BufTy).Contents (Elt F)),
    unary main_v135 main_v139 (broadcastInDim S32768x128 ![] bcast_S_S32768x128 : (⟨S_, .f32⟩ : BufTy).Contents (Elt F) → (⟨S32768x128, .f32⟩ : BufTy).Contents (Elt F)),
    binary main_v139 main_v138 main_v140 (mulf : (⟨S32768x128, .f32⟩ : BufTy).Contents (Elt F) → (⟨S32768x128, .f32⟩ : BufTy).Contents (Elt F) → (⟨S32768x128, .f32⟩ : BufTy).Contents (Elt F)),
    binary main_v85 main_v140 main_v141 (addf : (⟨S32768x128, .f32⟩ : BufTy).Contents (Elt F) → (⟨S32768x128, .f32⟩ : BufTy).Contents (Elt F) → (⟨S32768x128, .f32⟩ : BufTy).Contents (Elt F)) ]

/-- Stretch 3 of @main's operations. -/
abbrev ops3 : List (HloOp τ sig (Elt F)) :=
  [ unary main_arg10 main_v142 ((extractStridedSlice S1x524288 ![2, 0] · slices_S4x524288_S1x524288_2_0) : (⟨S4x524288, .i32⟩ : BufTy).Contents (Elt F) → (⟨S1x524288, .i32⟩ : BufTy).Contents (Elt F)),
    reshape main_v142 main_v143 rfl shapeCasts_S1x524288_S524288,
    unary main_arg11 main_v144 ((extractStridedSlice S1x524288 ![2, 0] · slices_S4x524288_S1x524288_2_0) : (⟨S4x524288, .i32⟩ : BufTy).Contents (Elt F) → (⟨S1x524288, .i32⟩ : BufTy).Contents (Elt F)),
    reshape main_v144 main_v145 rfl shapeCasts_S1x524288_S524288,
    nullary main_c_24 (constantI S_ 32 0#32),
    unary main_c_24 main_v146 (broadcastInDim S524288 ![] bcast_S_S524288 : (⟨S_, .i32⟩ : BufTy).Contents (Elt F) → (⟨S524288, .i32⟩ : BufTy).Contents (Elt F)),
    binary main_v143 main_v146 main_v147 (cmpi .slt : (⟨S524288, .i32⟩ : BufTy).Contents (Elt F) → (⟨S524288, .i32⟩ : BufTy).Contents (Elt F) → (⟨S524288, .i1⟩ : BufTy).Contents (Elt F)),
    nullary main_c_25 (constantI S_ 32 32768#32),
    unary main_c_25 main_v148 (broadcastInDim S524288 ![] bcast_S_S524288 : (⟨S_, .i32⟩ : BufTy).Contents (Elt F) → (⟨S524288, .i32⟩ : BufTy).Contents (Elt F)),
    binary main_v143 main_v148 main_v149 (addi : (⟨S524288, .i32⟩ : BufTy).Contents (Elt F) → (⟨S524288, .i32⟩ : BufTy).Contents (Elt F) → (⟨S524288, .i32⟩ : BufTy).Contents (Elt F)),
    ternary main_v147 main_v149 main_v143 main_v150 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v150 main_v151 (broadcastInDim S524288x1 ![0] bcast_S524288_S524288x1_0 : (⟨S524288, .i32⟩ : BufTy).Contents (Elt F) → (⟨S524288x1, .i32⟩ : BufTy).Contents (Elt F)),
    binary main_arg9 main_v151 main_v152 ((fun x i => Host.gather gather_S32768_S524288x1_S524288_n_0_n_n_0_1_1 x i) : (⟨S32768, .i32⟩ : BufTy).Contents (Elt F) → (⟨S524288x1, .i32⟩ : BufTy).Contents (Elt F) → (⟨S524288, .i32⟩ : BufTy).Contents (Elt F)),
    nullary main_c_26 (constantI S_ 32 0#32),
    unary main_c_26 main_v153 (broadcastInDim S524288 ![] bcast_S_S524288 : (⟨S_, .i32⟩ : BufTy).Contents (Elt F) → (⟨S524288, .i32⟩ : BufTy).Contents (Elt F)),
    binary main_v152 main_v153 main_v154 (cmpi .slt : (⟨S524288, .i32⟩ : BufTy).Contents (Elt F) → (⟨S524288, .i32⟩ : BufTy).Contents (Elt F) → (⟨S524288, .i1⟩ : BufTy).Contents (Elt F)),
    nullary main_c_27 (constantI S_ 32 500000#32),
    unary main_c_27 main_v155 (broadcastInDim S524288 ![] bcast_S_S524288 : (⟨S_, .i32⟩ : BufTy).Contents (Elt F) → (⟨S524288, .i32⟩ : BufTy).Contents (Elt F)),
    binary main_v152 main_v155 main_v156 (addi : (⟨S524288, .i32⟩ : BufTy).Contents (Elt F) → (⟨S524288, .i32⟩ : BufTy).Contents (Elt F) → (⟨S524288, .i32⟩ : BufTy).Contents (Elt F)),
    ternary main_v154 main_v156 main_v152 main_v157 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v157 main_v158 (broadcastInDim S524288x1 ![0] bcast_S524288_S524288x1_0 : (⟨S524288, .i32⟩ : BufTy).Contents (Elt F) → (⟨S524288x1, .i32⟩ : BufTy).Contents (Elt F)),
    binary main_v1 main_v158 main_v159 ((fun x i => Host.gather gather_S500000_S524288x1_S524288_n_0_n_n_0_1_1 x i) : (⟨S500000, .f32⟩ : BufTy).Contents (Elt F) → (⟨S524288x1, .i32⟩ : BufTy).Contents (Elt F) → (⟨S524288, .f32⟩ : BufTy).Contents (Elt F)),
    nullary main_c_28 (constantI S_ 32 0#32),
    unary main_c_28 main_v160 (broadcastInDim S524288 ![] bcast_S_S524288 : (⟨S_, .i32⟩ : BufTy).Contents (Elt F) → (⟨S524288, .i32⟩ : BufTy).Contents (Elt F)),
    binary main_v145 main_v160 main_v161 (cmpi .slt : (⟨S524288, .i32⟩ : BufTy).Contents (Elt F) → (⟨S524288, .i32⟩ : BufTy).Contents (Elt F) → (⟨S524288, .i1⟩ : BufTy).Contents (Elt F)),
    nullary main_c_29 (constantI S_ 32 500000#32),
    unary main_c_29 main_v162 (broadcastInDim S524288 ![] bcast_S_S524288 : (⟨S_, .i32⟩ : BufTy).Contents (Elt F) → (⟨S524288, .i32⟩ : BufTy).Contents (Elt F)),
    binary main_v145 main_v162 main_v163 (addi : (⟨S524288, .i32⟩ : BufTy).Contents (Elt F) → (⟨S524288, .i32⟩ : BufTy).Contents (Elt F) → (⟨S524288, .i32⟩ : BufTy).Contents (Elt F)),
    ternary main_v161 main_v163 main_v145 main_v164 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v164 main_v165 (broadcastInDim S524288x1 ![0] bcast_S524288_S524288x1_0 : (⟨S524288, .i32⟩ : BufTy).Contents (Elt F) → (⟨S524288x1, .i32⟩ : BufTy).Contents (Elt F)),
    binary main_v1 main_v165 main_v166 ((fun x i => Host.gather gather_S500000_S524288x1_S524288_n_0_n_n_0_1_1 x i) : (⟨S500000, .f32⟩ : BufTy).Contents (Elt F) → (⟨S524288x1, .i32⟩ : BufTy).Contents (Elt F) → (⟨S524288, .f32⟩ : BufTy).Contents (Elt F)),
    binary main_v159 main_v166 main_v167 (mulf : (⟨S524288, .f32⟩ : BufTy).Contents (Elt F) → (⟨S524288, .f32⟩ : BufTy).Contents (Elt F) → (⟨S524288, .f32⟩ : BufTy).Contents (Elt F)),
    nullary main_cst_30 (constant S_ .f32 0x49000000#32),
    binary main_v9 main_cst_30 main_v168 (Host.divf : (⟨S_, .f32⟩ : BufTy).Contents (Elt F) → (⟨S_, .f32⟩ : BufTy).Contents (Elt F) → (⟨S_, .f32⟩ : BufTy).Contents (Elt F)),
    unary main_v168 main_v169 (broadcastInDim S524288 ![] bcast_S_S524288 : (⟨S_, .f32⟩ : BufTy).Contents (Elt F) → (⟨S524288, .f32⟩ : BufTy).Contents (Elt F)),
    binary main_v167 main_v169 main_v170 (mulf : (⟨S524288, .f32⟩ : BufTy).Contents (Elt F) → (⟨S524288, .f32⟩ : BufTy).Contents (Elt F) → (⟨S524288, .f32⟩ : BufTy).Contents (Elt F)),
    nullary main_c_31 (constantI S_ 32 0#32),
    unary main_c_31 main_v171 (broadcastInDim S524288 ![] bcast_S_S524288 : (⟨S_, .i32⟩ : BufTy).Contents (Elt F) → (⟨S524288, .i32⟩ : BufTy).Contents (Elt F)),
    binary main_v145 main_v171 main_v172 (cmpi .slt : (⟨S524288, .i32⟩ : BufTy).Contents (Elt F) → (⟨S524288, .i32⟩ : BufTy).Contents (Elt F) → (⟨S524288, .i1⟩ : BufTy).Contents (Elt F)),
    nullary main_c_32 (constantI S_ 32 500000#32),
    unary main_c_32 main_v173 (broadcastInDim S524288 ![] bcast_S_S524288 : (⟨S_, .i32⟩ : BufTy).Contents (Elt F) → (⟨S524288, .i32⟩ : BufTy).Contents (Elt F)),
    binary main_v145 main_v173 main_v174 (addi : (⟨S524288, .i32⟩ : BufTy).Contents (Elt F) → (⟨S524288, .i32⟩ : BufTy).Contents (Elt F) → (⟨S524288, .i32⟩ : BufTy).Contents (Elt F)),
    ternary main_v172 main_v174 main_v145 main_v175 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v175 main_v176 (broadcastInDim S524288x1 ![0] bcast_S524288_S524288x1_0 : (⟨S524288, .i32⟩ : BufTy).Contents (Elt F) → (⟨S524288x1, .i32⟩ : BufTy).Contents (Elt F)),
    binary main_arg0 main_v176 main_v177 ((fun x i => Host.gather gather_S500000x128_S524288x1_S524288x128_1_0_n_n_0_1_1128 x i) : (⟨S500000x128, .f32⟩ : BufTy).Contents (Elt F) → (⟨S524288x1, .i32⟩ : BufTy).Contents (Elt F) → (⟨S524288x128, .f32⟩ : BufTy).Contents (Elt F)),
    binary main_v177 main_arg1 main_v178 ((fun l r => Host.dotGeneral dot_S524288x128_S128x128_S524288x128_1_0_0_1_n_n none l r) : (⟨S524288x128, .f32⟩ : BufTy).Contents (Elt F) → (⟨S128x128, .f32⟩ : BufTy).Contents (Elt F) → (⟨S524288x128, .f32⟩ : BufTy).Contents (Elt F)),
    unary main_arg2 main_v179 (broadcastInDim S1x128 ![1] bcast_S128_S1x128_1 : (⟨S128, .f32⟩ : BufTy).Contents (Elt F) → (⟨S1x128, .f32⟩ : BufTy).Contents (Elt F)),
    unary main_v179 main_v180 (broadcastInDim S524288x128 ![0, 1] bcast_S1x128_S524288x128_0_1 : (⟨S1x128, .f32⟩ : BufTy).Contents (Elt F) → (⟨S524288x128, .f32⟩ : BufTy).Contents (Elt F)),
    binary main_v178 main_v180 main_v181 (addf : (⟨S524288x128, .f32⟩ : BufTy).Contents (Elt F) → (⟨S524288x128, .f32⟩ : BufTy).Contents (Elt F) → (⟨S524288x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S524288x128, .f32⟩) main_call3_v0) (broadcastInDim S524288x128 ![] bcast_S_S524288x128),
    TRef.binary (TRef.of (T := ⟨S524288x128, .f32⟩) main_v181) (TRef.of (T := ⟨S524288x128, .f32⟩) main_call3_v0) (TRef.of (T := ⟨S524288x128, .f32⟩) main_v182) maximumf,
    binary main_v182 main_arg3 main_v183 ((fun l r => Host.dotGeneral dot_S524288x128_S128x128_S524288x128_1_0_0_1_n_n none l r) : (⟨S524288x128, .f32⟩ : BufTy).Contents (Elt F) → (⟨S128x128, .f32⟩ : BufTy).Contents (Elt F) → (⟨S524288x128, .f32⟩ : BufTy).Contents (Elt F)),
    unary main_arg4 main_v184 (broadcastInDim S1x128 ![1] bcast_S128_S1x128_1 : (⟨S128, .f32⟩ : BufTy).Contents (Elt F) → (⟨S1x128, .f32⟩ : BufTy).Contents (Elt F)),
    unary main_v184 main_v185 (broadcastInDim S524288x128 ![0, 1] bcast_S1x128_S524288x128_0_1 : (⟨S1x128, .f32⟩ : BufTy).Contents (Elt F) → (⟨S524288x128, .f32⟩ : BufTy).Contents (Elt F)),
    binary main_v183 main_v185 main_v186 (addf : (⟨S524288x128, .f32⟩ : BufTy).Contents (Elt F) → (⟨S524288x128, .f32⟩ : BufTy).Contents (Elt F) → (⟨S524288x128, .f32⟩ : BufTy).Contents (Elt F)),
    unary main_v170 main_v187 (broadcastInDim S524288x1 ![0] bcast_S524288_S524288x1_0 : (⟨S524288, .f32⟩ : BufTy).Contents (Elt F) → (⟨S524288x1, .f32⟩ : BufTy).Contents (Elt F)),
    unary main_v187 main_v188 (broadcastInDim S524288x128 ![0, 1] bcast_S524288x1_S524288x128_0_1 : (⟨S524288x1, .f32⟩ : BufTy).Contents (Elt F) → (⟨S524288x128, .f32⟩ : BufTy).Contents (Elt F)),
    binary main_v186 main_v188 main_v189 (mulf : (⟨S524288x128, .f32⟩ : BufTy).Contents (Elt F) → (⟨S524288x128, .f32⟩ : BufTy).Contents (Elt F) → (⟨S524288x128, .f32⟩ : BufTy).Contents (Elt F)),
    unary main_arg7 main_v190 ((extractStridedSlice S1 ![3] · slices_S5_S1_3) : (⟨S5, .f32⟩ : BufTy).Contents (Elt F) → (⟨S1, .f32⟩ : BufTy).Contents (Elt F)),
    reshape main_v190 main_v191 rfl shapeCasts_S1_S_,
    nullary main_cst_33 (constant S_ .f32 0x00000000#32),
    unary main_cst_33 main_v192 (broadcastInDim S32768x128 ![] bcast_S_S32768x128 : (⟨S_, .f32⟩ : BufTy).Contents (Elt F) → (⟨S32768x128, .f32⟩ : BufTy).Contents (Elt F)),
    unary main_v143 main_v193 (broadcastInDim S524288x1 ![0] bcast_S524288_S524288x1_0 : (⟨S524288, .i32⟩ : BufTy).Contents (Elt F) → (⟨S524288x1, .i32⟩ : BufTy).Contents (Elt F)),
    ternary main_v192 main_v193 main_v189 main_v194 ((fun x i u => Host.scatterAdd scatter_S32768x128_S524288x1_S524288x128_1_0_0_1 x i u) : (⟨S32768x128, .f32⟩ : BufTy).Contents (Elt F) → (⟨S524288x1, .i32⟩ : BufTy).Contents (Elt F) → (⟨S524288x128, .f32⟩ : BufTy).Contents (Elt F) → (⟨S32768x128, .f32⟩ : BufTy).Contents (Elt F)),
    unary main_v191 main_v195 (broadcastInDim S32768x128 ![] bcast_S_S32768x128 : (⟨S_, .f32⟩ : BufTy).Contents (Elt F) → (⟨S32768x128, .f32⟩ : BufTy).Contents (Elt F)),
    binary main_v195 main_v194 main_v196 (mulf : (⟨S32768x128, .f32⟩ : BufTy).Contents (Elt F) → (⟨S32768x128, .f32⟩ : BufTy).Contents (Elt F) → (⟨S32768x128, .f32⟩ : BufTy).Contents (Elt F)),
    binary main_v141 main_v196 main_v197 (addf : (⟨S32768x128, .f32⟩ : BufTy).Contents (Elt F) → (⟨S32768x128, .f32⟩ : BufTy).Contents (Elt F) → (⟨S32768x128, .f32⟩ : BufTy).Contents (Elt F)) ]

/-- Stretch 4 of @main's operations. -/
abbrev ops4 : List (HloOp τ sig (Elt F)) :=
  [ unary main_arg10 main_v198 ((extractStridedSlice S1x524288 ![3, 0] · slices_S4x524288_S1x524288_3_0) : (⟨S4x524288, .i32⟩ : BufTy).Contents (Elt F) → (⟨S1x524288, .i32⟩ : BufTy).Contents (Elt F)),
    reshape main_v198 main_v199 rfl shapeCasts_S1x524288_S524288,
    unary main_arg11 main_v200 ((extractStridedSlice S1x524288 ![3, 0] · slices_S4x524288_S1x524288_3_0) : (⟨S4x524288, .i32⟩ : BufTy).Contents (Elt F) → (⟨S1x524288, .i32⟩ : BufTy).Contents (Elt F)),
    reshape main_v200 main_v201 rfl shapeCasts_S1x524288_S524288,
    nullary main_c_34 (constantI S_ 32 0#32),
    unary main_c_34 main_v202 (broadcastInDim S524288 ![] bcast_S_S524288 : (⟨S_, .i32⟩ : BufTy).Contents (Elt F) → (⟨S524288, .i32⟩ : BufTy).Contents (Elt F)),
    binary main_v199 main_v202 main_v203 (cmpi .slt : (⟨S524288, .i32⟩ : BufTy).Contents (Elt F) → (⟨S524288, .i32⟩ : BufTy).Contents (Elt F) → (⟨S524288, .i1⟩ : BufTy).Contents (Elt F)),
    nullary main_c_35 (constantI S_ 32 32768#32),
    unary main_c_35 main_v204 (broadcastInDim S524288 ![] bcast_S_S524288 : (⟨S_, .i32⟩ : BufTy).Contents (Elt F) → (⟨S524288, .i32⟩ : BufTy).Contents (Elt F)),
    binary main_v199 main_v204 main_v205 (addi : (⟨S524288, .i32⟩ : BufTy).Contents (Elt F) → (⟨S524288, .i32⟩ : BufTy).Contents (Elt F) → (⟨S524288, .i32⟩ : BufTy).Contents (Elt F)),
    ternary main_v203 main_v205 main_v199 main_v206 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v206 main_v207 (broadcastInDim S524288x1 ![0] bcast_S524288_S524288x1_0 : (⟨S524288, .i32⟩ : BufTy).Contents (Elt F) → (⟨S524288x1, .i32⟩ : BufTy).Contents (Elt F)),
    binary main_arg9 main_v207 main_v208 ((fun x i => Host.gather gather_S32768_S524288x1_S524288_n_0_n_n_0_1_1 x i) : (⟨S32768, .i32⟩ : BufTy).Contents (Elt F) → (⟨S524288x1, .i32⟩ : BufTy).Contents (Elt F) → (⟨S524288, .i32⟩ : BufTy).Contents (Elt F)),
    nullary main_c_36 (constantI S_ 32 0#32),
    unary main_c_36 main_v209 (broadcastInDim S524288 ![] bcast_S_S524288 : (⟨S_, .i32⟩ : BufTy).Contents (Elt F) → (⟨S524288, .i32⟩ : BufTy).Contents (Elt F)),
    binary main_v208 main_v209 main_v210 (cmpi .slt : (⟨S524288, .i32⟩ : BufTy).Contents (Elt F) → (⟨S524288, .i32⟩ : BufTy).Contents (Elt F) → (⟨S524288, .i1⟩ : BufTy).Contents (Elt F)),
    nullary main_c_37 (constantI S_ 32 500000#32),
    unary main_c_37 main_v211 (broadcastInDim S524288 ![] bcast_S_S524288 : (⟨S_, .i32⟩ : BufTy).Contents (Elt F) → (⟨S524288, .i32⟩ : BufTy).Contents (Elt F)),
    binary main_v208 main_v211 main_v212 (addi : (⟨S524288, .i32⟩ : BufTy).Contents (Elt F) → (⟨S524288, .i32⟩ : BufTy).Contents (Elt F) → (⟨S524288, .i32⟩ : BufTy).Contents (Elt F)),
    ternary main_v210 main_v212 main_v208 main_v213 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v213 main_v214 (broadcastInDim S524288x1 ![0] bcast_S524288_S524288x1_0 : (⟨S524288, .i32⟩ : BufTy).Contents (Elt F) → (⟨S524288x1, .i32⟩ : BufTy).Contents (Elt F)),
    binary main_v1 main_v214 main_v215 ((fun x i => Host.gather gather_S500000_S524288x1_S524288_n_0_n_n_0_1_1 x i) : (⟨S500000, .f32⟩ : BufTy).Contents (Elt F) → (⟨S524288x1, .i32⟩ : BufTy).Contents (Elt F) → (⟨S524288, .f32⟩ : BufTy).Contents (Elt F)),
    nullary main_c_38 (constantI S_ 32 0#32),
    unary main_c_38 main_v216 (broadcastInDim S524288 ![] bcast_S_S524288 : (⟨S_, .i32⟩ : BufTy).Contents (Elt F) → (⟨S524288, .i32⟩ : BufTy).Contents (Elt F)),
    binary main_v201 main_v216 main_v217 (cmpi .slt : (⟨S524288, .i32⟩ : BufTy).Contents (Elt F) → (⟨S524288, .i32⟩ : BufTy).Contents (Elt F) → (⟨S524288, .i1⟩ : BufTy).Contents (Elt F)),
    nullary main_c_39 (constantI S_ 32 500000#32),
    unary main_c_39 main_v218 (broadcastInDim S524288 ![] bcast_S_S524288 : (⟨S_, .i32⟩ : BufTy).Contents (Elt F) → (⟨S524288, .i32⟩ : BufTy).Contents (Elt F)),
    binary main_v201 main_v218 main_v219 (addi : (⟨S524288, .i32⟩ : BufTy).Contents (Elt F) → (⟨S524288, .i32⟩ : BufTy).Contents (Elt F) → (⟨S524288, .i32⟩ : BufTy).Contents (Elt F)),
    ternary main_v217 main_v219 main_v201 main_v220 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v220 main_v221 (broadcastInDim S524288x1 ![0] bcast_S524288_S524288x1_0 : (⟨S524288, .i32⟩ : BufTy).Contents (Elt F) → (⟨S524288x1, .i32⟩ : BufTy).Contents (Elt F)),
    binary main_v1 main_v221 main_v222 ((fun x i => Host.gather gather_S500000_S524288x1_S524288_n_0_n_n_0_1_1 x i) : (⟨S500000, .f32⟩ : BufTy).Contents (Elt F) → (⟨S524288x1, .i32⟩ : BufTy).Contents (Elt F) → (⟨S524288, .f32⟩ : BufTy).Contents (Elt F)),
    binary main_v215 main_v222 main_v223 (mulf : (⟨S524288, .f32⟩ : BufTy).Contents (Elt F) → (⟨S524288, .f32⟩ : BufTy).Contents (Elt F) → (⟨S524288, .f32⟩ : BufTy).Contents (Elt F)),
    nullary main_cst_40 (constant S_ .f32 0x49000000#32),
    binary main_v9 main_cst_40 main_v224 (Host.divf : (⟨S_, .f32⟩ : BufTy).Contents (Elt F) → (⟨S_, .f32⟩ : BufTy).Contents (Elt F) → (⟨S_, .f32⟩ : BufTy).Contents (Elt F)),
    unary main_v224 main_v225 (broadcastInDim S524288 ![] bcast_S_S524288 : (⟨S_, .f32⟩ : BufTy).Contents (Elt F) → (⟨S524288, .f32⟩ : BufTy).Contents (Elt F)),
    binary main_v223 main_v225 main_v226 (mulf : (⟨S524288, .f32⟩ : BufTy).Contents (Elt F) → (⟨S524288, .f32⟩ : BufTy).Contents (Elt F) → (⟨S524288, .f32⟩ : BufTy).Contents (Elt F)),
    nullary main_c_41 (constantI S_ 32 0#32),
    unary main_c_41 main_v227 (broadcastInDim S524288 ![] bcast_S_S524288 : (⟨S_, .i32⟩ : BufTy).Contents (Elt F) → (⟨S524288, .i32⟩ : BufTy).Contents (Elt F)),
    binary main_v201 main_v227 main_v228 (cmpi .slt : (⟨S524288, .i32⟩ : BufTy).Contents (Elt F) → (⟨S524288, .i32⟩ : BufTy).Contents (Elt F) → (⟨S524288, .i1⟩ : BufTy).Contents (Elt F)),
    nullary main_c_42 (constantI S_ 32 500000#32),
    unary main_c_42 main_v229 (broadcastInDim S524288 ![] bcast_S_S524288 : (⟨S_, .i32⟩ : BufTy).Contents (Elt F) → (⟨S524288, .i32⟩ : BufTy).Contents (Elt F)),
    binary main_v201 main_v229 main_v230 (addi : (⟨S524288, .i32⟩ : BufTy).Contents (Elt F) → (⟨S524288, .i32⟩ : BufTy).Contents (Elt F) → (⟨S524288, .i32⟩ : BufTy).Contents (Elt F)),
    ternary main_v228 main_v230 main_v201 main_v231 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v231 main_v232 (broadcastInDim S524288x1 ![0] bcast_S524288_S524288x1_0 : (⟨S524288, .i32⟩ : BufTy).Contents (Elt F) → (⟨S524288x1, .i32⟩ : BufTy).Contents (Elt F)),
    binary main_arg0 main_v232 main_v233 ((fun x i => Host.gather gather_S500000x128_S524288x1_S524288x128_1_0_n_n_0_1_1128 x i) : (⟨S500000x128, .f32⟩ : BufTy).Contents (Elt F) → (⟨S524288x1, .i32⟩ : BufTy).Contents (Elt F) → (⟨S524288x128, .f32⟩ : BufTy).Contents (Elt F)),
    binary main_v233 main_arg1 main_v234 ((fun l r => Host.dotGeneral dot_S524288x128_S128x128_S524288x128_1_0_0_1_n_n none l r) : (⟨S524288x128, .f32⟩ : BufTy).Contents (Elt F) → (⟨S128x128, .f32⟩ : BufTy).Contents (Elt F) → (⟨S524288x128, .f32⟩ : BufTy).Contents (Elt F)),
    unary main_arg2 main_v235 (broadcastInDim S1x128 ![1] bcast_S128_S1x128_1 : (⟨S128, .f32⟩ : BufTy).Contents (Elt F) → (⟨S1x128, .f32⟩ : BufTy).Contents (Elt F)),
    unary main_v235 main_v236 (broadcastInDim S524288x128 ![0, 1] bcast_S1x128_S524288x128_0_1 : (⟨S1x128, .f32⟩ : BufTy).Contents (Elt F) → (⟨S524288x128, .f32⟩ : BufTy).Contents (Elt F)),
    binary main_v234 main_v236 main_v237 (addf : (⟨S524288x128, .f32⟩ : BufTy).Contents (Elt F) → (⟨S524288x128, .f32⟩ : BufTy).Contents (Elt F) → (⟨S524288x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S524288x128, .f32⟩) main_call4_v0) (broadcastInDim S524288x128 ![] bcast_S_S524288x128),
    TRef.binary (TRef.of (T := ⟨S524288x128, .f32⟩) main_v237) (TRef.of (T := ⟨S524288x128, .f32⟩) main_call4_v0) (TRef.of (T := ⟨S524288x128, .f32⟩) main_v238) maximumf,
    binary main_v238 main_arg3 main_v239 ((fun l r => Host.dotGeneral dot_S524288x128_S128x128_S524288x128_1_0_0_1_n_n none l r) : (⟨S524288x128, .f32⟩ : BufTy).Contents (Elt F) → (⟨S128x128, .f32⟩ : BufTy).Contents (Elt F) → (⟨S524288x128, .f32⟩ : BufTy).Contents (Elt F)),
    unary main_arg4 main_v240 (broadcastInDim S1x128 ![1] bcast_S128_S1x128_1 : (⟨S128, .f32⟩ : BufTy).Contents (Elt F) → (⟨S1x128, .f32⟩ : BufTy).Contents (Elt F)),
    unary main_v240 main_v241 (broadcastInDim S524288x128 ![0, 1] bcast_S1x128_S524288x128_0_1 : (⟨S1x128, .f32⟩ : BufTy).Contents (Elt F) → (⟨S524288x128, .f32⟩ : BufTy).Contents (Elt F)),
    binary main_v239 main_v241 main_v242 (addf : (⟨S524288x128, .f32⟩ : BufTy).Contents (Elt F) → (⟨S524288x128, .f32⟩ : BufTy).Contents (Elt F) → (⟨S524288x128, .f32⟩ : BufTy).Contents (Elt F)),
    unary main_v226 main_v243 (broadcastInDim S524288x1 ![0] bcast_S524288_S524288x1_0 : (⟨S524288, .f32⟩ : BufTy).Contents (Elt F) → (⟨S524288x1, .f32⟩ : BufTy).Contents (Elt F)),
    unary main_v243 main_v244 (broadcastInDim S524288x128 ![0, 1] bcast_S524288x1_S524288x128_0_1 : (⟨S524288x1, .f32⟩ : BufTy).Contents (Elt F) → (⟨S524288x128, .f32⟩ : BufTy).Contents (Elt F)),
    binary main_v242 main_v244 main_v245 (mulf : (⟨S524288x128, .f32⟩ : BufTy).Contents (Elt F) → (⟨S524288x128, .f32⟩ : BufTy).Contents (Elt F) → (⟨S524288x128, .f32⟩ : BufTy).Contents (Elt F)),
    unary main_arg7 main_v246 ((extractStridedSlice S1 ![4] · slices_S5_S1_4) : (⟨S5, .f32⟩ : BufTy).Contents (Elt F) → (⟨S1, .f32⟩ : BufTy).Contents (Elt F)),
    reshape main_v246 main_v247 rfl shapeCasts_S1_S_,
    nullary main_cst_43 (constant S_ .f32 0x00000000#32),
    unary main_cst_43 main_v248 (broadcastInDim S32768x128 ![] bcast_S_S32768x128 : (⟨S_, .f32⟩ : BufTy).Contents (Elt F) → (⟨S32768x128, .f32⟩ : BufTy).Contents (Elt F)),
    unary main_v199 main_v249 (broadcastInDim S524288x1 ![0] bcast_S524288_S524288x1_0 : (⟨S524288, .i32⟩ : BufTy).Contents (Elt F) → (⟨S524288x1, .i32⟩ : BufTy).Contents (Elt F)),
    ternary main_v248 main_v249 main_v245 main_v250 ((fun x i u => Host.scatterAdd scatter_S32768x128_S524288x1_S524288x128_1_0_0_1 x i u) : (⟨S32768x128, .f32⟩ : BufTy).Contents (Elt F) → (⟨S524288x1, .i32⟩ : BufTy).Contents (Elt F) → (⟨S524288x128, .f32⟩ : BufTy).Contents (Elt F) → (⟨S32768x128, .f32⟩ : BufTy).Contents (Elt F)),
    unary main_v247 main_v251 (broadcastInDim S32768x128 ![] bcast_S_S32768x128 : (⟨S_, .f32⟩ : BufTy).Contents (Elt F) → (⟨S32768x128, .f32⟩ : BufTy).Contents (Elt F)),
    binary main_v251 main_v250 main_v252 (mulf : (⟨S32768x128, .f32⟩ : BufTy).Contents (Elt F) → (⟨S32768x128, .f32⟩ : BufTy).Contents (Elt F) → (⟨S32768x128, .f32⟩ : BufTy).Contents (Elt F)),
    binary main_v197 main_v252 main_v253 (addf : (⟨S32768x128, .f32⟩ : BufTy).Contents (Elt F) → (⟨S32768x128, .f32⟩ : BufTy).Contents (Elt F) → (⟨S32768x128, .f32⟩ : BufTy).Contents (Elt F)) ]

/-- Stretch 5 of @main's operations. -/
abbrev ops5 : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S32768x128, .f32⟩) main_call5_v0) (broadcastInDim S32768x128 ![] bcast_S_S32768x128),
    TRef.binary (TRef.of (T := ⟨S32768x128, .f32⟩) main_v253) (TRef.of (T := ⟨S32768x128, .f32⟩) main_call5_v0) (TRef.of (T := ⟨S32768x128, .f32⟩) main_v254) maximumf,
    binary main_v254 main_arg5 main_v255 ((fun l r => Host.dotGeneral dot_S32768x128_S128x8_S32768x8_1_0_0_1_n_n none l r) : (⟨S32768x128, .f32⟩ : BufTy).Contents (Elt F) → (⟨S128x8, .f32⟩ : BufTy).Contents (Elt F) → (⟨S32768x8, .f32⟩ : BufTy).Contents (Elt F)),
    unary main_arg6 main_v256 (broadcastInDim S1x8 ![1] bcast_S8_S1x8_1 : (⟨S8, .f32⟩ : BufTy).Contents (Elt F) → (⟨S1x8, .f32⟩ : BufTy).Contents (Elt F)),
    unary main_v256 main_v257 (broadcastInDim S32768x8 ![0, 1] bcast_S1x8_S32768x8_0_1 : (⟨S1x8, .f32⟩ : BufTy).Contents (Elt F) → (⟨S32768x8, .f32⟩ : BufTy).Contents (Elt F)),
    binary main_v255 main_v257 main_v258 (addf : (⟨S32768x8, .f32⟩ : BufTy).Contents (Elt F) → (⟨S32768x8, .f32⟩ : BufTy).Contents (Elt F) → (⟨S32768x8, .f32⟩ : BufTy).Contents (Elt F)),
    TRef.nullary (TRef.of (T := ⟨S_, .f32⟩) main_call6_cst) (constant S_ .f32 0xFF800000#32),
    TRef.binary (TRef.of (T := ⟨S32768x8, .f32⟩) main_v258) (TRef.of (T := ⟨S_, .f32⟩) main_call6_cst) (TRef.of (T := ⟨S32768, .f32⟩) main_call6_v0) (fun x v => Host.reduce FloatOps.maximumf x v reducesTo_S32768x8_S32768_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S32768, .f32⟩) main_call6_v1) (broadcastInDim S32768 ![] bcast_S_S32768),
    TRef.binary (TRef.of (T := ⟨S32768, .f32⟩) main_call6_v1) (TRef.of (T := ⟨S32768, .f32⟩) main_call6_v0) (TRef.of (T := ⟨S32768, .f32⟩) main_call6_v2) maximumf,
    TRef.unary (TRef.of (T := ⟨S32768, .f32⟩) main_call6_v2) (TRef.of (T := ⟨S32768x1, .f32⟩) main_call6_v3) (broadcastInDim S32768x1 ![0] bcast_S32768_S32768x1_0),
    TRef.unary (TRef.of (T := ⟨S32768x1, .f32⟩) main_call6_v3) (TRef.of (T := ⟨S32768x8, .f32⟩) main_call6_v4) (broadcastInDim S32768x8 ![0, 1] bcast_S32768x1_S32768x8_0_1),
    TRef.binary (TRef.of (T := ⟨S32768x8, .f32⟩) main_v258) (TRef.of (T := ⟨S32768x8, .f32⟩) main_call6_v4) (TRef.of (T := ⟨S32768x8, .f32⟩) main_call6_v5) subf,
    TRef.unary (TRef.of (T := ⟨S32768x8, .f32⟩) main_call6_v5) (TRef.of (T := ⟨S32768x8, .f32⟩) main_call6_v6) Host.exp,
    TRef.nullary (TRef.of (T := ⟨S_, .f32⟩) main_call6_cst_1) (constant S_ .f32 0x00000000#32),
    TRef.binary (TRef.of (T := ⟨S32768x8, .f32⟩) main_call6_v6) (TRef.of (T := ⟨S_, .f32⟩) main_call6_cst_1) (TRef.of (T := ⟨S32768, .f32⟩) main_call6_v7) (fun x v => Host.reduceAdd x v reducesTo_S32768x8_S32768_d1 h_S_),
    TRef.unary (TRef.of (T := ⟨S32768, .f32⟩) main_call6_v7) (TRef.of (T := ⟨S32768x1, .f32⟩) main_call6_v8) (broadcastInDim S32768x1 ![0] bcast_S32768_S32768x1_0),
    TRef.unary (TRef.of (T := ⟨S32768x1, .f32⟩) main_call6_v8) (TRef.of (T := ⟨S32768x1, .f32⟩) main_call6_v9) Host.log,
    TRef.unary (TRef.of (T := ⟨S32768x1, .f32⟩) main_call6_v9) (TRef.of (T := ⟨S32768x8, .f32⟩) main_call6_v10) (broadcastInDim S32768x8 ![0, 1] bcast_S32768x1_S32768x8_0_1),
    TRef.binary (TRef.of (T := ⟨S32768x8, .f32⟩) main_call6_v5) (TRef.of (T := ⟨S32768x8, .f32⟩) main_call6_v10) (TRef.of (T := ⟨S32768x8, .f32⟩) main_v259) subf ]

/-- @main's operations, in order. -/
abbrev ops : List (HloOp τ sig (Elt F)) := ops0 ++ ops1 ++ ops2 ++ ops3 ++ ops4 ++ ops5

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., binary_bufs_sub ..⟩
theorem ops1_sub : (ops1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., unary_bufs_sub .., reshape_bufs_sub .., nullary_bufs_sub .., unary_bufs_sub .., unary_bufs_sub .., ternary_bufs_sub .., unary_bufs_sub .., binary_bufs_sub .., binary_bufs_sub ..⟩
theorem ops2_sub : (ops2 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., unary_bufs_sub .., reshape_bufs_sub .., nullary_bufs_sub .., unary_bufs_sub .., unary_bufs_sub .., ternary_bufs_sub .., unary_bufs_sub .., binary_bufs_sub .., binary_bufs_sub ..⟩
theorem ops3_sub : (ops3 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., unary_bufs_sub .., reshape_bufs_sub .., nullary_bufs_sub .., unary_bufs_sub .., unary_bufs_sub .., ternary_bufs_sub .., unary_bufs_sub .., binary_bufs_sub .., binary_bufs_sub ..⟩
theorem ops4_sub : (ops4 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., unary_bufs_sub .., reshape_bufs_sub .., nullary_bufs_sub .., unary_bufs_sub .., unary_bufs_sub .., ternary_bufs_sub .., unary_bufs_sub .., binary_bufs_sub .., binary_bufs_sub ..⟩
theorem ops5_sub : (ops5 : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append (forall_append (forall_append (forall_append (forall_append ops0_sub ops1_sub) ops2_sub) ops3_sub) ops4_sub) ops5_sub

/-- The fold of a concatenation is the fold of the second stretch over the fold of the first. -/
theorem after_append (a b : List (HloOp τ sig (Elt F))) (V : Valuation τ sig (Elt F)) :
    after (a ++ b) V = after b (after a V) := by
  induction a generalizing V with
  | nil => rfl
  | cons op a ih => exact ih (op.result V)

/-- The contents at the end, stretch by stretch. -/
theorem after_ops (V : Valuation τ sig (Elt F)) :
    after ops V = after ops5 (after ops4 (after ops3 (after ops2 (after ops1 (after ops0 V))))) := by
  simp only [ops, after_append]

/-- No operation allocates a buffer. -/
theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h
theorem ops4_fresh : ∀ op ∈ (ops4 : List (HloOp τ sig (Elt F))), op.fresh = ∅ := by
  intro _ h; (repeat (cases h with | head => rfl | tail _ h => ?_)); exact nomatch h
theorem ops5_fresh : ∀ op ∈ (ops5 : List (HloOp τ sig (Elt F))), op.fresh = ∅ := by
  intro _ h; (repeat (cases h with | head => rfl | tail _ h => ?_)); exact nomatch h
theorem ops_fresh : ∀ op ∈ (ops : List (HloOp τ sig (Elt F))), op.fresh = ∅ := by
  intro op h
  simp only [ops, List.mem_append] at h
  rcases h with ((((h | h) | h) | h) | h) | h
  · exact ops0_fresh op h
  · exact ops1_fresh op h
  · exact ops2_fresh op h
  · exact ops3_fresh op h
  · exact ops4_fresh op h
  · exact ops5_fresh op h

/-- THE RUN: every weakly fair execution terminates, nothing faulting, every buffer at the operations' fold over the
    launch memory. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after (ops (F := F)) (launchContents m d) (Proc.devRef .tc b) :=
  run_seq scopedRefs_eq scopedSems_eq defs main (fun _ => ops (F := F)) main_eq (fun _ => ops_sub) m ρ (fun _ => ops_fresh)

end Cert.ReferenceIdeal.Stretch

end
-- ==== Proof.RefChain.lean ====
/-
  The reference's run, chained stretch by stretch.

  @main is six stretches of operations: the self term, four hops, the classifier head.  What the last buffer holds at the
  end is read one stretch at a time.  Each stretch is read against an arbitrary start valuation that is only assumed to
  hold the arguments it reads and the three values it takes over from earlier stretches (the scaled degrees, their sum
  over the batch, the aggregate so far); it leaves the next aggregate, and it writes none of the arguments nor the
  scaled degrees nor their sum.  Composing the six readings, the result buffer holds the last stage of the reference as a
  function of the twelve arguments, and every argument buffer is as it was.
-/
import proofs.«114530_j6519760355655_2_alg».proof.Proof.RefStretch
import proofs.«114530_j6519760355655_2_alg».proof.Proof.RefRead

noncomputable section

namespace Cert.ReferenceIdeal.Chain

open Cert.ReferenceIdeal Cert.ReferenceIdeal.Gen Cert.ReferenceIdeal.Stretch Cert.ReferenceIdeal.ReadP Idealize.ShloMosaic Idealize.ShloMosaic.TcCoe Idealize.SL.Sem Idealize.ShloMosaic.StableHlo

variable {F : FTy → Type} [FloatOps F]

/-- The twelve argument buffers. -/
abbrev argRefs : List (Ref sig .tc) :=
  [main_arg0, main_arg1, main_arg2, main_arg3, main_arg4, main_arg5, main_arg6, main_arg7, main_arg8, main_arg9,
    main_arg10, main_arg11]

/-- The buffers the hops read and do not write: the arguments, the scaled degrees, their sum over the batch. -/
abbrev carried : List (Ref sig .tc) :=
  [main_arg0, main_arg1, main_arg2, main_arg3, main_arg4, main_arg5, main_arg6, main_arg7, main_arg8, main_arg9,
    main_arg10, main_arg11, main_v1, main_v9]

/-- A buffer of a list, as a one-element set, lies in the set of the list's buffers. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-! ## The self term -/

/-- The self term leaves the scaled degrees … -/
theorem self_dis (U : Valuation τ sig (Elt F)) (x8 : (⟨S500000, .f32⟩ : BufTy).Contents (Elt F))
    (h8 : U (Proc.devRef .tc main_arg8) = x8) :
    after ops0 U (Proc.devRef .tc main_v1) = val_main_v1 (F := F) x8 := by
  subst h8
  after_results_simp
  rfl

/-- … their sum over the batch … -/
theorem self_sum (U : Valuation τ sig (Elt F)) (x8 : (⟨S500000, .f32⟩ : BufTy).Contents (Elt F)) (x9 : (⟨S32768, .i32⟩ : BufTy).Contents (Elt F))
    (h8 : U (Proc.devRef .tc main_arg8) = x8)
    (h9 : U (Proc.devRef .tc main_arg9) = x9) :
    after ops0 U (Proc.devRef .tc main_v9) = val_main_v9 (F := F) x8 x9 := by
  subst h8 h9
  after_results_simp
  rfl

/-- … and the first aggregate: the batch's own rows through the perceptron, scaled. -/
theorem self_agg (U : Valuation τ sig (Elt F)) (x0 : (⟨S500000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x7 : (⟨S5, .f32⟩ : BufTy).Contents (Elt F)) (x9 : (⟨S32768, .i32⟩ : BufTy).Contents (Elt F))
    (h0 : U (Proc.devRef .tc main_arg0) = x0)
    (h1 : U (Proc.devRef .tc main_arg1) = x1)
    (h2 : U (Proc.devRef .tc main_arg2) = x2)
    (h3 : U (Proc.devRef .tc main_arg3) = x3)
    (h4 : U (Proc.devRef .tc main_arg4) = x4)
    (h7 : U (Proc.devRef .tc main_arg7) = x7)
    (h9 : U (Proc.devRef .tc main_arg9) = x9) :
    after ops0 U (Proc.devRef .tc main_v29) = val_main_v29 (F := F) x0 x1 x2 x3 x4 x7 x9 := by
  subst h0 h1 h2 h3 h4 h7 h9
  after_results_simp
  rfl

/-- The buffers the self term writes, in order. -/
abbrev written0 : List (Ref sig .tc) :=
  [main_cst, main_v0, main_v1, main_c, main_v2, main_v3, main_c_0, main_v4, main_v5, main_v6, main_v7,
    main_v8, main_cst_1, main_v9, main_v10, main_v11, main_c_2, main_v12, main_v13, main_c_3, main_v14,
    main_v15, main_v16, main_v17, main_v18, main_v19, main_v20, main_v21, main_v22, main_call0_cst,
    main_call0_v0, main_v23, main_v24, main_v25, main_v26, main_v27, main_v28, main_v29]

theorem written0_sub :
    (ops0 (F := F)).Forall fun op => op.writes ⊆ (written0.map (Proc.devRef (τ := τ) .tc)).toFinset := by
  refine List.forall_iff_forall_mem.mpr fun op hop => ?_
  (repeat (cases hop with | head => exact single_sub (by decide) | tail _ hop => ?_)); exact nomatch hop

theorem argRefs_not_written0 : ∀ b ∈ argRefs, b ∉ written0 := by decide

/-- The self term writes no argument. -/
theorem kept0 (U : Valuation τ sig (Elt F)) : ∀ b ∈ argRefs, after (ops0 (F := F)) U (Proc.devRef .tc b) = U (Proc.devRef .tc b) :=
  fun b hb => after_of_writes_sub ops0 U written0_sub (argRefs_not_written0 b hb)

/-! ## The four hops -/

set_option maxHeartbeats 4000000 in
/-- Hop 1: from contents that hold the arguments, the scaled degrees, their sum and the aggregate so far, the stretch
    leaves the next aggregate. -/
theorem hop1 (U : Valuation τ sig (Elt F)) (x0 : (⟨S500000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x7 : (⟨S5, .f32⟩ : BufTy).Contents (Elt F)) (x8 : (⟨S500000, .f32⟩ : BufTy).Contents (Elt F)) (x9 : (⟨S32768, .i32⟩ : BufTy).Contents (Elt F)) (x10 : (⟨S4x524288, .i32⟩ : BufTy).Contents (Elt F)) (x11 : (⟨S4x524288, .i32⟩ : BufTy).Contents (Elt F))
    (h0 : U (Proc.devRef .tc main_arg0) = x0)
    (h1 : U (Proc.devRef .tc main_arg1) = x1)
    (h2 : U (Proc.devRef .tc main_arg2) = x2)
    (h3 : U (Proc.devRef .tc main_arg3) = x3)
    (h4 : U (Proc.devRef .tc main_arg4) = x4)
    (h7 : U (Proc.devRef .tc main_arg7) = x7)
    (h9 : U (Proc.devRef .tc main_arg9) = x9)
    (h10 : U (Proc.devRef .tc main_arg10) = x10)
    (h11 : U (Proc.devRef .tc main_arg11) = x11)
    (hdis : U (Proc.devRef .tc main_v1) = val_main_v1 (F := F) x8)
    (hsum : U (Proc.devRef .tc main_v9) = val_main_v9 (F := F) x8 x9)
    (hagg : U (Proc.devRef .tc main_v29) = val_main_v29 (F := F) x0 x1 x2 x3 x4 x7 x9) :
    after ops1 U (Proc.devRef .tc main_v85) = val_main_v85 (F := F) x0 x1 x2 x3 x4 x7 x8 x9 x10 x11 := by
  subst h0 h1 h2 h3 h4 h7 h9 h10 h11
  after_results_simp
  rw [hdis, hsum, hagg]
  rfl

/-- The buffers hop 1 writes, in order. -/
abbrev written1 : List (Ref sig .tc) :=
  [main_v30, main_v31, main_v32, main_v33, main_c_4, main_v34, main_v35, main_c_5, main_v36, main_v37,
    main_v38, main_v39, main_v40, main_c_6, main_v41, main_v42, main_c_7, main_v43, main_v44, main_v45,
    main_v46, main_v47, main_c_8, main_v48, main_v49, main_c_9, main_v50, main_v51, main_v52, main_v53,
    main_v54, main_v55, main_cst_10, main_v56, main_v57, main_v58, main_c_11, main_v59, main_v60, main_c_12,
    main_v61, main_v62, main_v63, main_v64, main_v65, main_v66, main_v67, main_v68, main_v69, main_call1_cst,
    main_call1_v0, main_v70, main_v71, main_v72, main_v73, main_v74, main_v75, main_v76, main_v77, main_v78,
    main_v79, main_cst_13, main_v80, main_v81, main_v82, main_v83, main_v84, main_v85]

theorem written1_sub :
    (ops1 (F := F)).Forall fun op => op.writes ⊆ (written1.map (Proc.devRef (τ := τ) .tc)).toFinset := by
  refine List.forall_iff_forall_mem.mpr fun op hop => ?_
  (repeat (cases hop with | head => exact single_sub (by decide) | tail _ hop => ?_)); exact nomatch hop

theorem carried_not_written1 : ∀ b ∈ carried, b ∉ written1 := by decide

/-- Hop 1 writes none of the arguments, nor the scaled degrees, nor their sum. -/
theorem kept1 (U : Valuation τ sig (Elt F)) : ∀ b ∈ carried, after (ops1 (F := F)) U (Proc.devRef .tc b) = U (Proc.devRef .tc b) :=
  fun b hb => after_of_writes_sub ops1 U written1_sub (carried_not_written1 b hb)

set_option maxHeartbeats 4000000 in
/-- Hop 2: from contents that hold the arguments, the scaled degrees, their sum and the aggregate so far, the stretch
    leaves the next aggregate. -/
theorem hop2 (U : Valuation τ sig (Elt F)) (x0 : (⟨S500000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x7 : (⟨S5, .f32⟩ : BufTy).Contents (Elt F)) (x8 : (⟨S500000, .f32⟩ : BufTy).Contents (Elt F)) (x9 : (⟨S32768, .i32⟩ : BufTy).Contents (Elt F)) (x10 : (⟨S4x524288, .i32⟩ : BufTy).Contents (Elt F)) (x11 : (⟨S4x524288, .i32⟩ : BufTy).Contents (Elt F))
    (h0 : U (Proc.devRef .tc main_arg0) = x0)
    (h1 : U (Proc.devRef .tc main_arg1) = x1)
    (h2 : U (Proc.devRef .tc main_arg2) = x2)
    (h3 : U (Proc.devRef .tc main_arg3) = x3)
    (h4 : U (Proc.devRef .tc main_arg4) = x4)
    (h7 : U (Proc.devRef .tc main_arg7) = x7)
    (h9 : U (Proc.devRef .tc main_arg9) = x9)
    (h10 : U (Proc.devRef .tc main_arg10) = x10)
    (h11 : U (Proc.devRef .tc main_arg11) = x11)
    (hdis : U (Proc.devRef .tc main_v1) = val_main_v1 (F := F) x8)
    (hsum : U (Proc.devRef .tc main_v9) = val_main_v9 (F := F) x8 x9)
    (hagg : U (Proc.devRef .tc main_v85) = val_main_v85 (F := F) x0 x1 x2 x3 x4 x7 x8 x9 x10 x11) :
    after ops2 U (Proc.devRef .tc main_v141) = val_main_v141 (F := F) x0 x1 x2 x3 x4 x7 x8 x9 x10 x11 := by
  subst h0 h1 h2 h3 h4 h7 h9 h10 h11
  after_results_simp
  rw [hdis, hsum, hagg]
  rfl

/-- The buffers hop 2 writes, in order. -/
abbrev written2 : List (Ref sig .tc) :=
  [main_v86, main_v87, main_v88, main_v89, main_c_14, main_v90, main_v91, main_c_15, main_v92, main_v93,
    main_v94, main_v95, main_v96, main_c_16, main_v97, main_v98, main_c_17, main_v99, main_v100, main_v101,
    main_v102, main_v103, main_c_18, main_v104, main_v105, main_c_19, main_v106, main_v107, main_v108,
    main_v109, main_v110, main_v111, main_cst_20, main_v112, main_v113, main_v114, main_c_21, main_v115,
    main_v116, main_c_22, main_v117, main_v118, main_v119, main_v120, main_v121, main_v122, main_v123,
    main_v124, main_v125, main_call2_cst, main_call2_v0, main_v126, main_v127, main_v128, main_v129,
    main_v130, main_v131, main_v132, main_v133, main_v134, main_v135, main_cst_23, main_v136, main_v137,
    main_v138, main_v139, main_v140, main_v141]

theorem written2_sub :
    (ops2 (F := F)).Forall fun op => op.writes ⊆ (written2.map (Proc.devRef (τ := τ) .tc)).toFinset := by
  refine List.forall_iff_forall_mem.mpr fun op hop => ?_
  (repeat (cases hop with | head => exact single_sub (by decide) | tail _ hop => ?_)); exact nomatch hop

theorem carried_not_written2 : ∀ b ∈ carried, b ∉ written2 := by decide

/-- Hop 2 writes none of the arguments, nor the scaled degrees, nor their sum. -/
theorem kept2 (U : Valuation τ sig (Elt F)) : ∀ b ∈ carried, after (ops2 (F := F)) U (Proc.devRef .tc b) = U (Proc.devRef .tc b) :=
  fun b hb => after_of_writes_sub ops2 U written2_sub (carried_not_written2 b hb)

set_option maxHeartbeats 4000000 in
/-- Hop 3: from contents that hold the arguments, the scaled degrees, their sum and the aggregate so far, the stretch
    leaves the next aggregate. -/
theorem hop3 (U : Valuation τ sig (Elt F)) (x0 : (⟨S500000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x7 : (⟨S5, .f32⟩ : BufTy).Contents (Elt F)) (x8 : (⟨S500000, .f32⟩ : BufTy).Contents (Elt F)) (x9 : (⟨S32768, .i32⟩ : BufTy).Contents (Elt F)) (x10 : (⟨S4x524288, .i32⟩ : BufTy).Contents (Elt F)) (x11 : (⟨S4x524288, .i32⟩ : BufTy).Contents (Elt F))
    (h0 : U (Proc.devRef .tc main_arg0) = x0)
    (h1 : U (Proc.devRef .tc main_arg1) = x1)
    (h2 : U (Proc.devRef .tc main_arg2) = x2)
    (h3 : U (Proc.devRef .tc main_arg3) = x3)
    (h4 : U (Proc.devRef .tc main_arg4) = x4)
    (h7 : U (Proc.devRef .tc main_arg7) = x7)
    (h9 : U (Proc.devRef .tc main_arg9) = x9)
    (h10 : U (Proc.devRef .tc main_arg10) = x10)
    (h11 : U (Proc.devRef .tc main_arg11) = x11)
    (hdis : U (Proc.devRef .tc main_v1) = val_main_v1 (F := F) x8)
    (hsum : U (Proc.devRef .tc main_v9) = val_main_v9 (F := F) x8 x9)
    (hagg : U (Proc.devRef .tc main_v141) = val_main_v141 (F := F) x0 x1 x2 x3 x4 x7 x8 x9 x10 x11) :
    after ops3 U (Proc.devRef .tc main_v197) = val_main_v197 (F := F) x0 x1 x2 x3 x4 x7 x8 x9 x10 x11 := by
  subst h0 h1 h2 h3 h4 h7 h9 h10 h11
  after_results_simp
  rw [hdis, hsum, hagg]
  rfl

/-- The buffers hop 3 writes, in order. -/
abbrev written3 : List (Ref sig .tc) :=
  [main_v142, main_v143, main_v144, main_v145, main_c_24, main_v146, main_v147, main_c_25, main_v148,
    main_v149, main_v150, main_v151, main_v152, main_c_26, main_v153, main_v154, main_c_27, main_v155,
    main_v156, main_v157, main_v158, main_v159, main_c_28, main_v160, main_v161, main_c_29, main_v162,
    main_v163, main_v164, main_v165, main_v166, main_v167, main_cst_30, main_v168, main_v169, main_v170,
    main_c_31, main_v171, main_v172, main_c_32, main_v173, main_v174, main_v175, main_v176, main_v177,
    main_v178, main_v179, main_v180, main_v181, main_call3_cst, main_call3_v0, main_v182, main_v183,
    main_v184, main_v185, main_v186, main_v187, main_v188, main_v189, main_v190, main_v191, main_cst_33,
    main_v192, main_v193, main_v194, main_v195, main_v196, main_v197]

theorem written3_sub :
    (ops3 (F := F)).Forall fun op => op.writes ⊆ (written3.map (Proc.devRef (τ := τ) .tc)).toFinset := by
  refine List.forall_iff_forall_mem.mpr fun op hop => ?_
  (repeat (cases hop with | head => exact single_sub (by decide) | tail _ hop => ?_)); exact nomatch hop

theorem carried_not_written3 : ∀ b ∈ carried, b ∉ written3 := by decide

/-- Hop 3 writes none of the arguments, nor the scaled degrees, nor their sum. -/
theorem kept3 (U : Valuation τ sig (Elt F)) : ∀ b ∈ carried, after (ops3 (F := F)) U (Proc.devRef .tc b) = U (Proc.devRef .tc b) :=
  fun b hb => after_of_writes_sub ops3 U written3_sub (carried_not_written3 b hb)

set_option maxHeartbeats 4000000 in
/-- Hop 4: from contents that hold the arguments, the scaled degrees, their sum and the aggregate so far, the stretch
    leaves the next aggregate. -/
theorem hop4 (U : Valuation τ sig (Elt F)) (x0 : (⟨S500000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x7 : (⟨S5, .f32⟩ : BufTy).Contents (Elt F)) (x8 : (⟨S500000, .f32⟩ : BufTy).Contents (Elt F)) (x9 : (⟨S32768, .i32⟩ : BufTy).Contents (Elt F)) (x10 : (⟨S4x524288, .i32⟩ : BufTy).Contents (Elt F)) (x11 : (⟨S4x524288, .i32⟩ : BufTy).Contents (Elt F))
    (h0 : U (Proc.devRef .tc main_arg0) = x0)
    (h1 : U (Proc.devRef .tc main_arg1) = x1)
    (h2 : U (Proc.devRef .tc main_arg2) = x2)
    (h3 : U (Proc.devRef .tc main_arg3) = x3)
    (h4 : U (Proc.devRef .tc main_arg4) = x4)
    (h7 : U (Proc.devRef .tc main_arg7) = x7)
    (h9 : U (Proc.devRef .tc main_arg9) = x9)
    (h10 : U (Proc.devRef .tc main_arg10) = x10)
    (h11 : U (Proc.devRef .tc main_arg11) = x11)
    (hdis : U (Proc.devRef .tc main_v1) = val_main_v1 (F := F) x8)
    (hsum : U (Proc.devRef .tc main_v9) = val_main_v9 (F := F) x8 x9)
    (hagg : U (Proc.devRef .tc main_v197) = val_main_v197 (F := F) x0 x1 x2 x3 x4 x7 x8 x9 x10 x11) :
    after ops4 U (Proc.devRef .tc main_v253) = val_main_v253 (F := F) x0 x1 x2 x3 x4 x7 x8 x9 x10 x11 := by
  subst h0 h1 h2 h3 h4 h7 h9 h10 h11
  after_results_simp
  rw [hdis, hsum, hagg]
  rfl

/-- The buffers hop 4 writes, in order. -/
abbrev written4 : List (Ref sig .tc) :=
  [main_v198, main_v199, main_v200, main_v201, main_c_34, main_v202, main_v203, main_c_35, main_v204,
    main_v205, main_v206, main_v207, main_v208, main_c_36, main_v209, main_v210, main_c_37, main_v211,
    main_v212, main_v213, main_v214, main_v215, main_c_38, main_v216, main_v217, main_c_39, main_v218,
    main_v219, main_v220, main_v221, main_v222, main_v223, main_cst_40, main_v224, main_v225, main_v226,
    main_c_41, main_v227, main_v228, main_c_42, main_v229, main_v230, main_v231, main_v232, main_v233,
    main_v234, main_v235, main_v236, main_v237, main_call4_cst, main_call4_v0, main_v238, main_v239,
    main_v240, main_v241, main_v242, main_v243, main_v244, main_v245, main_v246, main_v247, main_cst_43,
    main_v248, main_v249, main_v250, main_v251, main_v252, main_v253]

theorem written4_sub :
    (ops4 (F := F)).Forall fun op => op.writes ⊆ (written4.map (Proc.devRef (τ := τ) .tc)).toFinset := by
  refine List.forall_iff_forall_mem.mpr fun op hop => ?_
  (repeat (cases hop with | head => exact single_sub (by decide) | tail _ hop => ?_)); exact nomatch hop

theorem carried_not_written4 : ∀ b ∈ carried, b ∉ written4 := by decide

/-- Hop 4 writes none of the arguments, nor the scaled degrees, nor their sum. -/
theorem kept4 (U : Valuation τ sig (Elt F)) : ∀ b ∈ carried, after (ops4 (F := F)) U (Proc.devRef .tc b) = U (Proc.devRef .tc b) :=
  fun b hb => after_of_writes_sub ops4 U written4_sub (carried_not_written4 b hb)

/-! ## The classifier head -/

/-- Contents carried to a buffer's own type and back are the contents. -/
theorem ofBuf_toBuf {T : BufTy} (x : TRef sig T) (v : T.Contents (Elt F)) : x.ofBuf (x.toBuf v) = v := by
  obtain ⟨r, h, _, _⟩ := x
  subst h
  rfl

set_option maxRecDepth 8192 in
/-- The head: from contents that hold its weights, its bias and the last aggregate, the stretch leaves the result. -/
theorem head_stretch (U : Valuation τ sig (Elt F)) (x0 : (⟨S500000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x5 : (⟨S128x8, .f32⟩ : BufTy).Contents (Elt F)) (x6 : (⟨S8, .f32⟩ : BufTy).Contents (Elt F)) (x7 : (⟨S5, .f32⟩ : BufTy).Contents (Elt F)) (x8 : (⟨S500000, .f32⟩ : BufTy).Contents (Elt F)) (x9 : (⟨S32768, .i32⟩ : BufTy).Contents (Elt F)) (x10 : (⟨S4x524288, .i32⟩ : BufTy).Contents (Elt F)) (x11 : (⟨S4x524288, .i32⟩ : BufTy).Contents (Elt F))
    (h5 : U (Proc.devRef .tc main_arg5) = x5)
    (h6 : U (Proc.devRef .tc main_arg6) = x6)
    (hagg : U (Proc.devRef .tc main_v253) = val_main_v253 (F := F) x0 x1 x2 x3 x4 x7 x8 x9 x10 x11) :
    after ops5 U (Proc.devRef .tc main_v259) = val_main_v259 (F := F) x0 x1 x2 x3 x4 x5 x6 x7 x8 x9 x10 x11 := by
  subst h5 h6
  after_results_simp
  simp only [ofBuf_toBuf]
  rw [hagg]
  rfl

/-- The buffers the head writes, in order. -/
abbrev written5 : List (Ref sig .tc) :=
  [main_call5_cst, main_call5_v0, main_v254, main_v255, main_v256, main_v257, main_v258, main_call6_cst,
    main_call6_v0, main_call6_cst_0, main_call6_v1, main_call6_v2, main_call6_v3, main_call6_v4,
    main_call6_v5, main_call6_v6, main_call6_cst_1, main_call6_v7, main_call6_v8, main_call6_v9,
    main_call6_v10, main_v259]

theorem written5_sub :
    (ops5 (F := F)).Forall fun op => op.writes ⊆ (written5.map (Proc.devRef (τ := τ) .tc)).toFinset := by
  refine List.forall_iff_forall_mem.mpr fun op hop => ?_
  (repeat (cases hop with | head => exact single_sub (by decide) | tail _ hop => ?_)); exact nomatch hop

theorem argRefs_not_written5 : ∀ b ∈ argRefs, b ∉ written5 := by decide

/-- The head writes no argument. -/
theorem kept5 (U : Valuation τ sig (Elt F)) : ∀ b ∈ argRefs, after (ops5 (F := F)) U (Proc.devRef .tc b) = U (Proc.devRef .tc b) :=
  fun b hb => after_of_writes_sub ops5 U written5_sub (argRefs_not_written5 b hb)

/-! ## The chain -/

/-- The contents after the self term, and after each hop. -/
abbrev at0 (V : Valuation τ sig (Elt F)) : Valuation τ sig (Elt F) := after ops0 V
abbrev at1 (V : Valuation τ sig (Elt F)) : Valuation τ sig (Elt F) := after ops1 (at0 V)
abbrev at2 (V : Valuation τ sig (Elt F)) : Valuation τ sig (Elt F) := after ops2 (at1 V)
abbrev at3 (V : Valuation τ sig (Elt F)) : Valuation τ sig (Elt F) := after ops3 (at2 V)
abbrev at4 (V : Valuation τ sig (Elt F)) : Valuation τ sig (Elt F) := after ops4 (at3 V)

theorem mem_carried {b : Ref sig .tc} (hb : b ∈ argRefs) : b ∈ carried := by
  show b ∈ argRefs ++ [main_v1, main_v9]
  exact List.mem_append_left _ hb

/-- The arguments are as at the start after each stretch. -/
theorem args_at0 (V : Valuation τ sig (Elt F)) (b : Ref sig .tc) (hb : b ∈ argRefs) : at0 V (Proc.devRef .tc b) = V (Proc.devRef .tc b) :=
  kept0 V b hb
theorem args_at1 (V : Valuation τ sig (Elt F)) (b : Ref sig .tc) (hb : b ∈ argRefs) : at1 V (Proc.devRef .tc b) = V (Proc.devRef .tc b) :=
  (kept1 (at0 V) b (mem_carried hb)).trans (args_at0 V b hb)
theorem args_at2 (V : Valuation τ sig (Elt F)) (b : Ref sig .tc) (hb : b ∈ argRefs) : at2 V (Proc.devRef .tc b) = V (Proc.devRef .tc b) :=
  (kept2 (at1 V) b (mem_carried hb)).trans (args_at1 V b hb)
theorem args_at3 (V : Valuation τ sig (Elt F)) (b : Ref sig .tc) (hb : b ∈ argRefs) : at3 V (Proc.devRef .tc b) = V (Proc.devRef .tc b) :=
  (kept3 (at2 V) b (mem_carried hb)).trans (args_at2 V b hb)
theorem args_at4 (V : Valuation τ sig (Elt F)) (b : Ref sig .tc) (hb : b ∈ argRefs) : at4 V (Proc.devRef .tc b) = V (Proc.devRef .tc b) :=
  (kept4 (at3 V) b (mem_carried hb)).trans (args_at3 V b hb)

/-- Every argument buffer is at the end as it was at the start. -/
theorem arg_after (V : Valuation τ sig (Elt F)) (b : Ref sig .tc) (hb : b ∈ argRefs) :
    after (ops (F := F)) V (Proc.devRef .tc b) = V (Proc.devRef .tc b) := by
  rw [after_ops]
  exact (kept5 (at4 V) b hb).trans (args_at4 V b hb)
theorem arg0_after (V : Valuation τ sig (Elt F)) : after (ops (F := F)) V (Proc.devRef .tc main_arg0) = V (Proc.devRef .tc main_arg0) :=
  arg_after V main_arg0 (by decide)
theorem arg1_after (V : Valuation τ sig (Elt F)) : after (ops (F := F)) V (Proc.devRef .tc main_arg1) = V (Proc.devRef .tc main_arg1) :=
  arg_after V main_arg1 (by decide)
theorem arg2_after (V : Valuation τ sig (Elt F)) : after (ops (F := F)) V (Proc.devRef .tc main_arg2) = V (Proc.devRef .tc main_arg2) :=
  arg_after V main_arg2 (by decide)
theorem arg3_after (V : Valuation τ sig (Elt F)) : after (ops (F := F)) V (Proc.devRef .tc main_arg3) = V (Proc.devRef .tc main_arg3) :=
  arg_after V main_arg3 (by decide)
theorem arg4_after (V : Valuation τ sig (Elt F)) : after (ops (F := F)) V (Proc.devRef .tc main_arg4) = V (Proc.devRef .tc main_arg4) :=
  arg_after V main_arg4 (by decide)
theorem arg5_after (V : Valuation τ sig (Elt F)) : after (ops (F := F)) V (Proc.devRef .tc main_arg5) = V (Proc.devRef .tc main_arg5) :=
  arg_after V main_arg5 (by decide)
theorem arg6_after (V : Valuation τ sig (Elt F)) : after (ops (F := F)) V (Proc.devRef .tc main_arg6) = V (Proc.devRef .tc main_arg6) :=
  arg_after V main_arg6 (by decide)
theorem arg7_after (V : Valuation τ sig (Elt F)) : after (ops (F := F)) V (Proc.devRef .tc main_arg7) = V (Proc.devRef .tc main_arg7) :=
  arg_after V main_arg7 (by decide)
theorem arg8_after (V : Valuation τ sig (Elt F)) : after (ops (F := F)) V (Proc.devRef .tc main_arg8) = V (Proc.devRef .tc main_arg8) :=
  arg_after V main_arg8 (by decide)
theorem arg9_after (V : Valuation τ sig (Elt F)) : after (ops (F := F)) V (Proc.devRef .tc main_arg9) = V (Proc.devRef .tc main_arg9) :=
  arg_after V main_arg9 (by decide)
theorem arg10_after (V : Valuation τ sig (Elt F)) : after (ops (F := F)) V (Proc.devRef .tc main_arg10) = V (Proc.devRef .tc main_arg10) :=
  arg_after V main_arg10 (by decide)
theorem arg11_after (V : Valuation τ sig (Elt F)) : after (ops (F := F)) V (Proc.devRef .tc main_arg11) = V (Proc.devRef .tc main_arg11) :=
  arg_after V main_arg11 (by decide)

/-- The result buffer holds, at the end, the reference's last stage of the twelve arguments. -/
theorem result_after (V : Valuation τ sig (Elt F)) (x0 : (⟨S500000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x5 : (⟨S128x8, .f32⟩ : BufTy).Contents (Elt F)) (x6 : (⟨S8, .f32⟩ : BufTy).Contents (Elt F)) (x7 : (⟨S5, .f32⟩ : BufTy).Contents (Elt F)) (x8 : (⟨S500000, .f32⟩ : BufTy).Contents (Elt F)) (x9 : (⟨S32768, .i32⟩ : BufTy).Contents (Elt F)) (x10 : (⟨S4x524288, .i32⟩ : BufTy).Contents (Elt F)) (x11 : (⟨S4x524288, .i32⟩ : BufTy).Contents (Elt F))
    (h0 : V (Proc.devRef .tc main_arg0) = x0)
    (h1 : V (Proc.devRef .tc main_arg1) = x1)
    (h2 : V (Proc.devRef .tc main_arg2) = x2)
    (h3 : V (Proc.devRef .tc main_arg3) = x3)
    (h4 : V (Proc.devRef .tc main_arg4) = x4)
    (h5 : V (Proc.devRef .tc main_arg5) = x5)
    (h6 : V (Proc.devRef .tc main_arg6) = x6)
    (h7 : V (Proc.devRef .tc main_arg7) = x7)
    (h8 : V (Proc.devRef .tc main_arg8) = x8)
    (h9 : V (Proc.devRef .tc main_arg9) = x9)
    (h10 : V (Proc.devRef .tc main_arg10) = x10)
    (h11 : V (Proc.devRef .tc main_arg11) = x11) :
    after (ops (F := F)) V (Proc.devRef .tc main_v259) = val_main_v259 (F := F) x0 x1 x2 x3 x4 x5 x6 x7 x8 x9 x10 x11 := by
  rw [after_ops]
  -- the scaled degrees and their sum, after the self term and carried through the hops
  have d0 : at0 V (Proc.devRef .tc main_v1) = val_main_v1 (F := F) x8 := self_dis V x8 h8
  have s0 : at0 V (Proc.devRef .tc main_v9) = val_main_v9 (F := F) x8 x9 := self_sum V x8 x9 h8 h9
  have d1 := (kept1 (at0 V) main_v1 (by decide)).trans d0
  have s1 := (kept1 (at0 V) main_v9 (by decide)).trans s0
  have d2 := (kept2 (at1 V) main_v1 (by decide)).trans d1
  have s2 := (kept2 (at1 V) main_v9 (by decide)).trans s1
  have d3 := (kept3 (at2 V) main_v1 (by decide)).trans d2
  have s3 := (kept3 (at2 V) main_v9 (by decide)).trans s2
  -- the aggregate, stretch by stretch
  have g0 : at0 V (Proc.devRef .tc main_v29) = val_main_v29 (F := F) x0 x1 x2 x3 x4 x7 x9 :=
    self_agg V x0 x1 x2 x3 x4 x7 x9 h0 h1 h2 h3 h4 h7 h9
  have g1 : at1 V (Proc.devRef .tc main_v85) = val_main_v85 (F := F) x0 x1 x2 x3 x4 x7 x8 x9 x10 x11 :=
    hop1 (at0 V) x0 x1 x2 x3 x4 x7 x8 x9 x10 x11
      ((args_at0 V main_arg0 (by decide)).trans h0) ((args_at0 V main_arg1 (by decide)).trans h1) ((args_at0 V main_arg2 (by decide)).trans h2) ((args_at0 V main_arg3 (by decide)).trans h3) ((args_at0 V main_arg4 (by decide)).trans h4) ((args_at0 V main_arg7 (by decide)).trans h7) ((args_at0 V main_arg9 (by decide)).trans h9) ((args_at0 V main_arg10 (by decide)).trans h10) ((args_at0 V main_arg11 (by decide)).trans h11)
      d0 s0 g0
  have g2 : at2 V (Proc.devRef .tc main_v141) = val_main_v141 (F := F) x0 x1 x2 x3 x4 x7 x8 x9 x10 x11 :=
    hop2 (at1 V) x0 x1 x2 x3 x4 x7 x8 x9 x10 x11
      ((args_at1 V main_arg0 (by decide)).trans h0) ((args_at1 V main_arg1 (by decide)).trans h1) ((args_at1 V main_arg2 (by decide)).trans h2) ((args_at1 V main_arg3 (by decide)).trans h3) ((args_at1 V main_arg4 (by decide)).trans h4) ((args_at1 V main_arg7 (by decide)).trans h7) ((args_at1 V main_arg9 (by decide)).trans h9) ((args_at1 V main_arg10 (by decide)).trans h10) ((args_at1 V main_arg11 (by decide)).trans h11)
      d1 s1 g1
  have g3 : at3 V (Proc.devRef .tc main_v197) = val_main_v197 (F := F) x0 x1 x2 x3 x4 x7 x8 x9 x10 x11 :=
    hop3 (at2 V) x0 x1 x2 x3 x4 x7 x8 x9 x10 x11
      ((args_at2 V main_arg0 (by decide)).trans h0) ((args_at2 V main_arg1 (by decide)).trans h1) ((args_at2 V main_arg2 (by decide)).trans h2) ((args_at2 V main_arg3 (by decide)).trans h3) ((args_at2 V main_arg4 (by decide)).trans h4) ((args_at2 V main_arg7 (by decide)).trans h7) ((args_at2 V main_arg9 (by decide)).trans h9) ((args_at2 V main_arg10 (by decide)).trans h10) ((args_at2 V main_arg11 (by decide)).trans h11)
      d2 s2 g2
  have g4 : at4 V (Proc.devRef .tc main_v253) = val_main_v253 (F := F) x0 x1 x2 x3 x4 x7 x8 x9 x10 x11 :=
    hop4 (at3 V) x0 x1 x2 x3 x4 x7 x8 x9 x10 x11
      ((args_at3 V main_arg0 (by decide)).trans h0) ((args_at3 V main_arg1 (by decide)).trans h1) ((args_at3 V main_arg2 (by decide)).trans h2) ((args_at3 V main_arg3 (by decide)).trans h3) ((args_at3 V main_arg4 (by decide)).trans h4) ((args_at3 V main_arg7 (by decide)).trans h7) ((args_at3 V main_arg9 (by decide)).trans h9) ((args_at3 V main_arg10 (by decide)).trans h10) ((args_at3 V main_arg11 (by decide)).trans h11)
      d3 s3 g3
  exact head_stretch (at4 V) x0 x1 x2 x3 x4 x5 x6 x7 x8 x9 x10 x11 ((args_at4 V main_arg5 (by decide)).trans h5) ((args_at4 V main_arg6 (by decide)).trans h6) g4

end Cert.ReferenceIdeal.Chain

end
-- ==== Proof.Finite.lean ====
/-
  The precondition read back: every entry of the nine float arrays is a real number.

  The predicate asks, of each float array a, that |a| < +∞ at every index: the absolute value max x (-x) of an extended
  real x is below +∞ exactly when x is neither +∞ nor -∞, that is, when x is a real. The predicate is the conjunction
  of nine such statements, each a conjunction over all indices of one array.
-/
import proofs.«114530_j6519760355655_2_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

/-- The shape of a scalar has one index. -/
instance : Subsingleton S_.Idx := ⟨fun a b => funext fun d => d.elim0⟩

/-- The word 0x7F800000 denotes +∞. -/
theorem inf_word : Ideal.ofBits .f32 0x7F800000#32 = ⊤ := by simp [Ideal.ofBits, Ideal.ieee]

/-- An extended real whose absolute value max x (-x) is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- Where the comparison |a| < +∞ answers 1 at index i, the entry a i is a real. -/
theorem real_of_cmp {s : Shape} (hb : S_.BroadcastsInDim s (![] : Fin 0 → Fin s.rank)) (a : FVec Ideal s .f32) (i : s.Idx)
    (h : cmpf .olt (Host.absf a) (broadcastInDim s ![] hb (constant S_ .f32 0x7F800000#32)) i = 1#1) :
    ∃ r : ℝ, a i = (r : EReal) := by
  have h' : Ideal.cmp .olt (max (a i) (-(a i))) (Ideal.ofBits .f32 0x7F800000#32) = 1#1 := h
  rw [inf_word] at h'
  unfold Ideal.cmp at h'
  refine real_of_abs_lt_top (a i) ?_
  by_contra hn
  simp [hn] at h'

/-- Where the conjunction over all indices of |a| < +∞ answers 1, every entry of a is a real. -/
theorem real_of_all {s : Shape} {axes : List (Fin s.rank)} (hb : S_.BroadcastsInDim s (![] : Fin 0 → Fin s.rank))
    (hr : s.ReducesTo axes S_) (hu : 0 < S_.numel) (a : FVec Ideal s .f32)
    (e : Host.reduce IntOp.andi (cmpf .olt (Host.absf a) (broadcastInDim s ![] hb (constant S_ .f32 0x7F800000#32)))
      (constantI S_ 1 1#1) hr hu ValueIdx.ix0 = 1#1)
    (i : s.Idx) : ∃ r : ℝ, a i = (r : EReal) :=
  real_of_cmp hb a i (Host.reduce_andi_all _ _ hr hu _ e i)

/-- The precondition gives: every entry of each of the nine float arrays is a real number. The predicate's value at its
    one index is a nest of nine conjuncts, the last array outermost; each conjunct is the conjunction over all indices
    of one array. -/
theorem real_of_pre [Facts] (a0 : FVec Ideal S500000x128 .f32) (a1 : FVec Ideal S128x128 .f32) (a2 : FVec Ideal S128 .f32)
    (a3 : FVec Ideal S128x128 .f32) (a4 : FVec Ideal S128 .f32) (a5 : FVec Ideal S128x8 .f32) (a6 : FVec Ideal S8 .f32)
    (a7 : FVec Ideal S5 .f32) (a8 : FVec Ideal S500000 .f32) (a9 : IVec S32768 32) (a10 a11 : IVec S4x524288 32)
    (h : Cert.Pre_finite_inputs.fn (F := Ideal) a0 a1 a2 a3 a4 a5 a6 a7 a8 a9 a10 a11 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧ (∀ i, ∃ r : ℝ, a8 i = (r : EReal)) := by
  have e := congrFun h ValueIdx.ix0
  dsimp only [fn, fn_part1, fn_part2] at e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨real_of_all _ _ _ a0 h0, real_of_all _ _ _ a1 h1, real_of_all _ _ _ a2 h2, real_of_all _ _ _ a3 h3,
    real_of_all _ _ _ a4 h4, real_of_all _ _ _ a5 h5, real_of_all _ _ _ a6 h6, real_of_all _ _ _ a7 h7,
    real_of_all _ _ _ a8 h8⟩

end Cert.Finite

end
-- ==== Proof.Final.lean ====
/-
  The five claims.

  The kernel's result array ends at the term of KTerms.lean (the run of KRun.lean, read down the chain of valuations);
  the reference's result ends at its last stage of the arguments (the run of RefStretch.lean, read stretch by stretch);
  under the precondition every float argument is real entrywise, and there the two are one function (Bridge.lean).
  The frames are the generated ones, the reference's its run with the values dropped.
-/
import proofs.«114530_j6519760355655_2_alg».proof.Defs
import proofs.«114530_j6519760355655_2_alg».proof.Proof.Gen.Kernel.Frame
import proofs.«114530_j6519760355655_2_alg».proof.Proof.Gen.KernelIdeal.Frame
import proofs.«114530_j6519760355655_2_alg».proof.Proof.Gen.Pre_finite_inputs
import proofs.«114530_j6519760355655_2_alg».proof.Proof.KRun
import proofs.«114530_j6519760355655_2_alg».proof.Proof.ChainZ
import proofs.«114530_j6519760355655_2_alg».proof.Proof.Bridge
import proofs.«114530_j6519760355655_2_alg».proof.Proof.RefStretch
import proofs.«114530_j6519760355655_2_alg».proof.Proof.RefChain
import proofs.«114530_j6519760355655_2_alg».proof.Proof.Finite

set_option maxRecDepth 16384

noncomputable section

namespace Cert.Proof.Final

open Idealize.ShloMosaic Idealize.ShloMosaic.TcCoe Idealize.SL.Sem
open Cert.KernelIdeal.Chain (A0 A1 A2 A3 A4 A5 A6 A7 A8 A9 A10 A11)

theorem frame_k : Cert.frame_Kernel := fun m ρ _ => Cert.Kernel.Gen.frame m ρ

theorem frame_ki : Cert.frame_KernelIdeal := fun m ρ _ => Cert.KernelIdeal.Gen.frame m ρ

/-- The reference's frame: its run, each argument read through the operations, none of which writes it. -/
theorem frame_ri : Cert.frame_ReferenceIdeal := fun m ρ _ =>
  (θ_run Cert.ReferenceIdeal.defs _ _).mono (fun r h c =>
    ⟨(h c Cert.ReferenceIdeal.main_arg0).trans (Cert.ReferenceIdeal.Chain.arg0_after _),
     (h c Cert.ReferenceIdeal.main_arg1).trans (Cert.ReferenceIdeal.Chain.arg1_after _),
     (h c Cert.ReferenceIdeal.main_arg2).trans (Cert.ReferenceIdeal.Chain.arg2_after _),
     (h c Cert.ReferenceIdeal.main_arg3).trans (Cert.ReferenceIdeal.Chain.arg3_after _),
     (h c Cert.ReferenceIdeal.main_arg4).trans (Cert.ReferenceIdeal.Chain.arg4_after _),
     (h c Cert.ReferenceIdeal.main_arg5).trans (Cert.ReferenceIdeal.Chain.arg5_after _),
     (h c Cert.ReferenceIdeal.main_arg6).trans (Cert.ReferenceIdeal.Chain.arg6_after _),
     (h c Cert.ReferenceIdeal.main_arg7).trans (Cert.ReferenceIdeal.Chain.arg7_after _),
     (h c Cert.ReferenceIdeal.main_arg8).trans (Cert.ReferenceIdeal.Chain.arg8_after _),
     (h c Cert.ReferenceIdeal.main_arg9).trans (Cert.ReferenceIdeal.Chain.arg9_after _),
     (h c Cert.ReferenceIdeal.main_arg10).trans (Cert.ReferenceIdeal.Chain.arg10_after _),
     (h c Cert.ReferenceIdeal.main_arg11).trans (Cert.ReferenceIdeal.Chain.arg11_after _)⟩)
    (Cert.ReferenceIdeal.Stretch.run_fold (F := Ideal) m ρ)

/-- The two idealized programs end with equal results: the kernel's term of the arguments, which under the
    precondition is the reference's last stage of the same arguments. -/
theorem algebraic : Cert.algebraic_KernelIdeal_ReferenceIdeal := by
  intro m ρ m' ρ' hpre hagree
  refine ⟨fun c => Cert.KernelIdeal.Terms.result (A0 m c) (A1 m c) (A2 m c) (A3 m c) (A4 m c) (A5 m c) (A6 m c) (A7 m c) (A8 m c) (A9 m c) (A10 m c) (A11 m c), ?_, ?_⟩
  · exact (θ_run Cert.KernelIdeal.defs _ _).mono
      (fun r h c => ⟨(h c).1.trans (Cert.KernelIdeal.Chain.kernel_value m ρ c), (h c).2⟩)
      (Cert.KernelIdeal.Run.run_named (F := Ideal) m ρ)
  · refine (θ_run Cert.ReferenceIdeal.defs _ _).mono (fun r h c => ⟨?_,
      (h c Cert.ReferenceIdeal.main_arg0).trans (Cert.ReferenceIdeal.Chain.arg0_after _),
      (h c Cert.ReferenceIdeal.main_arg1).trans (Cert.ReferenceIdeal.Chain.arg1_after _),
      (h c Cert.ReferenceIdeal.main_arg2).trans (Cert.ReferenceIdeal.Chain.arg2_after _),
      (h c Cert.ReferenceIdeal.main_arg3).trans (Cert.ReferenceIdeal.Chain.arg3_after _),
      (h c Cert.ReferenceIdeal.main_arg4).trans (Cert.ReferenceIdeal.Chain.arg4_after _),
      (h c Cert.ReferenceIdeal.main_arg5).trans (Cert.ReferenceIdeal.Chain.arg5_after _),
      (h c Cert.ReferenceIdeal.main_arg6).trans (Cert.ReferenceIdeal.Chain.arg6_after _),
      (h c Cert.ReferenceIdeal.main_arg7).trans (Cert.ReferenceIdeal.Chain.arg7_after _),
      (h c Cert.ReferenceIdeal.main_arg8).trans (Cert.ReferenceIdeal.Chain.arg8_after _),
      (h c Cert.ReferenceIdeal.main_arg9).trans (Cert.ReferenceIdeal.Chain.arg9_after _),
      (h c Cert.ReferenceIdeal.main_arg10).trans (Cert.ReferenceIdeal.Chain.arg10_after _),
      (h c Cert.ReferenceIdeal.main_arg11).trans (Cert.ReferenceIdeal.Chain.arg11_after _)⟩)
      (Cert.ReferenceIdeal.Stretch.run_fold (F := Ideal) m' ρ')
    obtain ⟨r0, r1, r2, r3, r4, r5, r6, r7, r8⟩ := Cert.Finite.real_of_pre _ _ _ _ _ _ _ _ _ _ _ _ (hpre c)
    obtain ⟨g0, g1, g2, g3, g4, g5, g6, g7, g8, g9, g10, g11⟩ := hagree c
    refine (h c Cert.ReferenceIdeal.main_v259).trans ?_
    refine (Cert.ReferenceIdeal.Chain.result_after _ (A0 m c) (A1 m c) (A2 m c) (A3 m c) (A4 m c) (A5 m c) (A6 m c) (A7 m c) (A8 m c) (A9 m c) (A10 m c) (A11 m c) g0 g1 g2 g3 g4 g5 g6 g7 g8 g9 g10 g11).trans ?_
    exact (Cert.Bridge.result_eq (A0 m c) (A1 m c) (A2 m c) (A3 m c) (A4 m c) (A5 m c) (A6 m c) (A7 m c) (A8 m c) (A9 m c) (A10 m c) (A11 m c) r0 r1 r2 r3 r4 r7 r8).symm

end Cert.Proof.Final

end
-- ==== Proof.lean ====
/-
  The certificate of the message-passing layer: its Pallas kernels against the jnp reference, over the extended reals.

  Both programs compute, for every batch node, the log-softmax of a classifier applied to the positive part of an
  aggregated feature row: the two-layer perceptron of the node's own features times the first attention weight, plus,
  for each of four hops, the sum over the hop's sampled edges landing on that node of the perceptron of the edge's end
  node times the edge's weight (the product of two inverse square-root degrees and the mean batch degree) and the
  hop's attention weight. The kernel multiplies each edge's weight by the attention weight before summing; the
  reference multiplies the sum. On real numbers that is one value, and under the precondition every number met is
  real (a real power of a real degree is a real): the law is in RealArith.lean, its use in Bridge.lean, the two runs
  in KRun.lean / ChainZ.lean and RefStretch.lean / RefChain.lean, the claims in Final.lean.
-/
import proofs.«114530_j6519760355655_2_alg».proof.Defs
import proofs.«114530_j6519760355655_2_alg».proof.Proof.Gen.Kernel
import proofs.«114530_j6519760355655_2_alg».proof.Proof.Gen.KernelIdeal
import proofs.«114530_j6519760355655_2_alg».proof.Proof.Gen.ReferenceIdeal
import proofs.«114530_j6519760355655_2_alg».proof.Proof.Gen.Pre_finite_inputs
import proofs.«114530_j6519760355655_2_alg».proof.Proof.Final

noncomputable section

namespace Cert.Proof

theorem claim : Cert.Claim :=
  ⟨Cert.Kernel.Gen.facts, Cert.KernelIdeal.Gen.facts, Cert.ReferenceIdeal.Gen.facts, Cert.Pre_finite_inputs.Gen.facts,
    Final.frame_k, Final.frame_ki, Final.frame_ri, trivial, Final.algebraic⟩

end Cert.Proof

end
